-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v261) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x128x2 : Shape := ⟨3, ![32, 128, 2]⟩
abbrev S32x128 : Shape := ⟨2, ![32, 128]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x128x2 : S_.BroadcastsInDim S32x128x2 (![] : Fin 0 → Fin S32x128x2.rank)
  reducesTo_S32x128x2_S_d0_1_2 : S32x128x2.ReducesTo [0, 1, 2] S_

variable [Facts]

def fn_part1 {F : FTy → Type} [FloatOps F] (main_v13 : IVec S_ 1) (main_v16 : IVec S32x128x2 1) : IVec S_ 1 :=
  let main_c_5 : IVec S_ 1 := constantI S_ 1 1#1
  let main_v17 : IVec S_ 1 := (fun x v => Host.reduce IntOp.andi x v reducesTo_S32x128x2_S_d0_1_2 h_S_) main_v16 main_c_5
  let main_v18 : IVec S_ 1 := andi main_v13 main_v17
  main_v18

def fn {F : FTy → Type} [FloatOps F] (main_arg0 : FVec F S32x256x64x64 .f32) (main_arg1 : FVec F S32x256x64x64 .f32) (main_arg2 : FVec F S32x128x2 .f32) (main_arg3 : FVec F S32x128x2 .f32) (main_arg4 : IVec S32x128 32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256x64x64 .f32 := Host.absf main_arg1
  let main_cst_0 : FVec F S_ .f32 := constant S_ .f32 0x7F800000#32
  let main_v5 : FVec F S32x256x64x64 .f32 := broadcastInDim S32x256x64x64 ![] bcast_S_S32x256x64x64 main_cst_0
  let main_v6 : IVec S32x256x64x64 1 := cmpf .olt main_v4 main_v5
  let main_c_1 : IVec S_ 1 := constantI S_ 1 1#1
  let main_v7 : IVec S_ 1 := (fun x v => Host.reduce IntOp.andi x v reducesTo_S32x256x64x64_S_d0_1_2_3 h_S_) main_v6 main_c_1
  let main_v8 : IVec S_ 1 := andi main_v3 main_v7
  let main_v9 : FVec F S32x128x2 .f32 := Host.absf main_arg2
  let main_cst_2 : FVec F S_ .f32 := constant S_ .f32 0x7F800000#32
  let main_v10 : FVec F S32x128x2 .f32 := broadcastInDim S32x128x2 ![] bcast_S_S32x128x2 main_cst_2
  let main_v11 : IVec S32x128x2 1 := cmpf .olt main_v9 main_v10
  let main_c_3 : IVec S_ 1 := constantI S_ 1 1#1
  let main_v12 : IVec S_ 1 := (fun x v => Host.reduce IntOp.andi x v reducesTo_S32x128x2_S_d0_1_2 h_S_) main_v11 main_c_3
  let main_v13 : IVec S_ 1 := andi main_v8 main_v12
  let main_v14 : FVec F S32x128x2 .f32 := Host.absf main_arg3
  let main_cst_4 : FVec F S_ .f32 := constant S_ .f32 0x7F800000#32
  let main_v15 : FVec F S32x128x2 .f32 := broadcastInDim S32x128x2 ![] bcast_S_S32x128x2 main_cst_4
  let main_v16 : IVec S32x128x2 1 := cmpf .olt main_v14 main_v15
  fn_part1 (F := F) main_v13 main_v16
-- ==== Kernel.lean ====
abbrev S32x256x64x64 : Shape := ⟨4, ![32, 256, 64, 64]⟩
abbrev S32x128x2 : Shape := ⟨3, ![32, 128, 2]⟩
abbrev S32x128 : Shape := ⟨2, ![32, 128]⟩
abbrev S32x256x4096 : Shape := ⟨3, ![32, 256, 4096]⟩
abbrev S1x256x4096 : Shape := ⟨3, ![1, 256, 4096]⟩
abbrev S256x4096 : Shape := ⟨2, ![256, 4096]⟩
abbrev S4096 : Shape := ⟨1, ![4096]⟩
abbrev S1x4096 : Shape := ⟨2, ![1, 4096]⟩
abbrev S32x128x1 : Shape := ⟨3, ![32, 128, 1]⟩
abbrev S_ : Shape := ⟨0, ![]⟩
abbrev S32x128x4 : Shape := ⟨3, ![32, 128, 4]⟩
abbrev S32x8x128 : Shape := ⟨3, ![32, 8, 128]⟩
abbrev S1x128x4 : Shape := ⟨3, ![1, 128, 4]⟩
abbrev S1x8x128 : Shape := ⟨3, ![1, 8, 128]⟩
abbrev S128x4 : Shape := ⟨2, ![128, 4]⟩
abbrev S128x4096 : Shape := ⟨2, ![128, 4096]⟩
abbrev S128x1 : Shape := ⟨2, ![128, 1]⟩
abbrev S128x256 : Shape := ⟨2, ![128, 256]⟩
abbrev S128 : Shape := ⟨1, ![128]⟩
abbrev S1 : Shape := ⟨1, ![1]⟩
abbrev S1x1 : Shape := ⟨2, ![1, 1]⟩
abbrev S8x128 : Shape := ⟨2, ![8, 128]⟩
abbrev S32x1x1 : Shape := ⟨3, ![32, 1, 1]⟩
abbrev S32 : Shape := ⟨1, ![32]⟩

abbrev nBuf : Space → Nat
  | .hbm => 224
  | .vmem => 22
  | .smem => 0
  | _ => 0

abbrev hbmTy0_0 (i : Nat) : BufTy := match i % 128 with
  | 0 => ⟨S32x256x64x64, .f32⟩
  | 1 => ⟨S32x256x64x64, .f32⟩
  | 2 => ⟨S32x128x2, .f32⟩
  | 3 => ⟨S32x128x2, .f32⟩
  | 4 => ⟨S32x128, .i32⟩
  | 5 => ⟨S32x256x4096, .f32⟩
  | 6 => ⟨S32x256x4096, .f32⟩
  | 7 => ⟨S32x256x4096, .bf16⟩
  | 8 => ⟨S32x256x4096, .bf16⟩
  | 9 => ⟨S32x128x1, .f32⟩
  | 10 => ⟨S32x128, .f32⟩
  | 11 => ⟨S_, .f32⟩
  | 12 => ⟨S32x128, .f32⟩
  | 13 => ⟨S32x128, .f32⟩
  | 14 => ⟨S_, .f32⟩
  | 15 => ⟨S32x128, .f32⟩
  | 16 => ⟨S32x128, .f32⟩
  | 17 => ⟨S32x128x1, .f32⟩
  | 18 => ⟨S32x128, .f32⟩
  | 19 => ⟨S_, .f32⟩
  | 20 => ⟨S32x128, .f32⟩
  | 21 => ⟨S32x128, .f32⟩
  | 22 => ⟨S_, .f32⟩
  | 23 => ⟨S32x128, .f32⟩
  | 24 => ⟨S32x128, .f32⟩
  | 25 => ⟨S32x128, .f32⟩
  | 26 => ⟨S_, .i32⟩
  | 27 => ⟨S_, .i32⟩
  | 28 => ⟨S_, .f32⟩
  | 29 => ⟨S32x128, .f32⟩
  | 30 => ⟨S32x128, .f32⟩
  | 31 => ⟨S_, .f32⟩
  | 32 => ⟨S32x128, .f32⟩
  | 33 => ⟨S32x128, .f32⟩
  | 34 => ⟨S32x128, .i32⟩
  | 35 => ⟨S32x128, .f32⟩
  | 36 => ⟨S_, .i32⟩
  | 37 => ⟨S_, .i32⟩
  | 38 => ⟨S_, .f32⟩
  | 39 => ⟨S32x128, .f32⟩
  | 40 => ⟨S32x128, .f32⟩
  | 41 => ⟨S_, .f32⟩
  | 42 => ⟨S32x128, .f32⟩
  | 43 => ⟨S32x128, .f32⟩
  | 44 => ⟨S32x128, .i32⟩
  | 45 => ⟨S_, .i32⟩
  | 46 => ⟨S32x128, .i32⟩
  | 47 => ⟨S32x128, .i32⟩
  | 48 => ⟨S_, .i32⟩
  | 49 => ⟨S_, .i32⟩
  | 50 => ⟨S_, .i32⟩
  | 51 => ⟨S32x128, .i32⟩
  | 52 => ⟨S32x128, .i32⟩
  | 53 => ⟨S_, .i32⟩
  | 54 => ⟨S32x128, .i32⟩
  | 55 => ⟨S32x128, .i32⟩
  | 56 => ⟨S_, .i32⟩
  | 57 => ⟨S32x128, .i32⟩
  | 58 => ⟨S32x128, .i32⟩
  | 59 => ⟨S_, .i32⟩
  | 60 => ⟨S_, .i32⟩
  | 61 => ⟨S_, .i32⟩
  | 62 => ⟨S32x128, .i32⟩
  | 63 => ⟨S32x128, .i32⟩
  | 64 => ⟨S_, .i32⟩
  | 65 => ⟨S32x128, .i32⟩
  | 66 => ⟨S32x128, .i32⟩
  | 67 => ⟨S32x128, .f32⟩
  | 68 => ⟨S32x128, .f32⟩
  | 69 => ⟨S32x128, .f32⟩
  | 70 => ⟨S32x128, .f32⟩
  | 71 => ⟨S_, .f32⟩
  | 72 => ⟨S32x128, .f32⟩
  | 73 => ⟨S32x128, .f32⟩
  | 74 => ⟨S_, .f32⟩
  | 75 => ⟨S32x128, .f32⟩
  | 76 => ⟨S32x128, .f32⟩
  | 77 => ⟨S32x128, .f32⟩
  | 78 => ⟨S_, .f32⟩
  | 79 => ⟨S32x128, .f32⟩
  | 80 => ⟨S32x128, .f32⟩
  | 81 => ⟨S32x128, .f32⟩
  | 82 => ⟨S_, .f32⟩
  | 83 => ⟨S32x128, .f32⟩
  | 84 => ⟨S32x128, .f32⟩
  | 85 => ⟨S32x128, .f32⟩
  | 86 => ⟨S32x128, .f32⟩
  | 87 => ⟨S_, .i32⟩
  | 88 => ⟨S32x128, .i32⟩
  | 89 => ⟨S32x128, .i32⟩
  | 90 => ⟨S32x128, .i32⟩
  | 91 => ⟨S_, .i32⟩
  | 92 => ⟨S32x128, .i32⟩
  | 93 => ⟨S32x128, .i32⟩
  | 94 => ⟨S32x128, .i32⟩
  | 95 => ⟨S_, .i32⟩
  | 96 => ⟨S32x128, .i32⟩
  | 97 => ⟨S32x128, .i32⟩
  | 98 => ⟨S32x128, .i32⟩
  | 99 => ⟨S_, .i32⟩
  | 100 => ⟨S32x128, .i32⟩
  | 101 => ⟨S32x128, .i32⟩
  | 102 => ⟨S32x128, .i32⟩
  | 103 => ⟨S32x128x1, .i32⟩
  | 104 => ⟨S32x128x1, .i32⟩
  | 105 => ⟨S32x128x1, .i32⟩
  | 106 => ⟨S32x128x1, .i32⟩
  | 107 => ⟨S32x128x4, .i32⟩
  | 108 => ⟨S32x128x1, .f32⟩
  | 109 => ⟨S32x128x1, .f32⟩
  | 110 => ⟨S32x128x1, .f32⟩
  | 111 => ⟨S32x128x1, .f32⟩
  | 112 => ⟨S32x128x4, .f32⟩
  | 113 => ⟨S32x128x1, .f32⟩
  | 114 => ⟨S32x128, .f32⟩
  | 115 => ⟨S_, .f32⟩
  | 116 => ⟨S32x128, .f32⟩
  | 117 => ⟨S32x128, .f32⟩
  | 118 => ⟨S32x128x1, .f32⟩
  | 119 => ⟨S32x128, .f32⟩
  | 120 => ⟨S_, .f32⟩
  | 121 => ⟨S32x128, .f32⟩
  | 122 => ⟨S32x128, .f32⟩
  | 123 => ⟨S32x128, .f32⟩
  | 124 => ⟨S_, .i32⟩
  | 125 => ⟨S_, .i32⟩
  | 126 => ⟨S_, .f32⟩
  | 127 => ⟨S32x128, .f32⟩
  | _ => ⟨S32x256x64x64, .f32⟩

abbrev hbmTy0_1 (i : Nat) : BufTy := match i % 128 with
  | 0 => ⟨S32x128, .f32⟩
  | 1 => ⟨S_, .f32⟩
  | 2 => ⟨S32x128, .f32⟩
  | 3 => ⟨S32x128, .f32⟩
  | 4 => ⟨S32x128, .i32⟩
  | 5 => ⟨S_, .i32⟩
  | 6 => ⟨S32x128, .i32⟩
  | 7 => ⟨S32x128, .i32⟩
  | 8 => ⟨S_, .i32⟩
  | 9 => ⟨S_, .i32⟩
  | 10 => ⟨S_, .i32⟩
  | 11 => ⟨S32x128, .i32⟩
  | 12 => ⟨S32x128, .i32⟩
  | 13 => ⟨S_, .i32⟩
  | 14 => ⟨S32x128, .i32⟩
  | 15 => ⟨S32x128, .i32⟩
  | 16 => ⟨S32x128, .f32⟩
  | 17 => ⟨S_, .i32⟩
  | 18 => ⟨S_, .i32⟩
  | 19 => ⟨S_, .f32⟩
  | 20 => ⟨S32x128, .f32⟩
  | 21 => ⟨S32x128, .f32⟩
  | 22 => ⟨S_, .f32⟩
  | 23 => ⟨S32x128, .f32⟩
  | 24 => ⟨S32x128, .f32⟩
  | 25 => ⟨S32x128, .i32⟩
  | 26 => ⟨S_, .i32⟩
  | 27 => ⟨S32x128, .i32⟩
  | 28 => ⟨S32x128, .i32⟩
  | 29 => ⟨S_, .i32⟩
  | 30 => ⟨S_, .i32⟩
  | 31 => ⟨S_, .i32⟩
  | 32 => ⟨S32x128, .i32⟩
  | 33 => ⟨S32x128, .i32⟩
  | 34 => ⟨S_, .i32⟩
  | 35 => ⟨S32x128, .i32⟩
  | 36 => ⟨S32x128, .i32⟩
  | 37 => ⟨S32x128, .f32⟩
  | 38 => ⟨S32x128, .f32⟩
  | 39 => ⟨S32x128, .f32⟩
  | 40 => ⟨S32x128, .f32⟩
  | 41 => ⟨S32x128, .f32⟩
  | 42 => ⟨S32x128, .f32⟩
  | 43 => ⟨S32x128, .f32⟩
  | 44 => ⟨S32x128, .f32⟩
  | 45 => ⟨S32x128, .f32⟩
  | 46 => ⟨S32x128, .f32⟩
  | 47 => ⟨S32x128, .f32⟩
  | 48 => ⟨S32x128, .f32⟩
  | 49 => ⟨S32x128, .f32⟩
  | 50 => ⟨S32x128, .f32⟩
  | 51 => ⟨S32x128, .f32⟩
  | 52 => ⟨S32x128, .f32⟩
  | 53 => ⟨S_, .i32⟩
  | 54 => ⟨S32x128, .i32⟩
  | 55 => ⟨S32x128, .i1⟩
  | 56 => ⟨S32x128, .f32⟩
  | 57 => ⟨S_, .i32⟩
  | 58 => ⟨S32x128, .i32⟩
  | 59 => ⟨S32x128, .i32⟩
  | 60 => ⟨S32x128, .i32⟩
  | 61 => ⟨S_, .i32⟩
  | 62 => ⟨S32x128, .i32⟩
  | 63 => ⟨S32x128, .i32⟩
  | 64 => ⟨S32x128, .i32⟩
  | 65 => ⟨S_, .i32⟩
  | 66 => ⟨S32x128, .i32⟩
  | 67 => ⟨S32x128, .i32⟩
  | 68 => ⟨S32x128, .i32⟩
  | 69 => ⟨S_, .i32⟩
  | 70 => ⟨S32x128, .i32⟩
  | 71 => ⟨S32x128, .i32⟩
  | 72 => ⟨S32x128, .i32⟩
  | 73 => ⟨S32x128x1, .i32⟩
  | 74 => ⟨S32x128x1, .i32⟩
  | 75 => ⟨S32x128x1, .i32⟩
  | 76 => ⟨S32x128x1, .i32⟩
  | 77 => ⟨S32x128x4, .i32⟩
  | 78 => ⟨S32x128x1, .f32⟩
  | 79 => ⟨S32x128x1, .f32⟩
  | 80 => ⟨S32x128x1, .f32⟩
  | 81 => ⟨S32x128x1, .f32⟩
  | 82 => ⟨S32x128x4, .f32⟩
  | 83 => ⟨S32x128x1, .f32⟩
  | 84 => ⟨S32x128x4, .f32⟩
  | 85 => ⟨S32x128x4, .f32⟩
  | 86 => ⟨S32x8x128, .f32⟩
  | 87 => ⟨S32x1x1, .f32⟩
  | 88 => ⟨S32, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | _ => ⟨S32x256x64x64, .f32⟩

abbrev hbmTy (i : Nat) : BufTy := match i / 128 with
  | 0 => hbmTy0_0 i
  | 1 => hbmTy0_1 i
  | _ => ⟨S32x256x64x64, .f32⟩

abbrev bufTy : (tb : Table) → Fin (tcTables nBuf tb) → BufTy
  | .hbm, ⟨i, _⟩ => hbmTy i
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x256x4096, .bf16⟩
  | .local _ .vmem, ⟨5, _⟩ => ⟨S1x256x4096, .bf16⟩
  | .local _ .vmem, ⟨6, _⟩ => ⟨S1x256x4096, .bf16⟩
  | .local _ .vmem, ⟨7, _⟩ => ⟨S1x256x4096, .bf16⟩
  | .local _ .vmem, ⟨8, _⟩ => ⟨S1x256x4096, .bf16⟩
  | .local _ .vmem, ⟨9, _⟩ => ⟨S1x256x4096, .bf16⟩
  | .local _ .vmem, ⟨10, _⟩ => ⟨S1x256x4096, .bf16⟩
  | .local _ .vmem, ⟨11, _⟩ => ⟨S1x256x4096, .bf16⟩
  | .local _ .vmem, ⟨12, _⟩ => ⟨S1x128x4, .i32⟩
  | .local _ .vmem, ⟨13, _⟩ => ⟨S1x128x4, .i32⟩
  | .local _ .vmem, ⟨14, _⟩ => ⟨S1x128x4, .f32⟩
  | .local _ .vmem, ⟨15, _⟩ => ⟨S1x128x4, .f32⟩
  | .local _ .vmem, ⟨16, _⟩ => ⟨S1x128x4, .i32⟩
  | .local _ .vmem, ⟨17, _⟩ => ⟨S1x128x4, .i32⟩
  | .local _ .vmem, ⟨18, _⟩ => ⟨S1x128x4, .f32⟩
  | .local _ .vmem, ⟨19, _⟩ => ⟨S1x128x4, .f32⟩
  | .local _ .vmem, ⟨20, _⟩ => ⟨S1x8x128, .f32⟩
  | .local _ .vmem, ⟨21, _⟩ => ⟨S1x8x128, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v19 : Ref sig .tc := ⟨.hbm, 43, rfl⟩
abbrev main_v20 : Ref sig .tc := ⟨.hbm, 44, rfl⟩
abbrev main_c_6 : Ref sig .tc := ⟨.hbm, 45, rfl⟩
abbrev main_v21 : Ref sig .tc := ⟨.hbm, 46, rfl⟩
abbrev main_v22 : Ref sig .tc := ⟨.hbm, 47, rfl⟩
abbrev main_c_7 : Ref sig .tc := ⟨.hbm, 48, rfl⟩
abbrev main_c_8 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v23 : Ref sig .tc := ⟨.hbm, 55, rfl⟩
abbrev main_c_9 : Ref sig .tc := ⟨.hbm, 56, rfl⟩
abbrev main_v24 : Ref sig .tc := ⟨.hbm, 57, rfl⟩
abbrev main_v25 : Ref sig .tc := ⟨.hbm, 58, rfl⟩
abbrev main_c_10 : Ref sig .tc := ⟨.hbm, 59, rfl⟩
abbrev main_c_11 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_12 : Ref sig .tc := ⟨.hbm, 71, rfl⟩
abbrev main_v31 : Ref sig .tc := ⟨.hbm, 72, rfl⟩
abbrev main_v32 : Ref sig .tc := ⟨.hbm, 73, rfl⟩
abbrev main_cst_13 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_14 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_15 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_c_16 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_c_17 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_c_18 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_c_19 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_20 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_21 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_22 : Ref sig .tc := ⟨.hbm, 124, rfl⟩
abbrev main_c_23 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_v74 : Ref sig .tc := ⟨.hbm, 131, rfl⟩
abbrev main_v75 : Ref sig .tc := ⟨.hbm, 132, rfl⟩
abbrev main_c_24 : Ref sig .tc := ⟨.hbm, 133, rfl⟩
abbrev main_v76 : Ref sig .tc := ⟨.hbm, 134, rfl⟩
abbrev main_v77 : Ref sig .tc := ⟨.hbm, 135, rfl⟩
abbrev main_c_25 : Ref sig .tc := ⟨.hbm, 136, rfl⟩
abbrev main_c_26 : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_v78 : Ref sig .tc := ⟨.hbm, 143, rfl⟩
abbrev main_v79 : Ref sig .tc := ⟨.hbm, 144, rfl⟩
abbrev main_c_27 : Ref sig .tc := ⟨.hbm, 145, rfl⟩
abbrev main_c_28 : Ref sig .tc := ⟨.hbm, 146, rfl⟩
abbrev main_call6_v0 : Ref sig .tc := ⟨.hbm, 147, rfl⟩
abbrev main_call6_v1 : Ref sig .tc := ⟨.hbm, 148, rfl⟩
abbrev main_call6_v2 : Ref sig .tc := ⟨.hbm, 149, rfl⟩
abbrev main_call6_v3 : Ref sig .tc := ⟨.hbm, 150, rfl⟩
abbrev main_call6_v4 : Ref sig .tc := ⟨.hbm, 151, rfl⟩
abbrev main_v80 : Ref sig .tc := ⟨.hbm, 152, rfl⟩
abbrev main_v81 : Ref sig .tc := ⟨.hbm, 153, rfl⟩
abbrev main_c_29 : Ref sig .tc := ⟨.hbm, 154, rfl⟩
abbrev main_v82 : Ref sig .tc := ⟨.hbm, 155, rfl⟩
abbrev main_v83 : Ref sig .tc := ⟨.hbm, 156, rfl⟩
abbrev main_c_30 : Ref sig .tc := ⟨.hbm, 157, rfl⟩
abbrev main_c_31 : Ref sig .tc := ⟨.hbm, 158, rfl⟩
abbrev main_call7_v0 : Ref sig .tc := ⟨.hbm, 159, rfl⟩
abbrev main_call7_v1 : Ref sig .tc := ⟨.hbm, 160, rfl⟩
abbrev main_call7_v2 : Ref sig .tc := ⟨.hbm, 161, rfl⟩
abbrev main_call7_v3 : Ref sig .tc := ⟨.hbm, 162, rfl⟩
abbrev main_call7_v4 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_c_32 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_c_33 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_c_34 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_c_35 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_c_36 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_cst_37 : Ref sig .tc := ⟨.hbm, 217, rfl⟩
abbrev main_v132 : Ref sig .tc := ⟨.hbm, 218, rfl⟩
abbrev main_cst_38 : Ref sig .tc := ⟨.hbm, 219, rfl⟩
abbrev main_v133 : Ref sig .tc := ⟨.hbm, 220, rfl⟩
abbrev main_cst_39 : Ref sig .tc := ⟨.hbm, 221, rfl⟩
abbrev main_v134 : Ref sig .tc := ⟨.hbm, 222, rfl⟩
abbrev main_v135 : Ref sig .tc := ⟨.hbm, 223, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x4 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x4 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S32x256x64x64_S32x256x4096 : S32x256x64x64.ShapeCasts S32x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S4096 : S256x4096.Reduces [0] S4096
  shapeCasts_S4096_S1x4096 : S4096.ShapeCasts S1x4096
  broadcasts_S1x4096_S256x4096 : S1x4096.Broadcasts S256x4096
  bitsLt_bf16_f32 : FTy.bits .bf16 < FTy.bits .f32
  shapeCasts_S256x4096_S1x256x4096 : S256x4096.ShapeCasts S1x256x4096
  packedbf16_S1x256x4096_S1x256x4096_0_0_0 : (Rect.unit (s := S1x256x4096) ![0, 0, 0] S1x256x4096.size inb_S1x256x4096_S1x256x4096_0_0_0).PackedRows (EltTy.packing .bf16)
  slices_S32x128x2_S32x128x1_0_0_0 : S32x128x2.Slices ![0, 0, 0] S32x128x1
  shapeCasts_S32x128x1_S32x128 : S32x128x1.ShapeCasts S32x128
  bcast_S_S32x128 : S_.BroadcastsInDim S32x128 (![] : Fin 0 → Fin S32x128.rank)
  slices_S32x128x2_S32x128x1_0_0_1 : S32x128x2.Slices ![0, 0, 1] S32x128x1
  bcast_S32x128_S32x128x1_0_1 : S32x128.BroadcastsInDim S32x128x1 (![0, 1] : Fin 2 → Fin S32x128x1.rank)
  concatenates_S32x128x1_S32x128x1_S32x128x1_S32x128x1_S32x128x4_d2 : Shape.Concatenates [S32x128x1, S32x128x1, S32x128x1, S32x128x1] S32x128x4 2
  bcast_S32x128x1_S32x128x4_0_1_2 : S32x128x1.BroadcastsInDim S32x128x4 (![0, 1, 2] : Fin 3 → Fin S32x128x4.rank)
  inb_S1x128x4_S1x128x4_0_0_0 : ∀ a, (![0, 0, 0] : Fin 3 → Nat) a + S1x128x4.size a ≤ S1x128x4.size a
  h_S1x128x4 : 0 < S1x128x4.numel
  shapeCasts_S1x128x4_S128x4 : S1x128x4.ShapeCasts S128x4
  iota_S128x4096_d1_w32 : S128x4096.Iotas .tc 32 [1]
  slices_S128x4_o0_0_S128x1 : S128x4.Slices ![0, 0] S128x1
  broadcasts_S128x1_S128x4096 : S128x1.Broadcasts S128x4096
  shapeCasts_S128x1_S128x1 : S128x1.ShapeCasts S128x1
  slices_S128x4_o0_1_S128x1 : S128x4.Slices ![0, 1] S128x1
  slices_S128x4_o0_2_S128x1 : S128x4.Slices ![0, 2] S128x1
  slices_S128x4_o0_3_S128x1 : S128x4.Slices ![0, 3] S128x1
  reduces_S128x4096_S128 : S128x4096.Reduces [1] S128
  shapeCasts_S128_S128x1 : S128.ShapeCasts S128x1
  reduces_S128x1_S1 : S128x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S32x8x128_S32x1x1_0_0_0 : S32x8x128.Slices ![0, 0, 0] S32x1x1
  shapeCasts_S32x1x1_S32 : S32x1x1.ShapeCasts S32
  reducesTo_S32x128_S_d0_1 : S32x128.ReducesTo [0, 1] S_
  h_S_ : 0 < S_.numel
  reducesTo_S32_S_d0 : S32.ReducesTo [0] S_
  dot_S128x4096_S256x4096_S128x256_1_1_0_0_n_n_wf : DotDims.WF S128x4096 S256x4096 S128x256 [1] [1] [0] [0] [] []
  dot_S128x256_S256x4096_S128x4096_1_0_0_1_n_n_wf : DotDims.WF S128x256 S256x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S32x256x4096.size a
  hwx0_1 : ∀ i : grid0.Coords, EltTy.bits .f32 = 32 ∨ (Rect.block (s := S32x256x4096) S1x256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S32x256x4096.size a
  hwx0_2 : ∀ i : grid0.Coords, EltTy.bits .bf16 = 32 ∨ (Rect.block (s := S32x256x4096) S1x256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S32x256x4096.size a
  hwx0_3 : ∀ i : grid0.Coords, EltTy.bits .bf16 = 32 ∨ (Rect.block (s := S32x256x4096) S1x256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x4096.size a ≤ S32x256x4096.size a
  hwx1_0 : ∀ i : grid1.Coords, EltTy.bits .bf16 = 32 ∨ (Rect.block (s := S32x256x4096) S1x256x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4096.size a ≤ S32x256x4096.size a
  hwx1_1 : ∀ i : grid1.Coords, EltTy.bits .bf16 = 32 ∨ (Rect.block (s := S32x256x4096) S1x256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x4.size a ≤ S32x128x4.size a
  hwx1_2 : ∀ i : grid1.Coords, EltTy.bits .i32 = 32 ∨ (Rect.block (s := S32x128x4) S1x128x4.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x4.size a ≤ S32x128x4.size a
  hwx1_3 : ∀ i : grid1.Coords, EltTy.bits .f32 = 32 ∨ (Rect.block (s := S32x128x4) S1x128x4.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x4.size a ≤ S32x128x4.size a
  hwx1_4 : ∀ i : grid1.Coords, EltTy.bits .i32 = 32 ∨ (Rect.block (s := S32x128x4) S1x128x4.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x4.size a ≤ S32x128x4.size a
  hwx1_5 : ∀ i : grid1.Coords, EltTy.bits .f32 = 32 ∨ (Rect.block (s := S32x128x4) S1x128x4.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x8x128.size a ≤ S32x8x128.size a
  hwx1_6 : ∀ i : grid1.Coords, EltTy.bits .f32 = 32 ∨ (Rect.block (s := S32x8x128) S1x8x128.size (cc1_transform_6 i) (hinb1_6 i)).WholeWords (EltTy.packing .f32)

variable [Facts₀]

def dot_S128x4096_S256x4096_S128x256_1_1_0_0_n_n : DotDims S128x4096 S256x4096 S128x256 where
  lhsContracting := [1]
  rhsContracting := [1]
  lhsNonContracting := [0]
  rhsNonContracting := [0]
  lhsBatch := []
  rhsBatch := []
  wf := dot_S128x4096_S256x4096_S128x256_1_1_0_0_n_n_wf
def dot_S128x256_S256x4096_S128x4096_1_0_0_1_n_n : DotDims S128x256 S256x4096 S128x4096 where
  lhsContracting := [1]
  rhsContracting := [0]
  lhsNonContracting := [0]
  rhsNonContracting := [1]
  lhsBatch := []
  rhsBatch := []
  wf := dot_S128x256_S256x4096_S128x4096_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x256x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2_0) S1x256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x128x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1x128x4.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v120) S1x128x4.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v128) S1x128x4.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v129) S1x8x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S32x128x2 : Shape := ⟨3, ![32, 128, 2]⟩
abbrev S32x128 : Shape := ⟨2, ![32, 128]⟩
abbrev S_ : Shape := ⟨0, ![]⟩
abbrev S32x64x64 : Shape := ⟨3, ![32, 64, 64]⟩
abbrev S32x1x64x64 : Shape := ⟨4, ![32, 1, 64, 64]⟩
abbrev S32x128x1 : Shape := ⟨3, ![32, 128, 1]⟩
abbrev S32x64x64x256 : Shape := ⟨4, ![32, 64, 64, 256]⟩
abbrev S32 : Shape := ⟨1, ![32]⟩
abbrev S32x1 : Shape := ⟨2, ![32, 1]⟩
abbrev S32x128x3 : Shape := ⟨3, ![32, 128, 3]⟩
abbrev S32x128x256 : Shape := ⟨3, ![32, 128, 256]⟩
abbrev S32x256x4096 : Shape := ⟨3, ![32, 256, 4096]⟩
abbrev S32x128x4096 : Shape := ⟨3, ![32, 128, 4096]⟩
abbrev S32x128x4 : Shape := ⟨3, ![32, 128, 4]⟩
abbrev S32x1x1 : Shape := ⟨3, ![32, 1, 1]⟩
abbrev S128 : Shape := ⟨1, ![128]⟩
abbrev S1x128x1 : Shape := ⟨3, ![1, 128, 1]⟩
abbrev S32x128x4x1 : Shape := ⟨4, ![32, 128, 4, 1]⟩
abbrev S32x128x4x3 : Shape := ⟨4, ![32, 128, 4, 3]⟩

abbrev nBuf : Space → Nat
  | .hbm => 396
  | .vmem => 0
  | .smem => 0
  | _ => 0

abbrev hbmTy0_0 (i : Nat) : BufTy := match i % 128 with
  | 0 => ⟨S32x256x64x64, .f32⟩
  | 1 => ⟨S32x256x64x64, .f32⟩
  | 2 => ⟨S32x128x2, .f32⟩
  | 3 => ⟨S32x128x2, .f32⟩
  | 4 => ⟨S32x128, .i32⟩
  | 5 => ⟨S32x256x64x64, .f32⟩
  | 6 => ⟨S_, .f32⟩
  | 7 => ⟨S32x64x64, .f32⟩
  | 8 => ⟨S32x1x64x64, .f32⟩
  | 9 => ⟨S32x1x64x64, .f32⟩
  | 10 => ⟨S_, .f32⟩
  | 11 => ⟨S32x1x64x64, .f32⟩
  | 12 => ⟨S32x1x64x64, .f32⟩
  | 13 => ⟨S32x256x64x64, .f32⟩
  | 14 => ⟨S32x256x64x64, .f32⟩
  | 15 => ⟨S32x256x64x64, .f32⟩
  | 16 => ⟨S_, .f32⟩
  | 17 => ⟨S32x64x64, .f32⟩
  | 18 => ⟨S32x1x64x64, .f32⟩
  | 19 => ⟨S32x1x64x64, .f32⟩
  | 20 => ⟨S_, .f32⟩
  | 21 => ⟨S32x1x64x64, .f32⟩
  | 22 => ⟨S32x1x64x64, .f32⟩
  | 23 => ⟨S32x256x64x64, .f32⟩
  | 24 => ⟨S32x256x64x64, .f32⟩
  | 25 => ⟨S32x128x1, .f32⟩
  | 26 => ⟨S32x128, .f32⟩
  | 27 => ⟨S_, .f32⟩
  | 28 => ⟨S32x128, .f32⟩
  | 29 => ⟨S32x128, .f32⟩
  | 30 => ⟨S_, .f32⟩
  | 31 => ⟨S32x128, .f32⟩
  | 32 => ⟨S32x128, .f32⟩
  | 33 => ⟨S32x128x1, .f32⟩
  | 34 => ⟨S32x128, .f32⟩
  | 35 => ⟨S_, .f32⟩
  | 36 => ⟨S32x128, .f32⟩
  | 37 => ⟨S32x128, .f32⟩
  | 38 => ⟨S_, .f32⟩
  | 39 => ⟨S32x128, .f32⟩
  | 40 => ⟨S32x128, .f32⟩
  | 41 => ⟨S32x128, .f32⟩
  | 42 => ⟨S_, .i32⟩
  | 43 => ⟨S_, .i32⟩
  | 44 => ⟨S_, .f32⟩
  | 45 => ⟨S32x128, .f32⟩
  | 46 => ⟨S32x128, .f32⟩
  | 47 => ⟨S_, .f32⟩
  | 48 => ⟨S32x128, .f32⟩
  | 49 => ⟨S32x128, .f32⟩
  | 50 => ⟨S32x128, .i32⟩
  | 51 => ⟨S32x128, .f32⟩
  | 52 => ⟨S_, .i32⟩
  | 53 => ⟨S_, .i32⟩
  | 54 => ⟨S_, .f32⟩
  | 55 => ⟨S32x128, .f32⟩
  | 56 => ⟨S32x128, .f32⟩
  | 57 => ⟨S_, .f32⟩
  | 58 => ⟨S32x128, .f32⟩
  | 59 => ⟨S32x128, .f32⟩
  | 60 => ⟨S32x128, .i32⟩
  | 61 => ⟨S_, .i32⟩
  | 62 => ⟨S32x128, .i32⟩
  | 63 => ⟨S32x128, .i32⟩
  | 64 => ⟨S_, .i32⟩
  | 65 => ⟨S_, .i32⟩
  | 66 => ⟨S_, .i32⟩
  | 67 => ⟨S32x128, .i32⟩
  | 68 => ⟨S32x128, .i32⟩
  | 69 => ⟨S_, .i32⟩
  | 70 => ⟨S32x128, .i32⟩
  | 71 => ⟨S32x128, .i32⟩
  | 72 => ⟨S_, .i32⟩
  | 73 => ⟨S32x128, .i32⟩
  | 74 => ⟨S32x128, .i32⟩
  | 75 => ⟨S_, .i32⟩
  | 76 => ⟨S_, .i32⟩
  | 77 => ⟨S_, .i32⟩
  | 78 => ⟨S32x128, .i32⟩
  | 79 => ⟨S32x128, .i32⟩
  | 80 => ⟨S_, .i32⟩
  | 81 => ⟨S32x128, .i32⟩
  | 82 => ⟨S32x128, .i32⟩
  | 83 => ⟨S32x128, .f32⟩
  | 84 => ⟨S32x128, .f32⟩
  | 85 => ⟨S32x128, .f32⟩
  | 86 => ⟨S32x128, .f32⟩
  | 87 => ⟨S32x64x64x256, .f32⟩
  | 88 => ⟨S32, .i32⟩
  | 89 => ⟨S32x1, .i32⟩
  | 90 => ⟨S_, .f32⟩
  | 91 => ⟨S32x128, .f32⟩
  | 92 => ⟨S32x128, .f32⟩
  | 93 => ⟨S_, .f32⟩
  | 94 => ⟨S32x128, .f32⟩
  | 95 => ⟨S32x128, .f32⟩
  | 96 => ⟨S32x128, .f32⟩
  | 97 => ⟨S32x128x1, .f32⟩
  | 98 => ⟨S_, .f32⟩
  | 99 => ⟨S32x128, .f32⟩
  | 100 => ⟨S32x128, .f32⟩
  | 101 => ⟨S32x128, .f32⟩
  | 102 => ⟨S32x128x1, .f32⟩
  | 103 => ⟨S_, .f32⟩
  | 104 => ⟨S32x128, .f32⟩
  | 105 => ⟨S32x128, .f32⟩
  | 106 => ⟨S32x128, .f32⟩
  | 107 => ⟨S32x128x1, .f32⟩
  | 108 => ⟨S32x128, .f32⟩
  | 109 => ⟨S32x128x1, .f32⟩
  | 110 => ⟨S_, .i32⟩
  | 111 => ⟨S32x1, .i32⟩
  | 112 => ⟨S32x1, .i1⟩
  | 113 => ⟨S_, .i32⟩
  | 114 => ⟨S32x1, .i32⟩
  | 115 => ⟨S32x1, .i32⟩
  | 116 => ⟨S32x1, .i32⟩
  | 117 => ⟨S_, .i32⟩
  | 118 => ⟨S32x128, .i32⟩
  | 119 => ⟨S32x128, .i1⟩
  | 120 => ⟨S_, .i32⟩
  | 121 => ⟨S32x128, .i32⟩
  | 122 => ⟨S32x128, .i32⟩
  | 123 => ⟨S32x128, .i32⟩
  | 124 => ⟨S_, .i32⟩
  | 125 => ⟨S32x128, .i32⟩
  | 126 => ⟨S32x128, .i1⟩
  | 127 => ⟨S_, .i32⟩
  | _ => ⟨S32x256x64x64, .f32⟩

abbrev hbmTy0_1 (i : Nat) : BufTy := match i % 128 with
  | 0 => ⟨S32x128, .i32⟩
  | 1 => ⟨S32x128, .i32⟩
  | 2 => ⟨S32x128, .i32⟩
  | 3 => ⟨S32x128, .i32⟩
  | 4 => ⟨S32x128x1, .i32⟩
  | 5 => ⟨S32x128x1, .i32⟩
  | 6 => ⟨S32x128x1, .i32⟩
  | 7 => ⟨S32x128x3, .i32⟩
  | 8 => ⟨S32x128x256, .f32⟩
  | 9 => ⟨S32x128x256, .f32⟩
  | 10 => ⟨S32x128x256, .f32⟩
  | 11 => ⟨S_, .i32⟩
  | 12 => ⟨S32x1, .i32⟩
  | 13 => ⟨S32x1, .i1⟩
  | 14 => ⟨S_, .i32⟩
  | 15 => ⟨S32x1, .i32⟩
  | 16 => ⟨S32x1, .i32⟩
  | 17 => ⟨S32x1, .i32⟩
  | 18 => ⟨S_, .i32⟩
  | 19 => ⟨S32x128, .i32⟩
  | 20 => ⟨S32x128, .i1⟩
  | 21 => ⟨S_, .i32⟩
  | 22 => ⟨S32x128, .i32⟩
  | 23 => ⟨S32x128, .i32⟩
  | 24 => ⟨S32x128, .i32⟩
  | 25 => ⟨S_, .i32⟩
  | 26 => ⟨S32x128, .i32⟩
  | 27 => ⟨S32x128, .i1⟩
  | 28 => ⟨S_, .i32⟩
  | 29 => ⟨S32x128, .i32⟩
  | 30 => ⟨S32x128, .i32⟩
  | 31 => ⟨S32x128, .i32⟩
  | 32 => ⟨S32x128, .i32⟩
  | 33 => ⟨S32x128x1, .i32⟩
  | 34 => ⟨S32x128x1, .i32⟩
  | 35 => ⟨S32x128x1, .i32⟩
  | 36 => ⟨S32x128x3, .i32⟩
  | 37 => ⟨S32x128x256, .f32⟩
  | 38 => ⟨S32x128x256, .f32⟩
  | 39 => ⟨S32x128x256, .f32⟩
  | 40 => ⟨S32x128x256, .f32⟩
  | 41 => ⟨S_, .i32⟩
  | 42 => ⟨S32x1, .i32⟩
  | 43 => ⟨S32x1, .i1⟩
  | 44 => ⟨S_, .i32⟩
  | 45 => ⟨S32x1, .i32⟩
  | 46 => ⟨S32x1, .i32⟩
  | 47 => ⟨S32x1, .i32⟩
  | 48 => ⟨S_, .i32⟩
  | 49 => ⟨S32x128, .i32⟩
  | 50 => ⟨S32x128, .i1⟩
  | 51 => ⟨S_, .i32⟩
  | 52 => ⟨S32x128, .i32⟩
  | 53 => ⟨S32x128, .i32⟩
  | 54 => ⟨S32x128, .i32⟩
  | 55 => ⟨S_, .i32⟩
  | 56 => ⟨S32x128, .i32⟩
  | 57 => ⟨S32x128, .i1⟩
  | 58 => ⟨S_, .i32⟩
  | 59 => ⟨S32x128, .i32⟩
  | 60 => ⟨S32x128, .i32⟩
  | 61 => ⟨S32x128, .i32⟩
  | 62 => ⟨S32x128, .i32⟩
  | 63 => ⟨S32x128x1, .i32⟩
  | 64 => ⟨S32x128x1, .i32⟩
  | 65 => ⟨S32x128x1, .i32⟩
  | 66 => ⟨S32x128x3, .i32⟩
  | 67 => ⟨S32x128x256, .f32⟩
  | 68 => ⟨S32x128x256, .f32⟩
  | 69 => ⟨S32x128x256, .f32⟩
  | 70 => ⟨S32x128x256, .f32⟩
  | 71 => ⟨S_, .i32⟩
  | 72 => ⟨S32x1, .i32⟩
  | 73 => ⟨S32x1, .i1⟩
  | 74 => ⟨S_, .i32⟩
  | 75 => ⟨S32x1, .i32⟩
  | 76 => ⟨S32x1, .i32⟩
  | 77 => ⟨S32x1, .i32⟩
  | 78 => ⟨S_, .i32⟩
  | 79 => ⟨S32x128, .i32⟩
  | 80 => ⟨S32x128, .i1⟩
  | 81 => ⟨S_, .i32⟩
  | 82 => ⟨S32x128, .i32⟩
  | 83 => ⟨S32x128, .i32⟩
  | 84 => ⟨S32x128, .i32⟩
  | 85 => ⟨S_, .i32⟩
  | 86 => ⟨S32x128, .i32⟩
  | 87 => ⟨S32x128, .i1⟩
  | 88 => ⟨S_, .i32⟩
  | 89 => ⟨S32x128, .i32⟩
  | 90 => ⟨S32x128, .i32⟩
  | 91 => ⟨S32x128, .i32⟩
  | 92 => ⟨S32x128, .i32⟩
  | 93 => ⟨S32x128x1, .i32⟩
  | 94 => ⟨S32x128x1, .i32⟩
  | 95 => ⟨S32x128x1, .i32⟩
  | 96 => ⟨S32x128x3, .i32⟩
  | 97 => ⟨S32x128x256, .f32⟩
  | 98 => ⟨S32x128x256, .f32⟩
  | 99 => ⟨S32x128x256, .f32⟩
  | 100 => ⟨S32x128x256, .f32⟩
  | 101 => ⟨S32x256x4096, .f32⟩
  | 102 => ⟨S32x128x4096, .f32⟩
  | 103 => ⟨S_, .f32⟩
  | 104 => ⟨S32x128x4096, .f32⟩
  | 105 => ⟨S32x128x4096, .f32⟩
  | 106 => ⟨S32x128x1, .f32⟩
  | 107 => ⟨S32x128, .f32⟩
  | 108 => ⟨S_, .f32⟩
  | 109 => ⟨S32x128, .f32⟩
  | 110 => ⟨S32x128, .f32⟩
  | 111 => ⟨S32x128x1, .f32⟩
  | 112 => ⟨S32x128, .f32⟩
  | 113 => ⟨S_, .f32⟩
  | 114 => ⟨S32x128, .f32⟩
  | 115 => ⟨S32x128, .f32⟩
  | 116 => ⟨S32x128, .f32⟩
  | 117 => ⟨S_, .i32⟩
  | 118 => ⟨S_, .i32⟩
  | 119 => ⟨S_, .f32⟩
  | 120 => ⟨S32x128, .f32⟩
  | 121 => ⟨S32x128, .f32⟩
  | 122 => ⟨S_, .f32⟩
  | 123 => ⟨S32x128, .f32⟩
  | 124 => ⟨S32x128, .f32⟩
  | 125 => ⟨S32x128, .i32⟩
  | 126 => ⟨S_, .i32⟩
  | 127 => ⟨S32x128, .i32⟩
  | _ => ⟨S32x256x64x64, .f32⟩

abbrev hbmTy0_2 (i : Nat) : BufTy := match i % 128 with
  | 0 => ⟨S32x128, .i32⟩
  | 1 => ⟨S_, .i32⟩
  | 2 => ⟨S_, .i32⟩
  | 3 => ⟨S_, .i32⟩
  | 4 => ⟨S32x128, .i32⟩
  | 5 => ⟨S32x128, .i32⟩
  | 6 => ⟨S_, .i32⟩
  | 7 => ⟨S32x128, .i32⟩
  | 8 => ⟨S32x128, .i32⟩
  | 9 => ⟨S32x128, .f32⟩
  | 10 => ⟨S_, .i32⟩
  | 11 => ⟨S_, .i32⟩
  | 12 => ⟨S_, .f32⟩
  | 13 => ⟨S32x128, .f32⟩
  | 14 => ⟨S32x128, .f32⟩
  | 15 => ⟨S_, .f32⟩
  | 16 => ⟨S32x128, .f32⟩
  | 17 => ⟨S32x128, .f32⟩
  | 18 => ⟨S32x128, .i32⟩
  | 19 => ⟨S_, .i32⟩
  | 20 => ⟨S32x128, .i32⟩
  | 21 => ⟨S32x128, .i32⟩
  | 22 => ⟨S_, .i32⟩
  | 23 => ⟨S_, .i32⟩
  | 24 => ⟨S_, .i32⟩
  | 25 => ⟨S32x128, .i32⟩
  | 26 => ⟨S32x128, .i32⟩
  | 27 => ⟨S_, .i32⟩
  | 28 => ⟨S32x128, .i32⟩
  | 29 => ⟨S32x128, .i32⟩
  | 30 => ⟨S32x128, .f32⟩
  | 31 => ⟨S32x128, .f32⟩
  | 32 => ⟨S32x128, .f32⟩
  | 33 => ⟨S32x128, .f32⟩
  | 34 => ⟨S32x128, .f32⟩
  | 35 => ⟨S32x128, .f32⟩
  | 36 => ⟨S32x128, .f32⟩
  | 37 => ⟨S32x128, .f32⟩
  | 38 => ⟨S32x128, .f32⟩
  | 39 => ⟨S32x128, .f32⟩
  | 40 => ⟨S32x128, .f32⟩
  | 41 => ⟨S32x128, .f32⟩
  | 42 => ⟨S32x128, .f32⟩
  | 43 => ⟨S32x128, .f32⟩
  | 44 => ⟨S32x128, .f32⟩
  | 45 => ⟨S32x128, .f32⟩
  | 46 => ⟨S_, .i32⟩
  | 47 => ⟨S32x128, .i32⟩
  | 48 => ⟨S32x128, .i1⟩
  | 49 => ⟨S32x128, .f32⟩
  | 50 => ⟨S32x128x1, .f32⟩
  | 51 => ⟨S32x128x1, .f32⟩
  | 52 => ⟨S32x128x1, .f32⟩
  | 53 => ⟨S32x128x1, .f32⟩
  | 54 => ⟨S32x128x4, .f32⟩
  | 55 => ⟨S32x128x1, .f32⟩
  | 56 => ⟨S32x128x4, .f32⟩
  | 57 => ⟨S32x128x4, .f32⟩
  | 58 => ⟨S_, .i32⟩
  | 59 => ⟨S32x128, .i32⟩
  | 60 => ⟨S32x128, .i32⟩
  | 61 => ⟨S32x128, .i32⟩
  | 62 => ⟨S_, .i32⟩
  | 63 => ⟨S32x128, .i32⟩
  | 64 => ⟨S32x128, .i32⟩
  | 65 => ⟨S32x128, .i32⟩
  | 66 => ⟨S_, .i32⟩
  | 67 => ⟨S32x128, .i32⟩
  | 68 => ⟨S32x128, .i32⟩
  | 69 => ⟨S32x128, .i32⟩
  | 70 => ⟨S_, .i32⟩
  | 71 => ⟨S32x128, .i32⟩
  | 72 => ⟨S32x128, .i32⟩
  | 73 => ⟨S32x128, .i32⟩
  | 74 => ⟨S32x128x1, .i32⟩
  | 75 => ⟨S32x128x1, .i32⟩
  | 76 => ⟨S32x128x1, .i32⟩
  | 77 => ⟨S32x128x1, .i32⟩
  | 78 => ⟨S32x128x4, .i32⟩
  | 79 => ⟨S32, .i32⟩
  | 80 => ⟨S32x1x1, .i32⟩
  | 81 => ⟨S128, .i32⟩
  | 82 => ⟨S1x128x1, .i32⟩
  | 83 => ⟨S_, .f32⟩
  | 84 => ⟨S32x128x4096, .f32⟩
  | 85 => ⟨S_, .i32⟩
  | 86 => ⟨S32x1x1, .i32⟩
  | 87 => ⟨S32x1x1, .i1⟩
  | 88 => ⟨S_, .i32⟩
  | 89 => ⟨S32x1x1, .i32⟩
  | 90 => ⟨S32x1x1, .i32⟩
  | 91 => ⟨S32x1x1, .i32⟩
  | 92 => ⟨S_, .i32⟩
  | 93 => ⟨S1x128x1, .i32⟩
  | 94 => ⟨S1x128x1, .i1⟩
  | 95 => ⟨S_, .i32⟩
  | 96 => ⟨S1x128x1, .i32⟩
  | 97 => ⟨S1x128x1, .i32⟩
  | 98 => ⟨S1x128x1, .i32⟩
  | 99 => ⟨S_, .i32⟩
  | 100 => ⟨S32x128x4, .i32⟩
  | 101 => ⟨S32x128x4, .i1⟩
  | 102 => ⟨S_, .i32⟩
  | 103 => ⟨S32x128x4, .i32⟩
  | 104 => ⟨S32x128x4, .i32⟩
  | 105 => ⟨S32x128x4, .i32⟩
  | 106 => ⟨S32x128x4, .i32⟩
  | 107 => ⟨S32x128x4, .i32⟩
  | 108 => ⟨S32x128x4x1, .i32⟩
  | 109 => ⟨S32x128x4x1, .i32⟩
  | 110 => ⟨S32x128x4x1, .i32⟩
  | 111 => ⟨S32x128x4x3, .i32⟩
  | 112 => ⟨S32x128x4096, .f32⟩
  | 113 => ⟨S_, .f32⟩
  | 114 => ⟨S32x128, .f32⟩
  | 115 => ⟨S_, .f32⟩
  | 116 => ⟨S32x128, .f32⟩
  | 117 => ⟨S32x128, .f32⟩
  | 118 => ⟨S32x128x1, .f32⟩
  | 119 => ⟨S32x128x4096, .f32⟩
  | 120 => ⟨S32x128x4096, .f32⟩
  | 121 => ⟨S32x128x4096, .f32⟩
  | 122 => ⟨S_, .f32⟩
  | 123 => ⟨S32x128, .f32⟩
  | 124 => ⟨S32x128x1, .f32⟩
  | 125 => ⟨S32x128x1, .f32⟩
  | 126 => ⟨S32x128x4096, .f32⟩
  | 127 => ⟨S32x128x4096, .f32⟩
  | _ => ⟨S32x256x64x64, .f32⟩

abbrev hbmTy0_3 (i : Nat) : BufTy := match i % 128 with
  | 0 => ⟨S32x128x4096, .f32⟩
  | 1 => ⟨S_, .f32⟩
  | 2 => ⟨S32x128, .f32⟩
  | 3 => ⟨S32x128, .f32⟩
  | 4 => ⟨S_, .f32⟩
  | 5 => ⟨S_, .f32⟩
  | 6 => ⟨S_, .f32⟩
  | 7 => ⟨S_, .f32⟩
  | 8 => ⟨S32x128, .f32⟩
  | 9 => ⟨S_, .f32⟩
  | 10 => ⟨S_, .f32⟩
  | 11 => ⟨S_, .f32⟩
  | _ => ⟨S32x256x64x64, .f32⟩

abbrev hbmTy (i : Nat) : BufTy := match i / 128 with
  | 0 => hbmTy0_0 i
  | 1 => hbmTy0_1 i
  | 2 => hbmTy0_2 i
  | 3 => hbmTy0_3 i
  | _ => ⟨S32x256x64x64, .f32⟩

abbrev bufTy : (tb : Table) → Fin (tcTables nBuf tb) → BufTy
  | .hbm, ⟨i, _⟩ => hbmTy i
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_c_7 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_c_9 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v32 : Ref sig .tc := ⟨.hbm, 59, rfl⟩
abbrev main_v33 : Ref sig .tc := ⟨.hbm, 60, rfl⟩
abbrev main_c_10 : Ref sig .tc := ⟨.hbm, 61, rfl⟩
abbrev main_v34 : Ref sig .tc := ⟨.hbm, 62, rfl⟩
abbrev main_v35 : Ref sig .tc := ⟨.hbm, 63, rfl⟩
abbrev main_c_11 : Ref sig .tc := ⟨.hbm, 64, rfl⟩
abbrev main_c_12 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v36 : Ref sig .tc := ⟨.hbm, 71, rfl⟩
abbrev main_c_13 : Ref sig .tc := ⟨.hbm, 72, rfl⟩
abbrev main_v37 : Ref sig .tc := ⟨.hbm, 73, rfl⟩
abbrev main_v38 : Ref sig .tc := ⟨.hbm, 74, rfl⟩
abbrev main_c_14 : Ref sig .tc := ⟨.hbm, 75, rfl⟩
abbrev main_c_15 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_16 : Ref sig .tc := ⟨.hbm, 90, rfl⟩
abbrev main_v47 : Ref sig .tc := ⟨.hbm, 91, rfl⟩
abbrev main_v48 : Ref sig .tc := ⟨.hbm, 92, rfl⟩
abbrev main_cst_17 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_18 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_19 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_c_20 : Ref sig .tc := ⟨.hbm, 110, rfl⟩
abbrev main_v63 : Ref sig .tc := ⟨.hbm, 111, rfl⟩
abbrev main_v64 : Ref sig .tc := ⟨.hbm, 112, rfl⟩
abbrev main_c_21 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_c_22 : Ref sig .tc := ⟨.hbm, 117, rfl⟩
abbrev main_v68 : Ref sig .tc := ⟨.hbm, 118, rfl⟩
abbrev main_v69 : Ref sig .tc := ⟨.hbm, 119, rfl⟩
abbrev main_c_23 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_c_24 : Ref sig .tc := ⟨.hbm, 124, rfl⟩
abbrev main_v73 : Ref sig .tc := ⟨.hbm, 125, rfl⟩
abbrev main_v74 : Ref sig .tc := ⟨.hbm, 126, rfl⟩
abbrev main_c_25 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_c_26 : Ref sig .tc := ⟨.hbm, 139, rfl⟩
abbrev main_v86 : Ref sig .tc := ⟨.hbm, 140, rfl⟩
abbrev main_v87 : Ref sig .tc := ⟨.hbm, 141, rfl⟩
abbrev main_c_27 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_c_28 : Ref sig .tc := ⟨.hbm, 146, rfl⟩
abbrev main_v91 : Ref sig .tc := ⟨.hbm, 147, rfl⟩
abbrev main_v92 : Ref sig .tc := ⟨.hbm, 148, rfl⟩
abbrev main_c_29 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_c_30 : Ref sig .tc := ⟨.hbm, 153, rfl⟩
abbrev main_v96 : Ref sig .tc := ⟨.hbm, 154, rfl⟩
abbrev main_v97 : Ref sig .tc := ⟨.hbm, 155, rfl⟩
abbrev main_c_31 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_c_32 : Ref sig .tc := ⟨.hbm, 169, rfl⟩
abbrev main_v110 : Ref sig .tc := ⟨.hbm, 170, rfl⟩
abbrev main_v111 : Ref sig .tc := ⟨.hbm, 171, rfl⟩
abbrev main_c_33 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_c_34 : Ref sig .tc := ⟨.hbm, 176, rfl⟩
abbrev main_v115 : Ref sig .tc := ⟨.hbm, 177, rfl⟩
abbrev main_v116 : Ref sig .tc := ⟨.hbm, 178, rfl⟩
abbrev main_c_35 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_c_36 : Ref sig .tc := ⟨.hbm, 183, rfl⟩
abbrev main_v120 : Ref sig .tc := ⟨.hbm, 184, rfl⟩
abbrev main_v121 : Ref sig .tc := ⟨.hbm, 185, rfl⟩
abbrev main_c_37 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_c_38 : Ref sig .tc := ⟨.hbm, 199, rfl⟩
abbrev main_v134 : Ref sig .tc := ⟨.hbm, 200, rfl⟩
abbrev main_v135 : Ref sig .tc := ⟨.hbm, 201, rfl⟩
abbrev main_c_39 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_c_40 : Ref sig .tc := ⟨.hbm, 206, rfl⟩
abbrev main_v139 : Ref sig .tc := ⟨.hbm, 207, rfl⟩
abbrev main_v140 : Ref sig .tc := ⟨.hbm, 208, rfl⟩
abbrev main_c_41 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_c_42 : Ref sig .tc := ⟨.hbm, 213, rfl⟩
abbrev main_v144 : Ref sig .tc := ⟨.hbm, 214, rfl⟩
abbrev main_v145 : Ref sig .tc := ⟨.hbm, 215, rfl⟩
abbrev main_c_43 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_cst_44 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_cst_45 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_cst_46 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_c_47 : Ref sig .tc := ⟨.hbm, 245, rfl⟩
abbrev main_c_48 : Ref sig .tc := ⟨.hbm, 246, rfl⟩
abbrev main_call4_v0 : Ref sig .tc := ⟨.hbm, 247, rfl⟩
abbrev main_call4_v1 : Ref sig .tc := ⟨.hbm, 248, rfl⟩
abbrev main_call4_v2 : Ref sig .tc := ⟨.hbm, 249, rfl⟩
abbrev main_call4_v3 : Ref sig .tc := ⟨.hbm, 250, rfl⟩
abbrev main_call4_v4 : Ref sig .tc := ⟨.hbm, 251, rfl⟩
abbrev main_v171 : Ref sig .tc := ⟨.hbm, 252, rfl⟩
abbrev main_v172 : Ref sig .tc := ⟨.hbm, 253, rfl⟩
abbrev main_c_49 : Ref sig .tc := ⟨.hbm, 254, rfl⟩
abbrev main_v173 : Ref sig .tc := ⟨.hbm, 255, rfl⟩
abbrev main_v174 : Ref sig .tc := ⟨.hbm, 256, rfl⟩
abbrev main_c_50 : Ref sig .tc := ⟨.hbm, 257, rfl⟩
abbrev main_c_51 : Ref sig .tc := ⟨.hbm, 258, rfl⟩
abbrev main_call5_v0 : Ref sig .tc := ⟨.hbm, 259, rfl⟩
abbrev main_call5_v1 : Ref sig .tc := ⟨.hbm, 260, rfl⟩
abbrev main_call5_v2 : Ref sig .tc := ⟨.hbm, 261, rfl⟩
abbrev main_call5_v3 : Ref sig .tc := ⟨.hbm, 262, rfl⟩
abbrev main_call5_v4 : Ref sig .tc := ⟨.hbm, 263, rfl⟩
abbrev main_v175 : Ref sig .tc := ⟨.hbm, 264, rfl⟩
abbrev main_v176 : Ref sig .tc := ⟨.hbm, 265, rfl⟩
abbrev main_c_52 : Ref sig .tc := ⟨.hbm, 266, rfl⟩
abbrev main_c_53 : Ref sig .tc := ⟨.hbm, 267, rfl⟩
abbrev main_call6_v0 : Ref sig .tc := ⟨.hbm, 268, rfl⟩
abbrev main_call6_v1 : Ref sig .tc := ⟨.hbm, 269, rfl⟩
abbrev main_call6_v2 : Ref sig .tc := ⟨.hbm, 270, rfl⟩
abbrev main_call6_v3 : Ref sig .tc := ⟨.hbm, 271, rfl⟩
abbrev main_call6_v4 : Ref sig .tc := ⟨.hbm, 272, rfl⟩
abbrev main_v177 : Ref sig .tc := ⟨.hbm, 273, rfl⟩
abbrev main_v178 : Ref sig .tc := ⟨.hbm, 274, rfl⟩
abbrev main_c_54 : Ref sig .tc := ⟨.hbm, 275, rfl⟩
abbrev main_v179 : Ref sig .tc := ⟨.hbm, 276, rfl⟩
abbrev main_v180 : Ref sig .tc := ⟨.hbm, 277, rfl⟩
abbrev main_c_55 : Ref sig .tc := ⟨.hbm, 278, rfl⟩
abbrev main_c_56 : Ref sig .tc := ⟨.hbm, 279, rfl⟩
abbrev main_call7_v0 : Ref sig .tc := ⟨.hbm, 280, rfl⟩
abbrev main_call7_v1 : Ref sig .tc := ⟨.hbm, 281, rfl⟩
abbrev main_call7_v2 : Ref sig .tc := ⟨.hbm, 282, rfl⟩
abbrev main_call7_v3 : Ref sig .tc := ⟨.hbm, 283, rfl⟩
abbrev main_call7_v4 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_v197 : Ref sig .tc := ⟨.hbm, 301, rfl⟩
abbrev main_c_57 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_c_58 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_c_59 : Ref sig .tc := ⟨.hbm, 318, rfl⟩
abbrev main_v212 : Ref sig .tc := ⟨.hbm, 319, rfl⟩
abbrev main_v213 : Ref sig .tc := ⟨.hbm, 320, rfl⟩
abbrev main_v214 : Ref sig .tc := ⟨.hbm, 321, rfl⟩
abbrev main_c_60 : Ref sig .tc := ⟨.hbm, 322, rfl⟩
abbrev main_v215 : Ref sig .tc := ⟨.hbm, 323, rfl⟩
abbrev main_v216 : Ref sig .tc := ⟨.hbm, 324, rfl⟩
abbrev main_v217 : Ref sig .tc := ⟨.hbm, 325, rfl⟩
abbrev main_c_61 : Ref sig .tc := ⟨.hbm, 326, rfl⟩
abbrev main_v218 : Ref sig .tc := ⟨.hbm, 327, rfl⟩
abbrev main_v219 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_v229 : Ref sig .tc := ⟨.hbm, 338, rfl⟩
abbrev main_cst_62 : Ref sig .tc := ⟨.hbm, 339, rfl⟩
abbrev main_v230 : Ref sig .tc := ⟨.hbm, 340, rfl⟩
abbrev main_c_63 : Ref sig .tc := ⟨.hbm, 341, rfl⟩
abbrev main_v231 : Ref sig .tc := ⟨.hbm, 342, rfl⟩
abbrev main_v232 : Ref sig .tc := ⟨.hbm, 343, rfl⟩
abbrev main_c_64 : Ref sig .tc := ⟨.hbm, 344, rfl⟩
abbrev main_v233 : Ref sig .tc := ⟨.hbm, 345, rfl⟩
abbrev main_v234 : Ref sig .tc := ⟨.hbm, 346, rfl⟩
abbrev main_v235 : Ref sig .tc := ⟨.hbm, 347, rfl⟩
abbrev main_c_65 : Ref sig .tc := ⟨.hbm, 348, rfl⟩
abbrev main_v236 : Ref sig .tc := ⟨.hbm, 349, rfl⟩
abbrev main_v237 : Ref sig .tc := ⟨.hbm, 350, rfl⟩
abbrev main_c_66 : Ref sig .tc := ⟨.hbm, 351, rfl⟩
abbrev main_v238 : Ref sig .tc := ⟨.hbm, 352, rfl⟩
abbrev main_v239 : Ref sig .tc := ⟨.hbm, 353, rfl⟩
abbrev main_v240 : Ref sig .tc := ⟨.hbm, 354, rfl⟩
abbrev main_c_67 : Ref sig .tc := ⟨.hbm, 355, rfl⟩
abbrev main_v241 : Ref sig .tc := ⟨.hbm, 356, rfl⟩
abbrev main_v242 : Ref sig .tc := ⟨.hbm, 357, rfl⟩
abbrev main_c_68 : Ref sig .tc := ⟨.hbm, 358, rfl⟩
abbrev main_v243 : Ref sig .tc := ⟨.hbm, 359, rfl⟩
abbrev main_v244 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_v252 : Ref sig .tc := ⟨.hbm, 368, rfl⟩
abbrev main_call8_cst : Ref sig .tc := ⟨.hbm, 369, rfl⟩
abbrev main_call8_v0 : Ref sig .tc := ⟨.hbm, 370, rfl⟩
abbrev main_call8_cst_0 : Ref sig .tc := ⟨.hbm, 371, rfl⟩
abbrev main_call8_v1 : Ref sig .tc := ⟨.hbm, 372, rfl⟩
abbrev main_call8_v2 : Ref sig .tc := ⟨.hbm, 373, rfl⟩
abbrev main_call8_v3 : Ref sig .tc := ⟨.hbm, 374, rfl⟩
abbrev main_call8_v4 : Ref sig .tc := ⟨.hbm, 375, rfl⟩
abbrev main_call8_v5 : Ref sig .tc := ⟨.hbm, 376, rfl⟩
abbrev main_call8_v6 : Ref sig .tc := ⟨.hbm, 377, rfl⟩
abbrev main_call8_cst_1 : Ref sig .tc := ⟨.hbm, 378, rfl⟩
abbrev main_call8_v7 : Ref sig .tc := ⟨.hbm, 379, rfl⟩
abbrev main_call8_v8 : Ref sig .tc := ⟨.hbm, 380, rfl⟩
abbrev main_call8_v9 : Ref sig .tc := ⟨.hbm, 381, rfl⟩
abbrev main_call8_v10 : Ref sig .tc := ⟨.hbm, 382, rfl⟩
abbrev main_v253 : Ref sig .tc := ⟨.hbm, 383, rfl⟩
abbrev main_v254 : Ref sig .tc := ⟨.hbm, 384, rfl⟩
abbrev main_cst_69 : Ref sig .tc := ⟨.hbm, 385, rfl⟩
abbrev main_v255 : Ref sig .tc := ⟨.hbm, 386, rfl⟩
abbrev main_v256 : Ref sig .tc := ⟨.hbm, 387, rfl⟩
abbrev main_cst_70 : Ref sig .tc := ⟨.hbm, 388, rfl⟩
abbrev main_v257 : Ref sig .tc := ⟨.hbm, 389, rfl⟩
abbrev main_cst_71 : Ref sig .tc := ⟨.hbm, 390, rfl⟩
abbrev main_v258 : Ref sig .tc := ⟨.hbm, 391, rfl⟩
abbrev main_v259 : Ref sig .tc := ⟨.hbm, 392, rfl⟩
abbrev main_cst_72 : Ref sig .tc := ⟨.hbm, 393, rfl⟩
abbrev main_v260 : Ref sig .tc := ⟨.hbm, 394, rfl⟩
abbrev main_v261 : Ref sig .tc := ⟨.hbm, 395, rfl⟩

abbrev nD : Nat := 1
abbrev τ : Topo := Topo.v7x

variable {F : FTy → Type} [FloatOps F]

class Facts₀ : Prop where
  reducesTo_S32x256x64x64_S32x64x64_d1 : S32x256x64x64.ReducesTo [1] S32x64x64
  h_S_ : 0 < S_.numel
  bcast_S32x64x64_S32x1x64x64_0_2_3 : S32x64x64.BroadcastsInDim S32x1x64x64 (![0, 2, 3] : Fin 3 → Fin S32x1x64x64.rank)
  bcast_S_S32x1x64x64 : S_.BroadcastsInDim S32x1x64x64 (![] : Fin 0 → Fin S32x1x64x64.rank)
  bcast_S32x1x64x64_S32x256x64x64_0_1_2_3 : S32x1x64x64.BroadcastsInDim S32x256x64x64 (![0, 1, 2, 3] : Fin 4 → Fin S32x256x64x64.rank)
  slices_S32x128x2_S32x128x1_0_0_0 : S32x128x2.Slices ![0, 0, 0] S32x128x1
  shapeCasts_S32x128x1_S32x128 : S32x128x1.ShapeCasts S32x128
  bcast_S_S32x128 : S_.BroadcastsInDim S32x128 (![] : Fin 0 → Fin S32x128.rank)
  slices_S32x128x2_S32x128x1_0_0_1 : S32x128x2.Slices ![0, 0, 1] S32x128x1
  transposes_S32x256x64x64_S32x64x64x256_0_2_3_1 : S32x256x64x64.Transposes [0, 2, 3, 1] S32x64x64x256
  bcast_S32_S32x1_0 : S32.BroadcastsInDim S32x1 (![0] : Fin 1 → Fin S32x1.rank)
  bcast_S32x128_S32x128x1_0_1 : S32x128.BroadcastsInDim S32x128x1 (![0, 1] : Fin 2 → Fin S32x128x1.rank)
  bcast_S_S32x1 : S_.BroadcastsInDim S32x1 (![] : Fin 0 → Fin S32x1.rank)
  bcast_S32x1_S32x128_0_1 : S32x1.BroadcastsInDim S32x128 (![0, 1] : Fin 2 → Fin S32x128.rank)
  concatenates_S32x128x1_S32x128x1_S32x128x1_S32x128x3_d2 : Shape.Concatenates [S32x128x1, S32x128x1, S32x128x1] S32x128x3 2
  bcast_S32x128x1_S32x128x256_0_1_2 : S32x128x1.BroadcastsInDim S32x128x256 (![0, 1, 2] : Fin 3 → Fin S32x128x256.rank)
  shapeCasts_S32x256x64x64_S32x256x4096 : S32x256x64x64.ShapeCasts S32x256x4096
  bcast_S_S32x128x4096 : S_.BroadcastsInDim S32x128x4096 (![] : Fin 0 → Fin S32x128x4096.rank)
  concatenates_S32x128x1_S32x128x1_S32x128x1_S32x128x1_S32x128x4_d2 : Shape.Concatenates [S32x128x1, S32x128x1, S32x128x1, S32x128x1] S32x128x4 2
  bcast_S32x128x1_S32x128x4_0_1_2 : S32x128x1.BroadcastsInDim S32x128x4 (![0, 1, 2] : Fin 3 → Fin S32x128x4.rank)
  bcast_S32_S32x1x1_0 : S32.BroadcastsInDim S32x1x1 (![0] : Fin 1 → Fin S32x1x1.rank)
  bcast_S128_S1x128x1_1 : S128.BroadcastsInDim S1x128x1 (![1] : Fin 1 → Fin S1x128x1.rank)
  bcast_S_S32x1x1 : S_.BroadcastsInDim S32x1x1 (![] : Fin 0 → Fin S32x1x1.rank)
  bcast_S_S1x128x1 : S_.BroadcastsInDim S1x128x1 (![] : Fin 0 → Fin S1x128x1.rank)
  bcast_S_S32x128x4 : S_.BroadcastsInDim S32x128x4 (![] : Fin 0 → Fin S32x128x4.rank)
  bcast_S32x1x1_S32x128x4_0_1_2 : S32x1x1.BroadcastsInDim S32x128x4 (![0, 1, 2] : Fin 3 → Fin S32x128x4.rank)
  bcast_S1x128x1_S32x128x4_0_1_2 : S1x128x1.BroadcastsInDim S32x128x4 (![0, 1, 2] : Fin 3 → Fin S32x128x4.rank)
  bcast_S32x128x4_S32x128x4x1_0_1_2 : S32x128x4.BroadcastsInDim S32x128x4x1 (![0, 1, 2] : Fin 3 → Fin S32x128x4x1.rank)
  concatenates_S32x128x4x1_S32x128x4x1_S32x128x4x1_S32x128x4x3_d3 : Shape.Concatenates [S32x128x4x1, S32x128x4x1, S32x128x4x1] S32x128x4x3 3
  reducesTo_S32x128x4096_S32x128_d2 : S32x128x4096.ReducesTo [2] S32x128
  bcast_S32x128x1_S32x128x4096_0_1_2 : S32x128x1.BroadcastsInDim S32x128x4096 (![0, 1, 2] : Fin 3 → Fin S32x128x4096.rank)
  reducesTo_S32x128_S_d0_1 : S32x128.ReducesTo [0, 1] S_
  gather_S32x64x64x256_S32x128x3_S32x128x256_2_012_n_n_012_2_111256_wf : GatherDims.WF S32x64x64x256 S32x128x3 S32x128x256 [2] [0, 1, 2] [] [0, 1, 2] [] 2 ![1, 1, 1, 256]
  dot_S32x128x256_S32x256x4096_S32x128x4096_2_1_1_2_0_0_wf : DotDims.WF S32x128x256 S32x256x4096 S32x128x4096 [2] [1] [1] [2] [0] [0]
  scatter_S32x128x4096_S32x128x4x3_S32x128x4_n_012_012_3_wf : ScatterDims.WF S32x128x4096 S32x128x4x3 S32x128x4 [] [0, 1, 2] [0, 1, 2] 3

variable [Facts₀]

def gather_S32x64x64x256_S32x128x3_S32x128x256_2_012_n_n_012_2_111256 : GatherDims S32x64x64x256 S32x128x3 S32x128x256 where
  offsetDims := [2]
  collapsedSliceDims := [0, 1, 2]
  operandBatchingDims := []
  startIndicesBatchingDims := []
  startIndexMap := [0, 1, 2]
  indexVectorDim := 2
  sliceSizes := ![1, 1, 1, 256]
  wf := gather_S32x64x64x256_S32x128x3_S32x128x256_2_012_n_n_012_2_111256_wf
def dot_S32x128x256_S32x256x4096_S32x128x4096_2_1_1_2_0_0 : DotDims S32x128x256 S32x256x4096 S32x128x4096 where
  lhsContracting := [2]
  rhsContracting := [1]
  lhsNonContracting := [1]
  rhsNonContracting := [2]
  lhsBatch := [0]
  rhsBatch := [0]
  wf := dot_S32x128x256_S32x256x4096_S32x128x4096_2_1_1_2_0_0_wf
def scatter_S32x128x4096_S32x128x4x3_S32x128x4_n_012_012_3 : ScatterDims S32x128x4096 S32x128x4x3 S32x128x4 where
  updateWindowDims := []
  insertedWindowDims := [0, 1, 2]
  scatterDimsToOperandDims := [0, 1, 2]
  indexVectorDim := 3
  wf := scatter_S32x128x4096_S32x128x4x3_S32x128x4_n_012_012_3_wf

class Facts : Prop extends Facts₀ where

variable [Facts]
-- ==== Proof.RunKernelA.lean ====
/-
  The run of the program with two kernel regions, at any float instance: each region's body read as a pure
  function of its input blocks (the block an output window holds after the body is the body's store over the
  loaded blocks), the per-region proof data of the pipeline library, and the chain of the program's twenty-one
  segments (host stretches and the two regions) from the launch memory to the last buffer contents. The run's
  post names every unscoped buffer's final contents `W21`; the arguments are read back through the chain
  to their launch contents.
-/
import proofs.«153362_j6846177869930_2_alg».proof.Proof.Gen.Kernel.Launch
import proofs.«153362_j6846177869930_2_alg».proof.Proof.Gen.Kernel.Skeleton
import proofs.«153362_j6846177869930_2_alg».proof.Proof.Gen.Kernel.Points
import proofs.«153362_j6846177869930_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # Region 0: the blocks, the body as a function of the blocks, the proof data -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S1x256x4096 := Rect.unit (s := S1x256x4096) ![0, 0, 0] S1x256x4096.size inb_S1x256x4096_S1x256x4096_0_0_0

/-- What the body leaves in output window 2's staging buffer: its one store over the whole block, the stored value the body's arithmetic on the loaded blocks. -/
def out0_2 (x0 : Vec F S1x256x4096 .f32) (x1 : Vec F S1x256x4096 .f32) : Vec F S1x256x4096 .bf16 :=
  View.canon [⟨r0_a, k0_pay1 (View.ld x0 r0_a)⟩]

/-- The store covers the block. -/
theorem cover0_2 (p0 : Vec F S1x256x4096 .bf16) (y : S1x256x4096.Idx) :
    ∃ pc ∈ ([⟨r0_a, p0⟩] : List (View.Piece (Elt F) S1x256x4096 .bf16)), y ∈ pc.1.set :=
  View.cover_of_tiled [⟨r0_a, p0⟩] S1x256x4096.size (by rfl) y

/-- What the body leaves in output window 3's staging buffer: its one store over the whole block, the stored value the body's arithmetic on the loaded blocks. -/
def out0_3 (x0 : Vec F S1x256x4096 .f32) (x1 : Vec F S1x256x4096 .f32) : Vec F S1x256x4096 .bf16 :=
  View.canon [⟨r0_a, k0_pay2 (View.ld x1 r0_a)⟩]

/-- The store covers the block. -/
theorem cover0_3 (p0 : Vec F S1x256x4096 .bf16) (y : S1x256x4096.Idx) :
    ∃ pc ∈ ([⟨r0_a, p0⟩] : List (View.Piece (Elt F) S1x256x4096 .bf16)), y ∈ pc.1.set :=
  View.cover_of_tiled [⟨r0_a, p0⟩] S1x256x4096.size (by rfl) y

set_option maxHeartbeats 4000000 in
/-- The body on whole staging buffers, the inputs' at given contents and the outputs' at anything, runs to the inputs' unchanged and each output's at its store over the inputs. -/
theorem sound_kernel0 (c : Dev nD) (E : Set ℕ) (i : grid0.Coords) (arg1 : Memref sig .tc .vmem S1x256x4096 .f32) (harg1 : arg1.IsWhole) (arg2 : Memref sig .tc .vmem S1x256x4096 .f32) (harg2 : arg2.IsWhole) (arg3 : Memref sig .tc .vmem S1x256x4096 .bf16) (harg3 : arg3.IsWhole) (arg4 : Memref sig .tc .vmem S1x256x4096 .bf16) (harg4 : arg4.IsWhole)
    (x0 : Vec F S1x256x4096 .f32) (x1 : Vec F S1x256x4096 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-- The proof data of pipeline 0: the arrays as the region finds them; after the body each input's buffer at its block and each output's at the body's store over the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! # Region 1: the blocks, the body as a function of the blocks, the proof data -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_a : Rect S1x256x4096 := Rect.unit (s := S1x256x4096) ![0, 0, 0] S1x256x4096.size inb_S1x256x4096_S1x256x4096_0_0_0
abbrev r1_b : Rect S1x128x4 := Rect.unit (s := S1x128x4) ![0, 0, 0] S1x128x4.size inb_S1x128x4_S1x128x4_0_0_0
abbrev r1_c : Rect S1x8x128 := Rect.unit (s := S1x8x128) ![0, 0, 0] S1x8x128.size inb_S1x8x128_S1x8x128_0_0_0

/-- What the body leaves in output window 6's staging buffer: its one store over the whole block, the stored value the body's arithmetic on the loaded blocks. -/
def out1_6 (x0 : Vec F S1x256x4096 .bf16) (x1 : Vec F S1x256x4096 .bf16) (x2 : Vec F S1x128x4 .i32) (x3 : Vec F S1x128x4 .f32) (x4 : Vec F S1x128x4 .i32) (x5 : Vec F S1x128x4 .f32) : Vec F S1x8x128 .f32 :=
  View.canon [⟨r1_c, k1_pay1 (k1_pay3 (View.ld x1 r1_a)) (k1_pay11 (k1_pay6 (View.ld x4 r1_b)) (k1_pay7 (View.ld x5 r1_b)) (iota .tc S128x4096 32 [1] iota_S128x4096_d1_w32)) (k1_pay12 (k1_pay2 (View.ld x0 r1_a)) (k1_pay4 (View.ld x2 r1_b)) (k1_pay5 (View.ld x3 r1_b)) (iota .tc S128x4096 32 [1] iota_S128x4096_d1_w32) (k1_pay8 (View.ld x2 r1_b) (View.ld x3 r1_b)) (k1_pay9 (View.ld x2 r1_b)) (Scalar.ofBits .f32 0x00000000#32) (k1_pay10 (View.ld x3 r1_b)))⟩]

/-- The store covers the block. -/
theorem cover1_6 (p0 : Vec F S1x8x128 .f32) (y : S1x8x128.Idx) :
    ∃ pc ∈ ([⟨r1_c, p0⟩] : List (View.Piece (Elt F) S1x8x128 .f32)), y ∈ pc.1.set :=
  View.cover_of_tiled [⟨r1_c, p0⟩] S1x8x128.size (by rfl) y

set_option maxHeartbeats 4000000 in
/-- The body on whole staging buffers, the inputs' at given contents and the outputs' at anything, runs to the inputs' unchanged and each output's at its store over the inputs. -/
theorem sound_kernel1 (c : Dev nD) (E : Set ℕ) (i : grid1.Coords) (arg1 : Memref sig .tc .vmem S1x256x4096 .bf16) (harg1 : arg1.IsWhole) (arg2 : Memref sig .tc .vmem S1x256x4096 .bf16) (harg2 : arg2.IsWhole) (arg3 : Memref sig .tc .vmem S1x128x4 .i32) (harg3 : arg3.IsWhole) (arg4 : Memref sig .tc .vmem S1x128x4 .f32) (harg4 : arg4.IsWhole) (arg5 : Memref sig .tc .vmem S1x128x4 .i32) (harg5 : arg5.IsWhole) (arg6 : Memref sig .tc .vmem S1x128x4 .f32) (harg6 : arg6.IsWhole) (arg7 : Memref sig .tc .vmem S1x8x128 .f32) (harg7 : arg7.IsWhole)
    (x0 : Vec F S1x256x4096 .bf16) (x1 : Vec F S1x256x4096 .bf16) (x2 : Vec F S1x128x4 .i32) (x3 : Vec F S1x128x4 .f32) (x4 : Vec F S1x128x4 .i32) (x5 : Vec F S1x128x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__main_kernel i arg1 harg1 arg2 harg2 arg3 harg3 arg4 harg4 arg5 harg5 arg6 harg6 arg7 harg7) K := by
  simp only [cc1__main_kernel_eq_skeleton]; unfold cc1__main_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-- The proof data of pipeline 1: the arrays as the region finds them; after the body each input's buffer at its block and each output's at the body's store over the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's run applies; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.RunKernelB.lean ====
/-
  The chain of the program's twenty-one segments: the buffer contents at each boundary (a host stretch applies its
  operations; a region leaves its output arrays at what its write-backs fold to and everything else as entered),
  the two regions as segments over "every unscoped buffer at the boundary's contents", and the run: every weakly
  fair execution terminates with every unscoped buffer at the last boundary's contents.
-/
import proofs.«153362_j6846177869930_2_alg».proof.Proof.RunKernelA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After `hostOps0`. -/
abbrev W1 : Dev nD → Valuation τ sig (Elt F) := fun c => StableHlo.after hostOps0 (W0 m c)
/-- The same read at the TensorCore's references: region 0's entry contents. -/
abbrev U1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After `hostOps1`. -/
abbrev W3 : Dev nD → Valuation τ sig (Elt F) := fun c => StableHlo.after hostOps1 (W2 m c)
/-- After `hostOps1_1`. -/
abbrev W4 : Dev nD → Valuation τ sig (Elt F) := fun c => StableHlo.after hostOps1_1 (W3 m c)
/-- After `hostOps1_2`. -/
abbrev W5 : Dev nD → Valuation τ sig (Elt F) := fun c => StableHlo.after hostOps1_2 (W4 m c)
/-- After `hostOps1_3`. -/
abbrev W6 : Dev nD → Valuation τ sig (Elt F) := fun c => StableHlo.after hostOps1_3 (W5 m c)
/-- After `hostOps1_4`. -/
abbrev W7 : Dev nD → Valuation τ sig (Elt F) := fun c => StableHlo.after hostOps1_4 (W6 m c)
/-- After `hostOps1_5`. -/
abbrev W8 : Dev nD → Valuation τ sig (Elt F) := fun c => StableHlo.after hostOps1_5 (W7 m c)
/-- After `hostOps1_6`. -/
abbrev W9 : Dev nD → Valuation τ sig (Elt F) := fun c => StableHlo.after hostOps1_6 (W8 m c)
/-- After `hostOps1_7`. -/
abbrev W10 : Dev nD → Valuation τ sig (Elt F) := fun c => StableHlo.after hostOps1_7 (W9 m c)
/-- After `hostOps1_8`. -/
abbrev W11 : Dev nD → Valuation τ sig (Elt F) := fun c => StableHlo.after hostOps1_8 (W10 m c)
/-- After `hostOps1_9`. -/
abbrev W12 : Dev nD → Valuation τ sig (Elt F) := fun c => StableHlo.after hostOps1_9 (W11 m c)
/-- After `hostOps1_10`. -/
abbrev W13 : Dev nD → Valuation τ sig (Elt F) := fun c => StableHlo.after hostOps1_10 (W12 m c)
/-- After `hostOps1_11`. -/
abbrev W14 : Dev nD → Valuation τ sig (Elt F) := fun c => StableHlo.after hostOps1_11 (W13 m c)
/-- After `hostOps1_12`. -/
abbrev W15 : Dev nD → Valuation τ sig (Elt F) := fun c => StableHlo.after hostOps1_12 (W14 m c)
/-- After `hostOps1_13`. -/
abbrev W16 : Dev nD → Valuation τ sig (Elt F) := fun c => StableHlo.after hostOps1_13 (W15 m c)
/-- After `hostOps1_14`. -/
abbrev W17 : Dev nD → Valuation τ sig (Elt F) := fun c => StableHlo.after hostOps1_14 (W16 m c)
/-- After `hostOps1_15`. -/
abbrev W18 : Dev nD → Valuation τ sig (Elt F) := fun c => StableHlo.after hostOps1_15 (W17 m c)
/-- After `hostOps1_16`. -/
abbrev W19 : Dev nD → Valuation τ sig (Elt F) := fun c => StableHlo.after hostOps1_16 (W18 m c)
/-- The same read at the TensorCore's references: region 1's entry contents. -/
abbrev U19 : (c : Dev nD) → (b : Ref sig .tc) → Buf (Elt F) ((c : Thread nD τ).loc b) := fun c b => W19 m c b
/-- At region 1's exit: its arrays at what the pipeline leaves, every other buffer as entered. -/
def W20 (c : Dev nD) : Valuation τ sig (Elt F) :=
  Pipeline.withArrays spec1 c (W19 m c) fun w => (dat1 (U19 m) c).arrAt w cfg1.N
theorem W20_arr (c : Dev nD) (w : Fin cfg1.W) :
    W20 m c (Proc.devRef .tc (Pipeline.arrRef spec1 w)) = (dat1 (U19 m) c).arrAt w cfg1.N := by
  unfold W20; exact Pipeline.withArrays_arr spec1 launch1.win.arr_inj c _ _ w
theorem W20_of_ne (c : Dev nD) (b : Ref sig .tc) (hb : ∀ w, Pipeline.arrRef spec1 w ≠ b) :
    W20 m c (Proc.devRef .tc b) = W19 m c (Proc.devRef .tc b) := by
  unfold W20; exact Pipeline.withArrays_of_ne spec1 c _ _ b hb
abbrev U20 : (c : Dev nD) → (b : Ref sig .tc) → Buf (Elt F) ((c : Thread nD τ).loc b) := fun c b => W20 m c b
theorem hF1 (c : Dev nD) (w : Fin cfg1.W) : (dat1 (U19 m) c).arrAt w cfg1.N = U20 m c (Pipeline.arrRef spec1 w) :=
  (W20_arr m c w).symm
theorem hrest1 (c : Dev nD) : ∀ b, b ∉ Finset.univ.image (Pipeline.arrRef spec1) → U20 m c b = U19 m c b :=
  fun b hb => W20_of_ne m c b fun w e => hb (Finset.mem_image.mpr ⟨w, Finset.mem_univ _, e⟩)
/-- After `hostOps2`. -/
abbrev W21 : Dev nD → Valuation τ sig (Elt F) := fun c => StableHlo.after hostOps2 (W20 m c)

/-! ## The proof data family and the thread state -/

abbrev admH : (p : Fin 2) → (pcfgs (F := F) p).Adm := fun p => (cfgs p).toPCfg_adm
/-- Every pipeline's proof data, each at its region's entry contents. -/
def pdatsH : (p : Fin 2) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U19 m) c
abbrev 𝒱H : Variants := Variants.none
abbrev LH : GSem nD τ sig → Finset Unit := fun _ => ∅
abbrev lvH : GSem nD τ sig → Unit → ℕ := fun _ _ => 0
/-- What rides beside the buffers through every segment: the core's generator register at some state and its dues, at nothing. -/
abbrev RH (c : Dev nD) : sProp 𝕄 := iprop((∃ r, prngReg c r) ∗ ∃ W, owes (c : Thread nD τ) (0 : CellTallies nD τ sig Unit) W)
/-- A host stretch as a segment. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev TₙH (c : Dev nD) : sProp 𝕄 := iprop(StableHlo.held (c : Thread nD τ) (Pipeline.ucRefs τ sig) (W21 m c) ∗ ∃ r, prngReg c r)

/-! ## The regions as segments -/

set_option backward.isDefEq.respectTransparency.types false in
/-- Region 0 over the thread state: entered from every unscoped buffer at `W1`, left at `W2`. Its arrays are split out of the
    unscoped buffers and put back at the exit contents; the generator register goes into the invariant and comes out; nothing is owed. -/
def reg0H : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W19`, left at `W20`. Its arrays are split out of the
    unscoped buffers and put back at the exit contents; the generator register goes into the invariant and comes out; nothing is owed. -/
def reg1H : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U19 m) c).loose
  hwaits := Pipeline.hwaits_of_owed_zero _ _ _ _ LH lvH 1 fun _ _ => rfl
  pre c := iprop(StableHlo.held (c : Thread nD τ) (Pipeline.ucRefs τ sig) (W19 m c) ∗ RH c)
  post c := iprop(StableHlo.held (c : Thread nD τ) (Pipeline.ucRefs τ sig) (W20 m c) ∗ RH c)
  X c := iprop(∃ r, prngReg c r)
  Y c := iprop(∃ r, prngReg c r)
  Z c := Pipeline.unscopedRest (Ix := Unit) (Name := ℕ) (U := UR sig nD τ) (Lvl := ℕ) spec1 c (U19 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (U19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (U19 m c) (U20 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsH : List (Pipeline.Seg (pcfgs (F := F)) admH (pdatsH m) () defs₀ 𝒱H LH lvH) :=
  [ .host (hsegH hostOps0 hostOps0_sub hostOps0_fresh (W0 m)),
    .region (reg0H m),
    .host (hsegH hostOps1 hostOps1_sub hostOps1_fresh (W2 m)),
    .host (hsegH hostOps1_1 hostOps1_1_sub hostOps1_1_fresh (W3 m)),
    .host (hsegH hostOps1_2 hostOps1_2_sub hostOps1_2_fresh (W4 m)),
    .host (hsegH hostOps1_3 hostOps1_3_sub hostOps1_3_fresh (W5 m)),
    .host (hsegH hostOps1_4 hostOps1_4_sub hostOps1_4_fresh (W6 m)),
    .host (hsegH hostOps1_5 hostOps1_5_sub hostOps1_5_fresh (W7 m)),
    .host (hsegH hostOps1_6 hostOps1_6_sub hostOps1_6_fresh (W8 m)),
    .host (hsegH hostOps1_7 hostOps1_7_sub hostOps1_7_fresh (W9 m)),
    .host (hsegH hostOps1_8 hostOps1_8_sub hostOps1_8_fresh (W10 m)),
    .host (hsegH hostOps1_9 hostOps1_9_sub hostOps1_9_fresh (W11 m)),
    .host (hsegH hostOps1_10 hostOps1_10_sub hostOps1_10_fresh (W12 m)),
    .host (hsegH hostOps1_11 hostOps1_11_sub hostOps1_11_fresh (W13 m)),
    .host (hsegH hostOps1_12 hostOps1_12_sub hostOps1_12_fresh (W14 m)),
    .host (hsegH hostOps1_13 hostOps1_13_sub hostOps1_13_fresh (W15 m)),
    .host (hsegH hostOps1_14 hostOps1_14_sub hostOps1_14_fresh (W16 m)),
    .host (hsegH hostOps1_15 hostOps1_15_sub hostOps1_15_fresh (W17 m)),
    .host (hsegH hostOps1_16 hostOps1_16_sub hostOps1_16_fresh (W18 m)),
    .region (reg1H m),
    .host (hsegH hostOps2 hostOps2_sub hostOps2_fresh (W20 m)) ]

theorem main_run (c : Dev nD) : main (F := F) c = Pipeline.Seg.run (segsH m) := (main_chain c).trans (by chain_rfl)

set_option backward.isDefEq.respectTransparency.types false in
/-- THE RUN: from any memory with zero counters, every weakly fair execution of the program on the TensorCores terminates, nothing
    faulting, and every unscoped buffer ends at the last boundary's contents `W21`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m c b) :=
  Pipeline.θ_run_regions_kit (pcfgs (F := F)) admH (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TₙH m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W21 m c) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m c b)
    (hfin := fun c s' => by
      iintro ⟨⟨Hh, -⟩, HSI⟩
      unfold StableHlo.held
      imodintro
      iapply (pointsTo_read_all (Pipeline.ucRefs τ sig) (fun b => (((c : Thread nD τ)).1, b)) (W21 m c) s')
      isplitl [Hh] <;> iassumption)
    (hQ := fun s h => h)

/-! ## The arguments end as launched -/

theorem W21_main_arg0 (c : Dev nD) : W21 m c (Proc.devRef .tc main_arg0) = m ((c : Thread nD τ).loc main_arg0) :=
  calc W21 m c (Proc.devRef .tc main_arg0)
    _ = W20 m c (Proc.devRef .tc main_arg0) := StableHlo.after_of_writes_sub hostOps2 _ hostOps2_writes (by decide)
    _ = W19 m c (Proc.devRef .tc main_arg0) := W20_of_ne m c main_arg0 (by decide)
    _ = W18 m c (Proc.devRef .tc main_arg0) := StableHlo.after_of_writes_sub hostOps1_16 _ hostOps1_16_writes (by decide)
    _ = W17 m c (Proc.devRef .tc main_arg0) := StableHlo.after_of_writes_sub hostOps1_15 _ hostOps1_15_writes (by decide)
    _ = W16 m c (Proc.devRef .tc main_arg0) := StableHlo.after_of_writes_sub hostOps1_14 _ hostOps1_14_writes (by decide)
    _ = W15 m c (Proc.devRef .tc main_arg0) := StableHlo.after_of_writes_sub hostOps1_13 _ hostOps1_13_writes (by decide)
    _ = W14 m c (Proc.devRef .tc main_arg0) := StableHlo.after_of_writes_sub hostOps1_12 _ hostOps1_12_writes (by decide)
    _ = W13 m c (Proc.devRef .tc main_arg0) := StableHlo.after_of_writes_sub hostOps1_11 _ hostOps1_11_writes (by decide)
    _ = W12 m c (Proc.devRef .tc main_arg0) := StableHlo.after_of_writes_sub hostOps1_10 _ hostOps1_10_writes (by decide)
    _ = W11 m c (Proc.devRef .tc main_arg0) := StableHlo.after_of_writes_sub hostOps1_9 _ hostOps1_9_writes (by decide)
    _ = W10 m c (Proc.devRef .tc main_arg0) := StableHlo.after_of_writes_sub hostOps1_8 _ hostOps1_8_writes (by decide)
    _ = W9 m c (Proc.devRef .tc main_arg0) := StableHlo.after_of_writes_sub hostOps1_7 _ hostOps1_7_writes (by decide)
    _ = W8 m c (Proc.devRef .tc main_arg0) := StableHlo.after_of_writes_sub hostOps1_6 _ hostOps1_6_writes (by decide)
    _ = W7 m c (Proc.devRef .tc main_arg0) := StableHlo.after_of_writes_sub hostOps1_5 _ hostOps1_5_writes (by decide)
    _ = W6 m c (Proc.devRef .tc main_arg0) := StableHlo.after_of_writes_sub hostOps1_4 _ hostOps1_4_writes (by decide)
    _ = W5 m c (Proc.devRef .tc main_arg0) := StableHlo.after_of_writes_sub hostOps1_3 _ hostOps1_3_writes (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W21_main_arg1 (c : Dev nD) : W21 m c (Proc.devRef .tc main_arg1) = m ((c : Thread nD τ).loc main_arg1) :=
  calc W21 m c (Proc.devRef .tc main_arg1)
    _ = W20 m c (Proc.devRef .tc main_arg1) := StableHlo.after_of_writes_sub hostOps2 _ hostOps2_writes (by decide)
    _ = W19 m c (Proc.devRef .tc main_arg1) := W20_of_ne m c main_arg1 (by decide)
    _ = W18 m c (Proc.devRef .tc main_arg1) := StableHlo.after_of_writes_sub hostOps1_16 _ hostOps1_16_writes (by decide)
    _ = W17 m c (Proc.devRef .tc main_arg1) := StableHlo.after_of_writes_sub hostOps1_15 _ hostOps1_15_writes (by decide)
    _ = W16 m c (Proc.devRef .tc main_arg1) := StableHlo.after_of_writes_sub hostOps1_14 _ hostOps1_14_writes (by decide)
    _ = W15 m c (Proc.devRef .tc main_arg1) := StableHlo.after_of_writes_sub hostOps1_13 _ hostOps1_13_writes (by decide)
    _ = W14 m c (Proc.devRef .tc main_arg1) := StableHlo.after_of_writes_sub hostOps1_12 _ hostOps1_12_writes (by decide)
    _ = W13 m c (Proc.devRef .tc main_arg1) := StableHlo.after_of_writes_sub hostOps1_11 _ hostOps1_11_writes (by decide)
    _ = W12 m c (Proc.devRef .tc main_arg1) := StableHlo.after_of_writes_sub hostOps1_10 _ hostOps1_10_writes (by decide)
    _ = W11 m c (Proc.devRef .tc main_arg1) := StableHlo.after_of_writes_sub hostOps1_9 _ hostOps1_9_writes (by decide)
    _ = W10 m c (Proc.devRef .tc main_arg1) := StableHlo.after_of_writes_sub hostOps1_8 _ hostOps1_8_writes (by decide)
    _ = W9 m c (Proc.devRef .tc main_arg1) := StableHlo.after_of_writes_sub hostOps1_7 _ hostOps1_7_writes (by decide)
    _ = W8 m c (Proc.devRef .tc main_arg1) := StableHlo.after_of_writes_sub hostOps1_6 _ hostOps1_6_writes (by decide)
    _ = W7 m c (Proc.devRef .tc main_arg1) := StableHlo.after_of_writes_sub hostOps1_5 _ hostOps1_5_writes (by decide)
    _ = W6 m c (Proc.devRef .tc main_arg1) := StableHlo.after_of_writes_sub hostOps1_4 _ hostOps1_4_writes (by decide)
    _ = W5 m c (Proc.devRef .tc main_arg1) := StableHlo.after_of_writes_sub hostOps1_3 _ hostOps1_3_writes (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W21_main_arg2 (c : Dev nD) : W21 m c (Proc.devRef .tc main_arg2) = m ((c : Thread nD τ).loc main_arg2) :=
  calc W21 m c (Proc.devRef .tc main_arg2)
    _ = W20 m c (Proc.devRef .tc main_arg2) := StableHlo.after_of_writes_sub hostOps2 _ hostOps2_writes (by decide)
    _ = W19 m c (Proc.devRef .tc main_arg2) := W20_of_ne m c main_arg2 (by decide)
    _ = W18 m c (Proc.devRef .tc main_arg2) := StableHlo.after_of_writes_sub hostOps1_16 _ hostOps1_16_writes (by decide)
    _ = W17 m c (Proc.devRef .tc main_arg2) := StableHlo.after_of_writes_sub hostOps1_15 _ hostOps1_15_writes (by decide)
    _ = W16 m c (Proc.devRef .tc main_arg2) := StableHlo.after_of_writes_sub hostOps1_14 _ hostOps1_14_writes (by decide)
    _ = W15 m c (Proc.devRef .tc main_arg2) := StableHlo.after_of_writes_sub hostOps1_13 _ hostOps1_13_writes (by decide)
    _ = W14 m c (Proc.devRef .tc main_arg2) := StableHlo.after_of_writes_sub hostOps1_12 _ hostOps1_12_writes (by decide)
    _ = W13 m c (Proc.devRef .tc main_arg2) := StableHlo.after_of_writes_sub hostOps1_11 _ hostOps1_11_writes (by decide)
    _ = W12 m c (Proc.devRef .tc main_arg2) := StableHlo.after_of_writes_sub hostOps1_10 _ hostOps1_10_writes (by decide)
    _ = W11 m c (Proc.devRef .tc main_arg2) := StableHlo.after_of_writes_sub hostOps1_9 _ hostOps1_9_writes (by decide)
    _ = W10 m c (Proc.devRef .tc main_arg2) := StableHlo.after_of_writes_sub hostOps1_8 _ hostOps1_8_writes (by decide)
    _ = W9 m c (Proc.devRef .tc main_arg2) := StableHlo.after_of_writes_sub hostOps1_7 _ hostOps1_7_writes (by decide)
    _ = W8 m c (Proc.devRef .tc main_arg2) := StableHlo.after_of_writes_sub hostOps1_6 _ hostOps1_6_writes (by decide)
    _ = W7 m c (Proc.devRef .tc main_arg2) := StableHlo.after_of_writes_sub hostOps1_5 _ hostOps1_5_writes (by decide)
    _ = W6 m c (Proc.devRef .tc main_arg2) := StableHlo.after_of_writes_sub hostOps1_4 _ hostOps1_4_writes (by decide)
    _ = W5 m c (Proc.devRef .tc main_arg2) := StableHlo.after_of_writes_sub hostOps1_3 _ hostOps1_3_writes (by decide)
    _ = W4 m c (Proc.devRef .tc main_arg2) := StableHlo.after_of_writes_sub hostOps1_2 _ hostOps1_2_writes (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W21_main_arg3 (c : Dev nD) : W21 m c (Proc.devRef .tc main_arg3) = m ((c : Thread nD τ).loc main_arg3) :=
  calc W21 m c (Proc.devRef .tc main_arg3)
    _ = W20 m c (Proc.devRef .tc main_arg3) := StableHlo.after_of_writes_sub hostOps2 _ hostOps2_writes (by decide)
    _ = W19 m c (Proc.devRef .tc main_arg3) := W20_of_ne m c main_arg3 (by decide)
    _ = W18 m c (Proc.devRef .tc main_arg3) := StableHlo.after_of_writes_sub hostOps1_16 _ hostOps1_16_writes (by decide)
    _ = W17 m c (Proc.devRef .tc main_arg3) := StableHlo.after_of_writes_sub hostOps1_15 _ hostOps1_15_writes (by decide)
    _ = W16 m c (Proc.devRef .tc main_arg3) := StableHlo.after_of_writes_sub hostOps1_14 _ hostOps1_14_writes (by decide)
    _ = W15 m c (Proc.devRef .tc main_arg3) := StableHlo.after_of_writes_sub hostOps1_13 _ hostOps1_13_writes (by decide)
    _ = W14 m c (Proc.devRef .tc main_arg3) := StableHlo.after_of_writes_sub hostOps1_12 _ hostOps1_12_writes (by decide)
    _ = W13 m c (Proc.devRef .tc main_arg3) := StableHlo.after_of_writes_sub hostOps1_11 _ hostOps1_11_writes (by decide)
    _ = W12 m c (Proc.devRef .tc main_arg3) := StableHlo.after_of_writes_sub hostOps1_10 _ hostOps1_10_writes (by decide)
    _ = W11 m c (Proc.devRef .tc main_arg3) := StableHlo.after_of_writes_sub hostOps1_9 _ hostOps1_9_writes (by decide)
    _ = W10 m c (Proc.devRef .tc main_arg3) := StableHlo.after_of_writes_sub hostOps1_8 _ hostOps1_8_writes (by decide)
    _ = W9 m c (Proc.devRef .tc main_arg3) := StableHlo.after_of_writes_sub hostOps1_7 _ hostOps1_7_writes (by decide)
    _ = W8 m c (Proc.devRef .tc main_arg3) := StableHlo.after_of_writes_sub hostOps1_6 _ hostOps1_6_writes (by decide)
    _ = W7 m c (Proc.devRef .tc main_arg3) := StableHlo.after_of_writes_sub hostOps1_5 _ hostOps1_5_writes (by decide)
    _ = W6 m c (Proc.devRef .tc main_arg3) := StableHlo.after_of_writes_sub hostOps1_4 _ hostOps1_4_writes (by decide)
    _ = W5 m c (Proc.devRef .tc main_arg3) := StableHlo.after_of_writes_sub hostOps1_3 _ hostOps1_3_writes (by decide)
    _ = W4 m c (Proc.devRef .tc main_arg3) := StableHlo.after_of_writes_sub hostOps1_2 _ hostOps1_2_writes (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W21_main_arg4 (c : Dev nD) : W21 m c (Proc.devRef .tc main_arg4) = m ((c : Thread nD τ).loc main_arg4) :=
  calc W21 m c (Proc.devRef .tc main_arg4)
    _ = W20 m c (Proc.devRef .tc main_arg4) := StableHlo.after_of_writes_sub hostOps2 _ hostOps2_writes (by decide)
    _ = W19 m c (Proc.devRef .tc main_arg4) := W20_of_ne m c main_arg4 (by decide)
    _ = W18 m c (Proc.devRef .tc main_arg4) := StableHlo.after_of_writes_sub hostOps1_16 _ hostOps1_16_writes (by decide)
    _ = W17 m c (Proc.devRef .tc main_arg4) := StableHlo.after_of_writes_sub hostOps1_15 _ hostOps1_15_writes (by decide)
    _ = W16 m c (Proc.devRef .tc main_arg4) := StableHlo.after_of_writes_sub hostOps1_14 _ hostOps1_14_writes (by decide)
    _ = W15 m c (Proc.devRef .tc main_arg4) := StableHlo.after_of_writes_sub hostOps1_13 _ hostOps1_13_writes (by decide)
    _ = W14 m c (Proc.devRef .tc main_arg4) := StableHlo.after_of_writes_sub hostOps1_12 _ hostOps1_12_writes (by decide)
    _ = W13 m c (Proc.devRef .tc main_arg4) := StableHlo.after_of_writes_sub hostOps1_11 _ hostOps1_11_writes (by decide)
    _ = W12 m c (Proc.devRef .tc main_arg4) := StableHlo.after_of_writes_sub hostOps1_10 _ hostOps1_10_writes (by decide)
    _ = W11 m c (Proc.devRef .tc main_arg4) := StableHlo.after_of_writes_sub hostOps1_9 _ hostOps1_9_writes (by decide)
    _ = W10 m c (Proc.devRef .tc main_arg4) := StableHlo.after_of_writes_sub hostOps1_8 _ hostOps1_8_writes (by decide)
    _ = W9 m c (Proc.devRef .tc main_arg4) := StableHlo.after_of_writes_sub hostOps1_7 _ hostOps1_7_writes (by decide)
    _ = W8 m c (Proc.devRef .tc main_arg4) := StableHlo.after_of_writes_sub hostOps1_6 _ hostOps1_6_writes (by decide)
    _ = W7 m c (Proc.devRef .tc main_arg4) := StableHlo.after_of_writes_sub hostOps1_5 _ hostOps1_5_writes (by decide)
    _ = W6 m c (Proc.devRef .tc main_arg4) := StableHlo.after_of_writes_sub hostOps1_4 _ hostOps1_4_writes (by decide)
    _ = W5 m c (Proc.devRef .tc main_arg4) := StableHlo.after_of_writes_sub hostOps1_3 _ hostOps1_3_writes (by decide)
    _ = W4 m c (Proc.devRef .tc main_arg4) := StableHlo.after_of_writes_sub hostOps1_2 _ hostOps1_2_writes (by decide)
    _ = W3 m c (Proc.devRef .tc main_arg4) := StableHlo.after_of_writes_sub hostOps1_1 _ hostOps1_1_writes (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- THE FRAME at any float instance: the program runs to the end and its argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W21_main_arg0 m c),
     (h c _ (mem_uc main_arg1 (by decide))).trans (W21_main_arg1 m c),
     (h c _ (mem_uc main_arg2 (by decide))).trans (W21_main_arg2 m c),
     (h c _ (mem_uc main_arg3 (by decide))).trans (W21_main_arg3 m c),
     (h c _ (mem_uc main_arg4 (by decide))).trans (W21_main_arg4 m c)⟩) (run_all m ρ)

end Cert.Kernel.Hand

end
-- ==== Proof.RunKernelIdealA.lean ====
/-
  The run of the program with two kernel regions, at any float instance: each region's body read as a pure
  function of its input blocks (the block an output window holds after the body is the body's store over the
  loaded blocks), the per-region proof data of the pipeline library, and the chain of the program's twenty-one
  segments (host stretches and the two regions) from the launch memory to the last buffer contents. The run's
  post names every unscoped buffer's final contents `W21`; the arguments are read back through the chain
  to their launch contents.
-/
import proofs.«153362_j6846177869930_2_alg».proof.Proof.Gen.KernelIdeal.Launch
import proofs.«153362_j6846177869930_2_alg».proof.Proof.Gen.KernelIdeal.Skeleton
import proofs.«153362_j6846177869930_2_alg».proof.Proof.Gen.KernelIdeal.Points
import proofs.«153362_j6846177869930_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # Region 0: the blocks, the body as a function of the blocks, the proof data -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S1x256x4096 := Rect.unit (s := S1x256x4096) ![0, 0, 0] S1x256x4096.size inb_S1x256x4096_S1x256x4096_0_0_0

/-- What the body leaves in output window 2's staging buffer: its one store over the whole block, the stored value the body's arithmetic on the loaded blocks. -/
def out0_2 (x0 : Vec F S1x256x4096 .f32) (x1 : Vec F S1x256x4096 .f32) : Vec F S1x256x4096 .bf16 :=
  View.canon [⟨r0_a, k0_pay1 (View.ld x0 r0_a)⟩]

/-- The store covers the block. -/
theorem cover0_2 (p0 : Vec F S1x256x4096 .bf16) (y : S1x256x4096.Idx) :
    ∃ pc ∈ ([⟨r0_a, p0⟩] : List (View.Piece (Elt F) S1x256x4096 .bf16)), y ∈ pc.1.set :=
  View.cover_of_tiled [⟨r0_a, p0⟩] S1x256x4096.size (by rfl) y

/-- What the body leaves in output window 3's staging buffer: its one store over the whole block, the stored value the body's arithmetic on the loaded blocks. -/
def out0_3 (x0 : Vec F S1x256x4096 .f32) (x1 : Vec F S1x256x4096 .f32) : Vec F S1x256x4096 .bf16 :=
  View.canon [⟨r0_a, k0_pay2 (View.ld x1 r0_a)⟩]

/-- The store covers the block. -/
theorem cover0_3 (p0 : Vec F S1x256x4096 .bf16) (y : S1x256x4096.Idx) :
    ∃ pc ∈ ([⟨r0_a, p0⟩] : List (View.Piece (Elt F) S1x256x4096 .bf16)), y ∈ pc.1.set :=
  View.cover_of_tiled [⟨r0_a, p0⟩] S1x256x4096.size (by rfl) y

set_option maxHeartbeats 4000000 in
/-- The body on whole staging buffers, the inputs' at given contents and the outputs' at anything, runs to the inputs' unchanged and each output's at its store over the inputs. -/
theorem sound_kernel0 (c : Dev nD) (E : Set ℕ) (i : grid0.Coords) (arg1 : Memref sig .tc .vmem S1x256x4096 .f32) (harg1 : arg1.IsWhole) (arg2 : Memref sig .tc .vmem S1x256x4096 .f32) (harg2 : arg2.IsWhole) (arg3 : Memref sig .tc .vmem S1x256x4096 .bf16) (harg3 : arg3.IsWhole) (arg4 : Memref sig .tc .vmem S1x256x4096 .bf16) (harg4 : arg4.IsWhole)
    (x0 : Vec F S1x256x4096 .f32) (x1 : Vec F S1x256x4096 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-- The proof data of pipeline 0: the arrays as the region finds them; after the body each input's buffer at its block and each output's at the body's store over the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! # Region 1: the blocks, the body as a function of the blocks, the proof data -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_a : Rect S1x256x4096 := Rect.unit (s := S1x256x4096) ![0, 0, 0] S1x256x4096.size inb_S1x256x4096_S1x256x4096_0_0_0
abbrev r1_b : Rect S1x128x4 := Rect.unit (s := S1x128x4) ![0, 0, 0] S1x128x4.size inb_S1x128x4_S1x128x4_0_0_0
abbrev r1_c : Rect S1x8x128 := Rect.unit (s := S1x8x128) ![0, 0, 0] S1x8x128.size inb_S1x8x128_S1x8x128_0_0_0

/-- What the body leaves in output window 6's staging buffer: its one store over the whole block, the stored value the body's arithmetic on the loaded blocks. -/
def out1_6 (x0 : Vec F S1x256x4096 .bf16) (x1 : Vec F S1x256x4096 .bf16) (x2 : Vec F S1x128x4 .i32) (x3 : Vec F S1x128x4 .f32) (x4 : Vec F S1x128x4 .i32) (x5 : Vec F S1x128x4 .f32) : Vec F S1x8x128 .f32 :=
  View.canon [⟨r1_c, k1_pay1 (k1_pay3 (View.ld x1 r1_a)) (k1_pay11 (k1_pay6 (View.ld x4 r1_b)) (k1_pay7 (View.ld x5 r1_b)) (iota .tc S128x4096 32 [1] iota_S128x4096_d1_w32)) (k1_pay12 (k1_pay2 (View.ld x0 r1_a)) (k1_pay4 (View.ld x2 r1_b)) (k1_pay5 (View.ld x3 r1_b)) (iota .tc S128x4096 32 [1] iota_S128x4096_d1_w32) (k1_pay8 (View.ld x2 r1_b) (View.ld x3 r1_b)) (k1_pay9 (View.ld x2 r1_b)) (Scalar.ofBits .f32 0x00000000#32) (k1_pay10 (View.ld x3 r1_b)))⟩]

/-- The store covers the block. -/
theorem cover1_6 (p0 : Vec F S1x8x128 .f32) (y : S1x8x128.Idx) :
    ∃ pc ∈ ([⟨r1_c, p0⟩] : List (View.Piece (Elt F) S1x8x128 .f32)), y ∈ pc.1.set :=
  View.cover_of_tiled [⟨r1_c, p0⟩] S1x8x128.size (by rfl) y

set_option maxHeartbeats 4000000 in
/-- The body on whole staging buffers, the inputs' at given contents and the outputs' at anything, runs to the inputs' unchanged and each output's at its store over the inputs. -/
theorem sound_kernel1 (c : Dev nD) (E : Set ℕ) (i : grid1.Coords) (arg1 : Memref sig .tc .vmem S1x256x4096 .bf16) (harg1 : arg1.IsWhole) (arg2 : Memref sig .tc .vmem S1x256x4096 .bf16) (harg2 : arg2.IsWhole) (arg3 : Memref sig .tc .vmem S1x128x4 .i32) (harg3 : arg3.IsWhole) (arg4 : Memref sig .tc .vmem S1x128x4 .f32) (harg4 : arg4.IsWhole) (arg5 : Memref sig .tc .vmem S1x128x4 .i32) (harg5 : arg5.IsWhole) (arg6 : Memref sig .tc .vmem S1x128x4 .f32) (harg6 : arg6.IsWhole) (arg7 : Memref sig .tc .vmem S1x8x128 .f32) (harg7 : arg7.IsWhole)
    (x0 : Vec F S1x256x4096 .bf16) (x1 : Vec F S1x256x4096 .bf16) (x2 : Vec F S1x128x4 .i32) (x3 : Vec F S1x128x4 .f32) (x4 : Vec F S1x128x4 .i32) (x5 : Vec F S1x128x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__main_kernel i arg1 harg1 arg2 harg2 arg3 harg3 arg4 harg4 arg5 harg5 arg6 harg6 arg7 harg7) K := by
  simp only [cc1__main_kernel_eq_skeleton]; unfold cc1__main_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-- The proof data of pipeline 1: the arrays as the region finds them; after the body each input's buffer at its block and each output's at the body's store over the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's run applies; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.RunKernelIdealB.lean ====
/-
  The chain of the program's twenty-one segments: the buffer contents at each boundary (a host stretch applies its
  operations; a region leaves its output arrays at what its write-backs fold to and everything else as entered),
  the two regions as segments over "every unscoped buffer at the boundary's contents", and the run: every weakly
  fair execution terminates with every unscoped buffer at the last boundary's contents.
-/
import proofs.«153362_j6846177869930_2_alg».proof.Proof.RunKernelIdealA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After `hostOps0`. -/
abbrev W1 : Dev nD → Valuation τ sig (Elt F) := fun c => StableHlo.after hostOps0 (W0 m c)
/-- The same read at the TensorCore's references: region 0's entry contents. -/
abbrev U1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After `hostOps1`. -/
abbrev W3 : Dev nD → Valuation τ sig (Elt F) := fun c => StableHlo.after hostOps1 (W2 m c)
/-- After `hostOps1_1`. -/
abbrev W4 : Dev nD → Valuation τ sig (Elt F) := fun c => StableHlo.after hostOps1_1 (W3 m c)
/-- After `hostOps1_2`. -/
abbrev W5 : Dev nD → Valuation τ sig (Elt F) := fun c => StableHlo.after hostOps1_2 (W4 m c)
/-- After `hostOps1_3`. -/
abbrev W6 : Dev nD → Valuation τ sig (Elt F) := fun c => StableHlo.after hostOps1_3 (W5 m c)
/-- After `hostOps1_4`. -/
abbrev W7 : Dev nD → Valuation τ sig (Elt F) := fun c => StableHlo.after hostOps1_4 (W6 m c)
/-- After `hostOps1_5`. -/
abbrev W8 : Dev nD → Valuation τ sig (Elt F) := fun c => StableHlo.after hostOps1_5 (W7 m c)
/-- After `hostOps1_6`. -/
abbrev W9 : Dev nD → Valuation τ sig (Elt F) := fun c => StableHlo.after hostOps1_6 (W8 m c)
/-- After `hostOps1_7`. -/
abbrev W10 : Dev nD → Valuation τ sig (Elt F) := fun c => StableHlo.after hostOps1_7 (W9 m c)
/-- After `hostOps1_8`. -/
abbrev W11 : Dev nD → Valuation τ sig (Elt F) := fun c => StableHlo.after hostOps1_8 (W10 m c)
/-- After `hostOps1_9`. -/
abbrev W12 : Dev nD → Valuation τ sig (Elt F) := fun c => StableHlo.after hostOps1_9 (W11 m c)
/-- After `hostOps1_10`. -/
abbrev W13 : Dev nD → Valuation τ sig (Elt F) := fun c => StableHlo.after hostOps1_10 (W12 m c)
/-- After `hostOps1_11`. -/
abbrev W14 : Dev nD → Valuation τ sig (Elt F) := fun c => StableHlo.after hostOps1_11 (W13 m c)
/-- After `hostOps1_12`. -/
abbrev W15 : Dev nD → Valuation τ sig (Elt F) := fun c => StableHlo.after hostOps1_12 (W14 m c)
/-- After `hostOps1_13`. -/
abbrev W16 : Dev nD → Valuation τ sig (Elt F) := fun c => StableHlo.after hostOps1_13 (W15 m c)
/-- After `hostOps1_14`. -/
abbrev W17 : Dev nD → Valuation τ sig (Elt F) := fun c => StableHlo.after hostOps1_14 (W16 m c)
/-- After `hostOps1_15`. -/
abbrev W18 : Dev nD → Valuation τ sig (Elt F) := fun c => StableHlo.after hostOps1_15 (W17 m c)
/-- After `hostOps1_16`. -/
abbrev W19 : Dev nD → Valuation τ sig (Elt F) := fun c => StableHlo.after hostOps1_16 (W18 m c)
/-- The same read at the TensorCore's references: region 1's entry contents. -/
abbrev U19 : (c : Dev nD) → (b : Ref sig .tc) → Buf (Elt F) ((c : Thread nD τ).loc b) := fun c b => W19 m c b
/-- At region 1's exit: its arrays at what the pipeline leaves, every other buffer as entered. -/
def W20 (c : Dev nD) : Valuation τ sig (Elt F) :=
  Pipeline.withArrays spec1 c (W19 m c) fun w => (dat1 (U19 m) c).arrAt w cfg1.N
theorem W20_arr (c : Dev nD) (w : Fin cfg1.W) :
    W20 m c (Proc.devRef .tc (Pipeline.arrRef spec1 w)) = (dat1 (U19 m) c).arrAt w cfg1.N := by
  unfold W20; exact Pipeline.withArrays_arr spec1 launch1.win.arr_inj c _ _ w
theorem W20_of_ne (c : Dev nD) (b : Ref sig .tc) (hb : ∀ w, Pipeline.arrRef spec1 w ≠ b) :
    W20 m c (Proc.devRef .tc b) = W19 m c (Proc.devRef .tc b) := by
  unfold W20; exact Pipeline.withArrays_of_ne spec1 c _ _ b hb
abbrev U20 : (c : Dev nD) → (b : Ref sig .tc) → Buf (Elt F) ((c : Thread nD τ).loc b) := fun c b => W20 m c b
theorem hF1 (c : Dev nD) (w : Fin cfg1.W) : (dat1 (U19 m) c).arrAt w cfg1.N = U20 m c (Pipeline.arrRef spec1 w) :=
  (W20_arr m c w).symm
theorem hrest1 (c : Dev nD) : ∀ b, b ∉ Finset.univ.image (Pipeline.arrRef spec1) → U20 m c b = U19 m c b :=
  fun b hb => W20_of_ne m c b fun w e => hb (Finset.mem_image.mpr ⟨w, Finset.mem_univ _, e⟩)
/-- After `hostOps2`. -/
abbrev W21 : Dev nD → Valuation τ sig (Elt F) := fun c => StableHlo.after hostOps2 (W20 m c)

/-! ## The proof data family and the thread state -/

abbrev admH : (p : Fin 2) → (pcfgs (F := F) p).Adm := fun p => (cfgs p).toPCfg_adm
/-- Every pipeline's proof data, each at its region's entry contents. -/
def pdatsH : (p : Fin 2) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U19 m) c
abbrev 𝒱H : Variants := Variants.none
abbrev LH : GSem nD τ sig → Finset Unit := fun _ => ∅
abbrev lvH : GSem nD τ sig → Unit → ℕ := fun _ _ => 0
/-- What rides beside the buffers through every segment: the core's generator register at some state and its dues, at nothing. -/
abbrev RH (c : Dev nD) : sProp 𝕄 := iprop((∃ r, prngReg c r) ∗ ∃ W, owes (c : Thread nD τ) (0 : CellTallies nD τ sig Unit) W)
/-- A host stretch as a segment. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev TₙH (c : Dev nD) : sProp 𝕄 := iprop(StableHlo.held (c : Thread nD τ) (Pipeline.ucRefs τ sig) (W21 m c) ∗ ∃ r, prngReg c r)

/-! ## The regions as segments -/

set_option backward.isDefEq.respectTransparency.types false in
/-- Region 0 over the thread state: entered from every unscoped buffer at `W1`, left at `W2`. Its arrays are split out of the
    unscoped buffers and put back at the exit contents; the generator register goes into the invariant and comes out; nothing is owed. -/
def reg0H : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W19`, left at `W20`. Its arrays are split out of the
    unscoped buffers and put back at the exit contents; the generator register goes into the invariant and comes out; nothing is owed. -/
def reg1H : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U19 m) c).loose
  hwaits := Pipeline.hwaits_of_owed_zero _ _ _ _ LH lvH 1 fun _ _ => rfl
  pre c := iprop(StableHlo.held (c : Thread nD τ) (Pipeline.ucRefs τ sig) (W19 m c) ∗ RH c)
  post c := iprop(StableHlo.held (c : Thread nD τ) (Pipeline.ucRefs τ sig) (W20 m c) ∗ RH c)
  X c := iprop(∃ r, prngReg c r)
  Y c := iprop(∃ r, prngReg c r)
  Z c := Pipeline.unscopedRest (Ix := Unit) (Name := ℕ) (U := UR sig nD τ) (Lvl := ℕ) spec1 c (U19 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (U19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (U19 m c) (U20 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsH : List (Pipeline.Seg (pcfgs (F := F)) admH (pdatsH m) () defs₀ 𝒱H LH lvH) :=
  [ .host (hsegH hostOps0 hostOps0_sub hostOps0_fresh (W0 m)),
    .region (reg0H m),
    .host (hsegH hostOps1 hostOps1_sub hostOps1_fresh (W2 m)),
    .host (hsegH hostOps1_1 hostOps1_1_sub hostOps1_1_fresh (W3 m)),
    .host (hsegH hostOps1_2 hostOps1_2_sub hostOps1_2_fresh (W4 m)),
    .host (hsegH hostOps1_3 hostOps1_3_sub hostOps1_3_fresh (W5 m)),
    .host (hsegH hostOps1_4 hostOps1_4_sub hostOps1_4_fresh (W6 m)),
    .host (hsegH hostOps1_5 hostOps1_5_sub hostOps1_5_fresh (W7 m)),
    .host (hsegH hostOps1_6 hostOps1_6_sub hostOps1_6_fresh (W8 m)),
    .host (hsegH hostOps1_7 hostOps1_7_sub hostOps1_7_fresh (W9 m)),
    .host (hsegH hostOps1_8 hostOps1_8_sub hostOps1_8_fresh (W10 m)),
    .host (hsegH hostOps1_9 hostOps1_9_sub hostOps1_9_fresh (W11 m)),
    .host (hsegH hostOps1_10 hostOps1_10_sub hostOps1_10_fresh (W12 m)),
    .host (hsegH hostOps1_11 hostOps1_11_sub hostOps1_11_fresh (W13 m)),
    .host (hsegH hostOps1_12 hostOps1_12_sub hostOps1_12_fresh (W14 m)),
    .host (hsegH hostOps1_13 hostOps1_13_sub hostOps1_13_fresh (W15 m)),
    .host (hsegH hostOps1_14 hostOps1_14_sub hostOps1_14_fresh (W16 m)),
    .host (hsegH hostOps1_15 hostOps1_15_sub hostOps1_15_fresh (W17 m)),
    .host (hsegH hostOps1_16 hostOps1_16_sub hostOps1_16_fresh (W18 m)),
    .region (reg1H m),
    .host (hsegH hostOps2 hostOps2_sub hostOps2_fresh (W20 m)) ]

theorem main_run (c : Dev nD) : main (F := F) c = Pipeline.Seg.run (segsH m) := (main_chain c).trans (by chain_rfl)

set_option backward.isDefEq.respectTransparency.types false in
/-- THE RUN: from any memory with zero counters, every weakly fair execution of the program on the TensorCores terminates, nothing
    faulting, and every unscoped buffer ends at the last boundary's contents `W21`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m c b) :=
  Pipeline.θ_run_regions_kit (pcfgs (F := F)) admH (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TₙH m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W21 m c) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m c b)
    (hfin := fun c s' => by
      iintro ⟨⟨Hh, -⟩, HSI⟩
      unfold StableHlo.held
      imodintro
      iapply (pointsTo_read_all (Pipeline.ucRefs τ sig) (fun b => (((c : Thread nD τ)).1, b)) (W21 m c) s')
      isplitl [Hh] <;> iassumption)
    (hQ := fun s h => h)

/-! ## The arguments end as launched -/

theorem W21_main_arg0 (c : Dev nD) : W21 m c (Proc.devRef .tc main_arg0) = m ((c : Thread nD τ).loc main_arg0) :=
  calc W21 m c (Proc.devRef .tc main_arg0)
    _ = W20 m c (Proc.devRef .tc main_arg0) := StableHlo.after_of_writes_sub hostOps2 _ hostOps2_writes (by decide)
    _ = W19 m c (Proc.devRef .tc main_arg0) := W20_of_ne m c main_arg0 (by decide)
    _ = W18 m c (Proc.devRef .tc main_arg0) := StableHlo.after_of_writes_sub hostOps1_16 _ hostOps1_16_writes (by decide)
    _ = W17 m c (Proc.devRef .tc main_arg0) := StableHlo.after_of_writes_sub hostOps1_15 _ hostOps1_15_writes (by decide)
    _ = W16 m c (Proc.devRef .tc main_arg0) := StableHlo.after_of_writes_sub hostOps1_14 _ hostOps1_14_writes (by decide)
    _ = W15 m c (Proc.devRef .tc main_arg0) := StableHlo.after_of_writes_sub hostOps1_13 _ hostOps1_13_writes (by decide)
    _ = W14 m c (Proc.devRef .tc main_arg0) := StableHlo.after_of_writes_sub hostOps1_12 _ hostOps1_12_writes (by decide)
    _ = W13 m c (Proc.devRef .tc main_arg0) := StableHlo.after_of_writes_sub hostOps1_11 _ hostOps1_11_writes (by decide)
    _ = W12 m c (Proc.devRef .tc main_arg0) := StableHlo.after_of_writes_sub hostOps1_10 _ hostOps1_10_writes (by decide)
    _ = W11 m c (Proc.devRef .tc main_arg0) := StableHlo.after_of_writes_sub hostOps1_9 _ hostOps1_9_writes (by decide)
    _ = W10 m c (Proc.devRef .tc main_arg0) := StableHlo.after_of_writes_sub hostOps1_8 _ hostOps1_8_writes (by decide)
    _ = W9 m c (Proc.devRef .tc main_arg0) := StableHlo.after_of_writes_sub hostOps1_7 _ hostOps1_7_writes (by decide)
    _ = W8 m c (Proc.devRef .tc main_arg0) := StableHlo.after_of_writes_sub hostOps1_6 _ hostOps1_6_writes (by decide)
    _ = W7 m c (Proc.devRef .tc main_arg0) := StableHlo.after_of_writes_sub hostOps1_5 _ hostOps1_5_writes (by decide)
    _ = W6 m c (Proc.devRef .tc main_arg0) := StableHlo.after_of_writes_sub hostOps1_4 _ hostOps1_4_writes (by decide)
    _ = W5 m c (Proc.devRef .tc main_arg0) := StableHlo.after_of_writes_sub hostOps1_3 _ hostOps1_3_writes (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W21_main_arg1 (c : Dev nD) : W21 m c (Proc.devRef .tc main_arg1) = m ((c : Thread nD τ).loc main_arg1) :=
  calc W21 m c (Proc.devRef .tc main_arg1)
    _ = W20 m c (Proc.devRef .tc main_arg1) := StableHlo.after_of_writes_sub hostOps2 _ hostOps2_writes (by decide)
    _ = W19 m c (Proc.devRef .tc main_arg1) := W20_of_ne m c main_arg1 (by decide)
    _ = W18 m c (Proc.devRef .tc main_arg1) := StableHlo.after_of_writes_sub hostOps1_16 _ hostOps1_16_writes (by decide)
    _ = W17 m c (Proc.devRef .tc main_arg1) := StableHlo.after_of_writes_sub hostOps1_15 _ hostOps1_15_writes (by decide)
    _ = W16 m c (Proc.devRef .tc main_arg1) := StableHlo.after_of_writes_sub hostOps1_14 _ hostOps1_14_writes (by decide)
    _ = W15 m c (Proc.devRef .tc main_arg1) := StableHlo.after_of_writes_sub hostOps1_13 _ hostOps1_13_writes (by decide)
    _ = W14 m c (Proc.devRef .tc main_arg1) := StableHlo.after_of_writes_sub hostOps1_12 _ hostOps1_12_writes (by decide)
    _ = W13 m c (Proc.devRef .tc main_arg1) := StableHlo.after_of_writes_sub hostOps1_11 _ hostOps1_11_writes (by decide)
    _ = W12 m c (Proc.devRef .tc main_arg1) := StableHlo.after_of_writes_sub hostOps1_10 _ hostOps1_10_writes (by decide)
    _ = W11 m c (Proc.devRef .tc main_arg1) := StableHlo.after_of_writes_sub hostOps1_9 _ hostOps1_9_writes (by decide)
    _ = W10 m c (Proc.devRef .tc main_arg1) := StableHlo.after_of_writes_sub hostOps1_8 _ hostOps1_8_writes (by decide)
    _ = W9 m c (Proc.devRef .tc main_arg1) := StableHlo.after_of_writes_sub hostOps1_7 _ hostOps1_7_writes (by decide)
    _ = W8 m c (Proc.devRef .tc main_arg1) := StableHlo.after_of_writes_sub hostOps1_6 _ hostOps1_6_writes (by decide)
    _ = W7 m c (Proc.devRef .tc main_arg1) := StableHlo.after_of_writes_sub hostOps1_5 _ hostOps1_5_writes (by decide)
    _ = W6 m c (Proc.devRef .tc main_arg1) := StableHlo.after_of_writes_sub hostOps1_4 _ hostOps1_4_writes (by decide)
    _ = W5 m c (Proc.devRef .tc main_arg1) := StableHlo.after_of_writes_sub hostOps1_3 _ hostOps1_3_writes (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W21_main_arg2 (c : Dev nD) : W21 m c (Proc.devRef .tc main_arg2) = m ((c : Thread nD τ).loc main_arg2) :=
  calc W21 m c (Proc.devRef .tc main_arg2)
    _ = W20 m c (Proc.devRef .tc main_arg2) := StableHlo.after_of_writes_sub hostOps2 _ hostOps2_writes (by decide)
    _ = W19 m c (Proc.devRef .tc main_arg2) := W20_of_ne m c main_arg2 (by decide)
    _ = W18 m c (Proc.devRef .tc main_arg2) := StableHlo.after_of_writes_sub hostOps1_16 _ hostOps1_16_writes (by decide)
    _ = W17 m c (Proc.devRef .tc main_arg2) := StableHlo.after_of_writes_sub hostOps1_15 _ hostOps1_15_writes (by decide)
    _ = W16 m c (Proc.devRef .tc main_arg2) := StableHlo.after_of_writes_sub hostOps1_14 _ hostOps1_14_writes (by decide)
    _ = W15 m c (Proc.devRef .tc main_arg2) := StableHlo.after_of_writes_sub hostOps1_13 _ hostOps1_13_writes (by decide)
    _ = W14 m c (Proc.devRef .tc main_arg2) := StableHlo.after_of_writes_sub hostOps1_12 _ hostOps1_12_writes (by decide)
    _ = W13 m c (Proc.devRef .tc main_arg2) := StableHlo.after_of_writes_sub hostOps1_11 _ hostOps1_11_writes (by decide)
    _ = W12 m c (Proc.devRef .tc main_arg2) := StableHlo.after_of_writes_sub hostOps1_10 _ hostOps1_10_writes (by decide)
    _ = W11 m c (Proc.devRef .tc main_arg2) := StableHlo.after_of_writes_sub hostOps1_9 _ hostOps1_9_writes (by decide)
    _ = W10 m c (Proc.devRef .tc main_arg2) := StableHlo.after_of_writes_sub hostOps1_8 _ hostOps1_8_writes (by decide)
    _ = W9 m c (Proc.devRef .tc main_arg2) := StableHlo.after_of_writes_sub hostOps1_7 _ hostOps1_7_writes (by decide)
    _ = W8 m c (Proc.devRef .tc main_arg2) := StableHlo.after_of_writes_sub hostOps1_6 _ hostOps1_6_writes (by decide)
    _ = W7 m c (Proc.devRef .tc main_arg2) := StableHlo.after_of_writes_sub hostOps1_5 _ hostOps1_5_writes (by decide)
    _ = W6 m c (Proc.devRef .tc main_arg2) := StableHlo.after_of_writes_sub hostOps1_4 _ hostOps1_4_writes (by decide)
    _ = W5 m c (Proc.devRef .tc main_arg2) := StableHlo.after_of_writes_sub hostOps1_3 _ hostOps1_3_writes (by decide)
    _ = W4 m c (Proc.devRef .tc main_arg2) := StableHlo.after_of_writes_sub hostOps1_2 _ hostOps1_2_writes (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W21_main_arg3 (c : Dev nD) : W21 m c (Proc.devRef .tc main_arg3) = m ((c : Thread nD τ).loc main_arg3) :=
  calc W21 m c (Proc.devRef .tc main_arg3)
    _ = W20 m c (Proc.devRef .tc main_arg3) := StableHlo.after_of_writes_sub hostOps2 _ hostOps2_writes (by decide)
    _ = W19 m c (Proc.devRef .tc main_arg3) := W20_of_ne m c main_arg3 (by decide)
    _ = W18 m c (Proc.devRef .tc main_arg3) := StableHlo.after_of_writes_sub hostOps1_16 _ hostOps1_16_writes (by decide)
    _ = W17 m c (Proc.devRef .tc main_arg3) := StableHlo.after_of_writes_sub hostOps1_15 _ hostOps1_15_writes (by decide)
    _ = W16 m c (Proc.devRef .tc main_arg3) := StableHlo.after_of_writes_sub hostOps1_14 _ hostOps1_14_writes (by decide)
    _ = W15 m c (Proc.devRef .tc main_arg3) := StableHlo.after_of_writes_sub hostOps1_13 _ hostOps1_13_writes (by decide)
    _ = W14 m c (Proc.devRef .tc main_arg3) := StableHlo.after_of_writes_sub hostOps1_12 _ hostOps1_12_writes (by decide)
    _ = W13 m c (Proc.devRef .tc main_arg3) := StableHlo.after_of_writes_sub hostOps1_11 _ hostOps1_11_writes (by decide)
    _ = W12 m c (Proc.devRef .tc main_arg3) := StableHlo.after_of_writes_sub hostOps1_10 _ hostOps1_10_writes (by decide)
    _ = W11 m c (Proc.devRef .tc main_arg3) := StableHlo.after_of_writes_sub hostOps1_9 _ hostOps1_9_writes (by decide)
    _ = W10 m c (Proc.devRef .tc main_arg3) := StableHlo.after_of_writes_sub hostOps1_8 _ hostOps1_8_writes (by decide)
    _ = W9 m c (Proc.devRef .tc main_arg3) := StableHlo.after_of_writes_sub hostOps1_7 _ hostOps1_7_writes (by decide)
    _ = W8 m c (Proc.devRef .tc main_arg3) := StableHlo.after_of_writes_sub hostOps1_6 _ hostOps1_6_writes (by decide)
    _ = W7 m c (Proc.devRef .tc main_arg3) := StableHlo.after_of_writes_sub hostOps1_5 _ hostOps1_5_writes (by decide)
    _ = W6 m c (Proc.devRef .tc main_arg3) := StableHlo.after_of_writes_sub hostOps1_4 _ hostOps1_4_writes (by decide)
    _ = W5 m c (Proc.devRef .tc main_arg3) := StableHlo.after_of_writes_sub hostOps1_3 _ hostOps1_3_writes (by decide)
    _ = W4 m c (Proc.devRef .tc main_arg3) := StableHlo.after_of_writes_sub hostOps1_2 _ hostOps1_2_writes (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W21_main_arg4 (c : Dev nD) : W21 m c (Proc.devRef .tc main_arg4) = m ((c : Thread nD τ).loc main_arg4) :=
  calc W21 m c (Proc.devRef .tc main_arg4)
    _ = W20 m c (Proc.devRef .tc main_arg4) := StableHlo.after_of_writes_sub hostOps2 _ hostOps2_writes (by decide)
    _ = W19 m c (Proc.devRef .tc main_arg4) := W20_of_ne m c main_arg4 (by decide)
    _ = W18 m c (Proc.devRef .tc main_arg4) := StableHlo.after_of_writes_sub hostOps1_16 _ hostOps1_16_writes (by decide)
    _ = W17 m c (Proc.devRef .tc main_arg4) := StableHlo.after_of_writes_sub hostOps1_15 _ hostOps1_15_writes (by decide)
    _ = W16 m c (Proc.devRef .tc main_arg4) := StableHlo.after_of_writes_sub hostOps1_14 _ hostOps1_14_writes (by decide)
    _ = W15 m c (Proc.devRef .tc main_arg4) := StableHlo.after_of_writes_sub hostOps1_13 _ hostOps1_13_writes (by decide)
    _ = W14 m c (Proc.devRef .tc main_arg4) := StableHlo.after_of_writes_sub hostOps1_12 _ hostOps1_12_writes (by decide)
    _ = W13 m c (Proc.devRef .tc main_arg4) := StableHlo.after_of_writes_sub hostOps1_11 _ hostOps1_11_writes (by decide)
    _ = W12 m c (Proc.devRef .tc main_arg4) := StableHlo.after_of_writes_sub hostOps1_10 _ hostOps1_10_writes (by decide)
    _ = W11 m c (Proc.devRef .tc main_arg4) := StableHlo.after_of_writes_sub hostOps1_9 _ hostOps1_9_writes (by decide)
    _ = W10 m c (Proc.devRef .tc main_arg4) := StableHlo.after_of_writes_sub hostOps1_8 _ hostOps1_8_writes (by decide)
    _ = W9 m c (Proc.devRef .tc main_arg4) := StableHlo.after_of_writes_sub hostOps1_7 _ hostOps1_7_writes (by decide)
    _ = W8 m c (Proc.devRef .tc main_arg4) := StableHlo.after_of_writes_sub hostOps1_6 _ hostOps1_6_writes (by decide)
    _ = W7 m c (Proc.devRef .tc main_arg4) := StableHlo.after_of_writes_sub hostOps1_5 _ hostOps1_5_writes (by decide)
    _ = W6 m c (Proc.devRef .tc main_arg4) := StableHlo.after_of_writes_sub hostOps1_4 _ hostOps1_4_writes (by decide)
    _ = W5 m c (Proc.devRef .tc main_arg4) := StableHlo.after_of_writes_sub hostOps1_3 _ hostOps1_3_writes (by decide)
    _ = W4 m c (Proc.devRef .tc main_arg4) := StableHlo.after_of_writes_sub hostOps1_2 _ hostOps1_2_writes (by decide)
    _ = W3 m c (Proc.devRef .tc main_arg4) := StableHlo.after_of_writes_sub hostOps1_1 _ hostOps1_1_writes (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- THE FRAME at any float instance: the program runs to the end and its argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W21_main_arg0 m c),
     (h c _ (mem_uc main_arg1 (by decide))).trans (W21_main_arg1 m c),
     (h c _ (mem_uc main_arg2 (by decide))).trans (W21_main_arg2 m c),
     (h c _ (mem_uc main_arg3 (by decide))).trans (W21_main_arg3 m c),
     (h c _ (mem_uc main_arg4 (by decide))).trans (W21_main_arg4 m c)⟩) (run_all m ρ)

end Cert.KernelIdeal.Hand

end
-- ==== Proof.RefRunLight.lean ====
/-
  The reference's run, read lightly: every execution of the reference program terminates, leaves in its result buffer
  what its 391 operations, folded in order over the launch contents, leave there, and leaves its five argument arrays
  as they were (no operation writes an argument: each operation writes one buffer, listed here in program order, and
  no argument is among them).
-/
import proofs.«153362_j6846177869930_2_alg».proof.Proof.RefOps
import Idealize.ShloMosaic.Lib.StableHlo.Run

noncomputable section

namespace Cert.ReferenceIdeal.ValueL

open Cert.ReferenceIdeal Cert.ReferenceIdeal.Gen Idealize.ShloMosaic Idealize.ShloMosaic.TcCoe Idealize.SL.Sem Idealize.ShloMosaic.StableHlo

variable {F : FTy → Type} [FloatOps F]

/-- The buffer each of the 391 operations writes, in program order. -/
abbrev opsWL : List (Ref sig .tc) :=
  [
    main_v0, main_cst, main_v1, main_v2, main_v3, main_cst_0, main_v4, main_v5, main_v6, main_v7,
    main_v8, main_cst_1, main_v9, main_v10, main_v11, main_cst_2, main_v12, main_v13, main_v14, main_v15,
    main_v16, main_v17, main_cst_3, main_v18, main_v19, main_cst_4, main_v20, main_v21, main_v22, main_v23,
    main_cst_5, main_v24, main_v25, main_cst_6, main_v26, main_v27, main_v28, main_c, main_c_7, main_call0_v0,
    main_call0_v1, main_call0_v2, main_call0_v3, main_call0_v4, main_v29, main_v30, main_v31, main_c_8, main_c_9, main_call1_v0,
    main_call1_v1, main_call1_v2, main_call1_v3, main_call1_v4, main_v32, main_v33, main_c_10, main_v34, main_v35, main_c_11,
    main_c_12, main_call2_v0, main_call2_v1, main_call2_v2, main_call2_v3, main_call2_v4, main_v36, main_c_13, main_v37, main_v38,
    main_c_14, main_c_15, main_call3_v0, main_call3_v1, main_call3_v2, main_call3_v3, main_call3_v4, main_v39, main_v40, main_v41,
    main_v42, main_v43, main_v44, main_v45, main_v46, main_cst_16, main_v47, main_v48, main_cst_17, main_v49,
    main_v50, main_v51, main_v52, main_cst_18, main_v53, main_v54, main_v55, main_v56, main_cst_19, main_v57,
    main_v58, main_v59, main_v60, main_v61, main_v62, main_c_20, main_v63, main_v64, main_c_21, main_v65,
    main_v66, main_v67, main_c_22, main_v68, main_v69, main_c_23, main_v70, main_v71, main_v72, main_c_24,
    main_v73, main_v74, main_c_25, main_v75, main_v76, main_v77, main_v78, main_v79, main_v80, main_v81,
    main_v82, main_v83, main_v84, main_v85, main_c_26, main_v86, main_v87, main_c_27, main_v88, main_v89,
    main_v90, main_c_28, main_v91, main_v92, main_c_29, main_v93, main_v94, main_v95, main_c_30, main_v96,
    main_v97, main_c_31, main_v98, main_v99, main_v100, main_v101, main_v102, main_v103, main_v104, main_v105,
    main_v106, main_v107, main_v108, main_v109, main_c_32, main_v110, main_v111, main_c_33, main_v112, main_v113,
    main_v114, main_c_34, main_v115, main_v116, main_c_35, main_v117, main_v118, main_v119, main_c_36, main_v120,
    main_v121, main_c_37, main_v122, main_v123, main_v124, main_v125, main_v126, main_v127, main_v128, main_v129,
    main_v130, main_v131, main_v132, main_v133, main_c_38, main_v134, main_v135, main_c_39, main_v136, main_v137,
    main_v138, main_c_40, main_v139, main_v140, main_c_41, main_v141, main_v142, main_v143, main_c_42, main_v144,
    main_v145, main_c_43, main_v146, main_v147, main_v148, main_v149, main_v150, main_v151, main_v152, main_v153,
    main_v154, main_v155, main_v156, main_v157, main_v158, main_v159, main_cst_44, main_v160, main_v161, main_v162,
    main_v163, main_cst_45, main_v164, main_v165, main_v166, main_v167, main_cst_46, main_v168, main_v169, main_v170,
    main_c_47, main_c_48, main_call4_v0, main_call4_v1, main_call4_v2, main_call4_v3, main_call4_v4, main_v171, main_v172, main_c_49,
    main_v173, main_v174, main_c_50, main_c_51, main_call5_v0, main_call5_v1, main_call5_v2, main_call5_v3, main_call5_v4, main_v175,
    main_v176, main_c_52, main_c_53, main_call6_v0, main_call6_v1, main_call6_v2, main_call6_v3, main_call6_v4, main_v177, main_v178,
    main_c_54, main_v179, main_v180, main_c_55, main_c_56, main_call7_v0, main_call7_v1, main_call7_v2, main_call7_v3, main_call7_v4,
    main_v181, main_v182, main_v183, main_v184, main_v185, main_v186, main_v187, main_v188, main_v189, main_v190,
    main_v191, main_v192, main_v193, main_v194, main_v195, main_v196, main_v197, main_c_57, main_v198, main_v199,
    main_v200, main_v201, main_v202, main_v203, main_v204, main_v205, main_v206, main_v207, main_v208, main_c_58,
    main_v209, main_v210, main_v211, main_c_59, main_v212, main_v213, main_v214, main_c_60, main_v215, main_v216,
    main_v217, main_c_61, main_v218, main_v219, main_v220, main_v221, main_v222, main_v223, main_v224, main_v225,
    main_v226, main_v227, main_v228, main_v229, main_cst_62, main_v230, main_c_63, main_v231, main_v232, main_c_64,
    main_v233, main_v234, main_v235, main_c_65, main_v236, main_v237, main_c_66, main_v238, main_v239, main_v240,
    main_c_67, main_v241, main_v242, main_c_68, main_v243, main_v244, main_v245, main_v246, main_v247, main_v248,
    main_v249, main_v250, main_v251, main_v252, main_call8_cst, main_call8_v0, main_call8_cst_0, main_call8_v1, main_call8_v2, main_call8_v3,
    main_call8_v4, main_call8_v5, main_call8_v6, main_call8_cst_1, main_call8_v7, main_call8_v8, main_call8_v9, main_call8_v10, main_v253, main_v254,
    main_cst_69, main_v255, main_v256, main_cst_70, main_v257, main_cst_71, main_v258, main_v259, main_cst_72, main_v260,
    main_v261 ]

/-- Operation by operation, a line writes exactly the buffers of a list. -/
def WritesL : List (HloOp τ sig (Elt F)) → List (Ref sig .tc) → Prop
  | [], [] => True
  | op :: l, y :: W => op.writes = {Proc.devRef (τ := τ) .tc y} ∧ WritesL l W
  | _, _ => False

/-- A buffer not in the list of written buffers keeps its contents through the line. -/
theorem after_of_writesL : ∀ (l : List (HloOp τ sig (Elt F))) (W : List (Ref sig .tc)), WritesL l W →
    ∀ (V : Valuation τ sig (Elt F)) {r : Ref sig .tc}, r ∉ W → after l V (Proc.devRef .tc r) = V (Proc.devRef .tc r)
  | [], [], _, _, _, _ => rfl
  | op :: l, y :: W, h, V, r, hr => by
    rw [after_cons, after_of_writesL l W h.2 _ (fun hm => hr (List.mem_cons_of_mem _ hm))]
    refine HloOp.result_of_not_mem _ _ ?_
    rw [h.1, Finset.mem_singleton]
    exact devRef_ne_of_ne (fun e => hr (e ▸ List.mem_cons_self))
  | [], _ :: _, h, _, _, _ => h.elim
  | _ :: _, [], h, _, _, _ => h.elim

set_option maxRecDepth 16384 in
set_option maxHeartbeats 4000000 in
/-- Each operation of the reference writes the buffer listed at its place. -/
theorem ops_writes : WritesL (ops (F := F)) opsWL :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

set_option maxRecDepth 16384 in
set_option maxHeartbeats 4000000 in
/-- No operation of the reference allocates: each determines its results. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 16384 in
/-- No argument array is among the written buffers. -/
theorem args_not_written :
    main_arg0 ∉ opsWL ∧ main_arg1 ∉ opsWL ∧ main_arg2 ∉ opsWL ∧ main_arg3 ∉ opsWL ∧ main_arg4 ∉ opsWL := by
  decide

/-- An argument array holds after the run what it held at launch. -/
theorem after_arg (V : Valuation τ sig (Elt F)) {r : Ref sig .tc} (hr : r ∉ opsWL) :
    after (ops (F := F)) V (Proc.devRef .tc r) = V (Proc.devRef .tc r) :=
  after_of_writesL ops opsWL ops_writes V hr

/-- On every device, for any float values, from any memory with zero counters: every weakly fair execution of the
    reference terminates with its result buffer at the fold of the operations over the launch contents and the
    arguments unchanged. -/
theorem run_light (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v261) = StableHlo.after ops (fun b => m (c, b)) (Proc.devRef .tc main_v261)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h c main_v261,
      (h c main_arg0).trans (after_arg _ args_not_written.1),
      (h c main_arg1).trans (after_arg _ args_not_written.2.1),
      (h c main_arg2).trans (after_arg _ args_not_written.2.2.1),
      (h c main_arg3).trans (after_arg _ args_not_written.2.2.2.1),
      (h c main_arg4).trans (after_arg _ args_not_written.2.2.2.2)⟩)
    (run_seq scopedRefs_eq scopedSems_eq defs main (fun _ => ops) main_eq (fun _ => ops_sub) m ρ
      (fun _ => List.forall_iff_forall_mem.1 ops_fresh))

end Cert.ReferenceIdeal.ValueL

end
-- ==== Proof.LibAfterRead.lean ====
/-
  Reading one buffer after a line of host operations each of which writes one buffer.

  When the k-th operation of a line writes the k-th buffer of a list, a buffer that occurs once in the list holds, after
  the line, what its own operation computes from the contents the operations BEFORE it left; a buffer not in the list
  holds what it held before the line.  The same for every initial piece of the line.  A reading then takes one step per
  operation on the path from the buffer read to the line's inputs, however long the line is.  When the list has no
  repeats, "nowhere later" needs no separate check.
-/
import Idealize.ShloMosaic.Lib.StableHlo.Run
import Idealize.ShloMosaic.Lib.Pipeline.Frame

namespace Cert.LineRead

open Idealize.ShloMosaic Idealize.ShloMosaic.StableHlo

variable {τ : Topo} {sig : RefSig} {Val : EltTy → Type}

/-- Each operation of the line writes exactly the buffer listed at its place. -/
def WritesAt (ops : List (HloOp τ sig Val)) (W : List (Ref sig .tc)) : Prop :=
  List.Forall₂ (fun op y => op.writes = {Proc.devRef (τ := τ) .tc y}) ops W

theorem WritesAt.take {ops : List (HloOp τ sig Val)} {W : List (Ref sig .tc)} (h : WritesAt ops W) (j : ℕ) :
    WritesAt (ops.take j) (W.take j) := List.forall₂_take j h

/-- A buffer the line does not list keeps its contents. -/
theorem after_of_not_mem {ops : List (HloOp τ sig Val)} {W : List (Ref sig .tc)} (h : WritesAt ops W)
    (V : Valuation τ sig Val) {r : Ref sig .tc} (hr : r ∉ W) :
    after ops V (Proc.devRef .tc r) = V (Proc.devRef .tc r) := by
  induction h generalizing V with
  | nil => rfl
  | @cons op y ops' W' hop _ ih =>
    rw [after_cons, ih _ (fun hm => hr (List.mem_cons_of_mem _ hm))]
    refine HloOp.result_of_not_mem _ _ ?_
    rw [hop, Finset.mem_singleton]
    exact devRef_ne_of_ne (fun e => hr (e ▸ List.mem_cons_self))

/-- A buffer listed at place `k` and nowhere later holds what operation `k` computes from what the operations before it left. -/
theorem after_eq_result {ops : List (HloOp τ sig Val)} {W : List (Ref sig .tc)} (h : WritesAt ops W)
    (V : Valuation τ sig Val) (k : ℕ) {op : HloOp τ sig Val} {r : Ref sig .tc}
    (hop : ops[k]? = some op) (hr : W[k]? = some r) (hlater : r ∉ W.drop (k + 1)) :
    after ops V (Proc.devRef .tc r) = op.result (after (ops.take k) V) (Proc.devRef .tc r) := by
  induction h generalizing V k with
  | nil => simp at hop
  | @cons op0 y ops' W' hop0 htail ih =>
    cases k with
    | zero =>
      simp only [List.getElem?_cons_zero, Option.some.injEq] at hop hr
      subst hop; subst hr
      rw [after_cons, after_of_not_mem htail _ (by simpa using hlater)]
      rfl
    | succ k =>
      simp only [List.getElem?_cons_succ] at hop hr
      rw [after_cons, ih _ k hop hr (by simpa using hlater)]
      rfl

/-- The same for an initial piece of the line. -/
theorem after_take_eq_result {ops : List (HloOp τ sig Val)} {W : List (Ref sig .tc)} (h : WritesAt ops W)
    (V : Valuation τ sig Val) (j k : ℕ) {op : HloOp τ sig Val} {r : Ref sig .tc}
    (hop : ops[k]? = some op) (hr : W[k]? = some r) (hkj : k < j) (hlater : r ∉ (W.take j).drop (k + 1)) :
    after (ops.take j) V (Proc.devRef .tc r) = op.result (after (ops.take k) V) (Proc.devRef .tc r) := by
  have e := after_eq_result (h.take j) V k (op := op) (r := r)
    (by rw [List.getElem?_take_of_lt hkj]; exact hop) (by rw [List.getElem?_take_of_lt hkj]; exact hr) hlater
  rw [e, List.take_take, Nat.min_eq_left (Nat.le_of_lt hkj)]

/-- A buffer an initial piece of the line does not list keeps its contents through the piece. -/
theorem after_take_of_not_mem {ops : List (HloOp τ sig Val)} {W : List (Ref sig .tc)} (h : WritesAt ops W)
    (V : Valuation τ sig Val) (j : ℕ) {r : Ref sig .tc} (hr : r ∉ W.take j) :
    after (ops.take j) V (Proc.devRef .tc r) = V (Proc.devRef .tc r) :=
  after_of_not_mem (h.take j) V hr

/-- … in particular a buffer the whole line does not list. -/
theorem after_take_of_not_mem_list {ops : List (HloOp τ sig Val)} {W : List (Ref sig .tc)} (h : WritesAt ops W)
    (V : Valuation τ sig Val) (j : ℕ) {r : Ref sig .tc} (hr : r ∉ W) :
    after (ops.take j) V (Proc.devRef .tc r) = V (Proc.devRef .tc r) :=
  after_take_of_not_mem h V j (fun hm => hr (List.mem_of_mem_take hm))

/-- In a list without repeats the entry at place `k` does not occur later. -/
theorem not_mem_drop_of_nodup {α : Type} {W : List α} (hnd : W.Nodup) {k : ℕ} {r : α} (hr : W[k]? = some r) :
    r ∉ W.drop (k + 1) := by
  induction W generalizing k with
  | nil => simp at hr
  | cons a W ih =>
    rw [List.nodup_cons] at hnd
    cases k with
    | zero =>
      simp only [List.getElem?_cons_zero, Option.some.injEq] at hr
      subst hr
      simpa using hnd.1
    | succ k =>
      simp only [List.getElem?_cons_succ] at hr
      simpa using ih hnd.2 hr

/-- The reading step when the list of written buffers has no repeats. -/
theorem after_eq_result_of_nodup {ops : List (HloOp τ sig Val)} {W : List (Ref sig .tc)} (h : WritesAt ops W)
    (hnd : W.Nodup) (V : Valuation τ sig Val) (k : ℕ) {op : HloOp τ sig Val} {r : Ref sig .tc}
    (hop : ops[k]? = some op) (hr : W[k]? = some r) :
    after ops V (Proc.devRef .tc r) = op.result (after (ops.take k) V) (Proc.devRef .tc r) :=
  after_eq_result h V k hop hr (not_mem_drop_of_nodup hnd hr)

/-- The same for an initial piece of the line. -/
theorem after_take_eq_result_of_nodup {ops : List (HloOp τ sig Val)} {W : List (Ref sig .tc)} (h : WritesAt ops W)
    (hnd : W.Nodup) (V : Valuation τ sig Val) (j k : ℕ) {op : HloOp τ sig Val} {r : Ref sig .tc}
    (hop : ops[k]? = some op) (hr : W[k]? = some r) (hkj : k < j) :
    after (ops.take j) V (Proc.devRef .tc r) = op.result (after (ops.take k) V) (Proc.devRef .tc r) :=
  after_take_eq_result h V j k hop hr hkj (fun hm =>
    not_mem_drop_of_nodup hnd hr (by
      rw [List.drop_take] at hm
      exact List.mem_of_mem_take hm))

/-- An operation of three operands given as a literal family: its result with each operand's contents at its own
    reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LineRead
-- ==== Proof.RefStagesA.lean ====
/-
  The reference program's run, read one operation at a time.

  The program is a line of 391 host operations, each writing one buffer that no other operation writes.  After the first
  `j` operations, the buffer the k-th operation writes (k < j) holds that operation's function of what its operands held
  after the first `k` operations; by induction along the line this is the buffer's stage, the function of the program's
  arguments composed from the operations' functions in program order.  The last operation's buffer is the result.
-/
import proofs.«153362_j6846177869930_2_alg».proof.Proof.RefOps
import proofs.«153362_j6846177869930_2_alg».proof.Proof.RefReadP
import proofs.«153362_j6846177869930_2_alg».proof.Proof.LibAfterRead

noncomputable section

namespace Cert.ReferenceIdeal.ValueL

open Cert.ReferenceIdeal Cert.ReferenceIdeal.Gen Idealize.ShloMosaic Idealize.ShloMosaic.TcCoe Idealize.ShloMosaic.StableHlo
open Cert.LineRead

variable {F : FTy → Type} [FloatOps F]

/-- The buffers the program's operations write, in program order. -/
abbrev opsW : List (Ref sig .tc) :=
  [main_v0, main_cst, main_v1, main_v2, main_v3, main_cst_0, main_v4, main_v5, main_v6, main_v7, main_v8, main_cst_1, main_v9, main_v10, main_v11, main_cst_2, main_v12, main_v13, main_v14, main_v15, main_v16, main_v17, main_cst_3, main_v18, main_v19, main_cst_4, main_v20, main_v21, main_v22, main_v23, main_cst_5, main_v24, main_v25, main_cst_6, main_v26, main_v27, main_v28, main_c, main_c_7, main_call0_v0, main_call0_v1, main_call0_v2, main_call0_v3, main_call0_v4, main_v29, main_v30, main_v31, main_c_8, main_c_9, main_call1_v0, main_call1_v1, main_call1_v2, main_call1_v3, main_call1_v4, main_v32, main_v33, main_c_10, main_v34, main_v35, main_c_11, main_c_12, main_call2_v0, main_call2_v1, main_call2_v2, main_call2_v3, main_call2_v4, main_v36, main_c_13, main_v37, main_v38, main_c_14, main_c_15, main_call3_v0, main_call3_v1, main_call3_v2, main_call3_v3, main_call3_v4, main_v39, main_v40, main_v41, main_v42, main_v43, main_v44, main_v45, main_v46, main_cst_16, main_v47, main_v48, main_cst_17, main_v49, main_v50, main_v51, main_v52, main_cst_18, main_v53, main_v54, main_v55, main_v56, main_cst_19, main_v57, main_v58, main_v59, main_v60, main_v61, main_v62, main_c_20, main_v63, main_v64, main_c_21, main_v65, main_v66, main_v67, main_c_22, main_v68, main_v69, main_c_23, main_v70, main_v71, main_v72, main_c_24, main_v73, main_v74, main_c_25, main_v75, main_v76, main_v77, main_v78, main_v79, main_v80, main_v81, main_v82, main_v83, main_v84, main_v85, main_c_26, main_v86, main_v87, main_c_27, main_v88, main_v89, main_v90, main_c_28, main_v91, main_v92, main_c_29, main_v93, main_v94, main_v95, main_c_30, main_v96, main_v97, main_c_31, main_v98, main_v99, main_v100, main_v101, main_v102, main_v103, main_v104, main_v105, main_v106, main_v107, main_v108, main_v109, main_c_32, main_v110, main_v111, main_c_33, main_v112, main_v113, main_v114, main_c_34, main_v115, main_v116, main_c_35, main_v117, main_v118, main_v119, main_c_36, main_v120, main_v121, main_c_37, main_v122, main_v123, main_v124, main_v125, main_v126, main_v127, main_v128, main_v129, main_v130, main_v131, main_v132, main_v133, main_c_38, main_v134, main_v135, main_c_39, main_v136, main_v137, main_v138, main_c_40, main_v139, main_v140, main_c_41, main_v141, main_v142, main_v143, main_c_42, main_v144, main_v145, main_c_43, main_v146, main_v147, main_v148, main_v149, main_v150, main_v151, main_v152, main_v153, main_v154, main_v155, main_v156, main_v157, main_v158, main_v159, main_cst_44, main_v160, main_v161, main_v162, main_v163, main_cst_45, main_v164, main_v165, main_v166, main_v167, main_cst_46, main_v168, main_v169, main_v170, main_c_47, main_c_48, main_call4_v0, main_call4_v1, main_call4_v2, main_call4_v3, main_call4_v4, main_v171, main_v172, main_c_49, main_v173, main_v174, main_c_50, main_c_51, main_call5_v0, main_call5_v1, main_call5_v2, main_call5_v3, main_call5_v4, main_v175, main_v176, main_c_52, main_c_53, main_call6_v0, main_call6_v1, main_call6_v2, main_call6_v3, main_call6_v4, main_v177, main_v178, main_c_54, main_v179, main_v180, main_c_55, main_c_56, main_call7_v0, main_call7_v1, main_call7_v2, main_call7_v3, main_call7_v4, main_v181, main_v182, main_v183, main_v184, main_v185, main_v186, main_v187, main_v188, main_v189, main_v190, main_v191, main_v192, main_v193, main_v194, main_v195, main_v196, main_v197, main_c_57, main_v198, main_v199, main_v200, main_v201, main_v202, main_v203, main_v204, main_v205, main_v206, main_v207, main_v208, main_c_58, main_v209, main_v210, main_v211, main_c_59, main_v212, main_v213, main_v214, main_c_60, main_v215, main_v216, main_v217, main_c_61, main_v218, main_v219, main_v220, main_v221, main_v222, main_v223, main_v224, main_v225, main_v226, main_v227, main_v228, main_v229, main_cst_62, main_v230, main_c_63, main_v231, main_v232, main_c_64, main_v233, main_v234, main_v235, main_c_65, main_v236, main_v237, main_c_66, main_v238, main_v239, main_v240, main_c_67, main_v241, main_v242, main_c_68, main_v243, main_v244, main_v245, main_v246, main_v247, main_v248, main_v249, main_v250, main_v251, main_v252, main_call8_cst, main_call8_v0, main_call8_cst_0, main_call8_v1, main_call8_v2, main_call8_v3, main_call8_v4, main_call8_v5, main_call8_v6, main_call8_cst_1, main_call8_v7, main_call8_v8, main_call8_v9, main_call8_v10, main_v253, main_v254, main_cst_69, main_v255, main_v256, main_cst_70, main_v257, main_cst_71, main_v258, main_v259, main_cst_72, main_v260, main_v261]

/-- The buffers lie in one memory space at different places, so the list has no repeats. -/
theorem opsW_nodup : opsW.Nodup :=
  List.Nodup.of_map (fun r : Ref sig .tc => r.idx.val) (by decide +kernel)

theorem arg0_not_mem : main_arg0 ∉ opsW := fun h =>
  absurd (List.mem_map_of_mem (f := fun r : Ref sig .tc => r.idx.val) h) (by decide +kernel)
theorem arg1_not_mem : main_arg1 ∉ opsW := fun h =>
  absurd (List.mem_map_of_mem (f := fun r : Ref sig .tc => r.idx.val) h) (by decide +kernel)
theorem arg2_not_mem : main_arg2 ∉ opsW := fun h =>
  absurd (List.mem_map_of_mem (f := fun r : Ref sig .tc => r.idx.val) h) (by decide +kernel)
theorem arg3_not_mem : main_arg3 ∉ opsW := fun h =>
  absurd (List.mem_map_of_mem (f := fun r : Ref sig .tc => r.idx.val) h) (by decide +kernel)
theorem arg4_not_mem : main_arg4 ∉ opsW := fun h =>
  absurd (List.mem_map_of_mem (f := fun r : Ref sig .tc => r.idx.val) h) (by decide +kernel)

set_option maxHeartbeats 4000000 in
/-- The k-th operation writes the k-th of these buffers. -/
theorem wr : WritesAt (ops (F := F)) opsW := by
  unfold WritesAt
  repeat (refine List.Forall₂.cons rfl ?_)
  exact List.Forall₂.nil

/-! ### The stages, in program order -/

theorem st_main_v0 (V : Valuation τ sig (Elt F)) (j : ℕ) (hj : 0 < j) :
    after (List.take j ops) V (Proc.devRef .tc main_v0) = ReadP.val_main_v0 (F := F) (V (Proc.devRef .tc main_arg0)) := by
  rw [after_take_eq_result_of_nodup wr opsW_nodup V j 0 (r := main_v0) rfl rfl hj]
  rw [binary_result]
  rw [after_take_of_not_mem_list wr V 0 (r := main_arg0) arg0_not_mem]
  unfold ReadP.val_main_v0
  rfl

theorem st_main_cst (V : Valuation τ sig (Elt F)) (j : ℕ) (hj : 1 < j) :
    after (List.take j ops) V (Proc.devRef .tc main_cst) = ReadP.val_main_cst (F := F) := by
  rw [after_take_eq_result_of_nodup wr opsW_nodup V j 1 (r := main_cst) rfl rfl hj]
  rw [nullary_result]
  unfold ReadP.val_main_cst
  rfl

theorem st_main_v1 (V : Valuation τ sig (Elt F)) (j : ℕ) (hj : 2 < j) :
    after (List.take j ops) V (Proc.devRef .tc main_v1) = ReadP.val_main_v1 (F := F) (V (Proc.devRef .tc main_arg0)) := by
  rw [after_take_eq_result_of_nodup wr opsW_nodup V j 2 (r := main_v1) rfl rfl hj]
  rw [binary_result]
  rw [st_main_v0 V 2 (by decide)]
  rw [st_main_cst V 2 (by decide)]
  unfold ReadP.val_main_v1
  generalize ReadP.val_main_v0 (F := F) (V (Proc.devRef .tc main_arg0)) = A0
  generalize ReadP.val_main_cst (F := F) = A1
  rfl

theorem st_main_v2 (V : Valuation τ sig (Elt F)) (j : ℕ) (hj : 3 < j) :
    after (List.take j ops) V (Proc.devRef .tc main_v2) = ReadP.val_main_v2 (F := F) (V (Proc.devRef .tc main_arg0)) := by
  rw [after_take_eq_result_of_nodup wr opsW_nodup V j 3 (r := main_v2) rfl rfl hj]
  rw [unary_result]
  rw [st_main_v1 V 3 (by decide)]
  unfold ReadP.val_main_v2
  generalize ReadP.val_main_v1 (F := F) (V (Proc.devRef .tc main_arg0)) = A0
  rfl

theorem st_main_v3 (V : Valuation τ sig (Elt F)) (j : ℕ) (hj : 4 < j) :
    after (List.take j ops) V (Proc.devRef .tc main_v3) = ReadP.val_main_v3 (F := F) (V (Proc.devRef .tc main_arg0)) := by
  rw [after_take_eq_result_of_nodup wr opsW_nodup V j 4 (r := main_v3) rfl rfl hj]
  rw [unary_result]
  rw [st_main_v2 V 4 (by decide)]
  unfold ReadP.val_main_v3
  generalize ReadP.val_main_v2 (F := F) (V (Proc.devRef .tc main_arg0)) = A0
  rfl

theorem st_main_cst_0 (V : Valuation τ sig (Elt F)) (j : ℕ) (hj : 5 < j) :
    after (List.take j ops) V (Proc.devRef .tc main_cst_0) = ReadP.val_main_cst_0 (F := F) := by
  rw [after_take_eq_result_of_nodup wr opsW_nodup V j 5 (r := main_cst_0) rfl rfl hj]
  rw [nullary_result]
  unfold ReadP.val_main_cst_0
  rfl

theorem st_main_v4 (V : Valuation τ sig (Elt F)) (j : ℕ) (hj : 6 < j) :
    after (List.take j ops) V (Proc.devRef .tc main_v4) = ReadP.val_main_v4 (F := F) := by
  rw [after_take_eq_result_of_nodup wr opsW_nodup V j 6 (r := main_v4) rfl rfl hj]
  rw [unary_result]
  rw [st_main_cst_0 V 6 (by decide)]
  unfold ReadP.val_main_v4
  generalize ReadP.val_main_cst_0 (F := F) = A0
  rfl

theorem st_main_v5 (V : Valuation τ sig (Elt F)) (j : ℕ) (hj : 7 < j) :
    after (List.take j ops) V (Proc.devRef .tc main_v5) = ReadP.val_main_v5 (F := F) (V (Proc.devRef .tc main_arg0)) := by
  rw [after_take_eq_result_of_nodup wr opsW_nodup V j 7 (r := main_v5) rfl rfl hj]
  rw [binary_result]
  rw [st_main_v3 V 7 (by decide)]
  rw [st_main_v4 V 7 (by decide)]
  unfold ReadP.val_main_v5
  generalize ReadP.val_main_v3 (F := F) (V (Proc.devRef .tc main_arg0)) = A0
  generalize ReadP.val_main_v4 (F := F) = A1
  rfl

theorem st_main_v6 (V : Valuation τ sig (Elt F)) (j : ℕ) (hj : 8 < j) :
    after (List.take j ops) V (Proc.devRef .tc main_v6) = ReadP.val_main_v6 (F := F) (V (Proc.devRef .tc main_arg0)) := by
  rw [after_take_eq_result_of_nodup wr opsW_nodup V j 8 (r := main_v6) rfl rfl hj]
  rw [unary_result]
  rw [st_main_v5 V 8 (by decide)]
  unfold ReadP.val_main_v6
  generalize ReadP.val_main_v5 (F := F) (V (Proc.devRef .tc main_arg0)) = A0
  rfl

theorem st_main_v7 (V : Valuation τ sig (Elt F)) (j : ℕ) (hj : 9 < j) :
    after (List.take j ops) V (Proc.devRef .tc main_v7) = ReadP.val_main_v7 (F := F) (V (Proc.devRef .tc main_arg0)) := by
  rw [after_take_eq_result_of_nodup wr opsW_nodup V j 9 (r := main_v7) rfl rfl hj]
  rw [binary_result]
  rw [after_take_of_not_mem_list wr V 9 (r := main_arg0) arg0_not_mem]
  rw [st_main_v6 V 9 (by decide)]
  unfold ReadP.val_main_v7
  generalize ReadP.val_main_v6 (F := F) (V (Proc.devRef .tc main_arg0)) = A0
  rfl

theorem st_main_v8 (V : Valuation τ sig (Elt F)) (j : ℕ) (hj : 10 < j) :
    after (List.take j ops) V (Proc.devRef .tc main_v8) = ReadP.val_main_v8 (F := F) (V (Proc.devRef .tc main_arg1)) := by
  rw [after_take_eq_result_of_nodup wr opsW_nodup V j 10 (r := main_v8) rfl rfl hj]
  rw [binary_result]
  rw [after_take_of_not_mem_list wr V 10 (r := main_arg1) arg1_not_mem]
  unfold ReadP.val_main_v8
  rfl

theorem st_main_cst_1 (V : Valuation τ sig (Elt F)) (j : ℕ) (hj : 11 < j) :
    after (List.take j ops) V (Proc.devRef .tc main_cst_1) = ReadP.val_main_cst_1 (F := F) := by
  rw [after_take_eq_result_of_nodup wr opsW_nodup V j 11 (r := main_cst_1) rfl rfl hj]
  rw [nullary_result]
  unfold ReadP.val_main_cst_1
  rfl

theorem st_main_v9 (V : Valuation τ sig (Elt F)) (j : ℕ) (hj : 12 < j) :
    after (List.take j ops) V (Proc.devRef .tc main_v9) = ReadP.val_main_v9 (F := F) (V (Proc.devRef .tc main_arg1)) := by
  rw [after_take_eq_result_of_nodup wr opsW_nodup V j 12 (r := main_v9) rfl rfl hj]
  rw [binary_result]
  rw [st_main_v8 V 12 (by decide)]
  rw [st_main_cst_1 V 12 (by decide)]
  unfold ReadP.val_main_v9
  generalize ReadP.val_main_v8 (F := F) (V (Proc.devRef .tc main_arg1)) = A0
  generalize ReadP.val_main_cst_1 (F := F) = A1
  rfl

theorem st_main_v10 (V : Valuation τ sig (Elt F)) (j : ℕ) (hj : 13 < j) :
    after (List.take j ops) V (Proc.devRef .tc main_v10) = ReadP.val_main_v10 (F := F) (V (Proc.devRef .tc main_arg1)) := by
  rw [after_take_eq_result_of_nodup wr opsW_nodup V j 13 (r := main_v10) rfl rfl hj]
  rw [unary_result]
  rw [st_main_v9 V 13 (by decide)]
  unfold ReadP.val_main_v10
  generalize ReadP.val_main_v9 (F := F) (V (Proc.devRef .tc main_arg1)) = A0
  rfl

theorem st_main_v11 (V : Valuation τ sig (Elt F)) (j : ℕ) (hj : 14 < j) :
    after (List.take j ops) V (Proc.devRef .tc main_v11) = ReadP.val_main_v11 (F := F) (V (Proc.devRef .tc main_arg1)) := by
  rw [after_take_eq_result_of_nodup wr opsW_nodup V j 14 (r := main_v11) rfl rfl hj]
  rw [unary_result]
  rw [st_main_v10 V 14 (by decide)]
  unfold ReadP.val_main_v11
  generalize ReadP.val_main_v10 (F := F) (V (Proc.devRef .tc main_arg1)) = A0
  rfl

theorem st_main_cst_2 (V : Valuation τ sig (Elt F)) (j : ℕ) (hj : 15 < j) :
    after (List.take j ops) V (Proc.devRef .tc main_cst_2) = ReadP.val_main_cst_2 (F := F) := by
  rw [after_take_eq_result_of_nodup wr opsW_nodup V j 15 (r := main_cst_2) rfl rfl hj]
  rw [nullary_result]
  unfold ReadP.val_main_cst_2
  rfl

theorem st_main_v12 (V : Valuation τ sig (Elt F)) (j : ℕ) (hj : 16 < j) :
    after (List.take j ops) V (Proc.devRef .tc main_v12) = ReadP.val_main_v12 (F := F) := by
  rw [after_take_eq_result_of_nodup wr opsW_nodup V j 16 (r := main_v12) rfl rfl hj]
  rw [unary_result]
  rw [st_main_cst_2 V 16 (by decide)]
  unfold ReadP.val_main_v12
  generalize ReadP.val_main_cst_2 (F := F) = A0
  rfl

theorem st_main_v13 (V : Valuation τ sig (Elt F)) (j : ℕ) (hj : 17 < j) :
    after (List.take j ops) V (Proc.devRef .tc main_v13) = ReadP.val_main_v13 (F := F) (V (Proc.devRef .tc main_arg1)) := by
  rw [after_take_eq_result_of_nodup wr opsW_nodup V j 17 (r := main_v13) rfl rfl hj]
  rw [binary_result]
  rw [st_main_v11 V 17 (by decide)]
  rw [st_main_v12 V 17 (by decide)]
  unfold ReadP.val_main_v13
  generalize ReadP.val_main_v11 (F := F) (V (Proc.devRef .tc main_arg1)) = A0
  generalize ReadP.val_main_v12 (F := F) = A1
  rfl

theorem st_main_v14 (V : Valuation τ sig (Elt F)) (j : ℕ) (hj : 18 < j) :
    after (List.take j ops) V (Proc.devRef .tc main_v14) = ReadP.val_main_v14 (F := F) (V (Proc.devRef .tc main_arg1)) := by
  rw [after_take_eq_result_of_nodup wr opsW_nodup V j 18 (r := main_v14) rfl rfl hj]
  rw [unary_result]
  rw [st_main_v13 V 18 (by decide)]
  unfold ReadP.val_main_v14
  generalize ReadP.val_main_v13 (F := F) (V (Proc.devRef .tc main_arg1)) = A0
  rfl

theorem st_main_v15 (V : Valuation τ sig (Elt F)) (j : ℕ) (hj : 19 < j) :
    after (List.take j ops) V (Proc.devRef .tc main_v15) = ReadP.val_main_v15 (F := F) (V (Proc.devRef .tc main_arg1)) := by
  rw [after_take_eq_result_of_nodup wr opsW_nodup V j 19 (r := main_v15) rfl rfl hj]
  rw [binary_result]
  rw [after_take_of_not_mem_list wr V 19 (r := main_arg1) arg1_not_mem]
  rw [st_main_v14 V 19 (by decide)]
  unfold ReadP.val_main_v15
  generalize ReadP.val_main_v14 (F := F) (V (Proc.devRef .tc main_arg1)) = A0
  rfl

theorem st_main_v16 (V : Valuation τ sig (Elt F)) (j : ℕ) (hj : 20 < j) :
    after (List.take j ops) V (Proc.devRef .tc main_v16) = ReadP.val_main_v16 (F := F) (V (Proc.devRef .tc main_arg2)) := by
  rw [after_take_eq_result_of_nodup wr opsW_nodup V j 20 (r := main_v16) rfl rfl hj]
  rw [unary_result]
  rw [after_take_of_not_mem_list wr V 20 (r := main_arg2) arg2_not_mem]
  unfold ReadP.val_main_v16
  rfl

theorem st_main_v17 (V : Valuation τ sig (Elt F)) (j : ℕ) (hj : 21 < j) :
    after (List.take j ops) V (Proc.devRef .tc main_v17) = ReadP.val_main_v17 (F := F) (V (Proc.devRef .tc main_arg2)) := by
  rw [after_take_eq_result_of_nodup wr opsW_nodup V j 21 (r := main_v17) rfl rfl hj]
  rw [reshape_result]
  rw [st_main_v16 V 21 (by decide)]
  unfold ReadP.val_main_v17
  generalize ReadP.val_main_v16 (F := F) (V (Proc.devRef .tc main_arg2)) = A0
  rfl

theorem st_main_cst_3 (V : Valuation τ sig (Elt F)) (j : ℕ) (hj : 22 < j) :
    after (List.take j ops) V (Proc.devRef .tc main_cst_3) = ReadP.val_main_cst_3 (F := F) := by
  rw [after_take_eq_result_of_nodup wr opsW_nodup V j 22 (r := main_cst_3) rfl rfl hj]
  rw [nullary_result]
  unfold ReadP.val_main_cst_3
  rfl

theorem st_main_v18 (V : Valuation τ sig (Elt F)) (j : ℕ) (hj : 23 < j) :
    after (List.take j ops) V (Proc.devRef .tc main_v18) = ReadP.val_main_v18 (F := F) := by
  rw [after_take_eq_result_of_nodup wr opsW_nodup V j 23 (r := main_v18) rfl rfl hj]
  rw [unary_result]
  rw [st_main_cst_3 V 23 (by decide)]
  unfold ReadP.val_main_v18
  generalize ReadP.val_main_cst_3 (F := F) = A0
  rfl

theorem st_main_v19 (V : Valuation τ sig (Elt F)) (j : ℕ) (hj : 24 < j) :
    after (List.take j ops) V (Proc.devRef .tc main_v19) = ReadP.val_main_v19 (F := F) (V (Proc.devRef .tc main_arg2)) := by
  rw [after_take_eq_result_of_nodup wr opsW_nodup V j 24 (r := main_v19) rfl rfl hj]
  rw [binary_result]
  rw [st_main_v17 V 24 (by decide)]
  rw [st_main_v18 V 24 (by decide)]
  unfold ReadP.val_main_v19
  generalize ReadP.val_main_v17 (F := F) (V (Proc.devRef .tc main_arg2)) = A0
  generalize ReadP.val_main_v18 (F := F) = A1
  rfl

theorem st_main_cst_4 (V : Valuation τ sig (Elt F)) (j : ℕ) (hj : 25 < j) :
    after (List.take j ops) V (Proc.devRef .tc main_cst_4) = ReadP.val_main_cst_4 (F := F) := by
  rw [after_take_eq_result_of_nodup wr opsW_nodup V j 25 (r := main_cst_4) rfl rfl hj]
  rw [nullary_result]
  unfold ReadP.val_main_cst_4
  rfl

theorem st_main_v20 (V : Valuation τ sig (Elt F)) (j : ℕ) (hj : 26 < j) :
    after (List.take j ops) V (Proc.devRef .tc main_v20) = ReadP.val_main_v20 (F := F) := by
  rw [after_take_eq_result_of_nodup wr opsW_nodup V j 26 (r := main_v20) rfl rfl hj]
  rw [unary_result]
  rw [st_main_cst_4 V 26 (by decide)]
  unfold ReadP.val_main_v20
  generalize ReadP.val_main_cst_4 (F := F) = A0
  rfl

theorem st_main_v21 (V : Valuation τ sig (Elt F)) (j : ℕ) (hj : 27 < j) :
    after (List.take j ops) V (Proc.devRef .tc main_v21) = ReadP.val_main_v21 (F := F) (V (Proc.devRef .tc main_arg2)) := by
  rw [after_take_eq_result_of_nodup wr opsW_nodup V j 27 (r := main_v21) rfl rfl hj]
  rw [binary_result]
  rw [st_main_v19 V 27 (by decide)]
  rw [st_main_v20 V 27 (by decide)]
  unfold ReadP.val_main_v21
  generalize ReadP.val_main_v19 (F := F) (V (Proc.devRef .tc main_arg2)) = A0
  generalize ReadP.val_main_v20 (F := F) = A1
  rfl

theorem st_main_v22 (V : Valuation τ sig (Elt F)) (j : ℕ) (hj : 28 < j) :
    after (List.take j ops) V (Proc.devRef .tc main_v22) = ReadP.val_main_v22 (F := F) (V (Proc.devRef .tc main_arg2)) := by
  rw [after_take_eq_result_of_nodup wr opsW_nodup V j 28 (r := main_v22) rfl rfl hj]
  rw [unary_result]
  rw [after_take_of_not_mem_list wr V 28 (r := main_arg2) arg2_not_mem]
  unfold ReadP.val_main_v22
  rfl

theorem st_main_v23 (V : Valuation τ sig (Elt F)) (j : ℕ) (hj : 29 < j) :
    after (List.take j ops) V (Proc.devRef .tc main_v23) = ReadP.val_main_v23 (F := F) (V (Proc.devRef .tc main_arg2)) := by
  rw [after_take_eq_result_of_nodup wr opsW_nodup V j 29 (r := main_v23) rfl rfl hj]
  rw [reshape_result]
  rw [st_main_v22 V 29 (by decide)]
  unfold ReadP.val_main_v23
  generalize ReadP.val_main_v22 (F := F) (V (Proc.devRef .tc main_arg2)) = A0
  rfl

theorem st_main_cst_5 (V : Valuation τ sig (Elt F)) (j : ℕ) (hj : 30 < j) :
    after (List.take j ops) V (Proc.devRef .tc main_cst_5) = ReadP.val_main_cst_5 (F := F) := by
  rw [after_take_eq_result_of_nodup wr opsW_nodup V j 30 (r := main_cst_5) rfl rfl hj]
  rw [nullary_result]
  unfold ReadP.val_main_cst_5
  rfl

theorem st_main_v24 (V : Valuation τ sig (Elt F)) (j : ℕ) (hj : 31 < j) :
    after (List.take j ops) V (Proc.devRef .tc main_v24) = ReadP.val_main_v24 (F := F) := by
  rw [after_take_eq_result_of_nodup wr opsW_nodup V j 31 (r := main_v24) rfl rfl hj]
  rw [unary_result]
  rw [st_main_cst_5 V 31 (by decide)]
  unfold ReadP.val_main_v24
  generalize ReadP.val_main_cst_5 (F := F) = A0
  rfl

theorem st_main_v25 (V : Valuation τ sig (Elt F)) (j : ℕ) (hj : 32 < j) :
    after (List.take j ops) V (Proc.devRef .tc main_v25) = ReadP.val_main_v25 (F := F) (V (Proc.devRef .tc main_arg2)) := by
  rw [after_take_eq_result_of_nodup wr opsW_nodup V j 32 (r := main_v25) rfl rfl hj]
  rw [binary_result]
  rw [st_main_v23 V 32 (by decide)]
  rw [st_main_v24 V 32 (by decide)]
  unfold ReadP.val_main_v25
  generalize ReadP.val_main_v23 (F := F) (V (Proc.devRef .tc main_arg2)) = A0
  generalize ReadP.val_main_v24 (F := F) = A1
  rfl

theorem st_main_cst_6 (V : Valuation τ sig (Elt F)) (j : ℕ) (hj : 33 < j) :
    after (List.take j ops) V (Proc.devRef .tc main_cst_6) = ReadP.val_main_cst_6 (F := F) := by
  rw [after_take_eq_result_of_nodup wr opsW_nodup V j 33 (r := main_cst_6) rfl rfl hj]
  rw [nullary_result]
  unfold ReadP.val_main_cst_6
  rfl

theorem st_main_v26 (V : Valuation τ sig (Elt F)) (j : ℕ) (hj : 34 < j) :
    after (List.take j ops) V (Proc.devRef .tc main_v26) = ReadP.val_main_v26 (F := F) := by
  rw [after_take_eq_result_of_nodup wr opsW_nodup V j 34 (r := main_v26) rfl rfl hj]
  rw [unary_result]
  rw [st_main_cst_6 V 34 (by decide)]
  unfold ReadP.val_main_v26
  generalize ReadP.val_main_cst_6 (F := F) = A0
  rfl

theorem st_main_v27 (V : Valuation τ sig (Elt F)) (j : ℕ) (hj : 35 < j) :
    after (List.take j ops) V (Proc.devRef .tc main_v27) = ReadP.val_main_v27 (F := F) (V (Proc.devRef .tc main_arg2)) := by
  rw [after_take_eq_result_of_nodup wr opsW_nodup V j 35 (r := main_v27) rfl rfl hj]
  rw [binary_result]
  rw [st_main_v25 V 35 (by decide)]
  rw [st_main_v26 V 35 (by decide)]
  unfold ReadP.val_main_v27
  generalize ReadP.val_main_v25 (F := F) (V (Proc.devRef .tc main_arg2)) = A0
  generalize ReadP.val_main_v26 (F := F) = A1
  rfl

theorem st_main_v28 (V : Valuation τ sig (Elt F)) (j : ℕ) (hj : 36 < j) :
    after (List.take j ops) V (Proc.devRef .tc main_v28) = ReadP.val_main_v28 (F := F) (V (Proc.devRef .tc main_arg2)) := by
  rw [after_take_eq_result_of_nodup wr opsW_nodup V j 36 (r := main_v28) rfl rfl hj]
  rw [unary_result]
  rw [st_main_v21 V 36 (by decide)]
  unfold ReadP.val_main_v28
  generalize ReadP.val_main_v21 (F := F) (V (Proc.devRef .tc main_arg2)) = A0
  rfl

theorem st_main_c (V : Valuation τ sig (Elt F)) (j : ℕ) (hj : 37 < j) :
    after (List.take j ops) V (Proc.devRef .tc main_c) = ReadP.val_main_c (F := F) := by
  rw [after_take_eq_result_of_nodup wr opsW_nodup V j 37 (r := main_c) rfl rfl hj]
  rw [nullary_result]
  unfold ReadP.val_main_c
  rfl

theorem st_main_c_7 (V : Valuation τ sig (Elt F)) (j : ℕ) (hj : 38 < j) :
    after (List.take j ops) V (Proc.devRef .tc main_c_7) = ReadP.val_main_c_7 (F := F) := by
  rw [after_take_eq_result_of_nodup wr opsW_nodup V j 38 (r := main_c_7) rfl rfl hj]
  rw [nullary_result]
  unfold ReadP.val_main_c_7
  rfl

theorem st_main_call0_v0 (V : Valuation τ sig (Elt F)) (j : ℕ) (hj : 39 < j) :
    after (List.take j ops) V (Proc.devRef .tc main_call0_v0) = ReadP.val_main_call0_v0 (F := F) := by
  rw [after_take_eq_result_of_nodup wr opsW_nodup V j 39 (r := main_call0_v0) rfl rfl hj]
  rw [unary_result]
  rw [st_main_c V 39 (by decide)]
  unfold ReadP.val_main_call0_v0
  generalize ReadP.val_main_c (F := F) = A0
  rfl

theorem st_main_call0_v1 (V : Valuation τ sig (Elt F)) (j : ℕ) (hj : 40 < j) :
    after (List.take j ops) V (Proc.devRef .tc main_call0_v1) = ReadP.val_main_call0_v1 (F := F) := by
  rw [after_take_eq_result_of_nodup wr opsW_nodup V j 40 (r := main_call0_v1) rfl rfl hj]
  rw [unary_result]
  rw [st_main_call0_v0 V 40 (by decide)]
  unfold ReadP.val_main_call0_v1
  generalize ReadP.val_main_call0_v0 (F := F) = A0
  rfl

theorem st_main_call0_v2 (V : Valuation τ sig (Elt F)) (j : ℕ) (hj : 41 < j) :
    after (List.take j ops) V (Proc.devRef .tc main_call0_v2) = ReadP.val_main_call0_v2 (F := F) (V (Proc.devRef .tc main_arg2)) := by
  rw [after_take_eq_result_of_nodup wr opsW_nodup V j 41 (r := main_call0_v2) rfl rfl hj]
  rw [binary_result]
  rw [st_main_call0_v1 V 41 (by decide)]
  rw [st_main_v28 V 41 (by decide)]
  unfold ReadP.val_main_call0_v2
  generalize ReadP.val_main_call0_v1 (F := F) = A0
  generalize ReadP.val_main_v28 (F := F) (V (Proc.devRef .tc main_arg2)) = A1
  rfl

theorem st_main_call0_v3 (V : Valuation τ sig (Elt F)) (j : ℕ) (hj : 42 < j) :
    after (List.take j ops) V (Proc.devRef .tc main_call0_v3) = ReadP.val_main_call0_v3 (F := F) := by
  rw [after_take_eq_result_of_nodup wr opsW_nodup V j 42 (r := main_call0_v3) rfl rfl hj]
  rw [unary_result]
  rw [st_main_c_7 V 42 (by decide)]
  unfold ReadP.val_main_call0_v3
  generalize ReadP.val_main_c_7 (F := F) = A0
  rfl

theorem st_main_call0_v4 (V : Valuation τ sig (Elt F)) (j : ℕ) (hj : 43 < j) :
    after (List.take j ops) V (Proc.devRef .tc main_call0_v4) = ReadP.val_main_call0_v4 (F := F) := by
  rw [after_take_eq_result_of_nodup wr opsW_nodup V j 43 (r := main_call0_v4) rfl rfl hj]
  rw [unary_result]
  rw [st_main_call0_v3 V 43 (by decide)]
  unfold ReadP.val_main_call0_v4
  generalize ReadP.val_main_call0_v3 (F := F) = A0
  rfl

theorem st_main_v29 (V : Valuation τ sig (Elt F)) (j : ℕ) (hj : 44 < j) :
    after (List.take j ops) V (Proc.devRef .tc main_v29) = ReadP.val_main_v29 (F := F) (V (Proc.devRef .tc main_arg2)) := by
  rw [after_take_eq_result_of_nodup wr opsW_nodup V j 44 (r := main_v29) rfl rfl hj]
  rw [binary_result]
  rw [st_main_call0_v4 V 44 (by decide)]
  rw [st_main_call0_v2 V 44 (by decide)]
  unfold ReadP.val_main_v29
  generalize ReadP.val_main_call0_v4 (F := F) = A0
  generalize ReadP.val_main_call0_v2 (F := F) (V (Proc.devRef .tc main_arg2)) = A1
  rfl

theorem st_main_v30 (V : Valuation τ sig (Elt F)) (j : ℕ) (hj : 45 < j) :
    after (List.take j ops) V (Proc.devRef .tc main_v30) = ReadP.val_main_v30 (F := F) (V (Proc.devRef .tc main_arg2)) := by
  rw [after_take_eq_result_of_nodup wr opsW_nodup V j 45 (r := main_v30) rfl rfl hj]
  rw [unary_result]
  rw [st_main_v29 V 45 (by decide)]
  unfold ReadP.val_main_v30
  generalize ReadP.val_main_v29 (F := F) (V (Proc.devRef .tc main_arg2)) = A0
  rfl

theorem st_main_v31 (V : Valuation τ sig (Elt F)) (j : ℕ) (hj : 46 < j) :
    after (List.take j ops) V (Proc.devRef .tc main_v31) = ReadP.val_main_v31 (F := F) (V (Proc.devRef .tc main_arg2)) := by
  rw [after_take_eq_result_of_nodup wr opsW_nodup V j 46 (r := main_v31) rfl rfl hj]
  rw [unary_result]
  rw [st_main_v27 V 46 (by decide)]
  unfold ReadP.val_main_v31
  generalize ReadP.val_main_v27 (F := F) (V (Proc.devRef .tc main_arg2)) = A0
  rfl

theorem st_main_c_8 (V : Valuation τ sig (Elt F)) (j : ℕ) (hj : 47 < j) :
    after (List.take j ops) V (Proc.devRef .tc main_c_8) = ReadP.val_main_c_8 (F := F) := by
  rw [after_take_eq_result_of_nodup wr opsW_nodup V j 47 (r := main_c_8) rfl rfl hj]
  rw [nullary_result]
  unfold ReadP.val_main_c_8
  rfl

theorem st_main_c_9 (V : Valuation τ sig (Elt F)) (j : ℕ) (hj : 48 < j) :
    after (List.take j ops) V (Proc.devRef .tc main_c_9) = ReadP.val_main_c_9 (F := F) := by
  rw [after_take_eq_result_of_nodup wr opsW_nodup V j 48 (r := main_c_9) rfl rfl hj]
  rw [nullary_result]
  unfold ReadP.val_main_c_9
  rfl

theorem st_main_call1_v0 (V : Valuation τ sig (Elt F)) (j : ℕ) (hj : 49 < j) :
    after (List.take j ops) V (Proc.devRef .tc main_call1_v0) = ReadP.val_main_call1_v0 (F := F) := by
  rw [after_take_eq_result_of_nodup wr opsW_nodup V j 49 (r := main_call1_v0) rfl rfl hj]
  rw [unary_result]
  rw [st_main_c_8 V 49 (by decide)]
  unfold ReadP.val_main_call1_v0
  generalize ReadP.val_main_c_8 (F := F) = A0
  rfl

theorem st_main_call1_v1 (V : Valuation τ sig (Elt F)) (j : ℕ) (hj : 50 < j) :
    after (List.take j ops) V (Proc.devRef .tc main_call1_v1) = ReadP.val_main_call1_v1 (F := F) := by
  rw [after_take_eq_result_of_nodup wr opsW_nodup V j 50 (r := main_call1_v1) rfl rfl hj]
  rw [unary_result]
  rw [st_main_call1_v0 V 50 (by decide)]
  unfold ReadP.val_main_call1_v1
  generalize ReadP.val_main_call1_v0 (F := F) = A0
  rfl

theorem st_main_call1_v2 (V : Valuation τ sig (Elt F)) (j : ℕ) (hj : 51 < j) :
    after (List.take j ops) V (Proc.devRef .tc main_call1_v2) = ReadP.val_main_call1_v2 (F := F) (V (Proc.devRef .tc main_arg2)) := by
  rw [after_take_eq_result_of_nodup wr opsW_nodup V j 51 (r := main_call1_v2) rfl rfl hj]
  rw [binary_result]
  rw [st_main_call1_v1 V 51 (by decide)]
  rw [st_main_v31 V 51 (by decide)]
  unfold ReadP.val_main_call1_v2
  generalize ReadP.val_main_call1_v1 (F := F) = A0
  generalize ReadP.val_main_v31 (F := F) (V (Proc.devRef .tc main_arg2)) = A1
  rfl

theorem st_main_call1_v3 (V : Valuation τ sig (Elt F)) (j : ℕ) (hj : 52 < j) :
    after (List.take j ops) V (Proc.devRef .tc main_call1_v3) = ReadP.val_main_call1_v3 (F := F) := by
  rw [after_take_eq_result_of_nodup wr opsW_nodup V j 52 (r := main_call1_v3) rfl rfl hj]
  rw [unary_result]
  rw [st_main_c_9 V 52 (by decide)]
  unfold ReadP.val_main_call1_v3
  generalize ReadP.val_main_c_9 (F := F) = A0
  rfl

theorem st_main_call1_v4 (V : Valuation τ sig (Elt F)) (j : ℕ) (hj : 53 < j) :
    after (List.take j ops) V (Proc.devRef .tc main_call1_v4) = ReadP.val_main_call1_v4 (F := F) := by
  rw [after_take_eq_result_of_nodup wr opsW_nodup V j 53 (r := main_call1_v4) rfl rfl hj]
  rw [unary_result]
  rw [st_main_call1_v3 V 53 (by decide)]
  unfold ReadP.val_main_call1_v4
  generalize ReadP.val_main_call1_v3 (F := F) = A0
  rfl

theorem st_main_v32 (V : Valuation τ sig (Elt F)) (j : ℕ) (hj : 54 < j) :
    after (List.take j ops) V (Proc.devRef .tc main_v32) = ReadP.val_main_v32 (F := F) (V (Proc.devRef .tc main_arg2)) := by
  rw [after_take_eq_result_of_nodup wr opsW_nodup V j 54 (r := main_v32) rfl rfl hj]
  rw [binary_result]
  rw [st_main_call1_v4 V 54 (by decide)]
  rw [st_main_call1_v2 V 54 (by decide)]
  unfold ReadP.val_main_v32
  generalize ReadP.val_main_call1_v4 (F := F) = A0
  generalize ReadP.val_main_call1_v2 (F := F) (V (Proc.devRef .tc main_arg2)) = A1
  rfl

theorem st_main_v33 (V : Valuation τ sig (Elt F)) (j : ℕ) (hj : 55 < j) :
    after (List.take j ops) V (Proc.devRef .tc main_v33) = ReadP.val_main_v33 (F := F) (V (Proc.devRef .tc main_arg2)) := by
  rw [after_take_eq_result_of_nodup wr opsW_nodup V j 55 (r := main_v33) rfl rfl hj]
  rw [unary_result]
  rw [st_main_v32 V 55 (by decide)]
  unfold ReadP.val_main_v33
  generalize ReadP.val_main_v32 (F := F) (V (Proc.devRef .tc main_arg2)) = A0
  rfl

theorem st_main_c_10 (V : Valuation τ sig (Elt F)) (j : ℕ) (hj : 56 < j) :
    after (List.take j ops) V (Proc.devRef .tc main_c_10) = ReadP.val_main_c_10 (F := F) := by
  rw [after_take_eq_result_of_nodup wr opsW_nodup V j 56 (r := main_c_10) rfl rfl hj]
  rw [nullary_result]
  unfold ReadP.val_main_c_10
  rfl

theorem st_main_v34 (V : Valuation τ sig (Elt F)) (j : ℕ) (hj : 57 < j) :
    after (List.take j ops) V (Proc.devRef .tc main_v34) = ReadP.val_main_v34 (F := F) := by
  rw [after_take_eq_result_of_nodup wr opsW_nodup V j 57 (r := main_v34) rfl rfl hj]
  rw [unary_result]
  rw [st_main_c_10 V 57 (by decide)]
  unfold ReadP.val_main_v34
  generalize ReadP.val_main_c_10 (F := F) = A0
  rfl

theorem st_main_v35 (V : Valuation τ sig (Elt F)) (j : ℕ) (hj : 58 < j) :
    after (List.take j ops) V (Proc.devRef .tc main_v35) = ReadP.val_main_v35 (F := F) (V (Proc.devRef .tc main_arg2)) := by
  rw [after_take_eq_result_of_nodup wr opsW_nodup V j 58 (r := main_v35) rfl rfl hj]
  rw [binary_result]
  rw [st_main_v30 V 58 (by decide)]
  rw [st_main_v34 V 58 (by decide)]
  unfold ReadP.val_main_v35
  generalize ReadP.val_main_v30 (F := F) (V (Proc.devRef .tc main_arg2)) = A0
  generalize ReadP.val_main_v34 (F := F) = A1
  rfl

theorem st_main_c_11 (V : Valuation τ sig (Elt F)) (j : ℕ) (hj : 59 < j) :
    after (List.take j ops) V (Proc.devRef .tc main_c_11) = ReadP.val_main_c_11 (F := F) := by
  rw [after_take_eq_result_of_nodup wr opsW_nodup V j 59 (r := main_c_11) rfl rfl hj]
  rw [nullary_result]
  unfold ReadP.val_main_c_11
  rfl

theorem st_main_c_12 (V : Valuation τ sig (Elt F)) (j : ℕ) (hj : 60 < j) :
    after (List.take j ops) V (Proc.devRef .tc main_c_12) = ReadP.val_main_c_12 (F := F) := by
  rw [after_take_eq_result_of_nodup wr opsW_nodup V j 60 (r := main_c_12) rfl rfl hj]
  rw [nullary_result]
  unfold ReadP.val_main_c_12
  rfl

theorem st_main_call2_v0 (V : Valuation τ sig (Elt F)) (j : ℕ) (hj : 61 < j) :
    after (List.take j ops) V (Proc.devRef .tc main_call2_v0) = ReadP.val_main_call2_v0 (F := F) := by
  rw [after_take_eq_result_of_nodup wr opsW_nodup V j 61 (r := main_call2_v0) rfl rfl hj]
  rw [unary_result]
  rw [st_main_c_11 V 61 (by decide)]
  unfold ReadP.val_main_call2_v0
  generalize ReadP.val_main_c_11 (F := F) = A0
  rfl

theorem st_main_call2_v1 (V : Valuation τ sig (Elt F)) (j : ℕ) (hj : 62 < j) :
    after (List.take j ops) V (Proc.devRef .tc main_call2_v1) = ReadP.val_main_call2_v1 (F := F) := by
  rw [after_take_eq_result_of_nodup wr opsW_nodup V j 62 (r := main_call2_v1) rfl rfl hj]
  rw [unary_result]
  rw [st_main_call2_v0 V 62 (by decide)]
  unfold ReadP.val_main_call2_v1
  generalize ReadP.val_main_call2_v0 (F := F) = A0
  rfl

theorem st_main_call2_v2 (V : Valuation τ sig (Elt F)) (j : ℕ) (hj : 63 < j) :
    after (List.take j ops) V (Proc.devRef .tc main_call2_v2) = ReadP.val_main_call2_v2 (F := F) (V (Proc.devRef .tc main_arg2)) := by
  rw [after_take_eq_result_of_nodup wr opsW_nodup V j 63 (r := main_call2_v2) rfl rfl hj]
  rw [binary_result]
  rw [st_main_call2_v1 V 63 (by decide)]
  rw [st_main_v35 V 63 (by decide)]
  unfold ReadP.val_main_call2_v2
  generalize ReadP.val_main_call2_v1 (F := F) = A0
  generalize ReadP.val_main_v35 (F := F) (V (Proc.devRef .tc main_arg2)) = A1
  rfl

theorem st_main_call2_v3 (V : Valuation τ sig (Elt F)) (j : ℕ) (hj : 64 < j) :
    after (List.take j ops) V (Proc.devRef .tc main_call2_v3) = ReadP.val_main_call2_v3 (F := F) := by
  rw [after_take_eq_result_of_nodup wr opsW_nodup V j 64 (r := main_call2_v3) rfl rfl hj]
  rw [unary_result]
  rw [st_main_c_12 V 64 (by decide)]
  unfold ReadP.val_main_call2_v3
  generalize ReadP.val_main_c_12 (F := F) = A0
  rfl

theorem st_main_call2_v4 (V : Valuation τ sig (Elt F)) (j : ℕ) (hj : 65 < j) :
    after (List.take j ops) V (Proc.devRef .tc main_call2_v4) = ReadP.val_main_call2_v4 (F := F) := by
  rw [after_take_eq_result_of_nodup wr opsW_nodup V j 65 (r := main_call2_v4) rfl rfl hj]
  rw [unary_result]
  rw [st_main_call2_v3 V 65 (by decide)]
  unfold ReadP.val_main_call2_v4
  generalize ReadP.val_main_call2_v3 (F := F) = A0
  rfl

theorem st_main_v36 (V : Valuation τ sig (Elt F)) (j : ℕ) (hj : 66 < j) :
    after (List.take j ops) V (Proc.devRef .tc main_v36) = ReadP.val_main_v36 (F := F) (V (Proc.devRef .tc main_arg2)) := by
  rw [after_take_eq_result_of_nodup wr opsW_nodup V j 66 (r := main_v36) rfl rfl hj]
  rw [binary_result]
  rw [st_main_call2_v4 V 66 (by decide)]
  rw [st_main_call2_v2 V 66 (by decide)]
  unfold ReadP.val_main_v36
  generalize ReadP.val_main_call2_v4 (F := F) = A0
  generalize ReadP.val_main_call2_v2 (F := F) (V (Proc.devRef .tc main_arg2)) = A1
  rfl

theorem st_main_c_13 (V : Valuation τ sig (Elt F)) (j : ℕ) (hj : 67 < j) :
    after (List.take j ops) V (Proc.devRef .tc main_c_13) = ReadP.val_main_c_13 (F := F) := by
  rw [after_take_eq_result_of_nodup wr opsW_nodup V j 67 (r := main_c_13) rfl rfl hj]
  rw [nullary_result]
  unfold ReadP.val_main_c_13
  rfl

theorem st_main_v37 (V : Valuation τ sig (Elt F)) (j : ℕ) (hj : 68 < j) :
    after (List.take j ops) V (Proc.devRef .tc main_v37) = ReadP.val_main_v37 (F := F) := by
  rw [after_take_eq_result_of_nodup wr opsW_nodup V j 68 (r := main_v37) rfl rfl hj]
  rw [unary_result]
  rw [st_main_c_13 V 68 (by decide)]
  unfold ReadP.val_main_v37
  generalize ReadP.val_main_c_13 (F := F) = A0
  rfl

theorem st_main_v38 (V : Valuation τ sig (Elt F)) (j : ℕ) (hj : 69 < j) :
    after (List.take j ops) V (Proc.devRef .tc main_v38) = ReadP.val_main_v38 (F := F) (V (Proc.devRef .tc main_arg2)) := by
  rw [after_take_eq_result_of_nodup wr opsW_nodup V j 69 (r := main_v38) rfl rfl hj]
  rw [binary_result]
  rw [st_main_v33 V 69 (by decide)]
  rw [st_main_v37 V 69 (by decide)]
  unfold ReadP.val_main_v38
  generalize ReadP.val_main_v33 (F := F) (V (Proc.devRef .tc main_arg2)) = A0
  generalize ReadP.val_main_v37 (F := F) = A1
  rfl

theorem st_main_c_14 (V : Valuation τ sig (Elt F)) (j : ℕ) (hj : 70 < j) :
    after (List.take j ops) V (Proc.devRef .tc main_c_14) = ReadP.val_main_c_14 (F := F) := by
  rw [after_take_eq_result_of_nodup wr opsW_nodup V j 70 (r := main_c_14) rfl rfl hj]
  rw [nullary_result]
  unfold ReadP.val_main_c_14
  rfl

theorem st_main_c_15 (V : Valuation τ sig (Elt F)) (j : ℕ) (hj : 71 < j) :
    after (List.take j ops) V (Proc.devRef .tc main_c_15) = ReadP.val_main_c_15 (F := F) := by
  rw [after_take_eq_result_of_nodup wr opsW_nodup V j 71 (r := main_c_15) rfl rfl hj]
  rw [nullary_result]
  unfold ReadP.val_main_c_15
  rfl

theorem st_main_call3_v0 (V : Valuation τ sig (Elt F)) (j : ℕ) (hj : 72 < j) :
    after (List.take j ops) V (Proc.devRef .tc main_call3_v0) = ReadP.val_main_call3_v0 (F := F) := by
  rw [after_take_eq_result_of_nodup wr opsW_nodup V j 72 (r := main_call3_v0) rfl rfl hj]
  rw [unary_result]
  rw [st_main_c_14 V 72 (by decide)]
  unfold ReadP.val_main_call3_v0
  generalize ReadP.val_main_c_14 (F := F) = A0
  rfl

theorem st_main_call3_v1 (V : Valuation τ sig (Elt F)) (j : ℕ) (hj : 73 < j) :
    after (List.take j ops) V (Proc.devRef .tc main_call3_v1) = ReadP.val_main_call3_v1 (F := F) := by
  rw [after_take_eq_result_of_nodup wr opsW_nodup V j 73 (r := main_call3_v1) rfl rfl hj]
  rw [unary_result]
  rw [st_main_call3_v0 V 73 (by decide)]
  unfold ReadP.val_main_call3_v1
  generalize ReadP.val_main_call3_v0 (F := F) = A0
  rfl

theorem st_main_call3_v2 (V : Valuation τ sig (Elt F)) (j : ℕ) (hj : 74 < j) :
    after (List.take j ops) V (Proc.devRef .tc main_call3_v2) = ReadP.val_main_call3_v2 (F := F) (V (Proc.devRef .tc main_arg2)) := by
  rw [after_take_eq_result_of_nodup wr opsW_nodup V j 74 (r := main_call3_v2) rfl rfl hj]
  rw [binary_result]
  rw [st_main_call3_v1 V 74 (by decide)]
  rw [st_main_v38 V 74 (by decide)]
  unfold ReadP.val_main_call3_v2
  generalize ReadP.val_main_call3_v1 (F := F) = A0
  generalize ReadP.val_main_v38 (F := F) (V (Proc.devRef .tc main_arg2)) = A1
  rfl

theorem st_main_call3_v3 (V : Valuation τ sig (Elt F)) (j : ℕ) (hj : 75 < j) :
    after (List.take j ops) V (Proc.devRef .tc main_call3_v3) = ReadP.val_main_call3_v3 (F := F) := by
  rw [after_take_eq_result_of_nodup wr opsW_nodup V j 75 (r := main_call3_v3) rfl rfl hj]
  rw [unary_result]
  rw [st_main_c_15 V 75 (by decide)]
  unfold ReadP.val_main_call3_v3
  generalize ReadP.val_main_c_15 (F := F) = A0
  rfl

theorem st_main_call3_v4 (V : Valuation τ sig (Elt F)) (j : ℕ) (hj : 76 < j) :
    after (List.take j ops) V (Proc.devRef .tc main_call3_v4) = ReadP.val_main_call3_v4 (F := F) := by
  rw [after_take_eq_result_of_nodup wr opsW_nodup V j 76 (r := main_call3_v4) rfl rfl hj]
  rw [unary_result]
  rw [st_main_call3_v3 V 76 (by decide)]
  unfold ReadP.val_main_call3_v4
  generalize ReadP.val_main_call3_v3 (F := F) = A0
  rfl

theorem st_main_v39 (V : Valuation τ sig (Elt F)) (j : ℕ) (hj : 77 < j) :
    after (List.take j ops) V (Proc.devRef .tc main_v39) = ReadP.val_main_v39 (F := F) (V (Proc.devRef .tc main_arg2)) := by
  rw [after_take_eq_result_of_nodup wr opsW_nodup V j 77 (r := main_v39) rfl rfl hj]
  rw [binary_result]
  rw [st_main_call3_v4 V 77 (by decide)]
  rw [st_main_call3_v2 V 77 (by decide)]
  unfold ReadP.val_main_v39
  generalize ReadP.val_main_call3_v4 (F := F) = A0
  generalize ReadP.val_main_call3_v2 (F := F) (V (Proc.devRef .tc main_arg2)) = A1
  rfl

theorem st_main_v40 (V : Valuation τ sig (Elt F)) (j : ℕ) (hj : 78 < j) :
    after (List.take j ops) V (Proc.devRef .tc main_v40) = ReadP.val_main_v40 (F := F) (V (Proc.devRef .tc main_arg2)) := by
  rw [after_take_eq_result_of_nodup wr opsW_nodup V j 78 (r := main_v40) rfl rfl hj]
  rw [unary_result]
  rw [st_main_v30 V 78 (by decide)]
  unfold ReadP.val_main_v40
  generalize ReadP.val_main_v30 (F := F) (V (Proc.devRef .tc main_arg2)) = A0
  rfl

theorem st_main_v41 (V : Valuation τ sig (Elt F)) (j : ℕ) (hj : 79 < j) :
    after (List.take j ops) V (Proc.devRef .tc main_v41) = ReadP.val_main_v41 (F := F) (V (Proc.devRef .tc main_arg2)) := by
  rw [after_take_eq_result_of_nodup wr opsW_nodup V j 79 (r := main_v41) rfl rfl hj]
  rw [binary_result]
  rw [st_main_v21 V 79 (by decide)]
  rw [st_main_v40 V 79 (by decide)]
  unfold ReadP.val_main_v41
  generalize ReadP.val_main_v21 (F := F) (V (Proc.devRef .tc main_arg2)) = A0
  generalize ReadP.val_main_v40 (F := F) (V (Proc.devRef .tc main_arg2)) = A1
  rfl

theorem st_main_v42 (V : Valuation τ sig (Elt F)) (j : ℕ) (hj : 80 < j) :
    after (List.take j ops) V (Proc.devRef .tc main_v42) = ReadP.val_main_v42 (F := F) (V (Proc.devRef .tc main_arg2)) := by
  rw [after_take_eq_result_of_nodup wr opsW_nodup V j 80 (r := main_v42) rfl rfl hj]
  rw [unary_result]
  rw [st_main_v33 V 80 (by decide)]
  unfold ReadP.val_main_v42
  generalize ReadP.val_main_v33 (F := F) (V (Proc.devRef .tc main_arg2)) = A0
  rfl

theorem st_main_v43 (V : Valuation τ sig (Elt F)) (j : ℕ) (hj : 81 < j) :
    after (List.take j ops) V (Proc.devRef .tc main_v43) = ReadP.val_main_v43 (F := F) (V (Proc.devRef .tc main_arg2)) := by
  rw [after_take_eq_result_of_nodup wr opsW_nodup V j 81 (r := main_v43) rfl rfl hj]
  rw [binary_result]
  rw [st_main_v27 V 81 (by decide)]
  rw [st_main_v42 V 81 (by decide)]
  unfold ReadP.val_main_v43
  generalize ReadP.val_main_v27 (F := F) (V (Proc.devRef .tc main_arg2)) = A0
  generalize ReadP.val_main_v42 (F := F) (V (Proc.devRef .tc main_arg2)) = A1
  rfl

theorem st_main_v44 (V : Valuation τ sig (Elt F)) (j : ℕ) (hj : 82 < j) :
    after (List.take j ops) V (Proc.devRef .tc main_v44) = ReadP.val_main_v44 (F := F) (V (Proc.devRef .tc main_arg0)) := by
  rw [after_take_eq_result_of_nodup wr opsW_nodup V j 82 (r := main_v44) rfl rfl hj]
  rw [unary_result]
  rw [st_main_v7 V 82 (by decide)]
  unfold ReadP.val_main_v44
  generalize ReadP.val_main_v7 (F := F) (V (Proc.devRef .tc main_arg0)) = A0
  rfl

theorem st_main_v45 (V : Valuation τ sig (Elt F)) (j : ℕ) (hj : 83 < j) :
    after (List.take j ops) V (Proc.devRef .tc main_v45) = ReadP.val_main_v45 (F := F) := by
  rw [after_take_eq_result_of_nodup wr opsW_nodup V j 83 (r := main_v45) rfl rfl hj]
  rw [nullary_result]
  unfold ReadP.val_main_v45
  rfl

theorem st_main_v46 (V : Valuation τ sig (Elt F)) (j : ℕ) (hj : 84 < j) :
    after (List.take j ops) V (Proc.devRef .tc main_v46) = ReadP.val_main_v46 (F := F) := by
  rw [after_take_eq_result_of_nodup wr opsW_nodup V j 84 (r := main_v46) rfl rfl hj]
  rw [unary_result]
  rw [st_main_v45 V 84 (by decide)]
  unfold ReadP.val_main_v46
  generalize ReadP.val_main_v45 (F := F) = A0
  rfl

theorem st_main_cst_16 (V : Valuation τ sig (Elt F)) (j : ℕ) (hj : 85 < j) :
    after (List.take j ops) V (Proc.devRef .tc main_cst_16) = ReadP.val_main_cst_16 (F := F) := by
  rw [after_take_eq_result_of_nodup wr opsW_nodup V j 85 (r := main_cst_16) rfl rfl hj]
  rw [nullary_result]
  unfold ReadP.val_main_cst_16
  rfl

theorem st_main_v47 (V : Valuation τ sig (Elt F)) (j : ℕ) (hj : 86 < j) :
    after (List.take j ops) V (Proc.devRef .tc main_v47) = ReadP.val_main_v47 (F := F) := by
  rw [after_take_eq_result_of_nodup wr opsW_nodup V j 86 (r := main_v47) rfl rfl hj]
  rw [unary_result]
  rw [st_main_cst_16 V 86 (by decide)]
  unfold ReadP.val_main_v47
  generalize ReadP.val_main_cst_16 (F := F) = A0
  rfl

theorem st_main_v48 (V : Valuation τ sig (Elt F)) (j : ℕ) (hj : 87 < j) :
    after (List.take j ops) V (Proc.devRef .tc main_v48) = ReadP.val_main_v48 (F := F) (V (Proc.devRef .tc main_arg2)) := by
  rw [after_take_eq_result_of_nodup wr opsW_nodup V j 87 (r := main_v48) rfl rfl hj]
  rw [binary_result]
  rw [st_main_v47 V 87 (by decide)]
  rw [st_main_v41 V 87 (by decide)]
  unfold ReadP.val_main_v48
  generalize ReadP.val_main_v47 (F := F) = A0
  generalize ReadP.val_main_v41 (F := F) (V (Proc.devRef .tc main_arg2)) = A1
  rfl

theorem st_main_cst_17 (V : Valuation τ sig (Elt F)) (j : ℕ) (hj : 88 < j) :
    after (List.take j ops) V (Proc.devRef .tc main_cst_17) = ReadP.val_main_cst_17 (F := F) := by
  rw [after_take_eq_result_of_nodup wr opsW_nodup V j 88 (r := main_cst_17) rfl rfl hj]
  rw [nullary_result]
  unfold ReadP.val_main_cst_17
  rfl

theorem st_main_v49 (V : Valuation τ sig (Elt F)) (j : ℕ) (hj : 89 < j) :
    after (List.take j ops) V (Proc.devRef .tc main_v49) = ReadP.val_main_v49 (F := F) := by
  rw [after_take_eq_result_of_nodup wr opsW_nodup V j 89 (r := main_v49) rfl rfl hj]
  rw [unary_result]
  rw [st_main_cst_17 V 89 (by decide)]
  unfold ReadP.val_main_v49
  generalize ReadP.val_main_cst_17 (F := F) = A0
  rfl

theorem st_main_v50 (V : Valuation τ sig (Elt F)) (j : ℕ) (hj : 90 < j) :
    after (List.take j ops) V (Proc.devRef .tc main_v50) = ReadP.val_main_v50 (F := F) (V (Proc.devRef .tc main_arg2)) := by
  rw [after_take_eq_result_of_nodup wr opsW_nodup V j 90 (r := main_v50) rfl rfl hj]
  rw [binary_result]
  rw [st_main_v49 V 90 (by decide)]
  rw [st_main_v43 V 90 (by decide)]
  unfold ReadP.val_main_v50
  generalize ReadP.val_main_v49 (F := F) = A0
  generalize ReadP.val_main_v43 (F := F) (V (Proc.devRef .tc main_arg2)) = A1
  rfl

theorem st_main_v51 (V : Valuation τ sig (Elt F)) (j : ℕ) (hj : 91 < j) :
    after (List.take j ops) V (Proc.devRef .tc main_v51) = ReadP.val_main_v51 (F := F) (V (Proc.devRef .tc main_arg2)) := by
  rw [after_take_eq_result_of_nodup wr opsW_nodup V j 91 (r := main_v51) rfl rfl hj]
  rw [binary_result]
  rw [st_main_v48 V 91 (by decide)]
  rw [st_main_v50 V 91 (by decide)]
  unfold ReadP.val_main_v51
  generalize ReadP.val_main_v48 (F := F) (V (Proc.devRef .tc main_arg2)) = A0
  generalize ReadP.val_main_v50 (F := F) (V (Proc.devRef .tc main_arg2)) = A1
  rfl

theorem st_main_v52 (V : Valuation τ sig (Elt F)) (j : ℕ) (hj : 92 < j) :
    after (List.take j ops) V (Proc.devRef .tc main_v52) = ReadP.val_main_v52 (F := F) (V (Proc.devRef .tc main_arg2)) := by
  rw [after_take_eq_result_of_nodup wr opsW_nodup V j 92 (r := main_v52) rfl rfl hj]
  rw [unary_result]
  rw [st_main_v51 V 92 (by decide)]
  unfold ReadP.val_main_v52
  generalize ReadP.val_main_v51 (F := F) (V (Proc.devRef .tc main_arg2)) = A0
  rfl

theorem st_main_cst_18 (V : Valuation τ sig (Elt F)) (j : ℕ) (hj : 93 < j) :
    after (List.take j ops) V (Proc.devRef .tc main_cst_18) = ReadP.val_main_cst_18 (F := F) := by
  rw [after_take_eq_result_of_nodup wr opsW_nodup V j 93 (r := main_cst_18) rfl rfl hj]
  rw [nullary_result]
  unfold ReadP.val_main_cst_18
  rfl

theorem st_main_v53 (V : Valuation τ sig (Elt F)) (j : ℕ) (hj : 94 < j) :
    after (List.take j ops) V (Proc.devRef .tc main_v53) = ReadP.val_main_v53 (F := F) := by
  rw [after_take_eq_result_of_nodup wr opsW_nodup V j 94 (r := main_v53) rfl rfl hj]
  rw [unary_result]
  rw [st_main_cst_18 V 94 (by decide)]
  unfold ReadP.val_main_v53
  generalize ReadP.val_main_cst_18 (F := F) = A0
  rfl

theorem st_main_v54 (V : Valuation τ sig (Elt F)) (j : ℕ) (hj : 95 < j) :
    after (List.take j ops) V (Proc.devRef .tc main_v54) = ReadP.val_main_v54 (F := F) (V (Proc.devRef .tc main_arg2)) := by
  rw [after_take_eq_result_of_nodup wr opsW_nodup V j 95 (r := main_v54) rfl rfl hj]
  rw [binary_result]
  rw [st_main_v53 V 95 (by decide)]
  rw [st_main_v41 V 95 (by decide)]
  unfold ReadP.val_main_v54
  generalize ReadP.val_main_v53 (F := F) = A0
  generalize ReadP.val_main_v41 (F := F) (V (Proc.devRef .tc main_arg2)) = A1
  rfl

theorem st_main_v55 (V : Valuation τ sig (Elt F)) (j : ℕ) (hj : 96 < j) :
    after (List.take j ops) V (Proc.devRef .tc main_v55) = ReadP.val_main_v55 (F := F) (V (Proc.devRef .tc main_arg2)) := by
  rw [after_take_eq_result_of_nodup wr opsW_nodup V j 96 (r := main_v55) rfl rfl hj]
  rw [binary_result]
  rw [st_main_v54 V 96 (by decide)]
  rw [st_main_v43 V 96 (by decide)]
  unfold ReadP.val_main_v55
  generalize ReadP.val_main_v54 (F := F) (V (Proc.devRef .tc main_arg2)) = A0
  generalize ReadP.val_main_v43 (F := F) (V (Proc.devRef .tc main_arg2)) = A1
  rfl

theorem st_main_v56 (V : Valuation τ sig (Elt F)) (j : ℕ) (hj : 97 < j) :
    after (List.take j ops) V (Proc.devRef .tc main_v56) = ReadP.val_main_v56 (F := F) (V (Proc.devRef .tc main_arg2)) := by
  rw [after_take_eq_result_of_nodup wr opsW_nodup V j 97 (r := main_v56) rfl rfl hj]
  rw [unary_result]
  rw [st_main_v55 V 97 (by decide)]
  unfold ReadP.val_main_v56
  generalize ReadP.val_main_v55 (F := F) (V (Proc.devRef .tc main_arg2)) = A0
  rfl

theorem st_main_cst_19 (V : Valuation τ sig (Elt F)) (j : ℕ) (hj : 98 < j) :
    after (List.take j ops) V (Proc.devRef .tc main_cst_19) = ReadP.val_main_cst_19 (F := F) := by
  rw [after_take_eq_result_of_nodup wr opsW_nodup V j 98 (r := main_cst_19) rfl rfl hj]
  rw [nullary_result]
  unfold ReadP.val_main_cst_19
  rfl

theorem st_main_v57 (V : Valuation τ sig (Elt F)) (j : ℕ) (hj : 99 < j) :
    after (List.take j ops) V (Proc.devRef .tc main_v57) = ReadP.val_main_v57 (F := F) := by
  rw [after_take_eq_result_of_nodup wr opsW_nodup V j 99 (r := main_v57) rfl rfl hj]
  rw [unary_result]
  rw [st_main_cst_19 V 99 (by decide)]
  unfold ReadP.val_main_v57
  generalize ReadP.val_main_cst_19 (F := F) = A0
  rfl

theorem st_main_v58 (V : Valuation τ sig (Elt F)) (j : ℕ) (hj : 100 < j) :
    after (List.take j ops) V (Proc.devRef .tc main_v58) = ReadP.val_main_v58 (F := F) (V (Proc.devRef .tc main_arg2)) := by
  rw [after_take_eq_result_of_nodup wr opsW_nodup V j 100 (r := main_v58) rfl rfl hj]
  rw [binary_result]
  rw [st_main_v57 V 100 (by decide)]
  rw [st_main_v43 V 100 (by decide)]
  unfold ReadP.val_main_v58
  generalize ReadP.val_main_v57 (F := F) = A0
  generalize ReadP.val_main_v43 (F := F) (V (Proc.devRef .tc main_arg2)) = A1
  rfl

theorem st_main_v59 (V : Valuation τ sig (Elt F)) (j : ℕ) (hj : 101 < j) :
    after (List.take j ops) V (Proc.devRef .tc main_v59) = ReadP.val_main_v59 (F := F) (V (Proc.devRef .tc main_arg2)) := by
  rw [after_take_eq_result_of_nodup wr opsW_nodup V j 101 (r := main_v59) rfl rfl hj]
  rw [binary_result]
  rw [st_main_v41 V 101 (by decide)]
  rw [st_main_v58 V 101 (by decide)]
  unfold ReadP.val_main_v59
  generalize ReadP.val_main_v41 (F := F) (V (Proc.devRef .tc main_arg2)) = A0
  generalize ReadP.val_main_v58 (F := F) (V (Proc.devRef .tc main_arg2)) = A1
  rfl

theorem st_main_v60 (V : Valuation τ sig (Elt F)) (j : ℕ) (hj : 102 < j) :
    after (List.take j ops) V (Proc.devRef .tc main_v60) = ReadP.val_main_v60 (F := F) (V (Proc.devRef .tc main_arg2)) := by
  rw [after_take_eq_result_of_nodup wr opsW_nodup V j 102 (r := main_v60) rfl rfl hj]
  rw [unary_result]
  rw [st_main_v59 V 102 (by decide)]
  unfold ReadP.val_main_v60
  generalize ReadP.val_main_v59 (F := F) (V (Proc.devRef .tc main_arg2)) = A0
  rfl

theorem st_main_v61 (V : Valuation τ sig (Elt F)) (j : ℕ) (hj : 103 < j) :
    after (List.take j ops) V (Proc.devRef .tc main_v61) = ReadP.val_main_v61 (F := F) (V (Proc.devRef .tc main_arg2)) := by
  rw [after_take_eq_result_of_nodup wr opsW_nodup V j 103 (r := main_v61) rfl rfl hj]
  rw [binary_result]
  rw [st_main_v41 V 103 (by decide)]
  rw [st_main_v43 V 103 (by decide)]
  unfold ReadP.val_main_v61
  generalize ReadP.val_main_v41 (F := F) (V (Proc.devRef .tc main_arg2)) = A0
  generalize ReadP.val_main_v43 (F := F) (V (Proc.devRef .tc main_arg2)) = A1
  rfl

theorem st_main_v62 (V : Valuation τ sig (Elt F)) (j : ℕ) (hj : 104 < j) :
    after (List.take j ops) V (Proc.devRef .tc main_v62) = ReadP.val_main_v62 (F := F) (V (Proc.devRef .tc main_arg2)) := by
  rw [after_take_eq_result_of_nodup wr opsW_nodup V j 104 (r := main_v62) rfl rfl hj]
  rw [unary_result]
  rw [st_main_v61 V 104 (by decide)]
  unfold ReadP.val_main_v62
  generalize ReadP.val_main_v61 (F := F) (V (Proc.devRef .tc main_arg2)) = A0
  rfl

theorem st_main_c_20 (V : Valuation τ sig (Elt F)) (j : ℕ) (hj : 105 < j) :
    after (List.take j ops) V (Proc.devRef .tc main_c_20) = ReadP.val_main_c_20 (F := F) := by
  rw [after_take_eq_result_of_nodup wr opsW_nodup V j 105 (r := main_c_20) rfl rfl hj]
  rw [nullary_result]
  unfold ReadP.val_main_c_20
  rfl

theorem st_main_v63 (V : Valuation τ sig (Elt F)) (j : ℕ) (hj : 106 < j) :
    after (List.take j ops) V (Proc.devRef .tc main_v63) = ReadP.val_main_v63 (F := F) := by
  rw [after_take_eq_result_of_nodup wr opsW_nodup V j 106 (r := main_v63) rfl rfl hj]
  rw [unary_result]
  rw [st_main_c_20 V 106 (by decide)]
  unfold ReadP.val_main_v63
  generalize ReadP.val_main_c_20 (F := F) = A0
  rfl

theorem st_main_v64 (V : Valuation τ sig (Elt F)) (j : ℕ) (hj : 107 < j) :
    after (List.take j ops) V (Proc.devRef .tc main_v64) = ReadP.val_main_v64 (F := F) := by
  rw [after_take_eq_result_of_nodup wr opsW_nodup V j 107 (r := main_v64) rfl rfl hj]
  rw [binary_result]
  rw [st_main_v46 V 107 (by decide)]
  rw [st_main_v63 V 107 (by decide)]
  unfold ReadP.val_main_v64
  generalize ReadP.val_main_v46 (F := F) = A0
  generalize ReadP.val_main_v63 (F := F) = A1
  rfl

theorem st_main_c_21 (V : Valuation τ sig (Elt F)) (j : ℕ) (hj : 108 < j) :
    after (List.take j ops) V (Proc.devRef .tc main_c_21) = ReadP.val_main_c_21 (F := F) := by
  rw [after_take_eq_result_of_nodup wr opsW_nodup V j 108 (r := main_c_21) rfl rfl hj]
  rw [nullary_result]
  unfold ReadP.val_main_c_21
  rfl

theorem st_main_v65 (V : Valuation τ sig (Elt F)) (j : ℕ) (hj : 109 < j) :
    after (List.take j ops) V (Proc.devRef .tc main_v65) = ReadP.val_main_v65 (F := F) := by
  rw [after_take_eq_result_of_nodup wr opsW_nodup V j 109 (r := main_v65) rfl rfl hj]
  rw [unary_result]
  rw [st_main_c_21 V 109 (by decide)]
  unfold ReadP.val_main_v65
  generalize ReadP.val_main_c_21 (F := F) = A0
  rfl

theorem st_main_v66 (V : Valuation τ sig (Elt F)) (j : ℕ) (hj : 110 < j) :
    after (List.take j ops) V (Proc.devRef .tc main_v66) = ReadP.val_main_v66 (F := F) := by
  rw [after_take_eq_result_of_nodup wr opsW_nodup V j 110 (r := main_v66) rfl rfl hj]
  rw [binary_result]
  rw [st_main_v46 V 110 (by decide)]
  rw [st_main_v65 V 110 (by decide)]
  unfold ReadP.val_main_v66
  generalize ReadP.val_main_v46 (F := F) = A0
  generalize ReadP.val_main_v65 (F := F) = A1
  rfl

theorem st_main_v67 (V : Valuation τ sig (Elt F)) (j : ℕ) (hj : 111 < j) :
    after (List.take j ops) V (Proc.devRef .tc main_v67) = ReadP.val_main_v67 (F := F) := by
  rw [after_take_eq_result_of_nodup wr opsW_nodup V j 111 (r := main_v67) rfl rfl hj]
  rw [ternary_result]
  rw [st_main_v64 V 111 (by decide)]
  rw [st_main_v66 V 111 (by decide)]
  rw [st_main_v46 V 111 (by decide)]
  unfold ReadP.val_main_v67
  generalize ReadP.val_main_v64 (F := F) = A0
  generalize ReadP.val_main_v66 (F := F) = A1
  generalize ReadP.val_main_v46 (F := F) = A2
  rfl

theorem st_main_c_22 (V : Valuation τ sig (Elt F)) (j : ℕ) (hj : 112 < j) :
    after (List.take j ops) V (Proc.devRef .tc main_c_22) = ReadP.val_main_c_22 (F := F) := by
  rw [after_take_eq_result_of_nodup wr opsW_nodup V j 112 (r := main_c_22) rfl rfl hj]
  rw [nullary_result]
  unfold ReadP.val_main_c_22
  rfl

theorem st_main_v68 (V : Valuation τ sig (Elt F)) (j : ℕ) (hj : 113 < j) :
    after (List.take j ops) V (Proc.devRef .tc main_v68) = ReadP.val_main_v68 (F := F) := by
  rw [after_take_eq_result_of_nodup wr opsW_nodup V j 113 (r := main_v68) rfl rfl hj]
  rw [unary_result]
  rw [st_main_c_22 V 113 (by decide)]
  unfold ReadP.val_main_v68
  generalize ReadP.val_main_c_22 (F := F) = A0
  rfl

theorem st_main_v69 (V : Valuation τ sig (Elt F)) (j : ℕ) (hj : 114 < j) :
    after (List.take j ops) V (Proc.devRef .tc main_v69) = ReadP.val_main_v69 (F := F) (V (Proc.devRef .tc main_arg2)) := by
  rw [after_take_eq_result_of_nodup wr opsW_nodup V j 114 (r := main_v69) rfl rfl hj]
  rw [binary_result]
  rw [st_main_v33 V 114 (by decide)]
  rw [st_main_v68 V 114 (by decide)]
  unfold ReadP.val_main_v69
  generalize ReadP.val_main_v33 (F := F) (V (Proc.devRef .tc main_arg2)) = A0
  generalize ReadP.val_main_v68 (F := F) = A1
  rfl

theorem st_main_c_23 (V : Valuation τ sig (Elt F)) (j : ℕ) (hj : 115 < j) :
    after (List.take j ops) V (Proc.devRef .tc main_c_23) = ReadP.val_main_c_23 (F := F) := by
  rw [after_take_eq_result_of_nodup wr opsW_nodup V j 115 (r := main_c_23) rfl rfl hj]
  rw [nullary_result]
  unfold ReadP.val_main_c_23
  rfl

theorem st_main_v70 (V : Valuation τ sig (Elt F)) (j : ℕ) (hj : 116 < j) :
    after (List.take j ops) V (Proc.devRef .tc main_v70) = ReadP.val_main_v70 (F := F) := by
  rw [after_take_eq_result_of_nodup wr opsW_nodup V j 116 (r := main_v70) rfl rfl hj]
  rw [unary_result]
  rw [st_main_c_23 V 116 (by decide)]
  unfold ReadP.val_main_v70
  generalize ReadP.val_main_c_23 (F := F) = A0
  rfl

theorem st_main_v71 (V : Valuation τ sig (Elt F)) (j : ℕ) (hj : 117 < j) :
    after (List.take j ops) V (Proc.devRef .tc main_v71) = ReadP.val_main_v71 (F := F) (V (Proc.devRef .tc main_arg2)) := by
  rw [after_take_eq_result_of_nodup wr opsW_nodup V j 117 (r := main_v71) rfl rfl hj]
  rw [binary_result]
  rw [st_main_v33 V 117 (by decide)]
  rw [st_main_v70 V 117 (by decide)]
  unfold ReadP.val_main_v71
  generalize ReadP.val_main_v33 (F := F) (V (Proc.devRef .tc main_arg2)) = A0
  generalize ReadP.val_main_v70 (F := F) = A1
  rfl

theorem st_main_v72 (V : Valuation τ sig (Elt F)) (j : ℕ) (hj : 118 < j) :
    after (List.take j ops) V (Proc.devRef .tc main_v72) = ReadP.val_main_v72 (F := F) (V (Proc.devRef .tc main_arg2)) := by
  rw [after_take_eq_result_of_nodup wr opsW_nodup V j 118 (r := main_v72) rfl rfl hj]
  rw [ternary_result]
  rw [st_main_v69 V 118 (by decide)]
  rw [st_main_v71 V 118 (by decide)]
  rw [st_main_v33 V 118 (by decide)]
  unfold ReadP.val_main_v72
  generalize ReadP.val_main_v69 (F := F) (V (Proc.devRef .tc main_arg2)) = A0
  generalize ReadP.val_main_v71 (F := F) (V (Proc.devRef .tc main_arg2)) = A1
  generalize ReadP.val_main_v33 (F := F) (V (Proc.devRef .tc main_arg2)) = A2
  rfl

theorem st_main_c_24 (V : Valuation τ sig (Elt F)) (j : ℕ) (hj : 119 < j) :
    after (List.take j ops) V (Proc.devRef .tc main_c_24) = ReadP.val_main_c_24 (F := F) := by
  rw [after_take_eq_result_of_nodup wr opsW_nodup V j 119 (r := main_c_24) rfl rfl hj]
  rw [nullary_result]
  unfold ReadP.val_main_c_24
  rfl

theorem st_main_v73 (V : Valuation τ sig (Elt F)) (j : ℕ) (hj : 120 < j) :
    after (List.take j ops) V (Proc.devRef .tc main_v73) = ReadP.val_main_v73 (F := F) := by
  rw [after_take_eq_result_of_nodup wr opsW_nodup V j 120 (r := main_v73) rfl rfl hj]
  rw [unary_result]
  rw [st_main_c_24 V 120 (by decide)]
  unfold ReadP.val_main_v73
  generalize ReadP.val_main_c_24 (F := F) = A0
  rfl

theorem st_main_v74 (V : Valuation τ sig (Elt F)) (j : ℕ) (hj : 121 < j) :
    after (List.take j ops) V (Proc.devRef .tc main_v74) = ReadP.val_main_v74 (F := F) (V (Proc.devRef .tc main_arg2)) := by
  rw [after_take_eq_result_of_nodup wr opsW_nodup V j 121 (r := main_v74) rfl rfl hj]
  rw [binary_result]
  rw [st_main_v30 V 121 (by decide)]
  rw [st_main_v73 V 121 (by decide)]
  unfold ReadP.val_main_v74
  generalize ReadP.val_main_v30 (F := F) (V (Proc.devRef .tc main_arg2)) = A0
  generalize ReadP.val_main_v73 (F := F) = A1
  rfl

theorem st_main_c_25 (V : Valuation τ sig (Elt F)) (j : ℕ) (hj : 122 < j) :
    after (List.take j ops) V (Proc.devRef .tc main_c_25) = ReadP.val_main_c_25 (F := F) := by
  rw [after_take_eq_result_of_nodup wr opsW_nodup V j 122 (r := main_c_25) rfl rfl hj]
  rw [nullary_result]
  unfold ReadP.val_main_c_25
  rfl

theorem st_main_v75 (V : Valuation τ sig (Elt F)) (j : ℕ) (hj : 123 < j) :
    after (List.take j ops) V (Proc.devRef .tc main_v75) = ReadP.val_main_v75 (F := F) := by
  rw [after_take_eq_result_of_nodup wr opsW_nodup V j 123 (r := main_v75) rfl rfl hj]
  rw [unary_result]
  rw [st_main_c_25 V 123 (by decide)]
  unfold ReadP.val_main_v75
  generalize ReadP.val_main_c_25 (F := F) = A0
  rfl

theorem st_main_v76 (V : Valuation τ sig (Elt F)) (j : ℕ) (hj : 124 < j) :
    after (List.take j ops) V (Proc.devRef .tc main_v76) = ReadP.val_main_v76 (F := F) (V (Proc.devRef .tc main_arg2)) := by
  rw [after_take_eq_result_of_nodup wr opsW_nodup V j 124 (r := main_v76) rfl rfl hj]
  rw [binary_result]
  rw [st_main_v30 V 124 (by decide)]
  rw [st_main_v75 V 124 (by decide)]
  unfold ReadP.val_main_v76
  generalize ReadP.val_main_v30 (F := F) (V (Proc.devRef .tc main_arg2)) = A0
  generalize ReadP.val_main_v75 (F := F) = A1
  rfl

theorem st_main_v77 (V : Valuation τ sig (Elt F)) (j : ℕ) (hj : 125 < j) :
    after (List.take j ops) V (Proc.devRef .tc main_v77) = ReadP.val_main_v77 (F := F) (V (Proc.devRef .tc main_arg2)) := by
  rw [after_take_eq_result_of_nodup wr opsW_nodup V j 125 (r := main_v77) rfl rfl hj]
  rw [ternary_result]
  rw [st_main_v74 V 125 (by decide)]
  rw [st_main_v76 V 125 (by decide)]
  rw [st_main_v30 V 125 (by decide)]
  unfold ReadP.val_main_v77
  generalize ReadP.val_main_v74 (F := F) (V (Proc.devRef .tc main_arg2)) = A0
  generalize ReadP.val_main_v76 (F := F) (V (Proc.devRef .tc main_arg2)) = A1
  generalize ReadP.val_main_v30 (F := F) (V (Proc.devRef .tc main_arg2)) = A2
  rfl

theorem st_main_v78 (V : Valuation τ sig (Elt F)) (j : ℕ) (hj : 126 < j) :
    after (List.take j ops) V (Proc.devRef .tc main_v78) = ReadP.val_main_v78 (F := F) := by
  rw [after_take_eq_result_of_nodup wr opsW_nodup V j 126 (r := main_v78) rfl rfl hj]
  rw [unary_result]
  rw [st_main_v67 V 126 (by decide)]
  unfold ReadP.val_main_v78
  generalize ReadP.val_main_v67 (F := F) = A0
  rfl

theorem st_main_v79 (V : Valuation τ sig (Elt F)) (j : ℕ) (hj : 127 < j) :
    after (List.take j ops) V (Proc.devRef .tc main_v79) = ReadP.val_main_v79 (F := F) := by
  rw [after_take_eq_result_of_nodup wr opsW_nodup V j 127 (r := main_v79) rfl rfl hj]
  rw [unary_result]
  rw [st_main_v78 V 127 (by decide)]
  unfold ReadP.val_main_v79
  generalize ReadP.val_main_v78 (F := F) = A0
  rfl

theorem st_main_v80 (V : Valuation τ sig (Elt F)) (j : ℕ) (hj : 128 < j) :
    after (List.take j ops) V (Proc.devRef .tc main_v80) = ReadP.val_main_v80 (F := F) (V (Proc.devRef .tc main_arg2)) := by
  rw [after_take_eq_result_of_nodup wr opsW_nodup V j 128 (r := main_v80) rfl rfl hj]
  rw [unary_result]
  rw [st_main_v72 V 128 (by decide)]
  unfold ReadP.val_main_v80
  generalize ReadP.val_main_v72 (F := F) (V (Proc.devRef .tc main_arg2)) = A0
  rfl

theorem st_main_v81 (V : Valuation τ sig (Elt F)) (j : ℕ) (hj : 129 < j) :
    after (List.take j ops) V (Proc.devRef .tc main_v81) = ReadP.val_main_v81 (F := F) (V (Proc.devRef .tc main_arg2)) := by
  rw [after_take_eq_result_of_nodup wr opsW_nodup V j 129 (r := main_v81) rfl rfl hj]
  rw [unary_result]
  rw [st_main_v77 V 129 (by decide)]
  unfold ReadP.val_main_v81
  generalize ReadP.val_main_v77 (F := F) (V (Proc.devRef .tc main_arg2)) = A0
  rfl

end Cert.ReferenceIdeal.ValueL

end
-- ==== Proof.RefStagesB.lean ====
/-
  The reference program's run, read one operation at a time: operations 130 to 259.
-/
import proofs.«153362_j6846177869930_2_alg».proof.Proof.RefStagesA

noncomputable section

namespace Cert.ReferenceIdeal.ValueL

open Cert.ReferenceIdeal Cert.ReferenceIdeal.Gen Idealize.ShloMosaic Idealize.ShloMosaic.TcCoe Idealize.ShloMosaic.StableHlo
open Cert.LineRead

variable {F : FTy → Type} [FloatOps F]

theorem st_main_v82 (V : Valuation τ sig (Elt F)) (j : ℕ) (hj : 130 < j) :
    after (List.take j ops) V (Proc.devRef .tc main_v82) = ReadP.val_main_v82 (F := F) (V (Proc.devRef .tc main_arg2)) := by
  rw [after_take_eq_result_of_nodup wr opsW_nodup V j 130 (r := main_v82) rfl rfl hj]
  rw [nary3_result]
  rw [st_main_v79 V 130 (by decide)]
  rw [st_main_v80 V 130 (by decide)]
  rw [st_main_v81 V 130 (by decide)]
  unfold ReadP.val_main_v82
  generalize ReadP.val_main_v79 (F := F) = A0
  generalize ReadP.val_main_v80 (F := F) (V (Proc.devRef .tc main_arg2)) = A1
  generalize ReadP.val_main_v81 (F := F) (V (Proc.devRef .tc main_arg2)) = A2
  rfl

theorem st_main_v83 (V : Valuation τ sig (Elt F)) (j : ℕ) (hj : 131 < j) :
    after (List.take j ops) V (Proc.devRef .tc main_v83) = ReadP.val_main_v83 (F := F) (V (Proc.devRef .tc main_arg0)) (V (Proc.devRef .tc main_arg2)) := by
  rw [after_take_eq_result_of_nodup wr opsW_nodup V j 131 (r := main_v83) rfl rfl hj]
  rw [binary_result]
  rw [st_main_v44 V 131 (by decide)]
  rw [st_main_v82 V 131 (by decide)]
  unfold ReadP.val_main_v83
  generalize ReadP.val_main_v44 (F := F) (V (Proc.devRef .tc main_arg0)) = A0
  generalize ReadP.val_main_v82 (F := F) (V (Proc.devRef .tc main_arg2)) = A1
  rfl

theorem st_main_v84 (V : Valuation τ sig (Elt F)) (j : ℕ) (hj : 132 < j) :
    after (List.take j ops) V (Proc.devRef .tc main_v84) = ReadP.val_main_v84 (F := F) (V (Proc.devRef .tc main_arg2)) := by
  rw [after_take_eq_result_of_nodup wr opsW_nodup V j 132 (r := main_v84) rfl rfl hj]
  rw [unary_result]
  rw [st_main_v52 V 132 (by decide)]
  unfold ReadP.val_main_v84
  generalize ReadP.val_main_v52 (F := F) (V (Proc.devRef .tc main_arg2)) = A0
  rfl

theorem st_main_v85 (V : Valuation τ sig (Elt F)) (j : ℕ) (hj : 133 < j) :
    after (List.take j ops) V (Proc.devRef .tc main_v85) = ReadP.val_main_v85 (F := F) (V (Proc.devRef .tc main_arg0)) (V (Proc.devRef .tc main_arg2)) := by
  rw [after_take_eq_result_of_nodup wr opsW_nodup V j 133 (r := main_v85) rfl rfl hj]
  rw [binary_result]
  rw [st_main_v84 V 133 (by decide)]
  rw [st_main_v83 V 133 (by decide)]
  unfold ReadP.val_main_v85
  generalize ReadP.val_main_v84 (F := F) (V (Proc.devRef .tc main_arg2)) = A0
  generalize ReadP.val_main_v83 (F := F) (V (Proc.devRef .tc main_arg0)) (V (Proc.devRef .tc main_arg2)) = A1
  rfl

theorem st_main_c_26 (V : Valuation τ sig (Elt F)) (j : ℕ) (hj : 134 < j) :
    after (List.take j ops) V (Proc.devRef .tc main_c_26) = ReadP.val_main_c_26 (F := F) := by
  rw [after_take_eq_result_of_nodup wr opsW_nodup V j 134 (r := main_c_26) rfl rfl hj]
  rw [nullary_result]
  unfold ReadP.val_main_c_26
  rfl

theorem st_main_v86 (V : Valuation τ sig (Elt F)) (j : ℕ) (hj : 135 < j) :
    after (List.take j ops) V (Proc.devRef .tc main_v86) = ReadP.val_main_v86 (F := F) := by
  rw [after_take_eq_result_of_nodup wr opsW_nodup V j 135 (r := main_v86) rfl rfl hj]
  rw [unary_result]
  rw [st_main_c_26 V 135 (by decide)]
  unfold ReadP.val_main_v86
  generalize ReadP.val_main_c_26 (F := F) = A0
  rfl

theorem st_main_v87 (V : Valuation τ sig (Elt F)) (j : ℕ) (hj : 136 < j) :
    after (List.take j ops) V (Proc.devRef .tc main_v87) = ReadP.val_main_v87 (F := F) := by
  rw [after_take_eq_result_of_nodup wr opsW_nodup V j 136 (r := main_v87) rfl rfl hj]
  rw [binary_result]
  rw [st_main_v46 V 136 (by decide)]
  rw [st_main_v86 V 136 (by decide)]
  unfold ReadP.val_main_v87
  generalize ReadP.val_main_v46 (F := F) = A0
  generalize ReadP.val_main_v86 (F := F) = A1
  rfl

theorem st_main_c_27 (V : Valuation τ sig (Elt F)) (j : ℕ) (hj : 137 < j) :
    after (List.take j ops) V (Proc.devRef .tc main_c_27) = ReadP.val_main_c_27 (F := F) := by
  rw [after_take_eq_result_of_nodup wr opsW_nodup V j 137 (r := main_c_27) rfl rfl hj]
  rw [nullary_result]
  unfold ReadP.val_main_c_27
  rfl

theorem st_main_v88 (V : Valuation τ sig (Elt F)) (j : ℕ) (hj : 138 < j) :
    after (List.take j ops) V (Proc.devRef .tc main_v88) = ReadP.val_main_v88 (F := F) := by
  rw [after_take_eq_result_of_nodup wr opsW_nodup V j 138 (r := main_v88) rfl rfl hj]
  rw [unary_result]
  rw [st_main_c_27 V 138 (by decide)]
  unfold ReadP.val_main_v88
  generalize ReadP.val_main_c_27 (F := F) = A0
  rfl

theorem st_main_v89 (V : Valuation τ sig (Elt F)) (j : ℕ) (hj : 139 < j) :
    after (List.take j ops) V (Proc.devRef .tc main_v89) = ReadP.val_main_v89 (F := F) := by
  rw [after_take_eq_result_of_nodup wr opsW_nodup V j 139 (r := main_v89) rfl rfl hj]
  rw [binary_result]
  rw [st_main_v46 V 139 (by decide)]
  rw [st_main_v88 V 139 (by decide)]
  unfold ReadP.val_main_v89
  generalize ReadP.val_main_v46 (F := F) = A0
  generalize ReadP.val_main_v88 (F := F) = A1
  rfl

theorem st_main_v90 (V : Valuation τ sig (Elt F)) (j : ℕ) (hj : 140 < j) :
    after (List.take j ops) V (Proc.devRef .tc main_v90) = ReadP.val_main_v90 (F := F) := by
  rw [after_take_eq_result_of_nodup wr opsW_nodup V j 140 (r := main_v90) rfl rfl hj]
  rw [ternary_result]
  rw [st_main_v87 V 140 (by decide)]
  rw [st_main_v89 V 140 (by decide)]
  rw [st_main_v46 V 140 (by decide)]
  unfold ReadP.val_main_v90
  generalize ReadP.val_main_v87 (F := F) = A0
  generalize ReadP.val_main_v89 (F := F) = A1
  generalize ReadP.val_main_v46 (F := F) = A2
  rfl

theorem st_main_c_28 (V : Valuation τ sig (Elt F)) (j : ℕ) (hj : 141 < j) :
    after (List.take j ops) V (Proc.devRef .tc main_c_28) = ReadP.val_main_c_28 (F := F) := by
  rw [after_take_eq_result_of_nodup wr opsW_nodup V j 141 (r := main_c_28) rfl rfl hj]
  rw [nullary_result]
  unfold ReadP.val_main_c_28
  rfl

theorem st_main_v91 (V : Valuation τ sig (Elt F)) (j : ℕ) (hj : 142 < j) :
    after (List.take j ops) V (Proc.devRef .tc main_v91) = ReadP.val_main_v91 (F := F) := by
  rw [after_take_eq_result_of_nodup wr opsW_nodup V j 142 (r := main_v91) rfl rfl hj]
  rw [unary_result]
  rw [st_main_c_28 V 142 (by decide)]
  unfold ReadP.val_main_v91
  generalize ReadP.val_main_c_28 (F := F) = A0
  rfl

theorem st_main_v92 (V : Valuation τ sig (Elt F)) (j : ℕ) (hj : 143 < j) :
    after (List.take j ops) V (Proc.devRef .tc main_v92) = ReadP.val_main_v92 (F := F) (V (Proc.devRef .tc main_arg2)) := by
  rw [after_take_eq_result_of_nodup wr opsW_nodup V j 143 (r := main_v92) rfl rfl hj]
  rw [binary_result]
  rw [st_main_v39 V 143 (by decide)]
  rw [st_main_v91 V 143 (by decide)]
  unfold ReadP.val_main_v92
  generalize ReadP.val_main_v39 (F := F) (V (Proc.devRef .tc main_arg2)) = A0
  generalize ReadP.val_main_v91 (F := F) = A1
  rfl

theorem st_main_c_29 (V : Valuation τ sig (Elt F)) (j : ℕ) (hj : 144 < j) :
    after (List.take j ops) V (Proc.devRef .tc main_c_29) = ReadP.val_main_c_29 (F := F) := by
  rw [after_take_eq_result_of_nodup wr opsW_nodup V j 144 (r := main_c_29) rfl rfl hj]
  rw [nullary_result]
  unfold ReadP.val_main_c_29
  rfl

theorem st_main_v93 (V : Valuation τ sig (Elt F)) (j : ℕ) (hj : 145 < j) :
    after (List.take j ops) V (Proc.devRef .tc main_v93) = ReadP.val_main_v93 (F := F) := by
  rw [after_take_eq_result_of_nodup wr opsW_nodup V j 145 (r := main_v93) rfl rfl hj]
  rw [unary_result]
  rw [st_main_c_29 V 145 (by decide)]
  unfold ReadP.val_main_v93
  generalize ReadP.val_main_c_29 (F := F) = A0
  rfl

theorem st_main_v94 (V : Valuation τ sig (Elt F)) (j : ℕ) (hj : 146 < j) :
    after (List.take j ops) V (Proc.devRef .tc main_v94) = ReadP.val_main_v94 (F := F) (V (Proc.devRef .tc main_arg2)) := by
  rw [after_take_eq_result_of_nodup wr opsW_nodup V j 146 (r := main_v94) rfl rfl hj]
  rw [binary_result]
  rw [st_main_v39 V 146 (by decide)]
  rw [st_main_v93 V 146 (by decide)]
  unfold ReadP.val_main_v94
  generalize ReadP.val_main_v39 (F := F) (V (Proc.devRef .tc main_arg2)) = A0
  generalize ReadP.val_main_v93 (F := F) = A1
  rfl

theorem st_main_v95 (V : Valuation τ sig (Elt F)) (j : ℕ) (hj : 147 < j) :
    after (List.take j ops) V (Proc.devRef .tc main_v95) = ReadP.val_main_v95 (F := F) (V (Proc.devRef .tc main_arg2)) := by
  rw [after_take_eq_result_of_nodup wr opsW_nodup V j 147 (r := main_v95) rfl rfl hj]
  rw [ternary_result]
  rw [st_main_v92 V 147 (by decide)]
  rw [st_main_v94 V 147 (by decide)]
  rw [st_main_v39 V 147 (by decide)]
  unfold ReadP.val_main_v95
  generalize ReadP.val_main_v92 (F := F) (V (Proc.devRef .tc main_arg2)) = A0
  generalize ReadP.val_main_v94 (F := F) (V (Proc.devRef .tc main_arg2)) = A1
  generalize ReadP.val_main_v39 (F := F) (V (Proc.devRef .tc main_arg2)) = A2
  rfl

theorem st_main_c_30 (V : Valuation τ sig (Elt F)) (j : ℕ) (hj : 148 < j) :
    after (List.take j ops) V (Proc.devRef .tc main_c_30) = ReadP.val_main_c_30 (F := F) := by
  rw [after_take_eq_result_of_nodup wr opsW_nodup V j 148 (r := main_c_30) rfl rfl hj]
  rw [nullary_result]
  unfold ReadP.val_main_c_30
  rfl

theorem st_main_v96 (V : Valuation τ sig (Elt F)) (j : ℕ) (hj : 149 < j) :
    after (List.take j ops) V (Proc.devRef .tc main_v96) = ReadP.val_main_v96 (F := F) := by
  rw [after_take_eq_result_of_nodup wr opsW_nodup V j 149 (r := main_v96) rfl rfl hj]
  rw [unary_result]
  rw [st_main_c_30 V 149 (by decide)]
  unfold ReadP.val_main_v96
  generalize ReadP.val_main_c_30 (F := F) = A0
  rfl

theorem st_main_v97 (V : Valuation τ sig (Elt F)) (j : ℕ) (hj : 150 < j) :
    after (List.take j ops) V (Proc.devRef .tc main_v97) = ReadP.val_main_v97 (F := F) (V (Proc.devRef .tc main_arg2)) := by
  rw [after_take_eq_result_of_nodup wr opsW_nodup V j 150 (r := main_v97) rfl rfl hj]
  rw [binary_result]
  rw [st_main_v30 V 150 (by decide)]
  rw [st_main_v96 V 150 (by decide)]
  unfold ReadP.val_main_v97
  generalize ReadP.val_main_v30 (F := F) (V (Proc.devRef .tc main_arg2)) = A0
  generalize ReadP.val_main_v96 (F := F) = A1
  rfl

theorem st_main_c_31 (V : Valuation τ sig (Elt F)) (j : ℕ) (hj : 151 < j) :
    after (List.take j ops) V (Proc.devRef .tc main_c_31) = ReadP.val_main_c_31 (F := F) := by
  rw [after_take_eq_result_of_nodup wr opsW_nodup V j 151 (r := main_c_31) rfl rfl hj]
  rw [nullary_result]
  unfold ReadP.val_main_c_31
  rfl

theorem st_main_v98 (V : Valuation τ sig (Elt F)) (j : ℕ) (hj : 152 < j) :
    after (List.take j ops) V (Proc.devRef .tc main_v98) = ReadP.val_main_v98 (F := F) := by
  rw [after_take_eq_result_of_nodup wr opsW_nodup V j 152 (r := main_v98) rfl rfl hj]
  rw [unary_result]
  rw [st_main_c_31 V 152 (by decide)]
  unfold ReadP.val_main_v98
  generalize ReadP.val_main_c_31 (F := F) = A0
  rfl

theorem st_main_v99 (V : Valuation τ sig (Elt F)) (j : ℕ) (hj : 153 < j) :
    after (List.take j ops) V (Proc.devRef .tc main_v99) = ReadP.val_main_v99 (F := F) (V (Proc.devRef .tc main_arg2)) := by
  rw [after_take_eq_result_of_nodup wr opsW_nodup V j 153 (r := main_v99) rfl rfl hj]
  rw [binary_result]
  rw [st_main_v30 V 153 (by decide)]
  rw [st_main_v98 V 153 (by decide)]
  unfold ReadP.val_main_v99
  generalize ReadP.val_main_v30 (F := F) (V (Proc.devRef .tc main_arg2)) = A0
  generalize ReadP.val_main_v98 (F := F) = A1
  rfl

theorem st_main_v100 (V : Valuation τ sig (Elt F)) (j : ℕ) (hj : 154 < j) :
    after (List.take j ops) V (Proc.devRef .tc main_v100) = ReadP.val_main_v100 (F := F) (V (Proc.devRef .tc main_arg2)) := by
  rw [after_take_eq_result_of_nodup wr opsW_nodup V j 154 (r := main_v100) rfl rfl hj]
  rw [ternary_result]
  rw [st_main_v97 V 154 (by decide)]
  rw [st_main_v99 V 154 (by decide)]
  rw [st_main_v30 V 154 (by decide)]
  unfold ReadP.val_main_v100
  generalize ReadP.val_main_v97 (F := F) (V (Proc.devRef .tc main_arg2)) = A0
  generalize ReadP.val_main_v99 (F := F) (V (Proc.devRef .tc main_arg2)) = A1
  generalize ReadP.val_main_v30 (F := F) (V (Proc.devRef .tc main_arg2)) = A2
  rfl

theorem st_main_v101 (V : Valuation τ sig (Elt F)) (j : ℕ) (hj : 155 < j) :
    after (List.take j ops) V (Proc.devRef .tc main_v101) = ReadP.val_main_v101 (F := F) := by
  rw [after_take_eq_result_of_nodup wr opsW_nodup V j 155 (r := main_v101) rfl rfl hj]
  rw [unary_result]
  rw [st_main_v90 V 155 (by decide)]
  unfold ReadP.val_main_v101
  generalize ReadP.val_main_v90 (F := F) = A0
  rfl

theorem st_main_v102 (V : Valuation τ sig (Elt F)) (j : ℕ) (hj : 156 < j) :
    after (List.take j ops) V (Proc.devRef .tc main_v102) = ReadP.val_main_v102 (F := F) := by
  rw [after_take_eq_result_of_nodup wr opsW_nodup V j 156 (r := main_v102) rfl rfl hj]
  rw [unary_result]
  rw [st_main_v101 V 156 (by decide)]
  unfold ReadP.val_main_v102
  generalize ReadP.val_main_v101 (F := F) = A0
  rfl

theorem st_main_v103 (V : Valuation τ sig (Elt F)) (j : ℕ) (hj : 157 < j) :
    after (List.take j ops) V (Proc.devRef .tc main_v103) = ReadP.val_main_v103 (F := F) (V (Proc.devRef .tc main_arg2)) := by
  rw [after_take_eq_result_of_nodup wr opsW_nodup V j 157 (r := main_v103) rfl rfl hj]
  rw [unary_result]
  rw [st_main_v95 V 157 (by decide)]
  unfold ReadP.val_main_v103
  generalize ReadP.val_main_v95 (F := F) (V (Proc.devRef .tc main_arg2)) = A0
  rfl

theorem st_main_v104 (V : Valuation τ sig (Elt F)) (j : ℕ) (hj : 158 < j) :
    after (List.take j ops) V (Proc.devRef .tc main_v104) = ReadP.val_main_v104 (F := F) (V (Proc.devRef .tc main_arg2)) := by
  rw [after_take_eq_result_of_nodup wr opsW_nodup V j 158 (r := main_v104) rfl rfl hj]
  rw [unary_result]
  rw [st_main_v100 V 158 (by decide)]
  unfold ReadP.val_main_v104
  generalize ReadP.val_main_v100 (F := F) (V (Proc.devRef .tc main_arg2)) = A0
  rfl

theorem st_main_v105 (V : Valuation τ sig (Elt F)) (j : ℕ) (hj : 159 < j) :
    after (List.take j ops) V (Proc.devRef .tc main_v105) = ReadP.val_main_v105 (F := F) (V (Proc.devRef .tc main_arg2)) := by
  rw [after_take_eq_result_of_nodup wr opsW_nodup V j 159 (r := main_v105) rfl rfl hj]
  rw [nary3_result]
  rw [st_main_v102 V 159 (by decide)]
  rw [st_main_v103 V 159 (by decide)]
  rw [st_main_v104 V 159 (by decide)]
  unfold ReadP.val_main_v105
  generalize ReadP.val_main_v102 (F := F) = A0
  generalize ReadP.val_main_v103 (F := F) (V (Proc.devRef .tc main_arg2)) = A1
  generalize ReadP.val_main_v104 (F := F) (V (Proc.devRef .tc main_arg2)) = A2
  rfl

theorem st_main_v106 (V : Valuation τ sig (Elt F)) (j : ℕ) (hj : 160 < j) :
    after (List.take j ops) V (Proc.devRef .tc main_v106) = ReadP.val_main_v106 (F := F) (V (Proc.devRef .tc main_arg0)) (V (Proc.devRef .tc main_arg2)) := by
  rw [after_take_eq_result_of_nodup wr opsW_nodup V j 160 (r := main_v106) rfl rfl hj]
  rw [binary_result]
  rw [st_main_v44 V 160 (by decide)]
  rw [st_main_v105 V 160 (by decide)]
  unfold ReadP.val_main_v106
  generalize ReadP.val_main_v44 (F := F) (V (Proc.devRef .tc main_arg0)) = A0
  generalize ReadP.val_main_v105 (F := F) (V (Proc.devRef .tc main_arg2)) = A1
  rfl

theorem st_main_v107 (V : Valuation τ sig (Elt F)) (j : ℕ) (hj : 161 < j) :
    after (List.take j ops) V (Proc.devRef .tc main_v107) = ReadP.val_main_v107 (F := F) (V (Proc.devRef .tc main_arg2)) := by
  rw [after_take_eq_result_of_nodup wr opsW_nodup V j 161 (r := main_v107) rfl rfl hj]
  rw [unary_result]
  rw [st_main_v56 V 161 (by decide)]
  unfold ReadP.val_main_v107
  generalize ReadP.val_main_v56 (F := F) (V (Proc.devRef .tc main_arg2)) = A0
  rfl

theorem st_main_v108 (V : Valuation τ sig (Elt F)) (j : ℕ) (hj : 162 < j) :
    after (List.take j ops) V (Proc.devRef .tc main_v108) = ReadP.val_main_v108 (F := F) (V (Proc.devRef .tc main_arg0)) (V (Proc.devRef .tc main_arg2)) := by
  rw [after_take_eq_result_of_nodup wr opsW_nodup V j 162 (r := main_v108) rfl rfl hj]
  rw [binary_result]
  rw [st_main_v107 V 162 (by decide)]
  rw [st_main_v106 V 162 (by decide)]
  unfold ReadP.val_main_v108
  generalize ReadP.val_main_v107 (F := F) (V (Proc.devRef .tc main_arg2)) = A0
  generalize ReadP.val_main_v106 (F := F) (V (Proc.devRef .tc main_arg0)) (V (Proc.devRef .tc main_arg2)) = A1
  rfl

theorem st_main_v109 (V : Valuation τ sig (Elt F)) (j : ℕ) (hj : 163 < j) :
    after (List.take j ops) V (Proc.devRef .tc main_v109) = ReadP.val_main_v109 (F := F) (V (Proc.devRef .tc main_arg0)) (V (Proc.devRef .tc main_arg2)) := by
  rw [after_take_eq_result_of_nodup wr opsW_nodup V j 163 (r := main_v109) rfl rfl hj]
  rw [binary_result]
  rw [st_main_v85 V 163 (by decide)]
  rw [st_main_v108 V 163 (by decide)]
  unfold ReadP.val_main_v109
  generalize ReadP.val_main_v85 (F := F) (V (Proc.devRef .tc main_arg0)) (V (Proc.devRef .tc main_arg2)) = A0
  generalize ReadP.val_main_v108 (F := F) (V (Proc.devRef .tc main_arg0)) (V (Proc.devRef .tc main_arg2)) = A1
  rfl

theorem st_main_c_32 (V : Valuation τ sig (Elt F)) (j : ℕ) (hj : 164 < j) :
    after (List.take j ops) V (Proc.devRef .tc main_c_32) = ReadP.val_main_c_32 (F := F) := by
  rw [after_take_eq_result_of_nodup wr opsW_nodup V j 164 (r := main_c_32) rfl rfl hj]
  rw [nullary_result]
  unfold ReadP.val_main_c_32
  rfl

theorem st_main_v110 (V : Valuation τ sig (Elt F)) (j : ℕ) (hj : 165 < j) :
    after (List.take j ops) V (Proc.devRef .tc main_v110) = ReadP.val_main_v110 (F := F) := by
  rw [after_take_eq_result_of_nodup wr opsW_nodup V j 165 (r := main_v110) rfl rfl hj]
  rw [unary_result]
  rw [st_main_c_32 V 165 (by decide)]
  unfold ReadP.val_main_v110
  generalize ReadP.val_main_c_32 (F := F) = A0
  rfl

theorem st_main_v111 (V : Valuation τ sig (Elt F)) (j : ℕ) (hj : 166 < j) :
    after (List.take j ops) V (Proc.devRef .tc main_v111) = ReadP.val_main_v111 (F := F) := by
  rw [after_take_eq_result_of_nodup wr opsW_nodup V j 166 (r := main_v111) rfl rfl hj]
  rw [binary_result]
  rw [st_main_v46 V 166 (by decide)]
  rw [st_main_v110 V 166 (by decide)]
  unfold ReadP.val_main_v111
  generalize ReadP.val_main_v46 (F := F) = A0
  generalize ReadP.val_main_v110 (F := F) = A1
  rfl

theorem st_main_c_33 (V : Valuation τ sig (Elt F)) (j : ℕ) (hj : 167 < j) :
    after (List.take j ops) V (Proc.devRef .tc main_c_33) = ReadP.val_main_c_33 (F := F) := by
  rw [after_take_eq_result_of_nodup wr opsW_nodup V j 167 (r := main_c_33) rfl rfl hj]
  rw [nullary_result]
  unfold ReadP.val_main_c_33
  rfl

theorem st_main_v112 (V : Valuation τ sig (Elt F)) (j : ℕ) (hj : 168 < j) :
    after (List.take j ops) V (Proc.devRef .tc main_v112) = ReadP.val_main_v112 (F := F) := by
  rw [after_take_eq_result_of_nodup wr opsW_nodup V j 168 (r := main_v112) rfl rfl hj]
  rw [unary_result]
  rw [st_main_c_33 V 168 (by decide)]
  unfold ReadP.val_main_v112
  generalize ReadP.val_main_c_33 (F := F) = A0
  rfl

theorem st_main_v113 (V : Valuation τ sig (Elt F)) (j : ℕ) (hj : 169 < j) :
    after (List.take j ops) V (Proc.devRef .tc main_v113) = ReadP.val_main_v113 (F := F) := by
  rw [after_take_eq_result_of_nodup wr opsW_nodup V j 169 (r := main_v113) rfl rfl hj]
  rw [binary_result]
  rw [st_main_v46 V 169 (by decide)]
  rw [st_main_v112 V 169 (by decide)]
  unfold ReadP.val_main_v113
  generalize ReadP.val_main_v46 (F := F) = A0
  generalize ReadP.val_main_v112 (F := F) = A1
  rfl

theorem st_main_v114 (V : Valuation τ sig (Elt F)) (j : ℕ) (hj : 170 < j) :
    after (List.take j ops) V (Proc.devRef .tc main_v114) = ReadP.val_main_v114 (F := F) := by
  rw [after_take_eq_result_of_nodup wr opsW_nodup V j 170 (r := main_v114) rfl rfl hj]
  rw [ternary_result]
  rw [st_main_v111 V 170 (by decide)]
  rw [st_main_v113 V 170 (by decide)]
  rw [st_main_v46 V 170 (by decide)]
  unfold ReadP.val_main_v114
  generalize ReadP.val_main_v111 (F := F) = A0
  generalize ReadP.val_main_v113 (F := F) = A1
  generalize ReadP.val_main_v46 (F := F) = A2
  rfl

theorem st_main_c_34 (V : Valuation τ sig (Elt F)) (j : ℕ) (hj : 171 < j) :
    after (List.take j ops) V (Proc.devRef .tc main_c_34) = ReadP.val_main_c_34 (F := F) := by
  rw [after_take_eq_result_of_nodup wr opsW_nodup V j 171 (r := main_c_34) rfl rfl hj]
  rw [nullary_result]
  unfold ReadP.val_main_c_34
  rfl

theorem st_main_v115 (V : Valuation τ sig (Elt F)) (j : ℕ) (hj : 172 < j) :
    after (List.take j ops) V (Proc.devRef .tc main_v115) = ReadP.val_main_v115 (F := F) := by
  rw [after_take_eq_result_of_nodup wr opsW_nodup V j 172 (r := main_v115) rfl rfl hj]
  rw [unary_result]
  rw [st_main_c_34 V 172 (by decide)]
  unfold ReadP.val_main_v115
  generalize ReadP.val_main_c_34 (F := F) = A0
  rfl

theorem st_main_v116 (V : Valuation τ sig (Elt F)) (j : ℕ) (hj : 173 < j) :
    after (List.take j ops) V (Proc.devRef .tc main_v116) = ReadP.val_main_v116 (F := F) (V (Proc.devRef .tc main_arg2)) := by
  rw [after_take_eq_result_of_nodup wr opsW_nodup V j 173 (r := main_v116) rfl rfl hj]
  rw [binary_result]
  rw [st_main_v33 V 173 (by decide)]
  rw [st_main_v115 V 173 (by decide)]
  unfold ReadP.val_main_v116
  generalize ReadP.val_main_v33 (F := F) (V (Proc.devRef .tc main_arg2)) = A0
  generalize ReadP.val_main_v115 (F := F) = A1
  rfl

theorem st_main_c_35 (V : Valuation τ sig (Elt F)) (j : ℕ) (hj : 174 < j) :
    after (List.take j ops) V (Proc.devRef .tc main_c_35) = ReadP.val_main_c_35 (F := F) := by
  rw [after_take_eq_result_of_nodup wr opsW_nodup V j 174 (r := main_c_35) rfl rfl hj]
  rw [nullary_result]
  unfold ReadP.val_main_c_35
  rfl

theorem st_main_v117 (V : Valuation τ sig (Elt F)) (j : ℕ) (hj : 175 < j) :
    after (List.take j ops) V (Proc.devRef .tc main_v117) = ReadP.val_main_v117 (F := F) := by
  rw [after_take_eq_result_of_nodup wr opsW_nodup V j 175 (r := main_v117) rfl rfl hj]
  rw [unary_result]
  rw [st_main_c_35 V 175 (by decide)]
  unfold ReadP.val_main_v117
  generalize ReadP.val_main_c_35 (F := F) = A0
  rfl

theorem st_main_v118 (V : Valuation τ sig (Elt F)) (j : ℕ) (hj : 176 < j) :
    after (List.take j ops) V (Proc.devRef .tc main_v118) = ReadP.val_main_v118 (F := F) (V (Proc.devRef .tc main_arg2)) := by
  rw [after_take_eq_result_of_nodup wr opsW_nodup V j 176 (r := main_v118) rfl rfl hj]
  rw [binary_result]
  rw [st_main_v33 V 176 (by decide)]
  rw [st_main_v117 V 176 (by decide)]
  unfold ReadP.val_main_v118
  generalize ReadP.val_main_v33 (F := F) (V (Proc.devRef .tc main_arg2)) = A0
  generalize ReadP.val_main_v117 (F := F) = A1
  rfl

theorem st_main_v119 (V : Valuation τ sig (Elt F)) (j : ℕ) (hj : 177 < j) :
    after (List.take j ops) V (Proc.devRef .tc main_v119) = ReadP.val_main_v119 (F := F) (V (Proc.devRef .tc main_arg2)) := by
  rw [after_take_eq_result_of_nodup wr opsW_nodup V j 177 (r := main_v119) rfl rfl hj]
  rw [ternary_result]
  rw [st_main_v116 V 177 (by decide)]
  rw [st_main_v118 V 177 (by decide)]
  rw [st_main_v33 V 177 (by decide)]
  unfold ReadP.val_main_v119
  generalize ReadP.val_main_v116 (F := F) (V (Proc.devRef .tc main_arg2)) = A0
  generalize ReadP.val_main_v118 (F := F) (V (Proc.devRef .tc main_arg2)) = A1
  generalize ReadP.val_main_v33 (F := F) (V (Proc.devRef .tc main_arg2)) = A2
  rfl

theorem st_main_c_36 (V : Valuation τ sig (Elt F)) (j : ℕ) (hj : 178 < j) :
    after (List.take j ops) V (Proc.devRef .tc main_c_36) = ReadP.val_main_c_36 (F := F) := by
  rw [after_take_eq_result_of_nodup wr opsW_nodup V j 178 (r := main_c_36) rfl rfl hj]
  rw [nullary_result]
  unfold ReadP.val_main_c_36
  rfl

theorem st_main_v120 (V : Valuation τ sig (Elt F)) (j : ℕ) (hj : 179 < j) :
    after (List.take j ops) V (Proc.devRef .tc main_v120) = ReadP.val_main_v120 (F := F) := by
  rw [after_take_eq_result_of_nodup wr opsW_nodup V j 179 (r := main_v120) rfl rfl hj]
  rw [unary_result]
  rw [st_main_c_36 V 179 (by decide)]
  unfold ReadP.val_main_v120
  generalize ReadP.val_main_c_36 (F := F) = A0
  rfl

theorem st_main_v121 (V : Valuation τ sig (Elt F)) (j : ℕ) (hj : 180 < j) :
    after (List.take j ops) V (Proc.devRef .tc main_v121) = ReadP.val_main_v121 (F := F) (V (Proc.devRef .tc main_arg2)) := by
  rw [after_take_eq_result_of_nodup wr opsW_nodup V j 180 (r := main_v121) rfl rfl hj]
  rw [binary_result]
  rw [st_main_v36 V 180 (by decide)]
  rw [st_main_v120 V 180 (by decide)]
  unfold ReadP.val_main_v121
  generalize ReadP.val_main_v36 (F := F) (V (Proc.devRef .tc main_arg2)) = A0
  generalize ReadP.val_main_v120 (F := F) = A1
  rfl

theorem st_main_c_37 (V : Valuation τ sig (Elt F)) (j : ℕ) (hj : 181 < j) :
    after (List.take j ops) V (Proc.devRef .tc main_c_37) = ReadP.val_main_c_37 (F := F) := by
  rw [after_take_eq_result_of_nodup wr opsW_nodup V j 181 (r := main_c_37) rfl rfl hj]
  rw [nullary_result]
  unfold ReadP.val_main_c_37
  rfl

theorem st_main_v122 (V : Valuation τ sig (Elt F)) (j : ℕ) (hj : 182 < j) :
    after (List.take j ops) V (Proc.devRef .tc main_v122) = ReadP.val_main_v122 (F := F) := by
  rw [after_take_eq_result_of_nodup wr opsW_nodup V j 182 (r := main_v122) rfl rfl hj]
  rw [unary_result]
  rw [st_main_c_37 V 182 (by decide)]
  unfold ReadP.val_main_v122
  generalize ReadP.val_main_c_37 (F := F) = A0
  rfl

theorem st_main_v123 (V : Valuation τ sig (Elt F)) (j : ℕ) (hj : 183 < j) :
    after (List.take j ops) V (Proc.devRef .tc main_v123) = ReadP.val_main_v123 (F := F) (V (Proc.devRef .tc main_arg2)) := by
  rw [after_take_eq_result_of_nodup wr opsW_nodup V j 183 (r := main_v123) rfl rfl hj]
  rw [binary_result]
  rw [st_main_v36 V 183 (by decide)]
  rw [st_main_v122 V 183 (by decide)]
  unfold ReadP.val_main_v123
  generalize ReadP.val_main_v36 (F := F) (V (Proc.devRef .tc main_arg2)) = A0
  generalize ReadP.val_main_v122 (F := F) = A1
  rfl

theorem st_main_v124 (V : Valuation τ sig (Elt F)) (j : ℕ) (hj : 184 < j) :
    after (List.take j ops) V (Proc.devRef .tc main_v124) = ReadP.val_main_v124 (F := F) (V (Proc.devRef .tc main_arg2)) := by
  rw [after_take_eq_result_of_nodup wr opsW_nodup V j 184 (r := main_v124) rfl rfl hj]
  rw [ternary_result]
  rw [st_main_v121 V 184 (by decide)]
  rw [st_main_v123 V 184 (by decide)]
  rw [st_main_v36 V 184 (by decide)]
  unfold ReadP.val_main_v124
  generalize ReadP.val_main_v121 (F := F) (V (Proc.devRef .tc main_arg2)) = A0
  generalize ReadP.val_main_v123 (F := F) (V (Proc.devRef .tc main_arg2)) = A1
  generalize ReadP.val_main_v36 (F := F) (V (Proc.devRef .tc main_arg2)) = A2
  rfl

theorem st_main_v125 (V : Valuation τ sig (Elt F)) (j : ℕ) (hj : 185 < j) :
    after (List.take j ops) V (Proc.devRef .tc main_v125) = ReadP.val_main_v125 (F := F) := by
  rw [after_take_eq_result_of_nodup wr opsW_nodup V j 185 (r := main_v125) rfl rfl hj]
  rw [unary_result]
  rw [st_main_v114 V 185 (by decide)]
  unfold ReadP.val_main_v125
  generalize ReadP.val_main_v114 (F := F) = A0
  rfl

theorem st_main_v126 (V : Valuation τ sig (Elt F)) (j : ℕ) (hj : 186 < j) :
    after (List.take j ops) V (Proc.devRef .tc main_v126) = ReadP.val_main_v126 (F := F) := by
  rw [after_take_eq_result_of_nodup wr opsW_nodup V j 186 (r := main_v126) rfl rfl hj]
  rw [unary_result]
  rw [st_main_v125 V 186 (by decide)]
  unfold ReadP.val_main_v126
  generalize ReadP.val_main_v125 (F := F) = A0
  rfl

theorem st_main_v127 (V : Valuation τ sig (Elt F)) (j : ℕ) (hj : 187 < j) :
    after (List.take j ops) V (Proc.devRef .tc main_v127) = ReadP.val_main_v127 (F := F) (V (Proc.devRef .tc main_arg2)) := by
  rw [after_take_eq_result_of_nodup wr opsW_nodup V j 187 (r := main_v127) rfl rfl hj]
  rw [unary_result]
  rw [st_main_v119 V 187 (by decide)]
  unfold ReadP.val_main_v127
  generalize ReadP.val_main_v119 (F := F) (V (Proc.devRef .tc main_arg2)) = A0
  rfl

theorem st_main_v128 (V : Valuation τ sig (Elt F)) (j : ℕ) (hj : 188 < j) :
    after (List.take j ops) V (Proc.devRef .tc main_v128) = ReadP.val_main_v128 (F := F) (V (Proc.devRef .tc main_arg2)) := by
  rw [after_take_eq_result_of_nodup wr opsW_nodup V j 188 (r := main_v128) rfl rfl hj]
  rw [unary_result]
  rw [st_main_v124 V 188 (by decide)]
  unfold ReadP.val_main_v128
  generalize ReadP.val_main_v124 (F := F) (V (Proc.devRef .tc main_arg2)) = A0
  rfl

theorem st_main_v129 (V : Valuation τ sig (Elt F)) (j : ℕ) (hj : 189 < j) :
    after (List.take j ops) V (Proc.devRef .tc main_v129) = ReadP.val_main_v129 (F := F) (V (Proc.devRef .tc main_arg2)) := by
  rw [after_take_eq_result_of_nodup wr opsW_nodup V j 189 (r := main_v129) rfl rfl hj]
  rw [nary3_result]
  rw [st_main_v126 V 189 (by decide)]
  rw [st_main_v127 V 189 (by decide)]
  rw [st_main_v128 V 189 (by decide)]
  unfold ReadP.val_main_v129
  generalize ReadP.val_main_v126 (F := F) = A0
  generalize ReadP.val_main_v127 (F := F) (V (Proc.devRef .tc main_arg2)) = A1
  generalize ReadP.val_main_v128 (F := F) (V (Proc.devRef .tc main_arg2)) = A2
  rfl

theorem st_main_v130 (V : Valuation τ sig (Elt F)) (j : ℕ) (hj : 190 < j) :
    after (List.take j ops) V (Proc.devRef .tc main_v130) = ReadP.val_main_v130 (F := F) (V (Proc.devRef .tc main_arg0)) (V (Proc.devRef .tc main_arg2)) := by
  rw [after_take_eq_result_of_nodup wr opsW_nodup V j 190 (r := main_v130) rfl rfl hj]
  rw [binary_result]
  rw [st_main_v44 V 190 (by decide)]
  rw [st_main_v129 V 190 (by decide)]
  unfold ReadP.val_main_v130
  generalize ReadP.val_main_v44 (F := F) (V (Proc.devRef .tc main_arg0)) = A0
  generalize ReadP.val_main_v129 (F := F) (V (Proc.devRef .tc main_arg2)) = A1
  rfl

theorem st_main_v131 (V : Valuation τ sig (Elt F)) (j : ℕ) (hj : 191 < j) :
    after (List.take j ops) V (Proc.devRef .tc main_v131) = ReadP.val_main_v131 (F := F) (V (Proc.devRef .tc main_arg2)) := by
  rw [after_take_eq_result_of_nodup wr opsW_nodup V j 191 (r := main_v131) rfl rfl hj]
  rw [unary_result]
  rw [st_main_v60 V 191 (by decide)]
  unfold ReadP.val_main_v131
  generalize ReadP.val_main_v60 (F := F) (V (Proc.devRef .tc main_arg2)) = A0
  rfl

theorem st_main_v132 (V : Valuation τ sig (Elt F)) (j : ℕ) (hj : 192 < j) :
    after (List.take j ops) V (Proc.devRef .tc main_v132) = ReadP.val_main_v132 (F := F) (V (Proc.devRef .tc main_arg0)) (V (Proc.devRef .tc main_arg2)) := by
  rw [after_take_eq_result_of_nodup wr opsW_nodup V j 192 (r := main_v132) rfl rfl hj]
  rw [binary_result]
  rw [st_main_v131 V 192 (by decide)]
  rw [st_main_v130 V 192 (by decide)]
  unfold ReadP.val_main_v132
  generalize ReadP.val_main_v131 (F := F) (V (Proc.devRef .tc main_arg2)) = A0
  generalize ReadP.val_main_v130 (F := F) (V (Proc.devRef .tc main_arg0)) (V (Proc.devRef .tc main_arg2)) = A1
  rfl

theorem st_main_v133 (V : Valuation τ sig (Elt F)) (j : ℕ) (hj : 193 < j) :
    after (List.take j ops) V (Proc.devRef .tc main_v133) = ReadP.val_main_v133 (F := F) (V (Proc.devRef .tc main_arg0)) (V (Proc.devRef .tc main_arg2)) := by
  rw [after_take_eq_result_of_nodup wr opsW_nodup V j 193 (r := main_v133) rfl rfl hj]
  rw [binary_result]
  rw [st_main_v109 V 193 (by decide)]
  rw [st_main_v132 V 193 (by decide)]
  unfold ReadP.val_main_v133
  generalize ReadP.val_main_v109 (F := F) (V (Proc.devRef .tc main_arg0)) (V (Proc.devRef .tc main_arg2)) = A0
  generalize ReadP.val_main_v132 (F := F) (V (Proc.devRef .tc main_arg0)) (V (Proc.devRef .tc main_arg2)) = A1
  rfl

theorem st_main_c_38 (V : Valuation τ sig (Elt F)) (j : ℕ) (hj : 194 < j) :
    after (List.take j ops) V (Proc.devRef .tc main_c_38) = ReadP.val_main_c_38 (F := F) := by
  rw [after_take_eq_result_of_nodup wr opsW_nodup V j 194 (r := main_c_38) rfl rfl hj]
  rw [nullary_result]
  unfold ReadP.val_main_c_38
  rfl

theorem st_main_v134 (V : Valuation τ sig (Elt F)) (j : ℕ) (hj : 195 < j) :
    after (List.take j ops) V (Proc.devRef .tc main_v134) = ReadP.val_main_v134 (F := F) := by
  rw [after_take_eq_result_of_nodup wr opsW_nodup V j 195 (r := main_v134) rfl rfl hj]
  rw [unary_result]
  rw [st_main_c_38 V 195 (by decide)]
  unfold ReadP.val_main_v134
  generalize ReadP.val_main_c_38 (F := F) = A0
  rfl

theorem st_main_v135 (V : Valuation τ sig (Elt F)) (j : ℕ) (hj : 196 < j) :
    after (List.take j ops) V (Proc.devRef .tc main_v135) = ReadP.val_main_v135 (F := F) := by
  rw [after_take_eq_result_of_nodup wr opsW_nodup V j 196 (r := main_v135) rfl rfl hj]
  rw [binary_result]
  rw [st_main_v46 V 196 (by decide)]
  rw [st_main_v134 V 196 (by decide)]
  unfold ReadP.val_main_v135
  generalize ReadP.val_main_v46 (F := F) = A0
  generalize ReadP.val_main_v134 (F := F) = A1
  rfl

theorem st_main_c_39 (V : Valuation τ sig (Elt F)) (j : ℕ) (hj : 197 < j) :
    after (List.take j ops) V (Proc.devRef .tc main_c_39) = ReadP.val_main_c_39 (F := F) := by
  rw [after_take_eq_result_of_nodup wr opsW_nodup V j 197 (r := main_c_39) rfl rfl hj]
  rw [nullary_result]
  unfold ReadP.val_main_c_39
  rfl

theorem st_main_v136 (V : Valuation τ sig (Elt F)) (j : ℕ) (hj : 198 < j) :
    after (List.take j ops) V (Proc.devRef .tc main_v136) = ReadP.val_main_v136 (F := F) := by
  rw [after_take_eq_result_of_nodup wr opsW_nodup V j 198 (r := main_v136) rfl rfl hj]
  rw [unary_result]
  rw [st_main_c_39 V 198 (by decide)]
  unfold ReadP.val_main_v136
  generalize ReadP.val_main_c_39 (F := F) = A0
  rfl

theorem st_main_v137 (V : Valuation τ sig (Elt F)) (j : ℕ) (hj : 199 < j) :
    after (List.take j ops) V (Proc.devRef .tc main_v137) = ReadP.val_main_v137 (F := F) := by
  rw [after_take_eq_result_of_nodup wr opsW_nodup V j 199 (r := main_v137) rfl rfl hj]
  rw [binary_result]
  rw [st_main_v46 V 199 (by decide)]
  rw [st_main_v136 V 199 (by decide)]
  unfold ReadP.val_main_v137
  generalize ReadP.val_main_v46 (F := F) = A0
  generalize ReadP.val_main_v136 (F := F) = A1
  rfl

theorem st_main_v138 (V : Valuation τ sig (Elt F)) (j : ℕ) (hj : 200 < j) :
    after (List.take j ops) V (Proc.devRef .tc main_v138) = ReadP.val_main_v138 (F := F) := by
  rw [after_take_eq_result_of_nodup wr opsW_nodup V j 200 (r := main_v138) rfl rfl hj]
  rw [ternary_result]
  rw [st_main_v135 V 200 (by decide)]
  rw [st_main_v137 V 200 (by decide)]
  rw [st_main_v46 V 200 (by decide)]
  unfold ReadP.val_main_v138
  generalize ReadP.val_main_v135 (F := F) = A0
  generalize ReadP.val_main_v137 (F := F) = A1
  generalize ReadP.val_main_v46 (F := F) = A2
  rfl

theorem st_main_c_40 (V : Valuation τ sig (Elt F)) (j : ℕ) (hj : 201 < j) :
    after (List.take j ops) V (Proc.devRef .tc main_c_40) = ReadP.val_main_c_40 (F := F) := by
  rw [after_take_eq_result_of_nodup wr opsW_nodup V j 201 (r := main_c_40) rfl rfl hj]
  rw [nullary_result]
  unfold ReadP.val_main_c_40
  rfl

theorem st_main_v139 (V : Valuation τ sig (Elt F)) (j : ℕ) (hj : 202 < j) :
    after (List.take j ops) V (Proc.devRef .tc main_v139) = ReadP.val_main_v139 (F := F) := by
  rw [after_take_eq_result_of_nodup wr opsW_nodup V j 202 (r := main_v139) rfl rfl hj]
  rw [unary_result]
  rw [st_main_c_40 V 202 (by decide)]
  unfold ReadP.val_main_v139
  generalize ReadP.val_main_c_40 (F := F) = A0
  rfl

theorem st_main_v140 (V : Valuation τ sig (Elt F)) (j : ℕ) (hj : 203 < j) :
    after (List.take j ops) V (Proc.devRef .tc main_v140) = ReadP.val_main_v140 (F := F) (V (Proc.devRef .tc main_arg2)) := by
  rw [after_take_eq_result_of_nodup wr opsW_nodup V j 203 (r := main_v140) rfl rfl hj]
  rw [binary_result]
  rw [st_main_v39 V 203 (by decide)]
  rw [st_main_v139 V 203 (by decide)]
  unfold ReadP.val_main_v140
  generalize ReadP.val_main_v39 (F := F) (V (Proc.devRef .tc main_arg2)) = A0
  generalize ReadP.val_main_v139 (F := F) = A1
  rfl

theorem st_main_c_41 (V : Valuation τ sig (Elt F)) (j : ℕ) (hj : 204 < j) :
    after (List.take j ops) V (Proc.devRef .tc main_c_41) = ReadP.val_main_c_41 (F := F) := by
  rw [after_take_eq_result_of_nodup wr opsW_nodup V j 204 (r := main_c_41) rfl rfl hj]
  rw [nullary_result]
  unfold ReadP.val_main_c_41
  rfl

theorem st_main_v141 (V : Valuation τ sig (Elt F)) (j : ℕ) (hj : 205 < j) :
    after (List.take j ops) V (Proc.devRef .tc main_v141) = ReadP.val_main_v141 (F := F) := by
  rw [after_take_eq_result_of_nodup wr opsW_nodup V j 205 (r := main_v141) rfl rfl hj]
  rw [unary_result]
  rw [st_main_c_41 V 205 (by decide)]
  unfold ReadP.val_main_v141
  generalize ReadP.val_main_c_41 (F := F) = A0
  rfl

theorem st_main_v142 (V : Valuation τ sig (Elt F)) (j : ℕ) (hj : 206 < j) :
    after (List.take j ops) V (Proc.devRef .tc main_v142) = ReadP.val_main_v142 (F := F) (V (Proc.devRef .tc main_arg2)) := by
  rw [after_take_eq_result_of_nodup wr opsW_nodup V j 206 (r := main_v142) rfl rfl hj]
  rw [binary_result]
  rw [st_main_v39 V 206 (by decide)]
  rw [st_main_v141 V 206 (by decide)]
  unfold ReadP.val_main_v142
  generalize ReadP.val_main_v39 (F := F) (V (Proc.devRef .tc main_arg2)) = A0
  generalize ReadP.val_main_v141 (F := F) = A1
  rfl

theorem st_main_v143 (V : Valuation τ sig (Elt F)) (j : ℕ) (hj : 207 < j) :
    after (List.take j ops) V (Proc.devRef .tc main_v143) = ReadP.val_main_v143 (F := F) (V (Proc.devRef .tc main_arg2)) := by
  rw [after_take_eq_result_of_nodup wr opsW_nodup V j 207 (r := main_v143) rfl rfl hj]
  rw [ternary_result]
  rw [st_main_v140 V 207 (by decide)]
  rw [st_main_v142 V 207 (by decide)]
  rw [st_main_v39 V 207 (by decide)]
  unfold ReadP.val_main_v143
  generalize ReadP.val_main_v140 (F := F) (V (Proc.devRef .tc main_arg2)) = A0
  generalize ReadP.val_main_v142 (F := F) (V (Proc.devRef .tc main_arg2)) = A1
  generalize ReadP.val_main_v39 (F := F) (V (Proc.devRef .tc main_arg2)) = A2
  rfl

theorem st_main_c_42 (V : Valuation τ sig (Elt F)) (j : ℕ) (hj : 208 < j) :
    after (List.take j ops) V (Proc.devRef .tc main_c_42) = ReadP.val_main_c_42 (F := F) := by
  rw [after_take_eq_result_of_nodup wr opsW_nodup V j 208 (r := main_c_42) rfl rfl hj]
  rw [nullary_result]
  unfold ReadP.val_main_c_42
  rfl

theorem st_main_v144 (V : Valuation τ sig (Elt F)) (j : ℕ) (hj : 209 < j) :
    after (List.take j ops) V (Proc.devRef .tc main_v144) = ReadP.val_main_v144 (F := F) := by
  rw [after_take_eq_result_of_nodup wr opsW_nodup V j 209 (r := main_v144) rfl rfl hj]
  rw [unary_result]
  rw [st_main_c_42 V 209 (by decide)]
  unfold ReadP.val_main_v144
  generalize ReadP.val_main_c_42 (F := F) = A0
  rfl

theorem st_main_v145 (V : Valuation τ sig (Elt F)) (j : ℕ) (hj : 210 < j) :
    after (List.take j ops) V (Proc.devRef .tc main_v145) = ReadP.val_main_v145 (F := F) (V (Proc.devRef .tc main_arg2)) := by
  rw [after_take_eq_result_of_nodup wr opsW_nodup V j 210 (r := main_v145) rfl rfl hj]
  rw [binary_result]
  rw [st_main_v36 V 210 (by decide)]
  rw [st_main_v144 V 210 (by decide)]
  unfold ReadP.val_main_v145
  generalize ReadP.val_main_v36 (F := F) (V (Proc.devRef .tc main_arg2)) = A0
  generalize ReadP.val_main_v144 (F := F) = A1
  rfl

theorem st_main_c_43 (V : Valuation τ sig (Elt F)) (j : ℕ) (hj : 211 < j) :
    after (List.take j ops) V (Proc.devRef .tc main_c_43) = ReadP.val_main_c_43 (F := F) := by
  rw [after_take_eq_result_of_nodup wr opsW_nodup V j 211 (r := main_c_43) rfl rfl hj]
  rw [nullary_result]
  unfold ReadP.val_main_c_43
  rfl

theorem st_main_v146 (V : Valuation τ sig (Elt F)) (j : ℕ) (hj : 212 < j) :
    after (List.take j ops) V (Proc.devRef .tc main_v146) = ReadP.val_main_v146 (F := F) := by
  rw [after_take_eq_result_of_nodup wr opsW_nodup V j 212 (r := main_v146) rfl rfl hj]
  rw [unary_result]
  rw [st_main_c_43 V 212 (by decide)]
  unfold ReadP.val_main_v146
  generalize ReadP.val_main_c_43 (F := F) = A0
  rfl

theorem st_main_v147 (V : Valuation τ sig (Elt F)) (j : ℕ) (hj : 213 < j) :
    after (List.take j ops) V (Proc.devRef .tc main_v147) = ReadP.val_main_v147 (F := F) (V (Proc.devRef .tc main_arg2)) := by
  rw [after_take_eq_result_of_nodup wr opsW_nodup V j 213 (r := main_v147) rfl rfl hj]
  rw [binary_result]
  rw [st_main_v36 V 213 (by decide)]
  rw [st_main_v146 V 213 (by decide)]
  unfold ReadP.val_main_v147
  generalize ReadP.val_main_v36 (F := F) (V (Proc.devRef .tc main_arg2)) = A0
  generalize ReadP.val_main_v146 (F := F) = A1
  rfl

theorem st_main_v148 (V : Valuation τ sig (Elt F)) (j : ℕ) (hj : 214 < j) :
    after (List.take j ops) V (Proc.devRef .tc main_v148) = ReadP.val_main_v148 (F := F) (V (Proc.devRef .tc main_arg2)) := by
  rw [after_take_eq_result_of_nodup wr opsW_nodup V j 214 (r := main_v148) rfl rfl hj]
  rw [ternary_result]
  rw [st_main_v145 V 214 (by decide)]
  rw [st_main_v147 V 214 (by decide)]
  rw [st_main_v36 V 214 (by decide)]
  unfold ReadP.val_main_v148
  generalize ReadP.val_main_v145 (F := F) (V (Proc.devRef .tc main_arg2)) = A0
  generalize ReadP.val_main_v147 (F := F) (V (Proc.devRef .tc main_arg2)) = A1
  generalize ReadP.val_main_v36 (F := F) (V (Proc.devRef .tc main_arg2)) = A2
  rfl

theorem st_main_v149 (V : Valuation τ sig (Elt F)) (j : ℕ) (hj : 215 < j) :
    after (List.take j ops) V (Proc.devRef .tc main_v149) = ReadP.val_main_v149 (F := F) := by
  rw [after_take_eq_result_of_nodup wr opsW_nodup V j 215 (r := main_v149) rfl rfl hj]
  rw [unary_result]
  rw [st_main_v138 V 215 (by decide)]
  unfold ReadP.val_main_v149
  generalize ReadP.val_main_v138 (F := F) = A0
  rfl

theorem st_main_v150 (V : Valuation τ sig (Elt F)) (j : ℕ) (hj : 216 < j) :
    after (List.take j ops) V (Proc.devRef .tc main_v150) = ReadP.val_main_v150 (F := F) := by
  rw [after_take_eq_result_of_nodup wr opsW_nodup V j 216 (r := main_v150) rfl rfl hj]
  rw [unary_result]
  rw [st_main_v149 V 216 (by decide)]
  unfold ReadP.val_main_v150
  generalize ReadP.val_main_v149 (F := F) = A0
  rfl

theorem st_main_v151 (V : Valuation τ sig (Elt F)) (j : ℕ) (hj : 217 < j) :
    after (List.take j ops) V (Proc.devRef .tc main_v151) = ReadP.val_main_v151 (F := F) (V (Proc.devRef .tc main_arg2)) := by
  rw [after_take_eq_result_of_nodup wr opsW_nodup V j 217 (r := main_v151) rfl rfl hj]
  rw [unary_result]
  rw [st_main_v143 V 217 (by decide)]
  unfold ReadP.val_main_v151
  generalize ReadP.val_main_v143 (F := F) (V (Proc.devRef .tc main_arg2)) = A0
  rfl

theorem st_main_v152 (V : Valuation τ sig (Elt F)) (j : ℕ) (hj : 218 < j) :
    after (List.take j ops) V (Proc.devRef .tc main_v152) = ReadP.val_main_v152 (F := F) (V (Proc.devRef .tc main_arg2)) := by
  rw [after_take_eq_result_of_nodup wr opsW_nodup V j 218 (r := main_v152) rfl rfl hj]
  rw [unary_result]
  rw [st_main_v148 V 218 (by decide)]
  unfold ReadP.val_main_v152
  generalize ReadP.val_main_v148 (F := F) (V (Proc.devRef .tc main_arg2)) = A0
  rfl

theorem st_main_v153 (V : Valuation τ sig (Elt F)) (j : ℕ) (hj : 219 < j) :
    after (List.take j ops) V (Proc.devRef .tc main_v153) = ReadP.val_main_v153 (F := F) (V (Proc.devRef .tc main_arg2)) := by
  rw [after_take_eq_result_of_nodup wr opsW_nodup V j 219 (r := main_v153) rfl rfl hj]
  rw [nary3_result]
  rw [st_main_v150 V 219 (by decide)]
  rw [st_main_v151 V 219 (by decide)]
  rw [st_main_v152 V 219 (by decide)]
  unfold ReadP.val_main_v153
  generalize ReadP.val_main_v150 (F := F) = A0
  generalize ReadP.val_main_v151 (F := F) (V (Proc.devRef .tc main_arg2)) = A1
  generalize ReadP.val_main_v152 (F := F) (V (Proc.devRef .tc main_arg2)) = A2
  rfl

theorem st_main_v154 (V : Valuation τ sig (Elt F)) (j : ℕ) (hj : 220 < j) :
    after (List.take j ops) V (Proc.devRef .tc main_v154) = ReadP.val_main_v154 (F := F) (V (Proc.devRef .tc main_arg0)) (V (Proc.devRef .tc main_arg2)) := by
  rw [after_take_eq_result_of_nodup wr opsW_nodup V j 220 (r := main_v154) rfl rfl hj]
  rw [binary_result]
  rw [st_main_v44 V 220 (by decide)]
  rw [st_main_v153 V 220 (by decide)]
  unfold ReadP.val_main_v154
  generalize ReadP.val_main_v44 (F := F) (V (Proc.devRef .tc main_arg0)) = A0
  generalize ReadP.val_main_v153 (F := F) (V (Proc.devRef .tc main_arg2)) = A1
  rfl

theorem st_main_v155 (V : Valuation τ sig (Elt F)) (j : ℕ) (hj : 221 < j) :
    after (List.take j ops) V (Proc.devRef .tc main_v155) = ReadP.val_main_v155 (F := F) (V (Proc.devRef .tc main_arg2)) := by
  rw [after_take_eq_result_of_nodup wr opsW_nodup V j 221 (r := main_v155) rfl rfl hj]
  rw [unary_result]
  rw [st_main_v62 V 221 (by decide)]
  unfold ReadP.val_main_v155
  generalize ReadP.val_main_v62 (F := F) (V (Proc.devRef .tc main_arg2)) = A0
  rfl

theorem st_main_v156 (V : Valuation τ sig (Elt F)) (j : ℕ) (hj : 222 < j) :
    after (List.take j ops) V (Proc.devRef .tc main_v156) = ReadP.val_main_v156 (F := F) (V (Proc.devRef .tc main_arg0)) (V (Proc.devRef .tc main_arg2)) := by
  rw [after_take_eq_result_of_nodup wr opsW_nodup V j 222 (r := main_v156) rfl rfl hj]
  rw [binary_result]
  rw [st_main_v155 V 222 (by decide)]
  rw [st_main_v154 V 222 (by decide)]
  unfold ReadP.val_main_v156
  generalize ReadP.val_main_v155 (F := F) (V (Proc.devRef .tc main_arg2)) = A0
  generalize ReadP.val_main_v154 (F := F) (V (Proc.devRef .tc main_arg0)) (V (Proc.devRef .tc main_arg2)) = A1
  rfl

theorem st_main_v157 (V : Valuation τ sig (Elt F)) (j : ℕ) (hj : 223 < j) :
    after (List.take j ops) V (Proc.devRef .tc main_v157) = ReadP.val_main_v157 (F := F) (V (Proc.devRef .tc main_arg0)) (V (Proc.devRef .tc main_arg2)) := by
  rw [after_take_eq_result_of_nodup wr opsW_nodup V j 223 (r := main_v157) rfl rfl hj]
  rw [binary_result]
  rw [st_main_v133 V 223 (by decide)]
  rw [st_main_v156 V 223 (by decide)]
  unfold ReadP.val_main_v157
  generalize ReadP.val_main_v133 (F := F) (V (Proc.devRef .tc main_arg0)) (V (Proc.devRef .tc main_arg2)) = A0
  generalize ReadP.val_main_v156 (F := F) (V (Proc.devRef .tc main_arg0)) (V (Proc.devRef .tc main_arg2)) = A1
  rfl

theorem st_main_v158 (V : Valuation τ sig (Elt F)) (j : ℕ) (hj : 224 < j) :
    after (List.take j ops) V (Proc.devRef .tc main_v158) = ReadP.val_main_v158 (F := F) (V (Proc.devRef .tc main_arg1)) := by
  rw [after_take_eq_result_of_nodup wr opsW_nodup V j 224 (r := main_v158) rfl rfl hj]
  rw [reshape_result]
  rw [st_main_v15 V 224 (by decide)]
  unfold ReadP.val_main_v158
  generalize ReadP.val_main_v15 (F := F) (V (Proc.devRef .tc main_arg1)) = A0
  rfl

theorem st_main_v159 (V : Valuation τ sig (Elt F)) (j : ℕ) (hj : 225 < j) :
    after (List.take j ops) V (Proc.devRef .tc main_v159) = ReadP.val_main_v159 (F := F) (V (Proc.devRef .tc main_arg0)) (V (Proc.devRef .tc main_arg1)) (V (Proc.devRef .tc main_arg2)) := by
  rw [after_take_eq_result_of_nodup wr opsW_nodup V j 225 (r := main_v159) rfl rfl hj]
  rw [binary_result]
  rw [st_main_v157 V 225 (by decide)]
  rw [st_main_v158 V 225 (by decide)]
  unfold ReadP.val_main_v159
  generalize ReadP.val_main_v157 (F := F) (V (Proc.devRef .tc main_arg0)) (V (Proc.devRef .tc main_arg2)) = A0
  generalize ReadP.val_main_v158 (F := F) (V (Proc.devRef .tc main_arg1)) = A1
  rfl

theorem st_main_cst_44 (V : Valuation τ sig (Elt F)) (j : ℕ) (hj : 226 < j) :
    after (List.take j ops) V (Proc.devRef .tc main_cst_44) = ReadP.val_main_cst_44 (F := F) := by
  rw [after_take_eq_result_of_nodup wr opsW_nodup V j 226 (r := main_cst_44) rfl rfl hj]
  rw [nullary_result]
  unfold ReadP.val_main_cst_44
  rfl

theorem st_main_v160 (V : Valuation τ sig (Elt F)) (j : ℕ) (hj : 227 < j) :
    after (List.take j ops) V (Proc.devRef .tc main_v160) = ReadP.val_main_v160 (F := F) := by
  rw [after_take_eq_result_of_nodup wr opsW_nodup V j 227 (r := main_v160) rfl rfl hj]
  rw [unary_result]
  rw [st_main_cst_44 V 227 (by decide)]
  unfold ReadP.val_main_v160
  generalize ReadP.val_main_cst_44 (F := F) = A0
  rfl

theorem st_main_v161 (V : Valuation τ sig (Elt F)) (j : ℕ) (hj : 228 < j) :
    after (List.take j ops) V (Proc.devRef .tc main_v161) = ReadP.val_main_v161 (F := F) (V (Proc.devRef .tc main_arg0)) (V (Proc.devRef .tc main_arg1)) (V (Proc.devRef .tc main_arg2)) := by
  rw [after_take_eq_result_of_nodup wr opsW_nodup V j 228 (r := main_v161) rfl rfl hj]
  rw [binary_result]
  rw [st_main_v159 V 228 (by decide)]
  rw [st_main_v160 V 228 (by decide)]
  unfold ReadP.val_main_v161
  generalize ReadP.val_main_v159 (F := F) (V (Proc.devRef .tc main_arg0)) (V (Proc.devRef .tc main_arg1)) (V (Proc.devRef .tc main_arg2)) = A0
  generalize ReadP.val_main_v160 (F := F) = A1
  rfl

theorem st_main_v162 (V : Valuation τ sig (Elt F)) (j : ℕ) (hj : 229 < j) :
    after (List.take j ops) V (Proc.devRef .tc main_v162) = ReadP.val_main_v162 (F := F) (V (Proc.devRef .tc main_arg3)) := by
  rw [after_take_eq_result_of_nodup wr opsW_nodup V j 229 (r := main_v162) rfl rfl hj]
  rw [unary_result]
  rw [after_take_of_not_mem_list wr V 229 (r := main_arg3) arg3_not_mem]
  unfold ReadP.val_main_v162
  rfl

theorem st_main_v163 (V : Valuation τ sig (Elt F)) (j : ℕ) (hj : 230 < j) :
    after (List.take j ops) V (Proc.devRef .tc main_v163) = ReadP.val_main_v163 (F := F) (V (Proc.devRef .tc main_arg3)) := by
  rw [after_take_eq_result_of_nodup wr opsW_nodup V j 230 (r := main_v163) rfl rfl hj]
  rw [reshape_result]
  rw [st_main_v162 V 230 (by decide)]
  unfold ReadP.val_main_v163
  generalize ReadP.val_main_v162 (F := F) (V (Proc.devRef .tc main_arg3)) = A0
  rfl

theorem st_main_cst_45 (V : Valuation τ sig (Elt F)) (j : ℕ) (hj : 231 < j) :
    after (List.take j ops) V (Proc.devRef .tc main_cst_45) = ReadP.val_main_cst_45 (F := F) := by
  rw [after_take_eq_result_of_nodup wr opsW_nodup V j 231 (r := main_cst_45) rfl rfl hj]
  rw [nullary_result]
  unfold ReadP.val_main_cst_45
  rfl

theorem st_main_v164 (V : Valuation τ sig (Elt F)) (j : ℕ) (hj : 232 < j) :
    after (List.take j ops) V (Proc.devRef .tc main_v164) = ReadP.val_main_v164 (F := F) := by
  rw [after_take_eq_result_of_nodup wr opsW_nodup V j 232 (r := main_v164) rfl rfl hj]
  rw [unary_result]
  rw [st_main_cst_45 V 232 (by decide)]
  unfold ReadP.val_main_v164
  generalize ReadP.val_main_cst_45 (F := F) = A0
  rfl

theorem st_main_v165 (V : Valuation τ sig (Elt F)) (j : ℕ) (hj : 233 < j) :
    after (List.take j ops) V (Proc.devRef .tc main_v165) = ReadP.val_main_v165 (F := F) (V (Proc.devRef .tc main_arg3)) := by
  rw [after_take_eq_result_of_nodup wr opsW_nodup V j 233 (r := main_v165) rfl rfl hj]
  rw [binary_result]
  rw [st_main_v163 V 233 (by decide)]
  rw [st_main_v164 V 233 (by decide)]
  unfold ReadP.val_main_v165
  generalize ReadP.val_main_v163 (F := F) (V (Proc.devRef .tc main_arg3)) = A0
  generalize ReadP.val_main_v164 (F := F) = A1
  rfl

theorem st_main_v166 (V : Valuation τ sig (Elt F)) (j : ℕ) (hj : 234 < j) :
    after (List.take j ops) V (Proc.devRef .tc main_v166) = ReadP.val_main_v166 (F := F) (V (Proc.devRef .tc main_arg3)) := by
  rw [after_take_eq_result_of_nodup wr opsW_nodup V j 234 (r := main_v166) rfl rfl hj]
  rw [unary_result]
  rw [after_take_of_not_mem_list wr V 234 (r := main_arg3) arg3_not_mem]
  unfold ReadP.val_main_v166
  rfl

theorem st_main_v167 (V : Valuation τ sig (Elt F)) (j : ℕ) (hj : 235 < j) :
    after (List.take j ops) V (Proc.devRef .tc main_v167) = ReadP.val_main_v167 (F := F) (V (Proc.devRef .tc main_arg3)) := by
  rw [after_take_eq_result_of_nodup wr opsW_nodup V j 235 (r := main_v167) rfl rfl hj]
  rw [reshape_result]
  rw [st_main_v166 V 235 (by decide)]
  unfold ReadP.val_main_v167
  generalize ReadP.val_main_v166 (F := F) (V (Proc.devRef .tc main_arg3)) = A0
  rfl

theorem st_main_cst_46 (V : Valuation τ sig (Elt F)) (j : ℕ) (hj : 236 < j) :
    after (List.take j ops) V (Proc.devRef .tc main_cst_46) = ReadP.val_main_cst_46 (F := F) := by
  rw [after_take_eq_result_of_nodup wr opsW_nodup V j 236 (r := main_cst_46) rfl rfl hj]
  rw [nullary_result]
  unfold ReadP.val_main_cst_46
  rfl

theorem st_main_v168 (V : Valuation τ sig (Elt F)) (j : ℕ) (hj : 237 < j) :
    after (List.take j ops) V (Proc.devRef .tc main_v168) = ReadP.val_main_v168 (F := F) := by
  rw [after_take_eq_result_of_nodup wr opsW_nodup V j 237 (r := main_v168) rfl rfl hj]
  rw [unary_result]
  rw [st_main_cst_46 V 237 (by decide)]
  unfold ReadP.val_main_v168
  generalize ReadP.val_main_cst_46 (F := F) = A0
  rfl

theorem st_main_v169 (V : Valuation τ sig (Elt F)) (j : ℕ) (hj : 238 < j) :
    after (List.take j ops) V (Proc.devRef .tc main_v169) = ReadP.val_main_v169 (F := F) (V (Proc.devRef .tc main_arg3)) := by
  rw [after_take_eq_result_of_nodup wr opsW_nodup V j 238 (r := main_v169) rfl rfl hj]
  rw [binary_result]
  rw [st_main_v167 V 238 (by decide)]
  rw [st_main_v168 V 238 (by decide)]
  unfold ReadP.val_main_v169
  generalize ReadP.val_main_v167 (F := F) (V (Proc.devRef .tc main_arg3)) = A0
  generalize ReadP.val_main_v168 (F := F) = A1
  rfl

theorem st_main_v170 (V : Valuation τ sig (Elt F)) (j : ℕ) (hj : 239 < j) :
    after (List.take j ops) V (Proc.devRef .tc main_v170) = ReadP.val_main_v170 (F := F) (V (Proc.devRef .tc main_arg3)) := by
  rw [after_take_eq_result_of_nodup wr opsW_nodup V j 239 (r := main_v170) rfl rfl hj]
  rw [unary_result]
  rw [st_main_v165 V 239 (by decide)]
  unfold ReadP.val_main_v170
  generalize ReadP.val_main_v165 (F := F) (V (Proc.devRef .tc main_arg3)) = A0
  rfl

theorem st_main_c_47 (V : Valuation τ sig (Elt F)) (j : ℕ) (hj : 240 < j) :
    after (List.take j ops) V (Proc.devRef .tc main_c_47) = ReadP.val_main_c_47 (F := F) := by
  rw [after_take_eq_result_of_nodup wr opsW_nodup V j 240 (r := main_c_47) rfl rfl hj]
  rw [nullary_result]
  unfold ReadP.val_main_c_47
  rfl

theorem st_main_c_48 (V : Valuation τ sig (Elt F)) (j : ℕ) (hj : 241 < j) :
    after (List.take j ops) V (Proc.devRef .tc main_c_48) = ReadP.val_main_c_48 (F := F) := by
  rw [after_take_eq_result_of_nodup wr opsW_nodup V j 241 (r := main_c_48) rfl rfl hj]
  rw [nullary_result]
  unfold ReadP.val_main_c_48
  rfl

theorem st_main_call4_v0 (V : Valuation τ sig (Elt F)) (j : ℕ) (hj : 242 < j) :
    after (List.take j ops) V (Proc.devRef .tc main_call4_v0) = ReadP.val_main_call4_v0 (F := F) := by
  rw [after_take_eq_result_of_nodup wr opsW_nodup V j 242 (r := main_call4_v0) rfl rfl hj]
  rw [unary_result]
  rw [st_main_c_47 V 242 (by decide)]
  unfold ReadP.val_main_call4_v0
  generalize ReadP.val_main_c_47 (F := F) = A0
  rfl

theorem st_main_call4_v1 (V : Valuation τ sig (Elt F)) (j : ℕ) (hj : 243 < j) :
    after (List.take j ops) V (Proc.devRef .tc main_call4_v1) = ReadP.val_main_call4_v1 (F := F) := by
  rw [after_take_eq_result_of_nodup wr opsW_nodup V j 243 (r := main_call4_v1) rfl rfl hj]
  rw [unary_result]
  rw [st_main_call4_v0 V 243 (by decide)]
  unfold ReadP.val_main_call4_v1
  generalize ReadP.val_main_call4_v0 (F := F) = A0
  rfl

theorem st_main_call4_v2 (V : Valuation τ sig (Elt F)) (j : ℕ) (hj : 244 < j) :
    after (List.take j ops) V (Proc.devRef .tc main_call4_v2) = ReadP.val_main_call4_v2 (F := F) (V (Proc.devRef .tc main_arg3)) := by
  rw [after_take_eq_result_of_nodup wr opsW_nodup V j 244 (r := main_call4_v2) rfl rfl hj]
  rw [binary_result]
  rw [st_main_call4_v1 V 244 (by decide)]
  rw [st_main_v170 V 244 (by decide)]
  unfold ReadP.val_main_call4_v2
  generalize ReadP.val_main_call4_v1 (F := F) = A0
  generalize ReadP.val_main_v170 (F := F) (V (Proc.devRef .tc main_arg3)) = A1
  rfl

theorem st_main_call4_v3 (V : Valuation τ sig (Elt F)) (j : ℕ) (hj : 245 < j) :
    after (List.take j ops) V (Proc.devRef .tc main_call4_v3) = ReadP.val_main_call4_v3 (F := F) := by
  rw [after_take_eq_result_of_nodup wr opsW_nodup V j 245 (r := main_call4_v3) rfl rfl hj]
  rw [unary_result]
  rw [st_main_c_48 V 245 (by decide)]
  unfold ReadP.val_main_call4_v3
  generalize ReadP.val_main_c_48 (F := F) = A0
  rfl

theorem st_main_call4_v4 (V : Valuation τ sig (Elt F)) (j : ℕ) (hj : 246 < j) :
    after (List.take j ops) V (Proc.devRef .tc main_call4_v4) = ReadP.val_main_call4_v4 (F := F) := by
  rw [after_take_eq_result_of_nodup wr opsW_nodup V j 246 (r := main_call4_v4) rfl rfl hj]
  rw [unary_result]
  rw [st_main_call4_v3 V 246 (by decide)]
  unfold ReadP.val_main_call4_v4
  generalize ReadP.val_main_call4_v3 (F := F) = A0
  rfl

theorem st_main_v171 (V : Valuation τ sig (Elt F)) (j : ℕ) (hj : 247 < j) :
    after (List.take j ops) V (Proc.devRef .tc main_v171) = ReadP.val_main_v171 (F := F) (V (Proc.devRef .tc main_arg3)) := by
  rw [after_take_eq_result_of_nodup wr opsW_nodup V j 247 (r := main_v171) rfl rfl hj]
  rw [binary_result]
  rw [st_main_call4_v4 V 247 (by decide)]
  rw [st_main_call4_v2 V 247 (by decide)]
  unfold ReadP.val_main_v171
  generalize ReadP.val_main_call4_v4 (F := F) = A0
  generalize ReadP.val_main_call4_v2 (F := F) (V (Proc.devRef .tc main_arg3)) = A1
  rfl

theorem st_main_v172 (V : Valuation τ sig (Elt F)) (j : ℕ) (hj : 248 < j) :
    after (List.take j ops) V (Proc.devRef .tc main_v172) = ReadP.val_main_v172 (F := F) (V (Proc.devRef .tc main_arg3)) := by
  rw [after_take_eq_result_of_nodup wr opsW_nodup V j 248 (r := main_v172) rfl rfl hj]
  rw [unary_result]
  rw [st_main_v171 V 248 (by decide)]
  unfold ReadP.val_main_v172
  generalize ReadP.val_main_v171 (F := F) (V (Proc.devRef .tc main_arg3)) = A0
  rfl

theorem st_main_c_49 (V : Valuation τ sig (Elt F)) (j : ℕ) (hj : 249 < j) :
    after (List.take j ops) V (Proc.devRef .tc main_c_49) = ReadP.val_main_c_49 (F := F) := by
  rw [after_take_eq_result_of_nodup wr opsW_nodup V j 249 (r := main_c_49) rfl rfl hj]
  rw [nullary_result]
  unfold ReadP.val_main_c_49
  rfl

theorem st_main_v173 (V : Valuation τ sig (Elt F)) (j : ℕ) (hj : 250 < j) :
    after (List.take j ops) V (Proc.devRef .tc main_v173) = ReadP.val_main_v173 (F := F) := by
  rw [after_take_eq_result_of_nodup wr opsW_nodup V j 250 (r := main_v173) rfl rfl hj]
  rw [unary_result]
  rw [st_main_c_49 V 250 (by decide)]
  unfold ReadP.val_main_v173
  generalize ReadP.val_main_c_49 (F := F) = A0
  rfl

theorem st_main_v174 (V : Valuation τ sig (Elt F)) (j : ℕ) (hj : 251 < j) :
    after (List.take j ops) V (Proc.devRef .tc main_v174) = ReadP.val_main_v174 (F := F) (V (Proc.devRef .tc main_arg3)) := by
  rw [after_take_eq_result_of_nodup wr opsW_nodup V j 251 (r := main_v174) rfl rfl hj]
  rw [binary_result]
  rw [st_main_v172 V 251 (by decide)]
  rw [st_main_v173 V 251 (by decide)]
  unfold ReadP.val_main_v174
  generalize ReadP.val_main_v172 (F := F) (V (Proc.devRef .tc main_arg3)) = A0
  generalize ReadP.val_main_v173 (F := F) = A1
  rfl

theorem st_main_c_50 (V : Valuation τ sig (Elt F)) (j : ℕ) (hj : 252 < j) :
    after (List.take j ops) V (Proc.devRef .tc main_c_50) = ReadP.val_main_c_50 (F := F) := by
  rw [after_take_eq_result_of_nodup wr opsW_nodup V j 252 (r := main_c_50) rfl rfl hj]
  rw [nullary_result]
  unfold ReadP.val_main_c_50
  rfl

theorem st_main_c_51 (V : Valuation τ sig (Elt F)) (j : ℕ) (hj : 253 < j) :
    after (List.take j ops) V (Proc.devRef .tc main_c_51) = ReadP.val_main_c_51 (F := F) := by
  rw [after_take_eq_result_of_nodup wr opsW_nodup V j 253 (r := main_c_51) rfl rfl hj]
  rw [nullary_result]
  unfold ReadP.val_main_c_51
  rfl

theorem st_main_call5_v0 (V : Valuation τ sig (Elt F)) (j : ℕ) (hj : 254 < j) :
    after (List.take j ops) V (Proc.devRef .tc main_call5_v0) = ReadP.val_main_call5_v0 (F := F) := by
  rw [after_take_eq_result_of_nodup wr opsW_nodup V j 254 (r := main_call5_v0) rfl rfl hj]
  rw [unary_result]
  rw [st_main_c_50 V 254 (by decide)]
  unfold ReadP.val_main_call5_v0
  generalize ReadP.val_main_c_50 (F := F) = A0
  rfl

theorem st_main_call5_v1 (V : Valuation τ sig (Elt F)) (j : ℕ) (hj : 255 < j) :
    after (List.take j ops) V (Proc.devRef .tc main_call5_v1) = ReadP.val_main_call5_v1 (F := F) := by
  rw [after_take_eq_result_of_nodup wr opsW_nodup V j 255 (r := main_call5_v1) rfl rfl hj]
  rw [unary_result]
  rw [st_main_call5_v0 V 255 (by decide)]
  unfold ReadP.val_main_call5_v1
  generalize ReadP.val_main_call5_v0 (F := F) = A0
  rfl

theorem st_main_call5_v2 (V : Valuation τ sig (Elt F)) (j : ℕ) (hj : 256 < j) :
    after (List.take j ops) V (Proc.devRef .tc main_call5_v2) = ReadP.val_main_call5_v2 (F := F) (V (Proc.devRef .tc main_arg3)) := by
  rw [after_take_eq_result_of_nodup wr opsW_nodup V j 256 (r := main_call5_v2) rfl rfl hj]
  rw [binary_result]
  rw [st_main_call5_v1 V 256 (by decide)]
  rw [st_main_v174 V 256 (by decide)]
  unfold ReadP.val_main_call5_v2
  generalize ReadP.val_main_call5_v1 (F := F) = A0
  generalize ReadP.val_main_v174 (F := F) (V (Proc.devRef .tc main_arg3)) = A1
  rfl

theorem st_main_call5_v3 (V : Valuation τ sig (Elt F)) (j : ℕ) (hj : 257 < j) :
    after (List.take j ops) V (Proc.devRef .tc main_call5_v3) = ReadP.val_main_call5_v3 (F := F) := by
  rw [after_take_eq_result_of_nodup wr opsW_nodup V j 257 (r := main_call5_v3) rfl rfl hj]
  rw [unary_result]
  rw [st_main_c_51 V 257 (by decide)]
  unfold ReadP.val_main_call5_v3
  generalize ReadP.val_main_c_51 (F := F) = A0
  rfl

theorem st_main_call5_v4 (V : Valuation τ sig (Elt F)) (j : ℕ) (hj : 258 < j) :
    after (List.take j ops) V (Proc.devRef .tc main_call5_v4) = ReadP.val_main_call5_v4 (F := F) := by
  rw [after_take_eq_result_of_nodup wr opsW_nodup V j 258 (r := main_call5_v4) rfl rfl hj]
  rw [unary_result]
  rw [st_main_call5_v3 V 258 (by decide)]
  unfold ReadP.val_main_call5_v4
  generalize ReadP.val_main_call5_v3 (F := F) = A0
  rfl

theorem st_main_v175 (V : Valuation τ sig (Elt F)) (j : ℕ) (hj : 259 < j) :
    after (List.take j ops) V (Proc.devRef .tc main_v175) = ReadP.val_main_v175 (F := F) (V (Proc.devRef .tc main_arg3)) := by
  rw [after_take_eq_result_of_nodup wr opsW_nodup V j 259 (r := main_v175) rfl rfl hj]
  rw [binary_result]
  rw [st_main_call5_v4 V 259 (by decide)]
  rw [st_main_call5_v2 V 259 (by decide)]
  unfold ReadP.val_main_v175
  generalize ReadP.val_main_call5_v4 (F := F) = A0
  generalize ReadP.val_main_call5_v2 (F := F) (V (Proc.devRef .tc main_arg3)) = A1
  rfl

end Cert.ReferenceIdeal.ValueL

end
-- ==== Proof.RefStagesC.lean ====
/-
  The reference program's run, read one operation at a time: operations 260 to 364.
-/
import proofs.«153362_j6846177869930_2_alg».proof.Proof.RefStagesB

noncomputable section

namespace Cert.ReferenceIdeal.ValueL

open Cert.ReferenceIdeal Cert.ReferenceIdeal.Gen Idealize.ShloMosaic Idealize.ShloMosaic.TcCoe Idealize.ShloMosaic.StableHlo
open Cert.LineRead

variable {F : FTy → Type} [FloatOps F]

theorem st_main_v176 (V : Valuation τ sig (Elt F)) (j : ℕ) (hj : 260 < j) :
    after (List.take j ops) V (Proc.devRef .tc main_v176) = ReadP.val_main_v176 (F := F) (V (Proc.devRef .tc main_arg3)) := by
  rw [after_take_eq_result_of_nodup wr opsW_nodup V j 260 (r := main_v176) rfl rfl hj]
  rw [unary_result]
  rw [st_main_v169 V 260 (by decide)]
  unfold ReadP.val_main_v176
  generalize ReadP.val_main_v169 (F := F) (V (Proc.devRef .tc main_arg3)) = A0
  rfl

theorem st_main_c_52 (V : Valuation τ sig (Elt F)) (j : ℕ) (hj : 261 < j) :
    after (List.take j ops) V (Proc.devRef .tc main_c_52) = ReadP.val_main_c_52 (F := F) := by
  rw [after_take_eq_result_of_nodup wr opsW_nodup V j 261 (r := main_c_52) rfl rfl hj]
  rw [nullary_result]
  unfold ReadP.val_main_c_52
  rfl

theorem st_main_c_53 (V : Valuation τ sig (Elt F)) (j : ℕ) (hj : 262 < j) :
    after (List.take j ops) V (Proc.devRef .tc main_c_53) = ReadP.val_main_c_53 (F := F) := by
  rw [after_take_eq_result_of_nodup wr opsW_nodup V j 262 (r := main_c_53) rfl rfl hj]
  rw [nullary_result]
  unfold ReadP.val_main_c_53
  rfl

theorem st_main_call6_v0 (V : Valuation τ sig (Elt F)) (j : ℕ) (hj : 263 < j) :
    after (List.take j ops) V (Proc.devRef .tc main_call6_v0) = ReadP.val_main_call6_v0 (F := F) := by
  rw [after_take_eq_result_of_nodup wr opsW_nodup V j 263 (r := main_call6_v0) rfl rfl hj]
  rw [unary_result]
  rw [st_main_c_52 V 263 (by decide)]
  unfold ReadP.val_main_call6_v0
  generalize ReadP.val_main_c_52 (F := F) = A0
  rfl

theorem st_main_call6_v1 (V : Valuation τ sig (Elt F)) (j : ℕ) (hj : 264 < j) :
    after (List.take j ops) V (Proc.devRef .tc main_call6_v1) = ReadP.val_main_call6_v1 (F := F) := by
  rw [after_take_eq_result_of_nodup wr opsW_nodup V j 264 (r := main_call6_v1) rfl rfl hj]
  rw [unary_result]
  rw [st_main_call6_v0 V 264 (by decide)]
  unfold ReadP.val_main_call6_v1
  generalize ReadP.val_main_call6_v0 (F := F) = A0
  rfl

theorem st_main_call6_v2 (V : Valuation τ sig (Elt F)) (j : ℕ) (hj : 265 < j) :
    after (List.take j ops) V (Proc.devRef .tc main_call6_v2) = ReadP.val_main_call6_v2 (F := F) (V (Proc.devRef .tc main_arg3)) := by
  rw [after_take_eq_result_of_nodup wr opsW_nodup V j 265 (r := main_call6_v2) rfl rfl hj]
  rw [binary_result]
  rw [st_main_call6_v1 V 265 (by decide)]
  rw [st_main_v176 V 265 (by decide)]
  unfold ReadP.val_main_call6_v2
  generalize ReadP.val_main_call6_v1 (F := F) = A0
  generalize ReadP.val_main_v176 (F := F) (V (Proc.devRef .tc main_arg3)) = A1
  rfl

theorem st_main_call6_v3 (V : Valuation τ sig (Elt F)) (j : ℕ) (hj : 266 < j) :
    after (List.take j ops) V (Proc.devRef .tc main_call6_v3) = ReadP.val_main_call6_v3 (F := F) := by
  rw [after_take_eq_result_of_nodup wr opsW_nodup V j 266 (r := main_call6_v3) rfl rfl hj]
  rw [unary_result]
  rw [st_main_c_53 V 266 (by decide)]
  unfold ReadP.val_main_call6_v3
  generalize ReadP.val_main_c_53 (F := F) = A0
  rfl

theorem st_main_call6_v4 (V : Valuation τ sig (Elt F)) (j : ℕ) (hj : 267 < j) :
    after (List.take j ops) V (Proc.devRef .tc main_call6_v4) = ReadP.val_main_call6_v4 (F := F) := by
  rw [after_take_eq_result_of_nodup wr opsW_nodup V j 267 (r := main_call6_v4) rfl rfl hj]
  rw [unary_result]
  rw [st_main_call6_v3 V 267 (by decide)]
  unfold ReadP.val_main_call6_v4
  generalize ReadP.val_main_call6_v3 (F := F) = A0
  rfl

theorem st_main_v177 (V : Valuation τ sig (Elt F)) (j : ℕ) (hj : 268 < j) :
    after (List.take j ops) V (Proc.devRef .tc main_v177) = ReadP.val_main_v177 (F := F) (V (Proc.devRef .tc main_arg3)) := by
  rw [after_take_eq_result_of_nodup wr opsW_nodup V j 268 (r := main_v177) rfl rfl hj]
  rw [binary_result]
  rw [st_main_call6_v4 V 268 (by decide)]
  rw [st_main_call6_v2 V 268 (by decide)]
  unfold ReadP.val_main_v177
  generalize ReadP.val_main_call6_v4 (F := F) = A0
  generalize ReadP.val_main_call6_v2 (F := F) (V (Proc.devRef .tc main_arg3)) = A1
  rfl

theorem st_main_v178 (V : Valuation τ sig (Elt F)) (j : ℕ) (hj : 269 < j) :
    after (List.take j ops) V (Proc.devRef .tc main_v178) = ReadP.val_main_v178 (F := F) (V (Proc.devRef .tc main_arg3)) := by
  rw [after_take_eq_result_of_nodup wr opsW_nodup V j 269 (r := main_v178) rfl rfl hj]
  rw [unary_result]
  rw [st_main_v177 V 269 (by decide)]
  unfold ReadP.val_main_v178
  generalize ReadP.val_main_v177 (F := F) (V (Proc.devRef .tc main_arg3)) = A0
  rfl

theorem st_main_c_54 (V : Valuation τ sig (Elt F)) (j : ℕ) (hj : 270 < j) :
    after (List.take j ops) V (Proc.devRef .tc main_c_54) = ReadP.val_main_c_54 (F := F) := by
  rw [after_take_eq_result_of_nodup wr opsW_nodup V j 270 (r := main_c_54) rfl rfl hj]
  rw [nullary_result]
  unfold ReadP.val_main_c_54
  rfl

theorem st_main_v179 (V : Valuation τ sig (Elt F)) (j : ℕ) (hj : 271 < j) :
    after (List.take j ops) V (Proc.devRef .tc main_v179) = ReadP.val_main_v179 (F := F) := by
  rw [after_take_eq_result_of_nodup wr opsW_nodup V j 271 (r := main_v179) rfl rfl hj]
  rw [unary_result]
  rw [st_main_c_54 V 271 (by decide)]
  unfold ReadP.val_main_v179
  generalize ReadP.val_main_c_54 (F := F) = A0
  rfl

theorem st_main_v180 (V : Valuation τ sig (Elt F)) (j : ℕ) (hj : 272 < j) :
    after (List.take j ops) V (Proc.devRef .tc main_v180) = ReadP.val_main_v180 (F := F) (V (Proc.devRef .tc main_arg3)) := by
  rw [after_take_eq_result_of_nodup wr opsW_nodup V j 272 (r := main_v180) rfl rfl hj]
  rw [binary_result]
  rw [st_main_v178 V 272 (by decide)]
  rw [st_main_v179 V 272 (by decide)]
  unfold ReadP.val_main_v180
  generalize ReadP.val_main_v178 (F := F) (V (Proc.devRef .tc main_arg3)) = A0
  generalize ReadP.val_main_v179 (F := F) = A1
  rfl

theorem st_main_c_55 (V : Valuation τ sig (Elt F)) (j : ℕ) (hj : 273 < j) :
    after (List.take j ops) V (Proc.devRef .tc main_c_55) = ReadP.val_main_c_55 (F := F) := by
  rw [after_take_eq_result_of_nodup wr opsW_nodup V j 273 (r := main_c_55) rfl rfl hj]
  rw [nullary_result]
  unfold ReadP.val_main_c_55
  rfl

theorem st_main_c_56 (V : Valuation τ sig (Elt F)) (j : ℕ) (hj : 274 < j) :
    after (List.take j ops) V (Proc.devRef .tc main_c_56) = ReadP.val_main_c_56 (F := F) := by
  rw [after_take_eq_result_of_nodup wr opsW_nodup V j 274 (r := main_c_56) rfl rfl hj]
  rw [nullary_result]
  unfold ReadP.val_main_c_56
  rfl

theorem st_main_call7_v0 (V : Valuation τ sig (Elt F)) (j : ℕ) (hj : 275 < j) :
    after (List.take j ops) V (Proc.devRef .tc main_call7_v0) = ReadP.val_main_call7_v0 (F := F) := by
  rw [after_take_eq_result_of_nodup wr opsW_nodup V j 275 (r := main_call7_v0) rfl rfl hj]
  rw [unary_result]
  rw [st_main_c_55 V 275 (by decide)]
  unfold ReadP.val_main_call7_v0
  generalize ReadP.val_main_c_55 (F := F) = A0
  rfl

theorem st_main_call7_v1 (V : Valuation τ sig (Elt F)) (j : ℕ) (hj : 276 < j) :
    after (List.take j ops) V (Proc.devRef .tc main_call7_v1) = ReadP.val_main_call7_v1 (F := F) := by
  rw [after_take_eq_result_of_nodup wr opsW_nodup V j 276 (r := main_call7_v1) rfl rfl hj]
  rw [unary_result]
  rw [st_main_call7_v0 V 276 (by decide)]
  unfold ReadP.val_main_call7_v1
  generalize ReadP.val_main_call7_v0 (F := F) = A0
  rfl

theorem st_main_call7_v2 (V : Valuation τ sig (Elt F)) (j : ℕ) (hj : 277 < j) :
    after (List.take j ops) V (Proc.devRef .tc main_call7_v2) = ReadP.val_main_call7_v2 (F := F) (V (Proc.devRef .tc main_arg3)) := by
  rw [after_take_eq_result_of_nodup wr opsW_nodup V j 277 (r := main_call7_v2) rfl rfl hj]
  rw [binary_result]
  rw [st_main_call7_v1 V 277 (by decide)]
  rw [st_main_v180 V 277 (by decide)]
  unfold ReadP.val_main_call7_v2
  generalize ReadP.val_main_call7_v1 (F := F) = A0
  generalize ReadP.val_main_v180 (F := F) (V (Proc.devRef .tc main_arg3)) = A1
  rfl

theorem st_main_call7_v3 (V : Valuation τ sig (Elt F)) (j : ℕ) (hj : 278 < j) :
    after (List.take j ops) V (Proc.devRef .tc main_call7_v3) = ReadP.val_main_call7_v3 (F := F) := by
  rw [after_take_eq_result_of_nodup wr opsW_nodup V j 278 (r := main_call7_v3) rfl rfl hj]
  rw [unary_result]
  rw [st_main_c_56 V 278 (by decide)]
  unfold ReadP.val_main_call7_v3
  generalize ReadP.val_main_c_56 (F := F) = A0
  rfl

theorem st_main_call7_v4 (V : Valuation τ sig (Elt F)) (j : ℕ) (hj : 279 < j) :
    after (List.take j ops) V (Proc.devRef .tc main_call7_v4) = ReadP.val_main_call7_v4 (F := F) := by
  rw [after_take_eq_result_of_nodup wr opsW_nodup V j 279 (r := main_call7_v4) rfl rfl hj]
  rw [unary_result]
  rw [st_main_call7_v3 V 279 (by decide)]
  unfold ReadP.val_main_call7_v4
  generalize ReadP.val_main_call7_v3 (F := F) = A0
  rfl

theorem st_main_v181 (V : Valuation τ sig (Elt F)) (j : ℕ) (hj : 280 < j) :
    after (List.take j ops) V (Proc.devRef .tc main_v181) = ReadP.val_main_v181 (F := F) (V (Proc.devRef .tc main_arg3)) := by
  rw [after_take_eq_result_of_nodup wr opsW_nodup V j 280 (r := main_v181) rfl rfl hj]
  rw [binary_result]
  rw [st_main_call7_v4 V 280 (by decide)]
  rw [st_main_call7_v2 V 280 (by decide)]
  unfold ReadP.val_main_v181
  generalize ReadP.val_main_call7_v4 (F := F) = A0
  generalize ReadP.val_main_call7_v2 (F := F) (V (Proc.devRef .tc main_arg3)) = A1
  rfl

theorem st_main_v182 (V : Valuation τ sig (Elt F)) (j : ℕ) (hj : 281 < j) :
    after (List.take j ops) V (Proc.devRef .tc main_v182) = ReadP.val_main_v182 (F := F) (V (Proc.devRef .tc main_arg3)) := by
  rw [after_take_eq_result_of_nodup wr opsW_nodup V j 281 (r := main_v182) rfl rfl hj]
  rw [unary_result]
  rw [st_main_v172 V 281 (by decide)]
  unfold ReadP.val_main_v182
  generalize ReadP.val_main_v172 (F := F) (V (Proc.devRef .tc main_arg3)) = A0
  rfl

theorem st_main_v183 (V : Valuation τ sig (Elt F)) (j : ℕ) (hj : 282 < j) :
    after (List.take j ops) V (Proc.devRef .tc main_v183) = ReadP.val_main_v183 (F := F) (V (Proc.devRef .tc main_arg3)) := by
  rw [after_take_eq_result_of_nodup wr opsW_nodup V j 282 (r := main_v183) rfl rfl hj]
  rw [unary_result]
  rw [st_main_v175 V 282 (by decide)]
  unfold ReadP.val_main_v183
  generalize ReadP.val_main_v175 (F := F) (V (Proc.devRef .tc main_arg3)) = A0
  rfl

theorem st_main_v184 (V : Valuation τ sig (Elt F)) (j : ℕ) (hj : 283 < j) :
    after (List.take j ops) V (Proc.devRef .tc main_v184) = ReadP.val_main_v184 (F := F) (V (Proc.devRef .tc main_arg3)) := by
  rw [after_take_eq_result_of_nodup wr opsW_nodup V j 283 (r := main_v184) rfl rfl hj]
  rw [unary_result]
  rw [st_main_v178 V 283 (by decide)]
  unfold ReadP.val_main_v184
  generalize ReadP.val_main_v178 (F := F) (V (Proc.devRef .tc main_arg3)) = A0
  rfl

theorem st_main_v185 (V : Valuation τ sig (Elt F)) (j : ℕ) (hj : 284 < j) :
    after (List.take j ops) V (Proc.devRef .tc main_v185) = ReadP.val_main_v185 (F := F) (V (Proc.devRef .tc main_arg3)) := by
  rw [after_take_eq_result_of_nodup wr opsW_nodup V j 284 (r := main_v185) rfl rfl hj]
  rw [unary_result]
  rw [st_main_v181 V 284 (by decide)]
  unfold ReadP.val_main_v185
  generalize ReadP.val_main_v181 (F := F) (V (Proc.devRef .tc main_arg3)) = A0
  rfl

theorem st_main_v186 (V : Valuation τ sig (Elt F)) (j : ℕ) (hj : 285 < j) :
    after (List.take j ops) V (Proc.devRef .tc main_v186) = ReadP.val_main_v186 (F := F) (V (Proc.devRef .tc main_arg3)) := by
  rw [after_take_eq_result_of_nodup wr opsW_nodup V j 285 (r := main_v186) rfl rfl hj]
  rw [binary_result]
  rw [st_main_v183 V 285 (by decide)]
  rw [st_main_v165 V 285 (by decide)]
  unfold ReadP.val_main_v186
  generalize ReadP.val_main_v183 (F := F) (V (Proc.devRef .tc main_arg3)) = A0
  generalize ReadP.val_main_v165 (F := F) (V (Proc.devRef .tc main_arg3)) = A1
  rfl

theorem st_main_v187 (V : Valuation τ sig (Elt F)) (j : ℕ) (hj : 286 < j) :
    after (List.take j ops) V (Proc.devRef .tc main_v187) = ReadP.val_main_v187 (F := F) (V (Proc.devRef .tc main_arg3)) := by
  rw [after_take_eq_result_of_nodup wr opsW_nodup V j 286 (r := main_v187) rfl rfl hj]
  rw [binary_result]
  rw [st_main_v185 V 286 (by decide)]
  rw [st_main_v169 V 286 (by decide)]
  unfold ReadP.val_main_v187
  generalize ReadP.val_main_v185 (F := F) (V (Proc.devRef .tc main_arg3)) = A0
  generalize ReadP.val_main_v169 (F := F) (V (Proc.devRef .tc main_arg3)) = A1
  rfl

theorem st_main_v188 (V : Valuation τ sig (Elt F)) (j : ℕ) (hj : 287 < j) :
    after (List.take j ops) V (Proc.devRef .tc main_v188) = ReadP.val_main_v188 (F := F) (V (Proc.devRef .tc main_arg3)) := by
  rw [after_take_eq_result_of_nodup wr opsW_nodup V j 287 (r := main_v188) rfl rfl hj]
  rw [binary_result]
  rw [st_main_v186 V 287 (by decide)]
  rw [st_main_v187 V 287 (by decide)]
  unfold ReadP.val_main_v188
  generalize ReadP.val_main_v186 (F := F) (V (Proc.devRef .tc main_arg3)) = A0
  generalize ReadP.val_main_v187 (F := F) (V (Proc.devRef .tc main_arg3)) = A1
  rfl

theorem st_main_v189 (V : Valuation τ sig (Elt F)) (j : ℕ) (hj : 288 < j) :
    after (List.take j ops) V (Proc.devRef .tc main_v189) = ReadP.val_main_v189 (F := F) (V (Proc.devRef .tc main_arg3)) := by
  rw [after_take_eq_result_of_nodup wr opsW_nodup V j 288 (r := main_v189) rfl rfl hj]
  rw [binary_result]
  rw [st_main_v183 V 288 (by decide)]
  rw [st_main_v165 V 288 (by decide)]
  unfold ReadP.val_main_v189
  generalize ReadP.val_main_v183 (F := F) (V (Proc.devRef .tc main_arg3)) = A0
  generalize ReadP.val_main_v165 (F := F) (V (Proc.devRef .tc main_arg3)) = A1
  rfl

theorem st_main_v190 (V : Valuation τ sig (Elt F)) (j : ℕ) (hj : 289 < j) :
    after (List.take j ops) V (Proc.devRef .tc main_v190) = ReadP.val_main_v190 (F := F) (V (Proc.devRef .tc main_arg3)) := by
  rw [after_take_eq_result_of_nodup wr opsW_nodup V j 289 (r := main_v190) rfl rfl hj]
  rw [binary_result]
  rw [st_main_v169 V 289 (by decide)]
  rw [st_main_v184 V 289 (by decide)]
  unfold ReadP.val_main_v190
  generalize ReadP.val_main_v169 (F := F) (V (Proc.devRef .tc main_arg3)) = A0
  generalize ReadP.val_main_v184 (F := F) (V (Proc.devRef .tc main_arg3)) = A1
  rfl

theorem st_main_v191 (V : Valuation τ sig (Elt F)) (j : ℕ) (hj : 290 < j) :
    after (List.take j ops) V (Proc.devRef .tc main_v191) = ReadP.val_main_v191 (F := F) (V (Proc.devRef .tc main_arg3)) := by
  rw [after_take_eq_result_of_nodup wr opsW_nodup V j 290 (r := main_v191) rfl rfl hj]
  rw [binary_result]
  rw [st_main_v189 V 290 (by decide)]
  rw [st_main_v190 V 290 (by decide)]
  unfold ReadP.val_main_v191
  generalize ReadP.val_main_v189 (F := F) (V (Proc.devRef .tc main_arg3)) = A0
  generalize ReadP.val_main_v190 (F := F) (V (Proc.devRef .tc main_arg3)) = A1
  rfl

theorem st_main_v192 (V : Valuation τ sig (Elt F)) (j : ℕ) (hj : 291 < j) :
    after (List.take j ops) V (Proc.devRef .tc main_v192) = ReadP.val_main_v192 (F := F) (V (Proc.devRef .tc main_arg3)) := by
  rw [after_take_eq_result_of_nodup wr opsW_nodup V j 291 (r := main_v192) rfl rfl hj]
  rw [binary_result]
  rw [st_main_v165 V 291 (by decide)]
  rw [st_main_v182 V 291 (by decide)]
  unfold ReadP.val_main_v192
  generalize ReadP.val_main_v165 (F := F) (V (Proc.devRef .tc main_arg3)) = A0
  generalize ReadP.val_main_v182 (F := F) (V (Proc.devRef .tc main_arg3)) = A1
  rfl

theorem st_main_v193 (V : Valuation τ sig (Elt F)) (j : ℕ) (hj : 292 < j) :
    after (List.take j ops) V (Proc.devRef .tc main_v193) = ReadP.val_main_v193 (F := F) (V (Proc.devRef .tc main_arg3)) := by
  rw [after_take_eq_result_of_nodup wr opsW_nodup V j 292 (r := main_v193) rfl rfl hj]
  rw [binary_result]
  rw [st_main_v185 V 292 (by decide)]
  rw [st_main_v169 V 292 (by decide)]
  unfold ReadP.val_main_v193
  generalize ReadP.val_main_v185 (F := F) (V (Proc.devRef .tc main_arg3)) = A0
  generalize ReadP.val_main_v169 (F := F) (V (Proc.devRef .tc main_arg3)) = A1
  rfl

theorem st_main_v194 (V : Valuation τ sig (Elt F)) (j : ℕ) (hj : 293 < j) :
    after (List.take j ops) V (Proc.devRef .tc main_v194) = ReadP.val_main_v194 (F := F) (V (Proc.devRef .tc main_arg3)) := by
  rw [after_take_eq_result_of_nodup wr opsW_nodup V j 293 (r := main_v194) rfl rfl hj]
  rw [binary_result]
  rw [st_main_v192 V 293 (by decide)]
  rw [st_main_v193 V 293 (by decide)]
  unfold ReadP.val_main_v194
  generalize ReadP.val_main_v192 (F := F) (V (Proc.devRef .tc main_arg3)) = A0
  generalize ReadP.val_main_v193 (F := F) (V (Proc.devRef .tc main_arg3)) = A1
  rfl

theorem st_main_v195 (V : Valuation τ sig (Elt F)) (j : ℕ) (hj : 294 < j) :
    after (List.take j ops) V (Proc.devRef .tc main_v195) = ReadP.val_main_v195 (F := F) (V (Proc.devRef .tc main_arg3)) := by
  rw [after_take_eq_result_of_nodup wr opsW_nodup V j 294 (r := main_v195) rfl rfl hj]
  rw [binary_result]
  rw [st_main_v165 V 294 (by decide)]
  rw [st_main_v182 V 294 (by decide)]
  unfold ReadP.val_main_v195
  generalize ReadP.val_main_v165 (F := F) (V (Proc.devRef .tc main_arg3)) = A0
  generalize ReadP.val_main_v182 (F := F) (V (Proc.devRef .tc main_arg3)) = A1
  rfl

theorem st_main_v196 (V : Valuation τ sig (Elt F)) (j : ℕ) (hj : 295 < j) :
    after (List.take j ops) V (Proc.devRef .tc main_v196) = ReadP.val_main_v196 (F := F) (V (Proc.devRef .tc main_arg3)) := by
  rw [after_take_eq_result_of_nodup wr opsW_nodup V j 295 (r := main_v196) rfl rfl hj]
  rw [binary_result]
  rw [st_main_v169 V 295 (by decide)]
  rw [st_main_v184 V 295 (by decide)]
  unfold ReadP.val_main_v196
  generalize ReadP.val_main_v169 (F := F) (V (Proc.devRef .tc main_arg3)) = A0
  generalize ReadP.val_main_v184 (F := F) (V (Proc.devRef .tc main_arg3)) = A1
  rfl

theorem st_main_v197 (V : Valuation τ sig (Elt F)) (j : ℕ) (hj : 296 < j) :
    after (List.take j ops) V (Proc.devRef .tc main_v197) = ReadP.val_main_v197 (F := F) (V (Proc.devRef .tc main_arg3)) := by
  rw [after_take_eq_result_of_nodup wr opsW_nodup V j 296 (r := main_v197) rfl rfl hj]
  rw [binary_result]
  rw [st_main_v195 V 296 (by decide)]
  rw [st_main_v196 V 296 (by decide)]
  unfold ReadP.val_main_v197
  generalize ReadP.val_main_v195 (F := F) (V (Proc.devRef .tc main_arg3)) = A0
  generalize ReadP.val_main_v196 (F := F) (V (Proc.devRef .tc main_arg3)) = A1
  rfl

theorem st_main_c_57 (V : Valuation τ sig (Elt F)) (j : ℕ) (hj : 297 < j) :
    after (List.take j ops) V (Proc.devRef .tc main_c_57) = ReadP.val_main_c_57 (F := F) := by
  rw [after_take_eq_result_of_nodup wr opsW_nodup V j 297 (r := main_c_57) rfl rfl hj]
  rw [nullary_result]
  unfold ReadP.val_main_c_57
  rfl

theorem st_main_v198 (V : Valuation τ sig (Elt F)) (j : ℕ) (hj : 298 < j) :
    after (List.take j ops) V (Proc.devRef .tc main_v198) = ReadP.val_main_v198 (F := F) := by
  rw [after_take_eq_result_of_nodup wr opsW_nodup V j 298 (r := main_v198) rfl rfl hj]
  rw [unary_result]
  rw [st_main_c_57 V 298 (by decide)]
  unfold ReadP.val_main_v198
  generalize ReadP.val_main_c_57 (F := F) = A0
  rfl

theorem st_main_v199 (V : Valuation τ sig (Elt F)) (j : ℕ) (hj : 299 < j) :
    after (List.take j ops) V (Proc.devRef .tc main_v199) = ReadP.val_main_v199 (F := F) (V (Proc.devRef .tc main_arg4)) := by
  rw [after_take_eq_result_of_nodup wr opsW_nodup V j 299 (r := main_v199) rfl rfl hj]
  rw [binary_result]
  rw [after_take_of_not_mem_list wr V 299 (r := main_arg4) arg4_not_mem]
  rw [st_main_v198 V 299 (by decide)]
  unfold ReadP.val_main_v199
  generalize ReadP.val_main_v198 (F := F) = A0
  rfl

theorem st_main_v200 (V : Valuation τ sig (Elt F)) (j : ℕ) (hj : 300 < j) :
    after (List.take j ops) V (Proc.devRef .tc main_v200) = ReadP.val_main_v200 (F := F) (V (Proc.devRef .tc main_arg4)) := by
  rw [after_take_eq_result_of_nodup wr opsW_nodup V j 300 (r := main_v200) rfl rfl hj]
  rw [unary_result]
  rw [st_main_v199 V 300 (by decide)]
  unfold ReadP.val_main_v200
  generalize ReadP.val_main_v199 (F := F) (V (Proc.devRef .tc main_arg4)) = A0
  rfl

theorem st_main_v201 (V : Valuation τ sig (Elt F)) (j : ℕ) (hj : 301 < j) :
    after (List.take j ops) V (Proc.devRef .tc main_v201) = ReadP.val_main_v201 (F := F) (V (Proc.devRef .tc main_arg3)) := by
  rw [after_take_eq_result_of_nodup wr opsW_nodup V j 301 (r := main_v201) rfl rfl hj]
  rw [unary_result]
  rw [st_main_v188 V 301 (by decide)]
  unfold ReadP.val_main_v201
  generalize ReadP.val_main_v188 (F := F) (V (Proc.devRef .tc main_arg3)) = A0
  rfl

theorem st_main_v202 (V : Valuation τ sig (Elt F)) (j : ℕ) (hj : 302 < j) :
    after (List.take j ops) V (Proc.devRef .tc main_v202) = ReadP.val_main_v202 (F := F) (V (Proc.devRef .tc main_arg3)) := by
  rw [after_take_eq_result_of_nodup wr opsW_nodup V j 302 (r := main_v202) rfl rfl hj]
  rw [unary_result]
  rw [st_main_v191 V 302 (by decide)]
  unfold ReadP.val_main_v202
  generalize ReadP.val_main_v191 (F := F) (V (Proc.devRef .tc main_arg3)) = A0
  rfl

theorem st_main_v203 (V : Valuation τ sig (Elt F)) (j : ℕ) (hj : 303 < j) :
    after (List.take j ops) V (Proc.devRef .tc main_v203) = ReadP.val_main_v203 (F := F) (V (Proc.devRef .tc main_arg3)) := by
  rw [after_take_eq_result_of_nodup wr opsW_nodup V j 303 (r := main_v203) rfl rfl hj]
  rw [unary_result]
  rw [st_main_v194 V 303 (by decide)]
  unfold ReadP.val_main_v203
  generalize ReadP.val_main_v194 (F := F) (V (Proc.devRef .tc main_arg3)) = A0
  rfl

theorem st_main_v204 (V : Valuation τ sig (Elt F)) (j : ℕ) (hj : 304 < j) :
    after (List.take j ops) V (Proc.devRef .tc main_v204) = ReadP.val_main_v204 (F := F) (V (Proc.devRef .tc main_arg3)) := by
  rw [after_take_eq_result_of_nodup wr opsW_nodup V j 304 (r := main_v204) rfl rfl hj]
  rw [unary_result]
  rw [st_main_v197 V 304 (by decide)]
  unfold ReadP.val_main_v204
  generalize ReadP.val_main_v197 (F := F) (V (Proc.devRef .tc main_arg3)) = A0
  rfl

theorem st_main_v205 (V : Valuation τ sig (Elt F)) (j : ℕ) (hj : 305 < j) :
    after (List.take j ops) V (Proc.devRef .tc main_v205) = ReadP.val_main_v205 (F := F) (V (Proc.devRef .tc main_arg3)) := by
  rw [after_take_eq_result_of_nodup wr opsW_nodup V j 305 (r := main_v205) rfl rfl hj]
  rw [nary4_result]
  rw [st_main_v201 V 305 (by decide)]
  rw [st_main_v202 V 305 (by decide)]
  rw [st_main_v203 V 305 (by decide)]
  rw [st_main_v204 V 305 (by decide)]
  unfold ReadP.val_main_v205
  generalize ReadP.val_main_v201 (F := F) (V (Proc.devRef .tc main_arg3)) = A0
  generalize ReadP.val_main_v202 (F := F) (V (Proc.devRef .tc main_arg3)) = A1
  generalize ReadP.val_main_v203 (F := F) (V (Proc.devRef .tc main_arg3)) = A2
  generalize ReadP.val_main_v204 (F := F) (V (Proc.devRef .tc main_arg3)) = A3
  rfl

theorem st_main_v206 (V : Valuation τ sig (Elt F)) (j : ℕ) (hj : 306 < j) :
    after (List.take j ops) V (Proc.devRef .tc main_v206) = ReadP.val_main_v206 (F := F) (V (Proc.devRef .tc main_arg4)) := by
  rw [after_take_eq_result_of_nodup wr opsW_nodup V j 306 (r := main_v206) rfl rfl hj]
  rw [unary_result]
  rw [st_main_v200 V 306 (by decide)]
  unfold ReadP.val_main_v206
  generalize ReadP.val_main_v200 (F := F) (V (Proc.devRef .tc main_arg4)) = A0
  rfl

theorem st_main_v207 (V : Valuation τ sig (Elt F)) (j : ℕ) (hj : 307 < j) :
    after (List.take j ops) V (Proc.devRef .tc main_v207) = ReadP.val_main_v207 (F := F) (V (Proc.devRef .tc main_arg4)) := by
  rw [after_take_eq_result_of_nodup wr opsW_nodup V j 307 (r := main_v207) rfl rfl hj]
  rw [unary_result]
  rw [st_main_v206 V 307 (by decide)]
  unfold ReadP.val_main_v207
  generalize ReadP.val_main_v206 (F := F) (V (Proc.devRef .tc main_arg4)) = A0
  rfl

theorem st_main_v208 (V : Valuation τ sig (Elt F)) (j : ℕ) (hj : 308 < j) :
    after (List.take j ops) V (Proc.devRef .tc main_v208) = ReadP.val_main_v208 (F := F) (V (Proc.devRef .tc main_arg3)) (V (Proc.devRef .tc main_arg4)) := by
  rw [after_take_eq_result_of_nodup wr opsW_nodup V j 308 (r := main_v208) rfl rfl hj]
  rw [binary_result]
  rw [st_main_v205 V 308 (by decide)]
  rw [st_main_v207 V 308 (by decide)]
  unfold ReadP.val_main_v208
  generalize ReadP.val_main_v205 (F := F) (V (Proc.devRef .tc main_arg3)) = A0
  generalize ReadP.val_main_v207 (F := F) (V (Proc.devRef .tc main_arg4)) = A1
  rfl

theorem st_main_c_58 (V : Valuation τ sig (Elt F)) (j : ℕ) (hj : 309 < j) :
    after (List.take j ops) V (Proc.devRef .tc main_c_58) = ReadP.val_main_c_58 (F := F) := by
  rw [after_take_eq_result_of_nodup wr opsW_nodup V j 309 (r := main_c_58) rfl rfl hj]
  rw [nullary_result]
  unfold ReadP.val_main_c_58
  rfl

theorem st_main_v209 (V : Valuation τ sig (Elt F)) (j : ℕ) (hj : 310 < j) :
    after (List.take j ops) V (Proc.devRef .tc main_v209) = ReadP.val_main_v209 (F := F) := by
  rw [after_take_eq_result_of_nodup wr opsW_nodup V j 310 (r := main_v209) rfl rfl hj]
  rw [unary_result]
  rw [st_main_c_58 V 310 (by decide)]
  unfold ReadP.val_main_v209
  generalize ReadP.val_main_c_58 (F := F) = A0
  rfl

theorem st_main_v210 (V : Valuation τ sig (Elt F)) (j : ℕ) (hj : 311 < j) :
    after (List.take j ops) V (Proc.devRef .tc main_v210) = ReadP.val_main_v210 (F := F) (V (Proc.devRef .tc main_arg3)) := by
  rw [after_take_eq_result_of_nodup wr opsW_nodup V j 311 (r := main_v210) rfl rfl hj]
  rw [binary_result]
  rw [st_main_v178 V 311 (by decide)]
  rw [st_main_v209 V 311 (by decide)]
  unfold ReadP.val_main_v210
  generalize ReadP.val_main_v178 (F := F) (V (Proc.devRef .tc main_arg3)) = A0
  generalize ReadP.val_main_v209 (F := F) = A1
  rfl

theorem st_main_v211 (V : Valuation τ sig (Elt F)) (j : ℕ) (hj : 312 < j) :
    after (List.take j ops) V (Proc.devRef .tc main_v211) = ReadP.val_main_v211 (F := F) (V (Proc.devRef .tc main_arg3)) := by
  rw [after_take_eq_result_of_nodup wr opsW_nodup V j 312 (r := main_v211) rfl rfl hj]
  rw [binary_result]
  rw [st_main_v210 V 312 (by decide)]
  rw [st_main_v172 V 312 (by decide)]
  unfold ReadP.val_main_v211
  generalize ReadP.val_main_v210 (F := F) (V (Proc.devRef .tc main_arg3)) = A0
  generalize ReadP.val_main_v172 (F := F) (V (Proc.devRef .tc main_arg3)) = A1
  rfl

theorem st_main_c_59 (V : Valuation τ sig (Elt F)) (j : ℕ) (hj : 313 < j) :
    after (List.take j ops) V (Proc.devRef .tc main_c_59) = ReadP.val_main_c_59 (F := F) := by
  rw [after_take_eq_result_of_nodup wr opsW_nodup V j 313 (r := main_c_59) rfl rfl hj]
  rw [nullary_result]
  unfold ReadP.val_main_c_59
  rfl

theorem st_main_v212 (V : Valuation τ sig (Elt F)) (j : ℕ) (hj : 314 < j) :
    after (List.take j ops) V (Proc.devRef .tc main_v212) = ReadP.val_main_v212 (F := F) := by
  rw [after_take_eq_result_of_nodup wr opsW_nodup V j 314 (r := main_v212) rfl rfl hj]
  rw [unary_result]
  rw [st_main_c_59 V 314 (by decide)]
  unfold ReadP.val_main_v212
  generalize ReadP.val_main_c_59 (F := F) = A0
  rfl

theorem st_main_v213 (V : Valuation τ sig (Elt F)) (j : ℕ) (hj : 315 < j) :
    after (List.take j ops) V (Proc.devRef .tc main_v213) = ReadP.val_main_v213 (F := F) (V (Proc.devRef .tc main_arg3)) := by
  rw [after_take_eq_result_of_nodup wr opsW_nodup V j 315 (r := main_v213) rfl rfl hj]
  rw [binary_result]
  rw [st_main_v181 V 315 (by decide)]
  rw [st_main_v212 V 315 (by decide)]
  unfold ReadP.val_main_v213
  generalize ReadP.val_main_v181 (F := F) (V (Proc.devRef .tc main_arg3)) = A0
  generalize ReadP.val_main_v212 (F := F) = A1
  rfl

theorem st_main_v214 (V : Valuation τ sig (Elt F)) (j : ℕ) (hj : 316 < j) :
    after (List.take j ops) V (Proc.devRef .tc main_v214) = ReadP.val_main_v214 (F := F) (V (Proc.devRef .tc main_arg3)) := by
  rw [after_take_eq_result_of_nodup wr opsW_nodup V j 316 (r := main_v214) rfl rfl hj]
  rw [binary_result]
  rw [st_main_v213 V 316 (by decide)]
  rw [st_main_v172 V 316 (by decide)]
  unfold ReadP.val_main_v214
  generalize ReadP.val_main_v213 (F := F) (V (Proc.devRef .tc main_arg3)) = A0
  generalize ReadP.val_main_v172 (F := F) (V (Proc.devRef .tc main_arg3)) = A1
  rfl

theorem st_main_c_60 (V : Valuation τ sig (Elt F)) (j : ℕ) (hj : 317 < j) :
    after (List.take j ops) V (Proc.devRef .tc main_c_60) = ReadP.val_main_c_60 (F := F) := by
  rw [after_take_eq_result_of_nodup wr opsW_nodup V j 317 (r := main_c_60) rfl rfl hj]
  rw [nullary_result]
  unfold ReadP.val_main_c_60
  rfl

theorem st_main_v215 (V : Valuation τ sig (Elt F)) (j : ℕ) (hj : 318 < j) :
    after (List.take j ops) V (Proc.devRef .tc main_v215) = ReadP.val_main_v215 (F := F) := by
  rw [after_take_eq_result_of_nodup wr opsW_nodup V j 318 (r := main_v215) rfl rfl hj]
  rw [unary_result]
  rw [st_main_c_60 V 318 (by decide)]
  unfold ReadP.val_main_v215
  generalize ReadP.val_main_c_60 (F := F) = A0
  rfl

theorem st_main_v216 (V : Valuation τ sig (Elt F)) (j : ℕ) (hj : 319 < j) :
    after (List.take j ops) V (Proc.devRef .tc main_v216) = ReadP.val_main_v216 (F := F) (V (Proc.devRef .tc main_arg3)) := by
  rw [after_take_eq_result_of_nodup wr opsW_nodup V j 319 (r := main_v216) rfl rfl hj]
  rw [binary_result]
  rw [st_main_v178 V 319 (by decide)]
  rw [st_main_v215 V 319 (by decide)]
  unfold ReadP.val_main_v216
  generalize ReadP.val_main_v178 (F := F) (V (Proc.devRef .tc main_arg3)) = A0
  generalize ReadP.val_main_v215 (F := F) = A1
  rfl

theorem st_main_v217 (V : Valuation τ sig (Elt F)) (j : ℕ) (hj : 320 < j) :
    after (List.take j ops) V (Proc.devRef .tc main_v217) = ReadP.val_main_v217 (F := F) (V (Proc.devRef .tc main_arg3)) := by
  rw [after_take_eq_result_of_nodup wr opsW_nodup V j 320 (r := main_v217) rfl rfl hj]
  rw [binary_result]
  rw [st_main_v216 V 320 (by decide)]
  rw [st_main_v175 V 320 (by decide)]
  unfold ReadP.val_main_v217
  generalize ReadP.val_main_v216 (F := F) (V (Proc.devRef .tc main_arg3)) = A0
  generalize ReadP.val_main_v175 (F := F) (V (Proc.devRef .tc main_arg3)) = A1
  rfl

theorem st_main_c_61 (V : Valuation τ sig (Elt F)) (j : ℕ) (hj : 321 < j) :
    after (List.take j ops) V (Proc.devRef .tc main_c_61) = ReadP.val_main_c_61 (F := F) := by
  rw [after_take_eq_result_of_nodup wr opsW_nodup V j 321 (r := main_c_61) rfl rfl hj]
  rw [nullary_result]
  unfold ReadP.val_main_c_61
  rfl

theorem st_main_v218 (V : Valuation τ sig (Elt F)) (j : ℕ) (hj : 322 < j) :
    after (List.take j ops) V (Proc.devRef .tc main_v218) = ReadP.val_main_v218 (F := F) := by
  rw [after_take_eq_result_of_nodup wr opsW_nodup V j 322 (r := main_v218) rfl rfl hj]
  rw [unary_result]
  rw [st_main_c_61 V 322 (by decide)]
  unfold ReadP.val_main_v218
  generalize ReadP.val_main_c_61 (F := F) = A0
  rfl

theorem st_main_v219 (V : Valuation τ sig (Elt F)) (j : ℕ) (hj : 323 < j) :
    after (List.take j ops) V (Proc.devRef .tc main_v219) = ReadP.val_main_v219 (F := F) (V (Proc.devRef .tc main_arg3)) := by
  rw [after_take_eq_result_of_nodup wr opsW_nodup V j 323 (r := main_v219) rfl rfl hj]
  rw [binary_result]
  rw [st_main_v181 V 323 (by decide)]
  rw [st_main_v218 V 323 (by decide)]
  unfold ReadP.val_main_v219
  generalize ReadP.val_main_v181 (F := F) (V (Proc.devRef .tc main_arg3)) = A0
  generalize ReadP.val_main_v218 (F := F) = A1
  rfl

theorem st_main_v220 (V : Valuation τ sig (Elt F)) (j : ℕ) (hj : 324 < j) :
    after (List.take j ops) V (Proc.devRef .tc main_v220) = ReadP.val_main_v220 (F := F) (V (Proc.devRef .tc main_arg3)) := by
  rw [after_take_eq_result_of_nodup wr opsW_nodup V j 324 (r := main_v220) rfl rfl hj]
  rw [binary_result]
  rw [st_main_v219 V 324 (by decide)]
  rw [st_main_v175 V 324 (by decide)]
  unfold ReadP.val_main_v220
  generalize ReadP.val_main_v219 (F := F) (V (Proc.devRef .tc main_arg3)) = A0
  generalize ReadP.val_main_v175 (F := F) (V (Proc.devRef .tc main_arg3)) = A1
  rfl

theorem st_main_v221 (V : Valuation τ sig (Elt F)) (j : ℕ) (hj : 325 < j) :
    after (List.take j ops) V (Proc.devRef .tc main_v221) = ReadP.val_main_v221 (F := F) (V (Proc.devRef .tc main_arg3)) := by
  rw [after_take_eq_result_of_nodup wr opsW_nodup V j 325 (r := main_v221) rfl rfl hj]
  rw [unary_result]
  rw [st_main_v211 V 325 (by decide)]
  unfold ReadP.val_main_v221
  generalize ReadP.val_main_v211 (F := F) (V (Proc.devRef .tc main_arg3)) = A0
  rfl

theorem st_main_v222 (V : Valuation τ sig (Elt F)) (j : ℕ) (hj : 326 < j) :
    after (List.take j ops) V (Proc.devRef .tc main_v222) = ReadP.val_main_v222 (F := F) (V (Proc.devRef .tc main_arg3)) := by
  rw [after_take_eq_result_of_nodup wr opsW_nodup V j 326 (r := main_v222) rfl rfl hj]
  rw [unary_result]
  rw [st_main_v214 V 326 (by decide)]
  unfold ReadP.val_main_v222
  generalize ReadP.val_main_v214 (F := F) (V (Proc.devRef .tc main_arg3)) = A0
  rfl

theorem st_main_v223 (V : Valuation τ sig (Elt F)) (j : ℕ) (hj : 327 < j) :
    after (List.take j ops) V (Proc.devRef .tc main_v223) = ReadP.val_main_v223 (F := F) (V (Proc.devRef .tc main_arg3)) := by
  rw [after_take_eq_result_of_nodup wr opsW_nodup V j 327 (r := main_v223) rfl rfl hj]
  rw [unary_result]
  rw [st_main_v217 V 327 (by decide)]
  unfold ReadP.val_main_v223
  generalize ReadP.val_main_v217 (F := F) (V (Proc.devRef .tc main_arg3)) = A0
  rfl

theorem st_main_v224 (V : Valuation τ sig (Elt F)) (j : ℕ) (hj : 328 < j) :
    after (List.take j ops) V (Proc.devRef .tc main_v224) = ReadP.val_main_v224 (F := F) (V (Proc.devRef .tc main_arg3)) := by
  rw [after_take_eq_result_of_nodup wr opsW_nodup V j 328 (r := main_v224) rfl rfl hj]
  rw [unary_result]
  rw [st_main_v220 V 328 (by decide)]
  unfold ReadP.val_main_v224
  generalize ReadP.val_main_v220 (F := F) (V (Proc.devRef .tc main_arg3)) = A0
  rfl

theorem st_main_v225 (V : Valuation τ sig (Elt F)) (j : ℕ) (hj : 329 < j) :
    after (List.take j ops) V (Proc.devRef .tc main_v225) = ReadP.val_main_v225 (F := F) (V (Proc.devRef .tc main_arg3)) := by
  rw [after_take_eq_result_of_nodup wr opsW_nodup V j 329 (r := main_v225) rfl rfl hj]
  rw [nary4_result]
  rw [st_main_v221 V 329 (by decide)]
  rw [st_main_v222 V 329 (by decide)]
  rw [st_main_v223 V 329 (by decide)]
  rw [st_main_v224 V 329 (by decide)]
  unfold ReadP.val_main_v225
  generalize ReadP.val_main_v221 (F := F) (V (Proc.devRef .tc main_arg3)) = A0
  generalize ReadP.val_main_v222 (F := F) (V (Proc.devRef .tc main_arg3)) = A1
  generalize ReadP.val_main_v223 (F := F) (V (Proc.devRef .tc main_arg3)) = A2
  generalize ReadP.val_main_v224 (F := F) (V (Proc.devRef .tc main_arg3)) = A3
  rfl

theorem st_main_v226 (V : Valuation τ sig (Elt F)) (j : ℕ) (hj : 330 < j) :
    after (List.take j ops) V (Proc.devRef .tc main_v226) = ReadP.val_main_v226 (F := F) := by
  rw [after_take_eq_result_of_nodup wr opsW_nodup V j 330 (r := main_v226) rfl rfl hj]
  rw [nullary_result]
  unfold ReadP.val_main_v226
  rfl

theorem st_main_v227 (V : Valuation τ sig (Elt F)) (j : ℕ) (hj : 331 < j) :
    after (List.take j ops) V (Proc.devRef .tc main_v227) = ReadP.val_main_v227 (F := F) := by
  rw [after_take_eq_result_of_nodup wr opsW_nodup V j 331 (r := main_v227) rfl rfl hj]
  rw [unary_result]
  rw [st_main_v226 V 331 (by decide)]
  unfold ReadP.val_main_v227
  generalize ReadP.val_main_v226 (F := F) = A0
  rfl

theorem st_main_v228 (V : Valuation τ sig (Elt F)) (j : ℕ) (hj : 332 < j) :
    after (List.take j ops) V (Proc.devRef .tc main_v228) = ReadP.val_main_v228 (F := F) := by
  rw [after_take_eq_result_of_nodup wr opsW_nodup V j 332 (r := main_v228) rfl rfl hj]
  rw [nullary_result]
  unfold ReadP.val_main_v228
  rfl

theorem st_main_v229 (V : Valuation τ sig (Elt F)) (j : ℕ) (hj : 333 < j) :
    after (List.take j ops) V (Proc.devRef .tc main_v229) = ReadP.val_main_v229 (F := F) := by
  rw [after_take_eq_result_of_nodup wr opsW_nodup V j 333 (r := main_v229) rfl rfl hj]
  rw [unary_result]
  rw [st_main_v228 V 333 (by decide)]
  unfold ReadP.val_main_v229
  generalize ReadP.val_main_v228 (F := F) = A0
  rfl

theorem st_main_cst_62 (V : Valuation τ sig (Elt F)) (j : ℕ) (hj : 334 < j) :
    after (List.take j ops) V (Proc.devRef .tc main_cst_62) = ReadP.val_main_cst_62 (F := F) := by
  rw [after_take_eq_result_of_nodup wr opsW_nodup V j 334 (r := main_cst_62) rfl rfl hj]
  rw [nullary_result]
  unfold ReadP.val_main_cst_62
  rfl

theorem st_main_v230 (V : Valuation τ sig (Elt F)) (j : ℕ) (hj : 335 < j) :
    after (List.take j ops) V (Proc.devRef .tc main_v230) = ReadP.val_main_v230 (F := F) := by
  rw [after_take_eq_result_of_nodup wr opsW_nodup V j 335 (r := main_v230) rfl rfl hj]
  rw [unary_result]
  rw [st_main_cst_62 V 335 (by decide)]
  unfold ReadP.val_main_v230
  generalize ReadP.val_main_cst_62 (F := F) = A0
  rfl

theorem st_main_c_63 (V : Valuation τ sig (Elt F)) (j : ℕ) (hj : 336 < j) :
    after (List.take j ops) V (Proc.devRef .tc main_c_63) = ReadP.val_main_c_63 (F := F) := by
  rw [after_take_eq_result_of_nodup wr opsW_nodup V j 336 (r := main_c_63) rfl rfl hj]
  rw [nullary_result]
  unfold ReadP.val_main_c_63
  rfl

theorem st_main_v231 (V : Valuation τ sig (Elt F)) (j : ℕ) (hj : 337 < j) :
    after (List.take j ops) V (Proc.devRef .tc main_v231) = ReadP.val_main_v231 (F := F) := by
  rw [after_take_eq_result_of_nodup wr opsW_nodup V j 337 (r := main_v231) rfl rfl hj]
  rw [unary_result]
  rw [st_main_c_63 V 337 (by decide)]
  unfold ReadP.val_main_v231
  generalize ReadP.val_main_c_63 (F := F) = A0
  rfl

theorem st_main_v232 (V : Valuation τ sig (Elt F)) (j : ℕ) (hj : 338 < j) :
    after (List.take j ops) V (Proc.devRef .tc main_v232) = ReadP.val_main_v232 (F := F) := by
  rw [after_take_eq_result_of_nodup wr opsW_nodup V j 338 (r := main_v232) rfl rfl hj]
  rw [binary_result]
  rw [st_main_v227 V 338 (by decide)]
  rw [st_main_v231 V 338 (by decide)]
  unfold ReadP.val_main_v232
  generalize ReadP.val_main_v227 (F := F) = A0
  generalize ReadP.val_main_v231 (F := F) = A1
  rfl

theorem st_main_c_64 (V : Valuation τ sig (Elt F)) (j : ℕ) (hj : 339 < j) :
    after (List.take j ops) V (Proc.devRef .tc main_c_64) = ReadP.val_main_c_64 (F := F) := by
  rw [after_take_eq_result_of_nodup wr opsW_nodup V j 339 (r := main_c_64) rfl rfl hj]
  rw [nullary_result]
  unfold ReadP.val_main_c_64
  rfl

theorem st_main_v233 (V : Valuation τ sig (Elt F)) (j : ℕ) (hj : 340 < j) :
    after (List.take j ops) V (Proc.devRef .tc main_v233) = ReadP.val_main_v233 (F := F) := by
  rw [after_take_eq_result_of_nodup wr opsW_nodup V j 340 (r := main_v233) rfl rfl hj]
  rw [unary_result]
  rw [st_main_c_64 V 340 (by decide)]
  unfold ReadP.val_main_v233
  generalize ReadP.val_main_c_64 (F := F) = A0
  rfl

theorem st_main_v234 (V : Valuation τ sig (Elt F)) (j : ℕ) (hj : 341 < j) :
    after (List.take j ops) V (Proc.devRef .tc main_v234) = ReadP.val_main_v234 (F := F) := by
  rw [after_take_eq_result_of_nodup wr opsW_nodup V j 341 (r := main_v234) rfl rfl hj]
  rw [binary_result]
  rw [st_main_v227 V 341 (by decide)]
  rw [st_main_v233 V 341 (by decide)]
  unfold ReadP.val_main_v234
  generalize ReadP.val_main_v227 (F := F) = A0
  generalize ReadP.val_main_v233 (F := F) = A1
  rfl

theorem st_main_v235 (V : Valuation τ sig (Elt F)) (j : ℕ) (hj : 342 < j) :
    after (List.take j ops) V (Proc.devRef .tc main_v235) = ReadP.val_main_v235 (F := F) := by
  rw [after_take_eq_result_of_nodup wr opsW_nodup V j 342 (r := main_v235) rfl rfl hj]
  rw [ternary_result]
  rw [st_main_v232 V 342 (by decide)]
  rw [st_main_v234 V 342 (by decide)]
  rw [st_main_v227 V 342 (by decide)]
  unfold ReadP.val_main_v235
  generalize ReadP.val_main_v232 (F := F) = A0
  generalize ReadP.val_main_v234 (F := F) = A1
  generalize ReadP.val_main_v227 (F := F) = A2
  rfl

theorem st_main_c_65 (V : Valuation τ sig (Elt F)) (j : ℕ) (hj : 343 < j) :
    after (List.take j ops) V (Proc.devRef .tc main_c_65) = ReadP.val_main_c_65 (F := F) := by
  rw [after_take_eq_result_of_nodup wr opsW_nodup V j 343 (r := main_c_65) rfl rfl hj]
  rw [nullary_result]
  unfold ReadP.val_main_c_65
  rfl

theorem st_main_v236 (V : Valuation τ sig (Elt F)) (j : ℕ) (hj : 344 < j) :
    after (List.take j ops) V (Proc.devRef .tc main_v236) = ReadP.val_main_v236 (F := F) := by
  rw [after_take_eq_result_of_nodup wr opsW_nodup V j 344 (r := main_v236) rfl rfl hj]
  rw [unary_result]
  rw [st_main_c_65 V 344 (by decide)]
  unfold ReadP.val_main_v236
  generalize ReadP.val_main_c_65 (F := F) = A0
  rfl

theorem st_main_v237 (V : Valuation τ sig (Elt F)) (j : ℕ) (hj : 345 < j) :
    after (List.take j ops) V (Proc.devRef .tc main_v237) = ReadP.val_main_v237 (F := F) := by
  rw [after_take_eq_result_of_nodup wr opsW_nodup V j 345 (r := main_v237) rfl rfl hj]
  rw [binary_result]
  rw [st_main_v229 V 345 (by decide)]
  rw [st_main_v236 V 345 (by decide)]
  unfold ReadP.val_main_v237
  generalize ReadP.val_main_v229 (F := F) = A0
  generalize ReadP.val_main_v236 (F := F) = A1
  rfl

theorem st_main_c_66 (V : Valuation τ sig (Elt F)) (j : ℕ) (hj : 346 < j) :
    after (List.take j ops) V (Proc.devRef .tc main_c_66) = ReadP.val_main_c_66 (F := F) := by
  rw [after_take_eq_result_of_nodup wr opsW_nodup V j 346 (r := main_c_66) rfl rfl hj]
  rw [nullary_result]
  unfold ReadP.val_main_c_66
  rfl

theorem st_main_v238 (V : Valuation τ sig (Elt F)) (j : ℕ) (hj : 347 < j) :
    after (List.take j ops) V (Proc.devRef .tc main_v238) = ReadP.val_main_v238 (F := F) := by
  rw [after_take_eq_result_of_nodup wr opsW_nodup V j 347 (r := main_v238) rfl rfl hj]
  rw [unary_result]
  rw [st_main_c_66 V 347 (by decide)]
  unfold ReadP.val_main_v238
  generalize ReadP.val_main_c_66 (F := F) = A0
  rfl

theorem st_main_v239 (V : Valuation τ sig (Elt F)) (j : ℕ) (hj : 348 < j) :
    after (List.take j ops) V (Proc.devRef .tc main_v239) = ReadP.val_main_v239 (F := F) := by
  rw [after_take_eq_result_of_nodup wr opsW_nodup V j 348 (r := main_v239) rfl rfl hj]
  rw [binary_result]
  rw [st_main_v229 V 348 (by decide)]
  rw [st_main_v238 V 348 (by decide)]
  unfold ReadP.val_main_v239
  generalize ReadP.val_main_v229 (F := F) = A0
  generalize ReadP.val_main_v238 (F := F) = A1
  rfl

theorem st_main_v240 (V : Valuation τ sig (Elt F)) (j : ℕ) (hj : 349 < j) :
    after (List.take j ops) V (Proc.devRef .tc main_v240) = ReadP.val_main_v240 (F := F) := by
  rw [after_take_eq_result_of_nodup wr opsW_nodup V j 349 (r := main_v240) rfl rfl hj]
  rw [ternary_result]
  rw [st_main_v237 V 349 (by decide)]
  rw [st_main_v239 V 349 (by decide)]
  rw [st_main_v229 V 349 (by decide)]
  unfold ReadP.val_main_v240
  generalize ReadP.val_main_v237 (F := F) = A0
  generalize ReadP.val_main_v239 (F := F) = A1
  generalize ReadP.val_main_v229 (F := F) = A2
  rfl

theorem st_main_c_67 (V : Valuation τ sig (Elt F)) (j : ℕ) (hj : 350 < j) :
    after (List.take j ops) V (Proc.devRef .tc main_c_67) = ReadP.val_main_c_67 (F := F) := by
  rw [after_take_eq_result_of_nodup wr opsW_nodup V j 350 (r := main_c_67) rfl rfl hj]
  rw [nullary_result]
  unfold ReadP.val_main_c_67
  rfl

theorem st_main_v241 (V : Valuation τ sig (Elt F)) (j : ℕ) (hj : 351 < j) :
    after (List.take j ops) V (Proc.devRef .tc main_v241) = ReadP.val_main_v241 (F := F) := by
  rw [after_take_eq_result_of_nodup wr opsW_nodup V j 351 (r := main_v241) rfl rfl hj]
  rw [unary_result]
  rw [st_main_c_67 V 351 (by decide)]
  unfold ReadP.val_main_v241
  generalize ReadP.val_main_c_67 (F := F) = A0
  rfl

theorem st_main_v242 (V : Valuation τ sig (Elt F)) (j : ℕ) (hj : 352 < j) :
    after (List.take j ops) V (Proc.devRef .tc main_v242) = ReadP.val_main_v242 (F := F) (V (Proc.devRef .tc main_arg3)) := by
  rw [after_take_eq_result_of_nodup wr opsW_nodup V j 352 (r := main_v242) rfl rfl hj]
  rw [binary_result]
  rw [st_main_v225 V 352 (by decide)]
  rw [st_main_v241 V 352 (by decide)]
  unfold ReadP.val_main_v242
  generalize ReadP.val_main_v225 (F := F) (V (Proc.devRef .tc main_arg3)) = A0
  generalize ReadP.val_main_v241 (F := F) = A1
  rfl

theorem st_main_c_68 (V : Valuation τ sig (Elt F)) (j : ℕ) (hj : 353 < j) :
    after (List.take j ops) V (Proc.devRef .tc main_c_68) = ReadP.val_main_c_68 (F := F) := by
  rw [after_take_eq_result_of_nodup wr opsW_nodup V j 353 (r := main_c_68) rfl rfl hj]
  rw [nullary_result]
  unfold ReadP.val_main_c_68
  rfl

theorem st_main_v243 (V : Valuation τ sig (Elt F)) (j : ℕ) (hj : 354 < j) :
    after (List.take j ops) V (Proc.devRef .tc main_v243) = ReadP.val_main_v243 (F := F) := by
  rw [after_take_eq_result_of_nodup wr opsW_nodup V j 354 (r := main_v243) rfl rfl hj]
  rw [unary_result]
  rw [st_main_c_68 V 354 (by decide)]
  unfold ReadP.val_main_v243
  generalize ReadP.val_main_c_68 (F := F) = A0
  rfl

theorem st_main_v244 (V : Valuation τ sig (Elt F)) (j : ℕ) (hj : 355 < j) :
    after (List.take j ops) V (Proc.devRef .tc main_v244) = ReadP.val_main_v244 (F := F) (V (Proc.devRef .tc main_arg3)) := by
  rw [after_take_eq_result_of_nodup wr opsW_nodup V j 355 (r := main_v244) rfl rfl hj]
  rw [binary_result]
  rw [st_main_v225 V 355 (by decide)]
  rw [st_main_v243 V 355 (by decide)]
  unfold ReadP.val_main_v244
  generalize ReadP.val_main_v225 (F := F) (V (Proc.devRef .tc main_arg3)) = A0
  generalize ReadP.val_main_v243 (F := F) = A1
  rfl

theorem st_main_v245 (V : Valuation τ sig (Elt F)) (j : ℕ) (hj : 356 < j) :
    after (List.take j ops) V (Proc.devRef .tc main_v245) = ReadP.val_main_v245 (F := F) (V (Proc.devRef .tc main_arg3)) := by
  rw [after_take_eq_result_of_nodup wr opsW_nodup V j 356 (r := main_v245) rfl rfl hj]
  rw [ternary_result]
  rw [st_main_v242 V 356 (by decide)]
  rw [st_main_v244 V 356 (by decide)]
  rw [st_main_v225 V 356 (by decide)]
  unfold ReadP.val_main_v245
  generalize ReadP.val_main_v242 (F := F) (V (Proc.devRef .tc main_arg3)) = A0
  generalize ReadP.val_main_v244 (F := F) (V (Proc.devRef .tc main_arg3)) = A1
  generalize ReadP.val_main_v225 (F := F) (V (Proc.devRef .tc main_arg3)) = A2
  rfl

theorem st_main_v246 (V : Valuation τ sig (Elt F)) (j : ℕ) (hj : 357 < j) :
    after (List.take j ops) V (Proc.devRef .tc main_v246) = ReadP.val_main_v246 (F := F) := by
  rw [after_take_eq_result_of_nodup wr opsW_nodup V j 357 (r := main_v246) rfl rfl hj]
  rw [unary_result]
  rw [st_main_v235 V 357 (by decide)]
  unfold ReadP.val_main_v246
  generalize ReadP.val_main_v235 (F := F) = A0
  rfl

theorem st_main_v247 (V : Valuation τ sig (Elt F)) (j : ℕ) (hj : 358 < j) :
    after (List.take j ops) V (Proc.devRef .tc main_v247) = ReadP.val_main_v247 (F := F) := by
  rw [after_take_eq_result_of_nodup wr opsW_nodup V j 358 (r := main_v247) rfl rfl hj]
  rw [unary_result]
  rw [st_main_v240 V 358 (by decide)]
  unfold ReadP.val_main_v247
  generalize ReadP.val_main_v240 (F := F) = A0
  rfl

theorem st_main_v248 (V : Valuation τ sig (Elt F)) (j : ℕ) (hj : 359 < j) :
    after (List.take j ops) V (Proc.devRef .tc main_v248) = ReadP.val_main_v248 (F := F) := by
  rw [after_take_eq_result_of_nodup wr opsW_nodup V j 359 (r := main_v248) rfl rfl hj]
  rw [unary_result]
  rw [st_main_v246 V 359 (by decide)]
  unfold ReadP.val_main_v248
  generalize ReadP.val_main_v246 (F := F) = A0
  rfl

theorem st_main_v249 (V : Valuation τ sig (Elt F)) (j : ℕ) (hj : 360 < j) :
    after (List.take j ops) V (Proc.devRef .tc main_v249) = ReadP.val_main_v249 (F := F) := by
  rw [after_take_eq_result_of_nodup wr opsW_nodup V j 360 (r := main_v249) rfl rfl hj]
  rw [unary_result]
  rw [st_main_v247 V 360 (by decide)]
  unfold ReadP.val_main_v249
  generalize ReadP.val_main_v247 (F := F) = A0
  rfl

theorem st_main_v250 (V : Valuation τ sig (Elt F)) (j : ℕ) (hj : 361 < j) :
    after (List.take j ops) V (Proc.devRef .tc main_v250) = ReadP.val_main_v250 (F := F) (V (Proc.devRef .tc main_arg3)) := by
  rw [after_take_eq_result_of_nodup wr opsW_nodup V j 361 (r := main_v250) rfl rfl hj]
  rw [unary_result]
  rw [st_main_v245 V 361 (by decide)]
  unfold ReadP.val_main_v250
  generalize ReadP.val_main_v245 (F := F) (V (Proc.devRef .tc main_arg3)) = A0
  rfl

theorem st_main_v251 (V : Valuation τ sig (Elt F)) (j : ℕ) (hj : 362 < j) :
    after (List.take j ops) V (Proc.devRef .tc main_v251) = ReadP.val_main_v251 (F := F) (V (Proc.devRef .tc main_arg3)) := by
  rw [after_take_eq_result_of_nodup wr opsW_nodup V j 362 (r := main_v251) rfl rfl hj]
  rw [nary3_result]
  rw [st_main_v248 V 362 (by decide)]
  rw [st_main_v249 V 362 (by decide)]
  rw [st_main_v250 V 362 (by decide)]
  unfold ReadP.val_main_v251
  generalize ReadP.val_main_v248 (F := F) = A0
  generalize ReadP.val_main_v249 (F := F) = A1
  generalize ReadP.val_main_v250 (F := F) (V (Proc.devRef .tc main_arg3)) = A2
  rfl

theorem st_main_v252 (V : Valuation τ sig (Elt F)) (j : ℕ) (hj : 363 < j) :
    after (List.take j ops) V (Proc.devRef .tc main_v252) = ReadP.val_main_v252 (F := F) (V (Proc.devRef .tc main_arg3)) (V (Proc.devRef .tc main_arg4)) := by
  rw [after_take_eq_result_of_nodup wr opsW_nodup V j 363 (r := main_v252) rfl rfl hj]
  rw [ternary_result]
  rw [st_main_v230 V 363 (by decide)]
  rw [st_main_v251 V 363 (by decide)]
  rw [st_main_v208 V 363 (by decide)]
  unfold ReadP.val_main_v252
  generalize ReadP.val_main_v230 (F := F) = A0
  generalize ReadP.val_main_v251 (F := F) (V (Proc.devRef .tc main_arg3)) = A1
  generalize ReadP.val_main_v208 (F := F) (V (Proc.devRef .tc main_arg3)) (V (Proc.devRef .tc main_arg4)) = A2
  rfl

theorem st_main_call8_cst (V : Valuation τ sig (Elt F)) (j : ℕ) (hj : 364 < j) :
    after (List.take j ops) V (Proc.devRef .tc main_call8_cst) = ReadP.val_main_call8_cst (F := F) := by
  rw [after_take_eq_result_of_nodup wr opsW_nodup V j 364 (r := main_call8_cst) rfl rfl hj]
  rw [nullary_result]
  unfold ReadP.val_main_call8_cst
  rfl

end Cert.ReferenceIdeal.ValueL

end
-- ==== Proof.RefStagesD.lean ====
/-
  The reference program's run, read one operation at a time: operations 365 to 390, and the result.

  The operations of the row maximum and the sums over the positions act on arrays of 32 · 128 · 4096 entries; their
  stages are closed without leaving anything to unfold: the changes of type at a typed reference are the identity
  (`cast_eq`), rewritten away one by one.
-/
import proofs.«153362_j6846177869930_2_alg».proof.Proof.RefStagesC

noncomputable section

namespace Cert.ReferenceIdeal.ValueL

open Cert.ReferenceIdeal Cert.ReferenceIdeal.Gen Idealize.ShloMosaic Idealize.ShloMosaic.TcCoe Idealize.ShloMosaic.StableHlo
open Cert.LineRead

variable {F : FTy → Type} [FloatOps F]

theorem st_main_call8_v0 (V : Valuation τ sig (Elt F)) (j : ℕ) (hj : 365 < j) :
    after (List.take j ops) V (Proc.devRef .tc main_call8_v0) = ReadP.val_main_call8_v0 (F := F) (V (Proc.devRef .tc main_arg0)) (V (Proc.devRef .tc main_arg1)) (V (Proc.devRef .tc main_arg2)) := by
  rw [after_take_eq_result_of_nodup wr opsW_nodup V j 365 (r := main_call8_v0) rfl rfl hj]
  rw [binary_result]
  rw [st_main_v161 V 365 (by decide)]
  rw [st_main_call8_cst V 365 (by decide)]
  unfold ReadP.val_main_call8_v0
  generalize ReadP.val_main_v161 (F := F) (V (Proc.devRef .tc main_arg0)) (V (Proc.devRef .tc main_arg1)) (V (Proc.devRef .tc main_arg2)) = A0
  generalize ReadP.val_main_call8_cst (F := F) = A1
  have e0 : (TRef.of (T := ⟨S32x128x4096, .f32⟩) main_v161).ofBuf A0 = A0 := cast_eq _ _
  have e1 : (TRef.of (T := ⟨S_, .f32⟩) main_call8_cst).ofBuf A1 = A1 := cast_eq _ _
  rw [e0, e1]
  exact cast_eq _ _

theorem st_main_call8_cst_0 (V : Valuation τ sig (Elt F)) (j : ℕ) (hj : 366 < j) :
    after (List.take j ops) V (Proc.devRef .tc main_call8_cst_0) = ReadP.val_main_call8_cst_0 (F := F) := by
  rw [after_take_eq_result_of_nodup wr opsW_nodup V j 366 (r := main_call8_cst_0) rfl rfl hj]
  rw [nullary_result]
  unfold ReadP.val_main_call8_cst_0
  exact cast_eq _ _

theorem st_main_call8_v1 (V : Valuation τ sig (Elt F)) (j : ℕ) (hj : 367 < j) :
    after (List.take j ops) V (Proc.devRef .tc main_call8_v1) = ReadP.val_main_call8_v1 (F := F) := by
  rw [after_take_eq_result_of_nodup wr opsW_nodup V j 367 (r := main_call8_v1) rfl rfl hj]
  rw [unary_result]
  rw [st_main_call8_cst_0 V 367 (by decide)]
  unfold ReadP.val_main_call8_v1
  generalize ReadP.val_main_call8_cst_0 (F := F) = A0
  have e0 : (TRef.of (T := ⟨S_, .f32⟩) main_call8_cst_0).ofBuf A0 = A0 := cast_eq _ _
  rw [e0]
  exact cast_eq _ _

theorem st_main_call8_v2 (V : Valuation τ sig (Elt F)) (j : ℕ) (hj : 368 < j) :
    after (List.take j ops) V (Proc.devRef .tc main_call8_v2) = ReadP.val_main_call8_v2 (F := F) (V (Proc.devRef .tc main_arg0)) (V (Proc.devRef .tc main_arg1)) (V (Proc.devRef .tc main_arg2)) := by
  rw [after_take_eq_result_of_nodup wr opsW_nodup V j 368 (r := main_call8_v2) rfl rfl hj]
  rw [binary_result]
  rw [st_main_call8_v1 V 368 (by decide)]
  rw [st_main_call8_v0 V 368 (by decide)]
  unfold ReadP.val_main_call8_v2
  generalize ReadP.val_main_call8_v1 (F := F) = A0
  generalize ReadP.val_main_call8_v0 (F := F) (V (Proc.devRef .tc main_arg0)) (V (Proc.devRef .tc main_arg1)) (V (Proc.devRef .tc main_arg2)) = A1
  have e0 : (TRef.of (T := ⟨S32x128, .f32⟩) main_call8_v1).ofBuf A0 = A0 := cast_eq _ _
  have e1 : (TRef.of (T := ⟨S32x128, .f32⟩) main_call8_v0).ofBuf A1 = A1 := cast_eq _ _
  rw [e0, e1]
  exact cast_eq _ _

theorem st_main_call8_v3 (V : Valuation τ sig (Elt F)) (j : ℕ) (hj : 369 < j) :
    after (List.take j ops) V (Proc.devRef .tc main_call8_v3) = ReadP.val_main_call8_v3 (F := F) (V (Proc.devRef .tc main_arg0)) (V (Proc.devRef .tc main_arg1)) (V (Proc.devRef .tc main_arg2)) := by
  rw [after_take_eq_result_of_nodup wr opsW_nodup V j 369 (r := main_call8_v3) rfl rfl hj]
  rw [unary_result]
  rw [st_main_call8_v2 V 369 (by decide)]
  unfold ReadP.val_main_call8_v3
  generalize ReadP.val_main_call8_v2 (F := F) (V (Proc.devRef .tc main_arg0)) (V (Proc.devRef .tc main_arg1)) (V (Proc.devRef .tc main_arg2)) = A0
  have e0 : (TRef.of (T := ⟨S32x128, .f32⟩) main_call8_v2).ofBuf A0 = A0 := cast_eq _ _
  rw [e0]
  exact cast_eq _ _

theorem st_main_call8_v4 (V : Valuation τ sig (Elt F)) (j : ℕ) (hj : 370 < j) :
    after (List.take j ops) V (Proc.devRef .tc main_call8_v4) = ReadP.val_main_call8_v4 (F := F) (V (Proc.devRef .tc main_arg0)) (V (Proc.devRef .tc main_arg1)) (V (Proc.devRef .tc main_arg2)) := by
  rw [after_take_eq_result_of_nodup wr opsW_nodup V j 370 (r := main_call8_v4) rfl rfl hj]
  rw [unary_result]
  rw [st_main_call8_v3 V 370 (by decide)]
  unfold ReadP.val_main_call8_v4
  generalize ReadP.val_main_call8_v3 (F := F) (V (Proc.devRef .tc main_arg0)) (V (Proc.devRef .tc main_arg1)) (V (Proc.devRef .tc main_arg2)) = A0
  have e0 : (TRef.of (T := ⟨S32x128x1, .f32⟩) main_call8_v3).ofBuf A0 = A0 := cast_eq _ _
  rw [e0]
  exact cast_eq _ _

theorem st_main_call8_v5 (V : Valuation τ sig (Elt F)) (j : ℕ) (hj : 371 < j) :
    after (List.take j ops) V (Proc.devRef .tc main_call8_v5) = ReadP.val_main_call8_v5 (F := F) (V (Proc.devRef .tc main_arg0)) (V (Proc.devRef .tc main_arg1)) (V (Proc.devRef .tc main_arg2)) := by
  rw [after_take_eq_result_of_nodup wr opsW_nodup V j 371 (r := main_call8_v5) rfl rfl hj]
  rw [binary_result]
  rw [st_main_v161 V 371 (by decide)]
  rw [st_main_call8_v4 V 371 (by decide)]
  unfold ReadP.val_main_call8_v5
  generalize ReadP.val_main_v161 (F := F) (V (Proc.devRef .tc main_arg0)) (V (Proc.devRef .tc main_arg1)) (V (Proc.devRef .tc main_arg2)) = A0
  generalize ReadP.val_main_call8_v4 (F := F) (V (Proc.devRef .tc main_arg0)) (V (Proc.devRef .tc main_arg1)) (V (Proc.devRef .tc main_arg2)) = A1
  have e0 : (TRef.of (T := ⟨S32x128x4096, .f32⟩) main_v161).ofBuf A0 = A0 := cast_eq _ _
  have e1 : (TRef.of (T := ⟨S32x128x4096, .f32⟩) main_call8_v4).ofBuf A1 = A1 := cast_eq _ _
  rw [e0, e1]
  exact cast_eq _ _

theorem st_main_call8_v6 (V : Valuation τ sig (Elt F)) (j : ℕ) (hj : 372 < j) :
    after (List.take j ops) V (Proc.devRef .tc main_call8_v6) = ReadP.val_main_call8_v6 (F := F) (V (Proc.devRef .tc main_arg0)) (V (Proc.devRef .tc main_arg1)) (V (Proc.devRef .tc main_arg2)) := by
  rw [after_take_eq_result_of_nodup wr opsW_nodup V j 372 (r := main_call8_v6) rfl rfl hj]
  rw [unary_result]
  rw [st_main_call8_v5 V 372 (by decide)]
  unfold ReadP.val_main_call8_v6
  generalize ReadP.val_main_call8_v5 (F := F) (V (Proc.devRef .tc main_arg0)) (V (Proc.devRef .tc main_arg1)) (V (Proc.devRef .tc main_arg2)) = A0
  have e0 : (TRef.of (T := ⟨S32x128x4096, .f32⟩) main_call8_v5).ofBuf A0 = A0 := cast_eq _ _
  rw [e0]
  exact cast_eq _ _

theorem st_main_call8_cst_1 (V : Valuation τ sig (Elt F)) (j : ℕ) (hj : 373 < j) :
    after (List.take j ops) V (Proc.devRef .tc main_call8_cst_1) = ReadP.val_main_call8_cst_1 (F := F) := by
  rw [after_take_eq_result_of_nodup wr opsW_nodup V j 373 (r := main_call8_cst_1) rfl rfl hj]
  rw [nullary_result]
  unfold ReadP.val_main_call8_cst_1
  exact cast_eq _ _

theorem st_main_call8_v7 (V : Valuation τ sig (Elt F)) (j : ℕ) (hj : 374 < j) :
    after (List.take j ops) V (Proc.devRef .tc main_call8_v7) = ReadP.val_main_call8_v7 (F := F) (V (Proc.devRef .tc main_arg0)) (V (Proc.devRef .tc main_arg1)) (V (Proc.devRef .tc main_arg2)) := by
  rw [after_take_eq_result_of_nodup wr opsW_nodup V j 374 (r := main_call8_v7) rfl rfl hj]
  rw [binary_result]
  rw [st_main_call8_v6 V 374 (by decide)]
  rw [st_main_call8_cst_1 V 374 (by decide)]
  unfold ReadP.val_main_call8_v7
  generalize ReadP.val_main_call8_v6 (F := F) (V (Proc.devRef .tc main_arg0)) (V (Proc.devRef .tc main_arg1)) (V (Proc.devRef .tc main_arg2)) = A0
  generalize ReadP.val_main_call8_cst_1 (F := F) = A1
  have e0 : (TRef.of (T := ⟨S32x128x4096, .f32⟩) main_call8_v6).ofBuf A0 = A0 := cast_eq _ _
  have e1 : (TRef.of (T := ⟨S_, .f32⟩) main_call8_cst_1).ofBuf A1 = A1 := cast_eq _ _
  rw [e0, e1]
  exact cast_eq _ _

theorem st_main_call8_v8 (V : Valuation τ sig (Elt F)) (j : ℕ) (hj : 375 < j) :
    after (List.take j ops) V (Proc.devRef .tc main_call8_v8) = ReadP.val_main_call8_v8 (F := F) (V (Proc.devRef .tc main_arg0)) (V (Proc.devRef .tc main_arg1)) (V (Proc.devRef .tc main_arg2)) := by
  rw [after_take_eq_result_of_nodup wr opsW_nodup V j 375 (r := main_call8_v8) rfl rfl hj]
  rw [unary_result]
  rw [st_main_call8_v7 V 375 (by decide)]
  unfold ReadP.val_main_call8_v8
  generalize ReadP.val_main_call8_v7 (F := F) (V (Proc.devRef .tc main_arg0)) (V (Proc.devRef .tc main_arg1)) (V (Proc.devRef .tc main_arg2)) = A0
  have e0 : (TRef.of (T := ⟨S32x128, .f32⟩) main_call8_v7).ofBuf A0 = A0 := cast_eq _ _
  rw [e0]
  exact cast_eq _ _

theorem st_main_call8_v9 (V : Valuation τ sig (Elt F)) (j : ℕ) (hj : 376 < j) :
    after (List.take j ops) V (Proc.devRef .tc main_call8_v9) = ReadP.val_main_call8_v9 (F := F) (V (Proc.devRef .tc main_arg0)) (V (Proc.devRef .tc main_arg1)) (V (Proc.devRef .tc main_arg2)) := by
  rw [after_take_eq_result_of_nodup wr opsW_nodup V j 376 (r := main_call8_v9) rfl rfl hj]
  rw [unary_result]
  rw [st_main_call8_v8 V 376 (by decide)]
  unfold ReadP.val_main_call8_v9
  generalize ReadP.val_main_call8_v8 (F := F) (V (Proc.devRef .tc main_arg0)) (V (Proc.devRef .tc main_arg1)) (V (Proc.devRef .tc main_arg2)) = A0
  have e0 : (TRef.of (T := ⟨S32x128x1, .f32⟩) main_call8_v8).ofBuf A0 = A0 := cast_eq _ _
  rw [e0]
  exact cast_eq _ _

theorem st_main_call8_v10 (V : Valuation τ sig (Elt F)) (j : ℕ) (hj : 377 < j) :
    after (List.take j ops) V (Proc.devRef .tc main_call8_v10) = ReadP.val_main_call8_v10 (F := F) (V (Proc.devRef .tc main_arg0)) (V (Proc.devRef .tc main_arg1)) (V (Proc.devRef .tc main_arg2)) := by
  rw [after_take_eq_result_of_nodup wr opsW_nodup V j 377 (r := main_call8_v10) rfl rfl hj]
  rw [unary_result]
  rw [st_main_call8_v9 V 377 (by decide)]
  unfold ReadP.val_main_call8_v10
  generalize ReadP.val_main_call8_v9 (F := F) (V (Proc.devRef .tc main_arg0)) (V (Proc.devRef .tc main_arg1)) (V (Proc.devRef .tc main_arg2)) = A0
  have e0 : (TRef.of (T := ⟨S32x128x1, .f32⟩) main_call8_v9).ofBuf A0 = A0 := cast_eq _ _
  rw [e0]
  exact cast_eq _ _

theorem st_main_v253 (V : Valuation τ sig (Elt F)) (j : ℕ) (hj : 378 < j) :
    after (List.take j ops) V (Proc.devRef .tc main_v253) = ReadP.val_main_v253 (F := F) (V (Proc.devRef .tc main_arg0)) (V (Proc.devRef .tc main_arg1)) (V (Proc.devRef .tc main_arg2)) := by
  rw [after_take_eq_result_of_nodup wr opsW_nodup V j 378 (r := main_v253) rfl rfl hj]
  rw [binary_result]
  rw [st_main_call8_v5 V 378 (by decide)]
  rw [st_main_call8_v10 V 378 (by decide)]
  unfold ReadP.val_main_v253
  generalize ReadP.val_main_call8_v5 (F := F) (V (Proc.devRef .tc main_arg0)) (V (Proc.devRef .tc main_arg1)) (V (Proc.devRef .tc main_arg2)) = A0
  generalize ReadP.val_main_call8_v10 (F := F) (V (Proc.devRef .tc main_arg0)) (V (Proc.devRef .tc main_arg1)) (V (Proc.devRef .tc main_arg2)) = A1
  have e0 : (TRef.of (T := ⟨S32x128x4096, .f32⟩) main_call8_v5).ofBuf A0 = A0 := cast_eq _ _
  have e1 : (TRef.of (T := ⟨S32x128x4096, .f32⟩) main_call8_v10).ofBuf A1 = A1 := cast_eq _ _
  rw [e0, e1]
  exact cast_eq _ _

theorem st_main_v254 (V : Valuation τ sig (Elt F)) (j : ℕ) (hj : 379 < j) :
    after (List.take j ops) V (Proc.devRef .tc main_v254) = ReadP.val_main_v254 (F := F) (V (Proc.devRef .tc main_arg0)) (V (Proc.devRef .tc main_arg1)) (V (Proc.devRef .tc main_arg2)) (V (Proc.devRef .tc main_arg3)) (V (Proc.devRef .tc main_arg4)) := by
  rw [after_take_eq_result_of_nodup wr opsW_nodup V j 379 (r := main_v254) rfl rfl hj]
  rw [binary_result]
  rw [st_main_v252 V 379 (by decide)]
  rw [st_main_v253 V 379 (by decide)]
  unfold ReadP.val_main_v254
  generalize ReadP.val_main_v252 (F := F) (V (Proc.devRef .tc main_arg3)) (V (Proc.devRef .tc main_arg4)) = A0
  generalize ReadP.val_main_v253 (F := F) (V (Proc.devRef .tc main_arg0)) (V (Proc.devRef .tc main_arg1)) (V (Proc.devRef .tc main_arg2)) = A1
  rfl

theorem st_main_cst_69 (V : Valuation τ sig (Elt F)) (j : ℕ) (hj : 380 < j) :
    after (List.take j ops) V (Proc.devRef .tc main_cst_69) = ReadP.val_main_cst_69 (F := F) := by
  rw [after_take_eq_result_of_nodup wr opsW_nodup V j 380 (r := main_cst_69) rfl rfl hj]
  rw [nullary_result]
  unfold ReadP.val_main_cst_69
  rfl

theorem st_main_v255 (V : Valuation τ sig (Elt F)) (j : ℕ) (hj : 381 < j) :
    after (List.take j ops) V (Proc.devRef .tc main_v255) = ReadP.val_main_v255 (F := F) (V (Proc.devRef .tc main_arg0)) (V (Proc.devRef .tc main_arg1)) (V (Proc.devRef .tc main_arg2)) (V (Proc.devRef .tc main_arg3)) (V (Proc.devRef .tc main_arg4)) := by
  rw [after_take_eq_result_of_nodup wr opsW_nodup V j 381 (r := main_v255) rfl rfl hj]
  rw [binary_result]
  rw [st_main_v254 V 381 (by decide)]
  rw [st_main_cst_69 V 381 (by decide)]
  unfold ReadP.val_main_v255
  generalize ReadP.val_main_v254 (F := F) (V (Proc.devRef .tc main_arg0)) (V (Proc.devRef .tc main_arg1)) (V (Proc.devRef .tc main_arg2)) (V (Proc.devRef .tc main_arg3)) (V (Proc.devRef .tc main_arg4)) = A0
  generalize ReadP.val_main_cst_69 (F := F) = A1
  rfl

theorem st_main_v256 (V : Valuation τ sig (Elt F)) (j : ℕ) (hj : 382 < j) :
    after (List.take j ops) V (Proc.devRef .tc main_v256) = ReadP.val_main_v256 (F := F) (V (Proc.devRef .tc main_arg0)) (V (Proc.devRef .tc main_arg1)) (V (Proc.devRef .tc main_arg2)) (V (Proc.devRef .tc main_arg3)) (V (Proc.devRef .tc main_arg4)) := by
  rw [after_take_eq_result_of_nodup wr opsW_nodup V j 382 (r := main_v256) rfl rfl hj]
  rw [unary_result]
  rw [st_main_v255 V 382 (by decide)]
  unfold ReadP.val_main_v256
  generalize ReadP.val_main_v255 (F := F) (V (Proc.devRef .tc main_arg0)) (V (Proc.devRef .tc main_arg1)) (V (Proc.devRef .tc main_arg2)) (V (Proc.devRef .tc main_arg3)) (V (Proc.devRef .tc main_arg4)) = A0
  rfl

theorem st_main_cst_70 (V : Valuation τ sig (Elt F)) (j : ℕ) (hj : 383 < j) :
    after (List.take j ops) V (Proc.devRef .tc main_cst_70) = ReadP.val_main_cst_70 (F := F) := by
  rw [after_take_eq_result_of_nodup wr opsW_nodup V j 383 (r := main_cst_70) rfl rfl hj]
  rw [nullary_result]
  unfold ReadP.val_main_cst_70
  rfl

theorem st_main_v257 (V : Valuation τ sig (Elt F)) (j : ℕ) (hj : 384 < j) :
    after (List.take j ops) V (Proc.devRef .tc main_v257) = ReadP.val_main_v257 (F := F) (V (Proc.devRef .tc main_arg4)) := by
  rw [after_take_eq_result_of_nodup wr opsW_nodup V j 384 (r := main_v257) rfl rfl hj]
  rw [binary_result]
  rw [st_main_v200 V 384 (by decide)]
  rw [st_main_cst_70 V 384 (by decide)]
  unfold ReadP.val_main_v257
  generalize ReadP.val_main_v200 (F := F) (V (Proc.devRef .tc main_arg4)) = A0
  generalize ReadP.val_main_cst_70 (F := F) = A1
  rfl

theorem st_main_cst_71 (V : Valuation τ sig (Elt F)) (j : ℕ) (hj : 385 < j) :
    after (List.take j ops) V (Proc.devRef .tc main_cst_71) = ReadP.val_main_cst_71 (F := F) := by
  rw [after_take_eq_result_of_nodup wr opsW_nodup V j 385 (r := main_cst_71) rfl rfl hj]
  rw [nullary_result]
  unfold ReadP.val_main_cst_71
  rfl

theorem st_main_v258 (V : Valuation τ sig (Elt F)) (j : ℕ) (hj : 386 < j) :
    after (List.take j ops) V (Proc.devRef .tc main_v258) = ReadP.val_main_v258 (F := F) (V (Proc.devRef .tc main_arg4)) := by
  rw [after_take_eq_result_of_nodup wr opsW_nodup V j 386 (r := main_v258) rfl rfl hj]
  rw [binary_result]
  rw [st_main_v257 V 386 (by decide)]
  rw [st_main_cst_71 V 386 (by decide)]
  unfold ReadP.val_main_v258
  generalize ReadP.val_main_v257 (F := F) (V (Proc.devRef .tc main_arg4)) = A0
  generalize ReadP.val_main_cst_71 (F := F) = A1
  rfl

theorem st_main_v259 (V : Valuation τ sig (Elt F)) (j : ℕ) (hj : 387 < j) :
    after (List.take j ops) V (Proc.devRef .tc main_v259) = ReadP.val_main_v259 (F := F) (V (Proc.devRef .tc main_arg0)) (V (Proc.devRef .tc main_arg1)) (V (Proc.devRef .tc main_arg2)) (V (Proc.devRef .tc main_arg3)) (V (Proc.devRef .tc main_arg4)) := by
  rw [after_take_eq_result_of_nodup wr opsW_nodup V j 387 (r := main_v259) rfl rfl hj]
  rw [binary_result]
  rw [st_main_v256 V 387 (by decide)]
  rw [st_main_v200 V 387 (by decide)]
  unfold ReadP.val_main_v259
  generalize ReadP.val_main_v256 (F := F) (V (Proc.devRef .tc main_arg0)) (V (Proc.devRef .tc main_arg1)) (V (Proc.devRef .tc main_arg2)) (V (Proc.devRef .tc main_arg3)) (V (Proc.devRef .tc main_arg4)) = A0
  generalize ReadP.val_main_v200 (F := F) (V (Proc.devRef .tc main_arg4)) = A1
  rfl

theorem st_main_cst_72 (V : Valuation τ sig (Elt F)) (j : ℕ) (hj : 388 < j) :
    after (List.take j ops) V (Proc.devRef .tc main_cst_72) = ReadP.val_main_cst_72 (F := F) := by
  rw [after_take_eq_result_of_nodup wr opsW_nodup V j 388 (r := main_cst_72) rfl rfl hj]
  rw [nullary_result]
  unfold ReadP.val_main_cst_72
  rfl

theorem st_main_v260 (V : Valuation τ sig (Elt F)) (j : ℕ) (hj : 389 < j) :
    after (List.take j ops) V (Proc.devRef .tc main_v260) = ReadP.val_main_v260 (F := F) (V (Proc.devRef .tc main_arg0)) (V (Proc.devRef .tc main_arg1)) (V (Proc.devRef .tc main_arg2)) (V (Proc.devRef .tc main_arg3)) (V (Proc.devRef .tc main_arg4)) := by
  rw [after_take_eq_result_of_nodup wr opsW_nodup V j 389 (r := main_v260) rfl rfl hj]
  rw [binary_result]
  rw [st_main_v259 V 389 (by decide)]
  rw [st_main_cst_72 V 389 (by decide)]
  unfold ReadP.val_main_v260
  generalize ReadP.val_main_v259 (F := F) (V (Proc.devRef .tc main_arg0)) (V (Proc.devRef .tc main_arg1)) (V (Proc.devRef .tc main_arg2)) (V (Proc.devRef .tc main_arg3)) (V (Proc.devRef .tc main_arg4)) = A0
  generalize ReadP.val_main_cst_72 (F := F) = A1
  rfl

theorem st_main_v261 (V : Valuation τ sig (Elt F)) (j : ℕ) (hj : 390 < j) :
    after (List.take j ops) V (Proc.devRef .tc main_v261) = ReadP.val_main_v261 (F := F) (V (Proc.devRef .tc main_arg0)) (V (Proc.devRef .tc main_arg1)) (V (Proc.devRef .tc main_arg2)) (V (Proc.devRef .tc main_arg3)) (V (Proc.devRef .tc main_arg4)) := by
  rw [after_take_eq_result_of_nodup wr opsW_nodup V j 390 (r := main_v261) rfl rfl hj]
  rw [binary_result]
  rw [st_main_v260 V 390 (by decide)]
  rw [st_main_v258 V 390 (by decide)]
  unfold ReadP.val_main_v261
  generalize ReadP.val_main_v260 (F := F) (V (Proc.devRef .tc main_arg0)) (V (Proc.devRef .tc main_arg1)) (V (Proc.devRef .tc main_arg2)) (V (Proc.devRef .tc main_arg3)) (V (Proc.devRef .tc main_arg4)) = A0
  generalize ReadP.val_main_v258 (F := F) (V (Proc.devRef .tc main_arg4)) = A1
  rfl

/-! ### The result -/

/-- After the whole program the result buffer holds the last stage. -/
theorem after_eq_val (V : Valuation τ sig (Elt F)) :
    after (ops (F := F)) V (Proc.devRef .tc main_v261)
      = ReadP.val_main_v261 (F := F) (V (Proc.devRef .tc main_arg0)) (V (Proc.devRef .tc main_arg1)) (V (Proc.devRef .tc main_arg2)) (V (Proc.devRef .tc main_arg3)) (V (Proc.devRef .tc main_arg4)) := by
  rw [after_eq_result_of_nodup wr opsW_nodup V 390 (r := main_v261) rfl rfl]
  rw [binary_result]
  rw [st_main_v260 V 390 (by decide)]
  rw [st_main_v258 V 390 (by decide)]
  unfold ReadP.val_main_v261
  generalize ReadP.val_main_v260 (F := F) (V (Proc.devRef .tc main_arg0)) (V (Proc.devRef .tc main_arg1)) (V (Proc.devRef .tc main_arg2)) (V (Proc.devRef .tc main_arg3)) (V (Proc.devRef .tc main_arg4)) = A0
  generalize ReadP.val_main_v258 (F := F) (V (Proc.devRef .tc main_arg4)) = A1
  rfl

end Cert.ReferenceIdeal.ValueL

end
-- ==== Proof.LibRank3Layout.lean ====
/-
  Layout steps on arrays of rank 3, read at an index given by coordinates, and the two sums along one axis of such an
  array at the ideal values.

  A squeeze-and-excite style body works on a stack of `a` matrices at once: it appends or inserts a unit axis by a
  shape cast ([a, b] → [a, b, 1], [a, b] → [a, 1, b]), stretches a unit axis by a broadcast ([1, b, c], [a, b, 1] and
  [a, 1, c] → [a, b, c]), and sums the stack along its last or its middle axis.  Each lemma says which entry of the
  operand the result holds at `(i, j, k)`; the casts keep the row-major position, the broadcasts read coordinate 0 on
  the stretched axis.  The column sum of a single matrix (along axis 0) is here too.
-/
import Idealize.ShloMosaic.Lib.Pipeline.Value
import Idealize.ShloMosaic.Lib.ValueIdx
import Idealize.ShloMosaic.PureOps.Ideal.Laws

namespace Cert.Rank3Layout

open Idealize.ShloMosaic Idealize.ShloMosaic.ValueIdx
open scoped BigOperators

variable {α : Type}

/-- An `[a, b]` matrix cast to `[a, b, 1]` reads, at `(i, j, u)`, the matrix at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- One `[1, b, c]` matrix broadcast to a stack `[a, b, c]` reads, at `(i, j, k)`, the matrix at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A stack of columns `[a, b, 1]` broadcast to `[a, b, c]` reads, at `(i, j, k)`, the column entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A stack of rows `[a, 1, c]` broadcast to `[a, b, c]` reads, at `(i, j, k)`, the row entry `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- At the ideal values the sum of an `[a, b, c]` stack along its LAST axis is, at `(i, j)`, the sum over `k` of the
    entries `(i, j, k)`.  The accumulator is the zero word, the neutral element of the sum. -/
theorem sumLast_apply {a b c : ℕ} (src : FVec Ideal ⟨3, ![a, b, c]⟩ .f32)
    (h : (⟨3, ![a, b, c]⟩ : Shape).Reduces [2] ⟨2, ![a, b]⟩)
    (hφ : FKind.Formats .f32) (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (funext fun d => Fin.ext (by
      match d with
      | ⟨0, _⟩ => rfl
      | ⟨1, _⟩ => rfl
      | ⟨2, _⟩ => rfl)))

/-- At the ideal values the sum of an `[a, b, c]` stack along its MIDDLE axis is, at `(i, k)`, the sum over `j` of the
    entries `(i, j, k)`. -/
theorem sumMiddle_apply {a b c : ℕ} (src : FVec Ideal ⟨3, ![a, b, c]⟩ .f32)
    (h : (⟨3, ![a, b, c]⟩ : Shape).Reduces [1] ⟨2, ![a, c]⟩)
    (hφ : FKind.Formats .f32) (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  (Ideal.multiReduction_add_single src 0x00000000#32 h hφ hacc (ix2 i k)).trans
    (Finset.sum_congr rfl fun j _ => congrArg src (funext fun d => Fin.ext (by
      match d with
      | ⟨0, _⟩ => rfl
      | ⟨1, _⟩ => rfl
      | ⟨2, _⟩ => rfl)))

/-- At the ideal values the sum of an `[a, b]` matrix along its FIRST axis is, at column `q`, the sum over the rows
    `p` of the entries `(p, q)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) :=
  (Ideal.multiReduction_add_single src 0x00000000#32 h hφ hacc (ix1 q)).trans
    (Finset.sum_congr rfl fun p _ => congrArg src (funext fun d => Fin.ext (by
      match d with
      | ⟨0, _⟩ => rfl
      | ⟨1, _⟩ => rfl)))

end Cert.Rank3Layout
-- ==== Proof.NormBlock.lean ====
/-
  One block of the first kernel over the extended reals: for a slab of 256 channels by 4096 positions, each entry is
  divided by the larger of the Euclidean norm of its position's channel column and a small positive constant. The
  block's stored value is read here at an entry (channel, position).
-/
import proofs.«153362_j6846177869930_2_alg».proof.Proof.Gen.KernelIdeal.Skeleton
import proofs.«153362_j6846177869930_2_alg».proof.Proof.LibRank3Layout
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Norm

open Idealize.ShloMosaic Idealize.ShloMosaic.ValueIdx Cert.KernelIdeal Cert.KernelIdeal.Gen Cert.Rank3Layout
open scoped BigOperators

/-- The channel-normalised entry of a 256 x 4096 matrix: the entry over the larger of its column's norm and the guard. -/
def normed (v : FVec Ideal S256x4096 .f32) (ch : Fin 256) (p : Fin 4096) : EReal :=
  Ideal.div (v (ix2 ch p)) (max (Ideal.sqrt (∑ k : Fin 256, v (ix2 k p) * v (ix2 k p))) (Ideal.ofBits .f32 0x2B8CBCCC#32))

/-- The body's arithmetic on the matrix, read at an entry. -/
theorem norm_core (v1 : FVec Ideal S256x4096 .f32) (ch : Fin 256) (p : Fin 4096) :
    (divf v1 (broadcastTo S256x4096 (maximumf (sqrt (shapeCast S1x4096 (multiReduction .add [0] S4096 (mulf v1 v1) 0x00000000#32 reduces_S256x4096_S4096 (.inl rfl) rfl) shapeCasts_S4096_S1x4096))
        (broadcast S1x4096 (Scalar.ofBits (F := Ideal) .f32 0x2B8CBCCC#32))) broadcasts_S1x4096_S256x4096)) (ix2 ch p)
      = normed v1 ch p := by
  unfold normed
  show Ideal.div (v1 (ix2 ch p)) (broadcastTo S256x4096 _ broadcasts_S1x4096_S256x4096 (ix2 ch p)) = _
  refine congrArg (Ideal.div (v1 (ix2 ch p))) ?_
  refine (broadcastTo_1b_ab_apply _ _ ch p).trans ?_
  show max (Ideal.sqrt (shapeCast S1x4096 _ shapeCasts_S4096_S1x4096 (ix2 (0 : Fin 1) p))) (Ideal.ofBits .f32 0x2B8CBCCC#32) = _
  refine congrArg (fun z => max (Ideal.sqrt z) (Ideal.ofBits .f32 0x2B8CBCCC#32)) ?_
  refine (shapeCast_a_1a_apply _ _ (0 : Fin 1) p).trans ?_
  refine (colSum_apply _ _ _ _ p).trans ?_
  rfl

/-- The first output's stored block at an entry: the slab's matrix normalised. -/
theorem k0_pay1_apply (x : FVec Ideal S1x256x4096 .f32) (u : Fin 1) (ch : Fin 256) (p : Fin 4096) :
    k0_pay1 (F := Ideal) x (ix3 u ch p) = normed (shapeCast S256x4096 x shapeCasts_S1x256x4096_S256x4096) ch p := by
  unfold k0_pay1
  refine (shapeCast_ab_1ab_apply _ _ u ch p).trans ?_
  exact norm_core (shapeCast S256x4096 x shapeCasts_S1x256x4096_S256x4096) ch p

/-- The second output's, the same. -/
theorem k0_pay2_apply (x : FVec Ideal S1x256x4096 .f32) (u : Fin 1) (ch : Fin 256) (p : Fin 4096) :
    k0_pay2 (F := Ideal) x (ix3 u ch p) = normed (shapeCast S256x4096 x shapeCasts_S1x256x4096_S256x4096) ch p := by
  unfold k0_pay2
  refine (shapeCast_ab_1ab_apply _ _ u ch p).trans ?_
  exact norm_core (shapeCast S256x4096 x shapeCasts_S1x256x4096_S256x4096) ch p

/-- The slab's matrix at an entry is the slab at (0, channel, position). -/
theorem slab_apply (x : FVec Ideal S1x256x4096 .f32) (ch : Fin 256) (p : Fin 4096) :
    shapeCast S256x4096 x shapeCasts_S1x256x4096_S256x4096 (ix2 ch p) = x (ix3 (0 : Fin 1) ch p) :=
  shapeCast_1ab_ab_apply x _ ch p

end Cert.KernelIdeal.Norm

end
-- ==== Proof.Final0.lean ====
/-
  What the first kernel region leaves in its two output arrays: every entry of the two feature arrays divided by the
  larger of its position's channel norm and the guard. Each grid point's block is one batch entry's whole slab, so
  the blocks tile the arrays and the array after the region is one function of the array before it.
-/
import proofs.«153362_j6846177869930_2_alg».proof.Proof.RunKernelIdealB
import proofs.«153362_j6846177869930_2_alg».proof.Proof.NormBlock

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.KernelIdeal.Norm
open scoped BigOperators

variable (m : (ℓ : Loc nD τ sig) → Buf (Elt Ideal) ℓ)

theorem hz3 : (![0, 0, 0] : Fin 3 → Nat) = fun _ => 0 := funext fun a => by fin_cases a <;> rfl

/-- An array of 32 slabs, every entry over the larger of its (batch, position) channel norm and the guard. -/
def normArr (a : S32x256x4096.Idx → EReal) : S32x256x4096.Idx → EReal := fun i =>
  Ideal.div (a i) (max (Ideal.sqrt (∑ k : Fin 256, a (ix3 (i 0) k (i 2)) * a (ix3 (i 0) k (i 2)))) (Ideal.ofBits .f32 0x2B8CBCCC#32))

/-- The printed index maps of region 0's four windows: point t's block is slab t. -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- A slab that is slab b of an array normalises to the array's normalised entries of slab b. -/
theorem norm_eq_of (X : FVec Ideal S1x256x4096 .f32) (A : S32x256x4096.Idx → EReal) (b : Fin 32)
    (hX : ∀ (ch : Fin 256) (p : Fin 4096), X (ix3 (0 : Fin 1) ch p) = A (ix3 b ch p)) (ch : Fin 256) (p : Fin 4096) :
    normed (shapeCast S256x4096 X shapeCasts_S1x256x4096_S256x4096) ch p = normArr A (ix3 b ch p) := by
  unfold normed normArr
  show Ideal.div (shapeCast S256x4096 X shapeCasts_S1x256x4096_S256x4096 (ix2 ch p))
      (max (Ideal.sqrt (∑ k : Fin 256, shapeCast S256x4096 X shapeCasts_S1x256x4096_S256x4096 (ix2 k p) * shapeCast S256x4096 X shapeCasts_S1x256x4096_S256x4096 (ix2 k p))) (Ideal.ofBits .f32 0x2B8CBCCC#32))
    = Ideal.div (A (ix3 b ch p)) (max (Ideal.sqrt (∑ k : Fin 256, A (ix3 b k p) * A (ix3 b k p))) (Ideal.ofBits .f32 0x2B8CBCCC#32))
  simp only [slab_apply, hX]

/-- Point t's block of the first input is slab t of its array. -/
theorem iblk0_0_apply (c : Dev nD) (t : Fin cfg0.N) (ch : Fin 256) (p : Fin 4096) :
    iblk0 (U1 m) c 0 t (ix3 (0 : Fin 1) ch p) = U1 m c main_v0 (ix3 (⟨t.val, by have := t.isLt; have h32 : cfg0.N = 32 := N_0; omega⟩ : Fin 32) ch p) := by
  obtain ⟨e00, e01, e02, -⟩ := idx_facts0 t
  show U1 m c main_v0 (((cfg0.win 0).blk t).view.emb (ix3 (0 : Fin 1) ch p)) = _
  refine congrArg (U1 m c main_v0) ?_
  funext a; apply Fin.ext
  match a with
  | ⟨0, _⟩ => show win0_0.index t (0 : Fin 3) * 1 + 1 * 0 = t.val; omega
  | ⟨1, _⟩ => show win0_0.index t (1 : Fin 3) * 256 + 1 * ch.val = ch.val; omega
  | ⟨2, _⟩ => show win0_0.index t (2 : Fin 3) * 4096 + 1 * p.val = p.val; omega

theorem flushed0_2_eq (c : Dev nD) (t : Fin cfg0.N) :
    (dat0 (U1 m) c).flushed 2 t = ((cfg0.win 2).blk t).view.read (Elt Ideal) (normArr (U1 m c main_v0)) := by
  show (cfg0.win 2).cut (grid0.coords t) ((dat0 (U1 m) c).after 2 t) = _
  rw [after0_2]
  unfold out0_2
  rw [View.canon_unit_zero hz3]
  simp only [View.ld_unit_zero (S := S1x256x4096) hz3]
  funext j
  rw [View.read_apply]
  obtain ⟨-, -, -, -, -, -, e20, e21, e22, -⟩ := idx_facts0 t
  have hemb : ((cfg0.win 2).blk t).view.emb j = ix3 (⟨t.val, by have := t.isLt; have h32 : cfg0.N = 32 := N_0; omega⟩ : Fin 32) (j 1) (j 2) := by
    funext a; apply Fin.ext
    match a with
    | ⟨0, _⟩ => show win0_2.index t (0 : Fin 3) * 1 + 1 * (j 0).val = t.val; have hj : (j 0).val < 1 := (j 0).isLt; omega
    | ⟨1, _⟩ => show win0_2.index t (1 : Fin 3) * 256 + 1 * (j 1).val = (j 1).val; omega
    | ⟨2, _⟩ => show win0_2.index t (2 : Fin 3) * 4096 + 1 * (j 2).val = (j 2).val; omega
  show k0_pay1 (F := Ideal) (iblk0 (U1 m) c 0 t) j = normArr (U1 m c main_v0) (((cfg0.win 2).blk t).view.emb j)
  rw [hemb]
  refine (congrArg (k0_pay1 (F := Ideal) (iblk0 (U1 m) c 0 t)) (eq_ix3 j)).trans ?_
  refine (k0_pay1_apply _ (j 0) (j 1) (j 2)).trans ?_
  exact norm_eq_of _ _ _ (iblk0_0_apply m c t) (j 1) (j 2)

/-- Point t's block of the second input is slab t of its array. -/
theorem iblk0_1_apply (c : Dev nD) (t : Fin cfg0.N) (ch : Fin 256) (p : Fin 4096) :
    iblk0 (U1 m) c 1 t (ix3 (0 : Fin 1) ch p) = U1 m c main_v1 (ix3 (⟨t.val, by have := t.isLt; have h32 : cfg0.N = 32 := N_0; omega⟩ : Fin 32) ch p) := by
  obtain ⟨-, -, -, e10, e11, e12, -⟩ := idx_facts0 t
  show U1 m c main_v1 (((cfg0.win 1).blk t).view.emb (ix3 (0 : Fin 1) ch p)) = _
  refine congrArg (U1 m c main_v1) ?_
  funext a; apply Fin.ext
  match a with
  | ⟨0, _⟩ => show win0_1.index t (0 : Fin 3) * 1 + 1 * 0 = t.val; omega
  | ⟨1, _⟩ => show win0_1.index t (1 : Fin 3) * 256 + 1 * ch.val = ch.val; omega
  | ⟨2, _⟩ => show win0_1.index t (2 : Fin 3) * 4096 + 1 * p.val = p.val; omega

theorem flushed0_3_eq (c : Dev nD) (t : Fin cfg0.N) :
    (dat0 (U1 m) c).flushed 3 t = ((cfg0.win 3).blk t).view.read (Elt Ideal) (normArr (U1 m c main_v1)) := by
  show (cfg0.win 3).cut (grid0.coords t) ((dat0 (U1 m) c).after 3 t) = _
  rw [after0_3]
  unfold out0_3
  rw [View.canon_unit_zero hz3]
  simp only [View.ld_unit_zero (S := S1x256x4096) hz3]
  funext j
  rw [View.read_apply]
  obtain ⟨-, -, -, -, -, -, -, -, -, e30, e31, e32⟩ := idx_facts0 t
  have hemb : ((cfg0.win 3).blk t).view.emb j = ix3 (⟨t.val, by have := t.isLt; have h32 : cfg0.N = 32 := N_0; omega⟩ : Fin 32) (j 1) (j 2) := by
    funext a; apply Fin.ext
    match a with
    | ⟨0, _⟩ => show win0_3.index t (0 : Fin 3) * 1 + 1 * (j 0).val = t.val; have hj : (j 0).val < 1 := (j 0).isLt; omega
    | ⟨1, _⟩ => show win0_3.index t (1 : Fin 3) * 256 + 1 * (j 1).val = (j 1).val; omega
    | ⟨2, _⟩ => show win0_3.index t (2 : Fin 3) * 4096 + 1 * (j 2).val = (j 2).val; omega
  show k0_pay2 (F := Ideal) (iblk0 (U1 m) c 1 t) j = normArr (U1 m c main_v1) (((cfg0.win 3).blk t).view.emb j)
  rw [hemb]
  refine (congrArg (k0_pay2 (F := Ideal) (iblk0 (U1 m) c 1 t)) (eq_ix3 j)).trans ?_
  refine (k0_pay2_apply _ (j 0) (j 1) (j 2)).trans ?_
  exact norm_eq_of _ _ _ (iblk0_1_apply m c t) (j 1) (j 2)

/-- An index of the array is in point t's block of the first output iff it is in slab t. -/
theorem mem_blk0_2 (t : Fin cfg0.N) (i : S32x256x4096.Idx) :
    i ∈ ((cfg0.win 2).blk t).view.set ↔ ∀ a : Fin 3, win0_2.index t a * S1x256x4096.size a ≤ (i a).val ∧ (i a).val < win0_2.index t a * S1x256x4096.size a + S1x256x4096.size a := by
  show i ∈ ((View.whole main_v2_0).slice (win0_2.rect t)).set ↔ _
  rw [View.set_slice_whole, Rect.mem_set_unit]
  exact Iff.rfl

theorem mem_blk0_3 (t : Fin cfg0.N) (i : S32x256x4096.Idx) :
    i ∈ ((cfg0.win 3).blk t).view.set ↔ ∀ a : Fin 3, win0_3.index t a * S1x256x4096.size a ≤ (i a).val ∧ (i a).val < win0_3.index t a * S1x256x4096.size a + S1x256x4096.size a := by
  show i ∈ ((View.whole main_v2_1).slice (win0_3.rect t)).set ↔ _
  rw [View.set_slice_whole, Rect.mem_set_unit]
  exact Iff.rfl

/-- THE FIRST OUTPUT ARRAY after the region: the first feature array normalised. -/
theorem final0_2 (c : Dev nD) : (dat0 (U1 m) c).arrAt 2 cfg0.N = normArr (U1 m c main_v0) :=
  (dat0 (U1 m) c).arrAt_eq_of_cover 2 (normArr (U1 m c main_v0)) (fun t _ => flushed0_2_eq m c t) fun i => by
    have hi0 : (i 0).val < 32 := (i 0).isLt
    have hi1 : (i 1).val < 256 := (i 1).isLt
    have hi2 : (i 2).val < 4096 := (i 2).isLt
    have h32 : cfg0.N = 32 := N_0
    obtain ⟨t, ht⟩ : ∃ t : Fin cfg0.N, t.val = (i 0).val := ⟨⟨(i 0).val, by omega⟩, rfl⟩
    refine ⟨t, flush0_2 t, ?_⟩
    rw [mem_blk0_2]
    have ef := idx_facts0 t
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 256 ≤ (i 1).val ∧ (i 1).val < win0_2.index t (1 : Fin 3) * 256 + 256; omega
    | ⟨2, _⟩ => show win0_2.index t (2 : Fin 3) * 4096 ≤ (i 2).val ∧ (i 2).val < win0_2.index t (2 : Fin 3) * 4096 + 4096; omega

/-- THE SECOND OUTPUT ARRAY after the region: the second feature array normalised. -/
theorem final0_3 (c : Dev nD) : (dat0 (U1 m) c).arrAt 3 cfg0.N = normArr (U1 m c main_v1) :=
  (dat0 (U1 m) c).arrAt_eq_of_cover 3 (normArr (U1 m c main_v1)) (fun t _ => flushed0_3_eq m c t) fun i => by
    have hi0 : (i 0).val < 32 := (i 0).isLt
    have hi1 : (i 1).val < 256 := (i 1).isLt
    have hi2 : (i 2).val < 4096 := (i 2).isLt
    have h32 : cfg0.N = 32 := N_0
    obtain ⟨t, ht⟩ : ∃ t : Fin cfg0.N, t.val = (i 0).val := ⟨⟨(i 0).val, by omega⟩, rfl⟩
    refine ⟨t, flush0_3 t, ?_⟩
    rw [mem_blk0_3]
    have ef := idx_facts0 t
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 256 ≤ (i 1).val ∧ (i 1).val < win0_3.index t (1 : Fin 3) * 256 + 256; omega
    | ⟨2, _⟩ => show win0_3.index t (2 : Fin 3) * 4096 ≤ (i 2).val ∧ (i 2).val < win0_3.index t (2 : Fin 3) * 4096 + 4096; omega

/-- Region 0's exit contents at its two output arrays. -/
theorem W2_main_v2_0 (c : Dev nD) : W2 m c (Proc.devRef .tc main_v2_0) = normArr (U1 m c main_v0) :=
  (W2_arr m c 2).trans (final0_2 m c)
theorem W2_main_v2_1 (c : Dev nD) : W2 m c (Proc.devRef .tc main_v2_1) = normArr (U1 m c main_v1) :=
  (W2_arr m c 3).trans (final0_3 m c)

end Cert.KernelIdeal.Hand

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.MainBlock.lean ====
/-
  One block of the second kernel over the extended reals. The block works on one batch entry: two 256 x 4096
  feature matrices, and for the source and the target keypoints a 128 x 4 matrix of flat positions and a 128 x 4 matrix
  of bilinear weights.

  Part one: the two 128 x 4096 weight matrices. Row n of such a matrix is the sum of four one-hot rows: at column p
  it adds, for k = 0..3, the weight W(n, k) when p is the index I(n, k) and zero otherwise.

  Part two: the query rows are the source weight matrix times the source features transposed; the logits are the
  query matrix times the target features, scaled by the named reciprocal of the temperature; each row is shifted by
  its maximum, its log-sum-exp subtracted, the result weighted by the soft-target row and summed; the rows' negated
  sums are added up, and that one number fills the 8 x 128 tile the block stores.
-/
import proofs.«153362_j6846177869930_2_alg».proof.Proof.Gen.KernelIdeal.Skeleton
import proofs.«153362_j6846177869930_2_alg».proof.Proof.LibKeepdims
import proofs.«153362_j6846177869930_2_alg».proof.Proof.LibColumnCasts
import proofs.«153362_j6846177869930_2_alg».proof.Proof.LibMatmul
import proofs.«153362_j6846177869930_2_alg».proof.Proof.LibRank3Layout
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.MainBlk

open Idealize.ShloMosaic Idealize.ShloMosaic.ValueIdx Cert.KernelIdeal Cert.KernelIdeal.Gen Cert.Keepdims
open scoped BigOperators

/-! ## The one-hot weight matrices -/

/-- The weight W(n, k) where column p is the index I(n, k), zero elsewhere. -/
def hot (I : IVec S128x4 32) (Wt : FVec Ideal S128x4 .f32) (k : Fin 4) (n : Fin 128) (p : Fin 4096) : EReal :=
  Scalar.select (IntOp.cmpi .eq (BitVec.ofNat 32 p.val) (I (ix2 n k))) (Wt (ix2 n k)) (Ideal.ofBits .f32 0x00000000#32)

/-- The sum of the four one-hot terms, in the order the body adds them, from zero. -/
def mix (I : IVec S128x4 32) (Wt : FVec Ideal S128x4 .f32) (n : Fin 128) (p : Fin 4096) : EReal :=
  (((Ideal.ofBits .f32 0x00000000#32 + hot I Wt 0 n p) + hot I Wt 1 n p) + hot I Wt 2 n p) + hot I Wt 3 n p

/-- One selected term of the body, read at an entry: column k of the index and weight matrices, stretched along the
    row, compared with the column counter. -/
theorem hot_term (I : IVec S128x4 32) (Wt : FVec Ideal S128x4 .f32) (o : ℕ) (k : Fin 4) (hk : k.val = o)
    (hs : S128x4.Slices ![0, o] S128x1) (n : Fin 128) (p : Fin 4096) :
    (select (cmpi .eq (iota .tc S128x4096 32 [1] iota_S128x4096_d1_w32)
        (broadcastTo S128x4096 (extractStridedSlice S128x1 ![0, o] I hs) broadcasts_S128x1_S128x4096))
      (broadcastTo S128x4096 (shapeCast S128x1 (extractStridedSlice S128x1 ![0, o] Wt hs) shapeCasts_S128x1_S128x1) broadcasts_S128x1_S128x4096)
      (broadcast S128x4096 (Scalar.ofBits (F := Ideal) .f32 0x00000000#32))) (ix2 n p) = hot I Wt k n p := by
  unfold hot
  show Scalar.select (IntOp.cmpi .eq (iota .tc S128x4096 32 [1] iota_S128x4096_d1_w32 (ix2 n p))
      (broadcastTo S128x4096 (extractStridedSlice S128x1 ![0, o] I hs) broadcasts_S128x1_S128x4096 (ix2 n p)))
    (broadcastTo S128x4096 (shapeCast S128x1 (extractStridedSlice S128x1 ![0, o] Wt hs) shapeCasts_S128x1_S128x1) broadcasts_S128x1_S128x4096 (ix2 n p))
    (Ideal.ofBits .f32 0x00000000#32) = _
  rw [iota_single_apply, broadcastTo_a1_ab_apply, broadcastTo_a1_ab_apply, shapeCast_self,
    slice2_axis1_apply o I hs n (0 : Fin 1) k (by simp [hk]), slice2_axis1_apply o Wt hs n (0 : Fin 1) k (by simp [hk])]

/-- The soft-target matrix of the block, read at an entry: the four one-hot terms of the target indices and weights. -/
theorem pay11_apply (I : IVec S128x4 32) (Wt : FVec Ideal S128x4 .f32) (n : Fin 128) (p : Fin 4096) :
    k1_pay11 (F := Ideal) I Wt (iota .tc S128x4096 32 [1] iota_S128x4096_d1_w32) (ix2 n p) = mix I Wt n p := by
  unfold k1_pay11 mix
  exact congrArg₂ (· + ·) (congrArg₂ (· + ·) (congrArg₂ (· + ·) (congrArg₂ (· + ·) rfl
    (hot_term I Wt 0 0 rfl _ n p)) (hot_term I Wt 1 1 rfl _ n p)) (hot_term I Wt 2 2 rfl _ n p)) (hot_term I Wt 3 3 rfl _ n p)

/-- The sampling matrix of the block, read at an entry: the four one-hot terms of the source indices and weights (the
    body computes it in two parts; the parts' values are put together here). -/
theorem wsrc_apply (v4 : Vec Ideal S1x128x4 .i32) (v6 : Vec Ideal S1x128x4 .f32) (n : Fin 128) (p : Fin 4096) :
    (addf (addf (k1_pay8 (F := Ideal) v4 v6)
        (select (k1_pay9 (F := Ideal) v4) (broadcastTo S128x4096 (k1_pay10 (F := Ideal) v6) broadcasts_S128x1_S128x4096)
          (broadcast S128x4096 (Scalar.ofBits (F := Ideal) .f32 0x00000000#32))))
      (select (cmpi .eq (iota .tc S128x4096 32 [1] iota_S128x4096_d1_w32)
          (broadcastTo S128x4096 (extractStridedSlice S128x1 ![0, 3] (k1_pay4 (F := Ideal) v4) slices_S128x4_o0_3_S128x1) broadcasts_S128x1_S128x4096))
        (broadcastTo S128x4096 (shapeCast S128x1 (extractStridedSlice S128x1 ![0, 3] (k1_pay5 (F := Ideal) v6) slices_S128x4_o0_3_S128x1) shapeCasts_S128x1_S128x1) broadcasts_S128x1_S128x4096)
        (broadcast S128x4096 (Scalar.ofBits (F := Ideal) .f32 0x00000000#32)))) (ix2 n p)
      = mix (k1_pay4 (F := Ideal) v4) (k1_pay5 (F := Ideal) v6) n p := by
  unfold k1_pay8 k1_pay9 k1_pay10 mix
  exact congrArg₂ (· + ·) (congrArg₂ (· + ·) (congrArg₂ (· + ·) (congrArg₂ (· + ·) rfl
    (hot_term _ _ 0 0 rfl _ n p)) (hot_term _ _ 1 1 rfl _ n p)) (hot_term _ _ 2 2 rfl _ n p)) (hot_term _ _ 3 3 rfl _ n p)

/-! ## The loss of one block as a function on finite index sets -/

/-- The scaled logit of query row n against target column p. -/
def logitF (q : Fin 128 → Fin 256 → EReal) (tg : Fin 256 → Fin 4096 → EReal) (s : EReal) (n : Fin 128) (p : Fin 4096) : EReal :=
  (∑ c : Fin 256, q n c * tg c p) * s

/-- A row's maximum logit (from minus infinity). -/
def rowMaxF (q : Fin 128 → Fin 256 → EReal) (tg : Fin 256 → Fin 4096 → EReal) (s : EReal) (n : Fin 128) : EReal :=
  (Finset.univ : Finset (Fin 4096)).fold max (Ideal.ofBits .f32 0xFF800000#32) (fun p => logitF q tg s n p)

/-- A row's log-probabilities: the shifted logit minus the log of the row's sum of exponentials. -/
def logProbF (q : Fin 128 → Fin 256 → EReal) (tg : Fin 256 → Fin 4096 → EReal) (s : EReal) (n : Fin 128) (p : Fin 4096) : EReal :=
  (logitF q tg s n p - rowMaxF q tg s n) - Ideal.log (∑ p' : Fin 4096, Ideal.exp (logitF q tg s n p' - rowMaxF q tg s n))

/-- The block's loss: the rows' cross-entropies against the soft-target matrix, negated and summed. -/
def lossF (tg : Fin 256 → Fin 4096 → EReal) (soft : Fin 128 → Fin 4096 → EReal) (q : Fin 128 → Fin 256 → EReal) (s : EReal) : EReal :=
  ∑ n : Fin 128, (Ideal.ofBits .f32 0x00000000#32 - ∑ p : Fin 4096, soft n p * logProbF q tg s n p)

/-! ## The body's reductions and stretches read at an entry -/

/-- A row's maximum at the ideal values: the fold of max from the accumulator's value over the row's entries. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src 0xFF800000#32 h hφ hacc (ix1 p)).trans
    (Finset.fold_congr fun k _ => congrArg src (funext fun d => Fin.ext (by
      match d with
      | ⟨0, _⟩ => rfl
      | ⟨1, _⟩ => rfl)))

/-- A 1 x 1 array stretched to a x b reads its one entry everywhere. -/
theorem broadcastTo_11_ab_apply {α : Type} {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-- The second matrix product and the scale, read at an entry. -/
theorem logits_apply (q : FVec Ideal S128x256 .bf16) (tg : FVec Ideal S256x4096 .bf16) (n : Fin 128) (p : Fin 4096) :
    (mulf (matmul dot_S128x256_S256x4096_S128x4096_1_0_0_1_n_n none q tg (constant (F := Ideal) S128x4096 .f32 0x00000000#32))
      (broadcast S128x4096 (Named.named (F := Ideal) κ "inv_temp" (φ := .f32) 0x41200000#32))) (ix2 n p)
      = logitF (fun n c => q (ix2 n c)) (fun c p => tg (ix2 c p)) (Named.named (F := Ideal) κ "inv_temp" (φ := .f32) 0x41200000#32) n p := by
  unfold logitF
  exact congrArg (· * (Named.named (F := Ideal) κ "inv_temp" (φ := .f32) 0x41200000#32))
    (Cert.MatmulAt.matmul_zero_plain_apply Facts₀.dot_S128x256_S256x4096_S128x4096_1_0_0_1_n_n_wf none q tg n p)

/-- A matrix minus its rows' maxima, read at an entry. -/
theorem shifted_apply (Lg : FVec Ideal S128x4096 .f32) (n : Fin 128) (p : Fin 4096) :
    (subf Lg (broadcastTo S128x4096 (shapeCast S128x1 (multiReduction .maximumf [1] S128 Lg 0xFF800000#32 reduces_S128x4096_S128 (.inl rfl) rfl)
      shapeCasts_S128_S128x1) broadcasts_S128x1_S128x4096)) (ix2 n p)
      = Lg (ix2 n p) - (Finset.univ : Finset (Fin 4096)).fold max (Ideal.ofBits .f32 0xFF800000#32) (fun p' => Lg (ix2 n p')) := by
  show Lg (ix2 n p) - broadcastTo S128x4096 _ broadcasts_S128x1_S128x4096 (ix2 n p) = _
  refine congrArg (Lg (ix2 n p) - ·) ?_
  refine (Cert.Keepdims.broadcastTo_a1_ab_apply _ _ n p).trans ?_
  refine (Cert.ColumnCasts.shapeCast_a_a1_apply _ _ n (0 : Fin 1)).trans ?_
  exact rowMax_apply _ _ _ _ n

/-- A matrix minus the logs of its rows' sums of exponentials, read at an entry. -/
theorem logprob_apply (Sh : FVec Ideal S128x4096 .f32) (n : Fin 128) (p : Fin 4096) :
    (subf Sh (broadcastTo S128x4096 (log (shapeCast S128x1 (multiReduction .add [1] S128 (exp Sh) 0x00000000#32 reduces_S128x4096_S128 (.inl rfl) rfl)
      shapeCasts_S128_S128x1)) broadcasts_S128x1_S128x4096)) (ix2 n p)
      = Sh (ix2 n p) - Ideal.log (∑ p' : Fin 4096, Ideal.exp (Sh (ix2 n p'))) := by
  show Sh (ix2 n p) - broadcastTo S128x4096 _ broadcasts_S128x1_S128x4096 (ix2 n p) = _
  refine congrArg (Sh (ix2 n p) - ·) ?_
  refine (Cert.Keepdims.broadcastTo_a1_ab_apply _ _ n p).trans ?_
  show Ideal.log (shapeCast S128x1 _ shapeCasts_S128_S128x1 (ix2 n (0 : Fin 1))) = _
  refine congrArg Ideal.log ?_
  refine (Cert.ColumnCasts.shapeCast_a_a1_apply _ _ n (0 : Fin 1)).trans ?_
  exact Cert.ColumnCasts.rowSum_apply _ _ _ _ n

/-- The shifted logits of the body, read at an entry. -/
theorem sh_apply (q : FVec Ideal S128x256 .bf16) (tg : FVec Ideal S256x4096 .bf16) (n : Fin 128) (p : Fin 4096) :
    (subf (mulf (matmul dot_S128x256_S256x4096_S128x4096_1_0_0_1_n_n none q tg (constant (F := Ideal) S128x4096 .f32 0x00000000#32))
        (broadcast S128x4096 (Named.named (F := Ideal) κ "inv_temp" (φ := .f32) 0x41200000#32)))
      (broadcastTo S128x4096 (shapeCast S128x1 (multiReduction .maximumf [1] S128
        (mulf (matmul dot_S128x256_S256x4096_S128x4096_1_0_0_1_n_n none q tg (constant (F := Ideal) S128x4096 .f32 0x00000000#32))
          (broadcast S128x4096 (Named.named (F := Ideal) κ "inv_temp" (φ := .f32) 0x41200000#32)))
        0xFF800000#32 reduces_S128x4096_S128 (.inl rfl) rfl) shapeCasts_S128_S128x1) broadcasts_S128x1_S128x4096)) (ix2 n p)
      = logitF (fun n c => q (ix2 n c)) (fun c p => tg (ix2 c p)) (Named.named (F := Ideal) κ "inv_temp" (φ := .f32) 0x41200000#32) n p
        - rowMaxF (fun n c => q (ix2 n c)) (fun c p => tg (ix2 c p)) (Named.named (F := Ideal) κ "inv_temp" (φ := .f32) 0x41200000#32) n := by
  refine (shifted_apply _ n p).trans ?_
  unfold rowMaxF
  simp only [logits_apply]

/-- THE BLOCK'S STORED VALUE at any entry of the tile: the block's loss. -/
theorem pay1_apply (v3 : FVec Ideal S256x4096 .bf16) (v86 : FVec Ideal S128x4096 .f32) (v89 : FVec Ideal S128x256 .bf16)
    (u : Fin 1) (i : Fin 8) (j : Fin 128) :
    k1_pay1 (F := Ideal) v3 v86 v89 (ix3 u i j)
      = lossF (fun c p => v3 (ix2 c p)) (fun n p => v86 (ix2 n p)) (fun n c => v89 (ix2 n c))
          (Named.named (F := Ideal) κ "inv_temp" (φ := .f32) 0x41200000#32) := by
  unfold k1_pay1
  refine (shapeCast_ab_1ab_apply _ _ u i j).trans ?_
  refine (broadcastTo_11_ab_apply _ _ i j).trans ?_
  refine (congrFun (shapeCast_self _ _) _).trans ?_
  refine (shapeCast_a_1a_apply _ _ (0 : Fin 1) (0 : Fin 1)).trans ?_
  refine (Cert.Rank3Layout.colSum_apply _ _ _ _ (0 : Fin 1)).trans ?_
  unfold lossF
  refine Finset.sum_congr rfl fun n _ => ?_
  show Ideal.ofBits .f32 0x00000000#32 - shapeCast S128x1 _ shapeCasts_S128_S128x1 (ix2 n (0 : Fin 1)) = _
  refine congrArg (Ideal.ofBits .f32 0x00000000#32 - ·) ?_
  refine (Cert.ColumnCasts.shapeCast_a_a1_apply _ _ n (0 : Fin 1)).trans ?_
  refine (Cert.ColumnCasts.rowSum_apply _ _ _ _ n).trans ?_
  refine Finset.sum_congr rfl fun p _ => ?_
  refine congrArg (v86 (ix2 n p) * ·) ?_
  refine (logprob_apply _ n p).trans ?_
  unfold logProbF
  exact congrArg₂ (fun a b => a - Ideal.log b) (sh_apply v89 v3 n p)
    (Finset.sum_congr rfl fun p' _ => congrArg Ideal.exp (sh_apply v89 v3 n p'))

/-- The query matrix of the block, read at an entry: the sampling matrix's row against the source features' row. -/
theorem q_apply (v0 : Vec Ideal S1x256x4096 .bf16) (v4 : Vec Ideal S1x128x4 .i32) (v6 : Vec Ideal S1x128x4 .f32) (n : Fin 128) (c : Fin 256) :
    k1_pay12 (F := Ideal) (k1_pay2 v0) (k1_pay4 v4) (k1_pay5 v6) (iota .tc S128x4096 32 [1] iota_S128x4096_d1_w32)
        (k1_pay8 v4 v6) (k1_pay9 v4) (Scalar.ofBits .f32 0x00000000#32) (k1_pay10 v6) (ix2 n c)
      = ∑ p : Fin 4096, mix (k1_pay4 (F := Ideal) v4) (k1_pay5 (F := Ideal) v6) n p * (k1_pay2 (F := Ideal) v0) (ix2 c p) := by
  unfold k1_pay12
  refine (Cert.MatmulAt.matmul_zero_nt_apply Facts₀.dot_S128x4096_S256x4096_S128x256_1_1_0_0_n_n_wf none _ _ n c).trans ?_
  refine Finset.sum_congr rfl fun p _ => ?_
  refine congrArg (· * (k1_pay2 (F := Ideal) v0) (ix2 c p)) ?_
  exact wsrc_apply v4 v6 n p

/-- THE BLOCK'S STORED VALUE as a function of its six loaded blocks: the loss of the target features against the
    soft-target matrix, the queries the sampling matrix times the source features. -/
theorem block_apply (x0 x1 : Vec Ideal S1x256x4096 .bf16) (i2 : Vec Ideal S1x128x4 .i32) (x3 : Vec Ideal S1x128x4 .f32)
    (i4 : Vec Ideal S1x128x4 .i32) (x5 : Vec Ideal S1x128x4 .f32) (u : Fin 1) (i : Fin 8) (j : Fin 128) :
    k1_pay1 (F := Ideal) (k1_pay3 x1) (k1_pay11 (k1_pay6 i4) (k1_pay7 x5) (iota .tc S128x4096 32 [1] iota_S128x4096_d1_w32))
        (k1_pay12 (k1_pay2 x0) (k1_pay4 i2) (k1_pay5 x3) (iota .tc S128x4096 32 [1] iota_S128x4096_d1_w32)
          (k1_pay8 i2 x3) (k1_pay9 i2) (Scalar.ofBits .f32 0x00000000#32) (k1_pay10 x3)) (ix3 u i j)
      = lossF (fun c p => (k1_pay3 (F := Ideal) x1) (ix2 c p))
          (fun n p => mix (k1_pay6 (F := Ideal) i4) (k1_pay7 (F := Ideal) x5) n p)
          (fun n c => ∑ p : Fin 4096, mix (k1_pay4 (F := Ideal) i2) (k1_pay5 (F := Ideal) x3) n p * (k1_pay2 (F := Ideal) x0) (ix2 c p))
          (Named.named (F := Ideal) κ "inv_temp" (φ := .f32) 0x41200000#32) := by
  refine (pay1_apply _ _ _ u i j).trans ?_
  exact congrArg₂ (fun s q => lossF (fun c p => (k1_pay3 (F := Ideal) x1) (ix2 c p)) s q (Named.named (F := Ideal) κ "inv_temp" (φ := .f32) 0x41200000#32))
    (funext fun n => funext fun p => pay11_apply _ _ n p) (funext fun n => funext fun c => q_apply x0 i2 x3 n c)

end Cert.KernelIdeal.MainBlk

end
-- ==== Proof.Final1.lean ====
/-
  What the second kernel region leaves in its output array: entry (b, i, j) of the 32 x 8 x 128 array is the loss of
  batch entry b, whatever i and j — the block of grid point b is batch entry b's tile, and the six input blocks at that
  point are batch entry b's slabs of the six input arrays.
-/
import proofs.«153362_j6846177869930_2_alg».proof.Proof.RunKernelIdealB
import proofs.«153362_j6846177869930_2_alg».proof.Proof.MainBlock

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.KernelIdeal.MainBlk
open scoped BigOperators

variable (m : (ℓ : Loc nD τ sig) → Buf (Elt Ideal) ℓ)

theorem hz3' : (![0, 0, 0] : Fin 3 → Nat) = fun _ => 0 := funext fun a => by fin_cases a <;> rfl

/-- Batch entry b's 128 x 4 matrix of a 32 x 128 x 4 array. -/
def slab4 {α : Type} (A : S32x128x4.Idx → α) (b : Fin 32) : S128x4.Idx → α := fun idx => A (ix3 b (idx 0) (idx 1))

/-- The loss of batch entry b as a function of the six input arrays of the region. -/
def batchLoss (A0 A1 : S32x256x4096.Idx → EReal) (I2 : S32x128x4.Idx → BitVec 32) (A3 : S32x128x4.Idx → EReal)
    (I4 : S32x128x4.Idx → BitVec 32) (A5 : S32x128x4.Idx → EReal) (b : Fin 32) : EReal :=
  lossF (fun c p => A1 (ix3 b c p)) (fun n p => mix (slab4 I4 b) (slab4 A5 b) n p)
    (fun n c => ∑ p : Fin 4096, mix (slab4 I2 b) (slab4 A3 b) n p * A0 (ix3 b c p))
    (Named.named (F := Ideal) κ "inv_temp" (φ := .f32) 0x41200000#32)

/-- The printed index maps of region 1's seven windows: point t's block is batch entry t's. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0
    ∧ win1_5.index t (0 : Fin 3) = t.val ∧ win1_5.index t (1 : Fin 3) = 0 ∧ win1_5.index t (2 : Fin 3) = 0
    ∧ win1_6.index t (0 : Fin 3) = t.val ∧ win1_6.index t (1 : Fin 3) = 0 ∧ win1_6.index t (2 : Fin 3) = 0 :=
  (by decide +kernel : ∀ t : Fin grid1.N, _)

/-- Point t's block of input 0 is batch entry t's slab of its array. -/
theorem iblk1_0_apply (c : Dev nD) (t : Fin cfg1.N) (a : Fin 256) (b : Fin 4096) :
    iblk1 (U19 m) c 0 t (ix3 (0 : Fin 1) a b) = U19 m c main_v2_0 (ix3 (⟨t.val, by have := t.isLt; have h32 : cfg1.N = 32 := N_1; omega⟩ : Fin 32) a b) := by
  have ef := idx_facts1 t
  show U19 m c main_v2_0 (((cfg1.win 0).blk t).view.emb (ix3 (0 : Fin 1) a b)) = _
  refine congrArg (U19 m c main_v2_0) ?_
  funext d; apply Fin.ext
  match d with
  | ⟨0, _⟩ => show win1_0.index t (0 : Fin 3) * 1 + 1 * 0 = t.val; omega
  | ⟨1, _⟩ => show win1_0.index t (1 : Fin 3) * 256 + 1 * a.val = a.val; omega
  | ⟨2, _⟩ => show win1_0.index t (2 : Fin 3) * 4096 + 1 * b.val = b.val; omega

/-- Point t's block of input 1 is batch entry t's slab of its array. -/
theorem iblk1_1_apply (c : Dev nD) (t : Fin cfg1.N) (a : Fin 256) (b : Fin 4096) :
    iblk1 (U19 m) c 1 t (ix3 (0 : Fin 1) a b) = U19 m c main_v2_1 (ix3 (⟨t.val, by have := t.isLt; have h32 : cfg1.N = 32 := N_1; omega⟩ : Fin 32) a b) := by
  have ef := idx_facts1 t
  show U19 m c main_v2_1 (((cfg1.win 1).blk t).view.emb (ix3 (0 : Fin 1) a b)) = _
  refine congrArg (U19 m c main_v2_1) ?_
  funext d; apply Fin.ext
  match d with
  | ⟨0, _⟩ => show win1_1.index t (0 : Fin 3) * 1 + 1 * 0 = t.val; omega
  | ⟨1, _⟩ => show win1_1.index t (1 : Fin 3) * 256 + 1 * a.val = a.val; omega
  | ⟨2, _⟩ => show win1_1.index t (2 : Fin 3) * 4096 + 1 * b.val = b.val; omega

/-- Point t's block of input 2 is batch entry t's slab of its array. -/
theorem iblk1_2_apply (c : Dev nD) (t : Fin cfg1.N) (a : Fin 128) (b : Fin 4) :
    iblk1 (U19 m) c 2 t (ix3 (0 : Fin 1) a b) = U19 m c main_v59 (ix3 (⟨t.val, by have := t.isLt; have h32 : cfg1.N = 32 := N_1; omega⟩ : Fin 32) a b) := by
  have ef := idx_facts1 t
  show U19 m c main_v59 (((cfg1.win 2).blk t).view.emb (ix3 (0 : Fin 1) a b)) = _
  refine congrArg (U19 m c main_v59) ?_
  funext d; apply Fin.ext
  match d with
  | ⟨0, _⟩ => show win1_2.index t (0 : Fin 3) * 1 + 1 * 0 = t.val; omega
  | ⟨1, _⟩ => show win1_2.index t (1 : Fin 3) * 128 + 1 * a.val = a.val; omega
  | ⟨2, _⟩ => show win1_2.index t (2 : Fin 3) * 4 + 1 * b.val = b.val; omega

/-- Point t's block of input 3 is batch entry t's slab of its array. -/
theorem iblk1_3_apply (c : Dev nD) (t : Fin cfg1.N) (a : Fin 128) (b : Fin 4) :
    iblk1 (U19 m) c 3 t (ix3 (0 : Fin 1) a b) = U19 m c main_v64 (ix3 (⟨t.val, by have := t.isLt; have h32 : cfg1.N = 32 := N_1; omega⟩ : Fin 32) a b) := by
  have ef := idx_facts1 t
  show U19 m c main_v64 (((cfg1.win 3).blk t).view.emb (ix3 (0 : Fin 1) a b)) = _
  refine congrArg (U19 m c main_v64) ?_
  funext d; apply Fin.ext
  match d with
  | ⟨0, _⟩ => show win1_3.index t (0 : Fin 3) * 1 + 1 * 0 = t.val; omega
  | ⟨1, _⟩ => show win1_3.index t (1 : Fin 3) * 128 + 1 * a.val = a.val; omega
  | ⟨2, _⟩ => show win1_3.index t (2 : Fin 3) * 4 + 1 * b.val = b.val; omega

/-- Point t's block of input 4 is batch entry t's slab of its array. -/
theorem iblk1_4_apply (c : Dev nD) (t : Fin cfg1.N) (a : Fin 128) (b : Fin 4) :
    iblk1 (U19 m) c 4 t (ix3 (0 : Fin 1) a b) = U19 m c main_v120 (ix3 (⟨t.val, by have := t.isLt; have h32 : cfg1.N = 32 := N_1; omega⟩ : Fin 32) a b) := by
  have ef := idx_facts1 t
  show U19 m c main_v120 (((cfg1.win 4).blk t).view.emb (ix3 (0 : Fin 1) a b)) = _
  refine congrArg (U19 m c main_v120) ?_
  funext d; apply Fin.ext
  match d with
  | ⟨0, _⟩ => show win1_4.index t (0 : Fin 3) * 1 + 1 * 0 = t.val; omega
  | ⟨1, _⟩ => show win1_4.index t (1 : Fin 3) * 128 + 1 * a.val = a.val; omega
  | ⟨2, _⟩ => show win1_4.index t (2 : Fin 3) * 4 + 1 * b.val = b.val; omega

/-- Point t's block of input 5 is batch entry t's slab of its array. -/
theorem iblk1_5_apply (c : Dev nD) (t : Fin cfg1.N) (a : Fin 128) (b : Fin 4) :
    iblk1 (U19 m) c 5 t (ix3 (0 : Fin 1) a b) = U19 m c main_v128 (ix3 (⟨t.val, by have := t.isLt; have h32 : cfg1.N = 32 := N_1; omega⟩ : Fin 32) a b) := by
  have ef := idx_facts1 t
  show U19 m c main_v128 (((cfg1.win 5).blk t).view.emb (ix3 (0 : Fin 1) a b)) = _
  refine congrArg (U19 m c main_v128) ?_
  funext d; apply Fin.ext
  match d with
  | ⟨0, _⟩ => show win1_5.index t (0 : Fin 3) * 1 + 1 * 0 = t.val; omega
  | ⟨1, _⟩ => show win1_5.index t (1 : Fin 3) * 128 + 1 * a.val = a.val; omega
  | ⟨2, _⟩ => show win1_5.index t (2 : Fin 3) * 4 + 1 * b.val = b.val; omega

/-- A loaded 1 x 256 x 4096 block viewed as its matrix, read at an entry. -/
theorem pay2_at (x : Vec Ideal S1x256x4096 .bf16) (c : Fin 256) (p : Fin 4096) : (k1_pay2 (F := Ideal) x) (ix2 c p) = x (ix3 (0 : Fin 1) c p) :=
  shapeCast_1ab_ab_apply x _ c p
theorem pay3_at (x : Vec Ideal S1x256x4096 .bf16) (c : Fin 256) (p : Fin 4096) : (k1_pay3 (F := Ideal) x) (ix2 c p) = x (ix3 (0 : Fin 1) c p) :=
  shapeCast_1ab_ab_apply x _ c p
/-- A loaded 1 x 128 x 4 block viewed as its matrix is the slab of any array whose slab it holds. -/
theorem pay4_eq (x : Vec Ideal S1x128x4 .i32) (A : S32x128x4.Idx → BitVec 32) (b : Fin 32)
    (h : ∀ (n : Fin 128) (k : Fin 4), x (ix3 (0 : Fin 1) n k) = A (ix3 b n k)) : k1_pay4 (F := Ideal) x = slab4 A b :=
  funext fun idx => by
    rw [eq_ix2 idx]; exact (shapeCast_1ab_ab_apply x _ (idx 0) (idx 1)).trans (h (idx 0) (idx 1))
theorem pay6_eq (x : Vec Ideal S1x128x4 .i32) (A : S32x128x4.Idx → BitVec 32) (b : Fin 32)
    (h : ∀ (n : Fin 128) (k : Fin 4), x (ix3 (0 : Fin 1) n k) = A (ix3 b n k)) : k1_pay6 (F := Ideal) x = slab4 A b :=
  funext fun idx => by
    rw [eq_ix2 idx]; exact (shapeCast_1ab_ab_apply x _ (idx 0) (idx 1)).trans (h (idx 0) (idx 1))
theorem pay5_eq (x : Vec Ideal S1x128x4 .f32) (A : S32x128x4.Idx → EReal) (b : Fin 32)
    (h : ∀ (n : Fin 128) (k : Fin 4), x (ix3 (0 : Fin 1) n k) = A (ix3 b n k)) : k1_pay5 (F := Ideal) x = slab4 A b :=
  funext fun idx => by
    rw [eq_ix2 idx]; exact (shapeCast_1ab_ab_apply x _ (idx 0) (idx 1)).trans (h (idx 0) (idx 1))
theorem pay7_eq (x : Vec Ideal S1x128x4 .f32) (A : S32x128x4.Idx → EReal) (b : Fin 32)
    (h : ∀ (n : Fin 128) (k : Fin 4), x (ix3 (0 : Fin 1) n k) = A (ix3 b n k)) : k1_pay7 (F := Ideal) x = slab4 A b :=
  funext fun idx => by
    rw [eq_ix2 idx]; exact (shapeCast_1ab_ab_apply x _ (idx 0) (idx 1)).trans (h (idx 0) (idx 1))

/-- The block's stored value, for blocks that hold batch entry b's slabs of six arrays: batch entry b's loss. -/
theorem block_eq_batchLoss (x0 x1 : Vec Ideal S1x256x4096 .bf16) (i2 : Vec Ideal S1x128x4 .i32) (x3 : Vec Ideal S1x128x4 .f32)
    (i4 : Vec Ideal S1x128x4 .i32) (x5 : Vec Ideal S1x128x4 .f32)
    (A0 A1 : S32x256x4096.Idx → EReal) (I2 : S32x128x4.Idx → BitVec 32) (A3 : S32x128x4.Idx → EReal)
    (I4 : S32x128x4.Idx → BitVec 32) (A5 : S32x128x4.Idx → EReal) (b : Fin 32)
    (h0 : ∀ (c : Fin 256) (p : Fin 4096), x0 (ix3 (0 : Fin 1) c p) = A0 (ix3 b c p))
    (h1 : ∀ (c : Fin 256) (p : Fin 4096), x1 (ix3 (0 : Fin 1) c p) = A1 (ix3 b c p))
    (h2 : ∀ (n : Fin 128) (k : Fin 4), i2 (ix3 (0 : Fin 1) n k) = I2 (ix3 b n k))
    (h3 : ∀ (n : Fin 128) (k : Fin 4), x3 (ix3 (0 : Fin 1) n k) = A3 (ix3 b n k))
    (h4 : ∀ (n : Fin 128) (k : Fin 4), i4 (ix3 (0 : Fin 1) n k) = I4 (ix3 b n k))
    (h5 : ∀ (n : Fin 128) (k : Fin 4), x5 (ix3 (0 : Fin 1) n k) = A5 (ix3 b n k))
    (u : Fin 1) (i : Fin 8) (j : Fin 128) :
    k1_pay1 (F := Ideal) (k1_pay3 x1) (k1_pay11 (k1_pay6 i4) (k1_pay7 x5) (iota .tc S128x4096 32 [1] iota_S128x4096_d1_w32))
        (k1_pay12 (k1_pay2 x0) (k1_pay4 i2) (k1_pay5 x3) (iota .tc S128x4096 32 [1] iota_S128x4096_d1_w32)
          (k1_pay8 i2 x3) (k1_pay9 i2) (Scalar.ofBits .f32 0x00000000#32) (k1_pay10 x3)) (ix3 u i j)
      = batchLoss A0 A1 I2 A3 I4 A5 b := by
  refine (block_apply x0 x1 i2 x3 i4 x5 u i j).trans ?_
  unfold batchLoss
  rw [pay4_eq i2 I2 b h2, pay5_eq x3 A3 b h3, pay6_eq i4 I4 b h4, pay7_eq x5 A5 b h5]
  simp only [pay2_at, pay3_at, h0, h1]

/-- WHAT POINT t WRITES BACK is block t of the array of batch losses. -/
theorem flushed1_6_eq (c : Dev nD) (t : Fin cfg1.N) :
    (dat1 (U19 m) c).flushed 6 t = ((cfg1.win 6).blk t).view.read (Elt Ideal)
      (fun i : S32x8x128.Idx => batchLoss (U19 m c main_v2_0) (U19 m c main_v2_1) (U19 m c main_v59) (U19 m c main_v64) (U19 m c main_v120) (U19 m c main_v128) (i 0)) := by
  show (cfg1.win 6).cut (grid1.coords t) ((dat1 (U19 m) c).after 6 t) = _
  rw [after1_6]
  unfold out1_6
  rw [View.canon_unit_zero hz3']
  simp only [View.ld_unit_zero (S := S1x256x4096) hz3', View.ld_unit_zero (S := S1x128x4) hz3']
  funext j
  rw [View.read_apply]
  have ef := idx_facts1 t
  have hemb : ((cfg1.win 6).blk t).view.emb j (0 : Fin 3) = (⟨t.val, by have := t.isLt; have h32 : cfg1.N = 32 := N_1; omega⟩ : Fin 32) := by
    apply Fin.ext
    show win1_6.index t (0 : Fin 3) * 1 + 1 * (j 0).val = t.val
    have hj : (j 0).val < 1 := (j 0).isLt
    omega
  show k1_pay1 (F := Ideal) _ _ _ j = batchLoss _ _ _ _ _ _ (((cfg1.win 6).blk t).view.emb j (0 : Fin 3))
  rw [hemb]
  refine (congrArg (k1_pay1 (F := Ideal) _ _ _) (eq_ix3 j)).trans ?_
  exact block_eq_batchLoss _ _ _ _ _ _ _ _ _ _ _ _ _ (iblk1_0_apply m c t) (iblk1_1_apply m c t) (iblk1_2_apply m c t)
    (iblk1_3_apply m c t) (iblk1_4_apply m c t) (iblk1_5_apply m c t) (j 0) (j 1) (j 2)

theorem mem_blk1_6 (t : Fin cfg1.N) (i : S32x8x128.Idx) :
    i ∈ ((cfg1.win 6).blk t).view.set ↔ ∀ a : Fin 3, win1_6.index t a * S1x8x128.size a ≤ (i a).val ∧ (i a).val < win1_6.index t a * S1x8x128.size a + S1x8x128.size a := by
  show i ∈ ((View.whole main_v129).slice (win1_6.rect t)).set ↔ _
  rw [View.set_slice_whole, Rect.mem_set_unit]
  exact Iff.rfl

/-- THE OUTPUT ARRAY after the region: at (b, i, j) batch entry b's loss. -/
theorem final1_6 (c : Dev nD) : (dat1 (U19 m) c).arrAt 6 cfg1.N
      = (fun i : S32x8x128.Idx => batchLoss (U19 m c main_v2_0) (U19 m c main_v2_1) (U19 m c main_v59) (U19 m c main_v64) (U19 m c main_v120) (U19 m c main_v128) (i 0)) :=
  (dat1 (U19 m) c).arrAt_eq_of_cover 6 _ (fun t _ => flushed1_6_eq m c t) fun i => by
    have hi0 : (i 0).val < 32 := (i 0).isLt
    have hi1 : (i 1).val < 8 := (i 1).isLt
    have hi2 : (i 2).val < 128 := (i 2).isLt
    have h32 : cfg1.N = 32 := N_1
    obtain ⟨t, ht⟩ : ∃ t : Fin cfg1.N, t.val = (i 0).val := ⟨⟨(i 0).val, by omega⟩, rfl⟩
    refine ⟨t, flush1_6 t, ?_⟩
    rw [mem_blk1_6]
    have ef := idx_facts1 t
    intro a
    match a with
    | ⟨0, _⟩ => show win1_6.index t (0 : Fin 3) * 1 ≤ (i 0).val ∧ (i 0).val < win1_6.index t (0 : Fin 3) * 1 + 1; omega
    | ⟨1, _⟩ => show win1_6.index t (1 : Fin 3) * 8 ≤ (i 1).val ∧ (i 1).val < win1_6.index t (1 : Fin 3) * 8 + 8; omega
    | ⟨2, _⟩ => show win1_6.index t (2 : Fin 3) * 128 ≤ (i 2).val ∧ (i 2).val < win1_6.index t (2 : Fin 3) * 128 + 128; omega

/-- Region 1's exit contents at its output array. -/
theorem W20_main_v129 (c : Dev nD) : W20 m c (Proc.devRef .tc main_v129)
      = (fun i : S32x8x128.Idx => batchLoss (U19 m c main_v2_0) (U19 m c main_v2_1) (U19 m c main_v59) (U19 m c main_v64) (U19 m c main_v120) (U19 m c main_v128) (i 0)) :=
  (W20_arr m c 6).trans (final1_6 m c)

end Cert.KernelIdeal.Hand

end
-- ==== Proof.KernelHost.lean ====
/-
  The host side of the kernel's run over the extended reals: what the region's input arrays hold when the second
  region is entered, in terms of the argument arrays — the two normalised feature arrays (reshaped arguments,
  normalised by the first region and untouched by the host stretches between the regions).
-/
import proofs.«153362_j6846177869930_2_alg».proof.Proof.Final0
import proofs.«153362_j6846177869930_2_alg».proof.Proof.Final1
import Idealize.ShloMosaic.Lib.StableHlo.Run
import proofs.«153362_j6846177869930_2_alg».proof.Proof.LibColumnCasts

set_option maxRecDepth 16384

noncomputable section

namespace Cert.KernelIdeal.Hand

open Idealize.ShloMosaic Idealize.ShloMosaic.TcCoe Idealize.ShloMosaic.ValueIdx Idealize.ShloMosaic.StableHlo
open Cert.KernelIdeal Cert.KernelIdeal.Gen
open scoped BigOperators

variable (m : (ℓ : Loc nD τ sig) → Buf (Elt Ideal) ℓ)

/-- No host stretch between the regions writes the first region's outputs. -/
theorem W19_main_v2_0 (c : Dev nD) : W19 m c (Proc.devRef .tc main_v2_0) = W2 m c (Proc.devRef .tc main_v2_0) :=
  calc W19 m c (Proc.devRef .tc main_v2_0)
    _ = W18 m c (Proc.devRef .tc main_v2_0) := StableHlo.after_of_writes_sub hostOps1_16 _ hostOps1_16_writes (by decide)
    _ = W17 m c (Proc.devRef .tc main_v2_0) := StableHlo.after_of_writes_sub hostOps1_15 _ hostOps1_15_writes (by decide)
    _ = W16 m c (Proc.devRef .tc main_v2_0) := StableHlo.after_of_writes_sub hostOps1_14 _ hostOps1_14_writes (by decide)
    _ = W15 m c (Proc.devRef .tc main_v2_0) := StableHlo.after_of_writes_sub hostOps1_13 _ hostOps1_13_writes (by decide)
    _ = W14 m c (Proc.devRef .tc main_v2_0) := StableHlo.after_of_writes_sub hostOps1_12 _ hostOps1_12_writes (by decide)
    _ = W13 m c (Proc.devRef .tc main_v2_0) := StableHlo.after_of_writes_sub hostOps1_11 _ hostOps1_11_writes (by decide)
    _ = W12 m c (Proc.devRef .tc main_v2_0) := StableHlo.after_of_writes_sub hostOps1_10 _ hostOps1_10_writes (by decide)
    _ = W11 m c (Proc.devRef .tc main_v2_0) := StableHlo.after_of_writes_sub hostOps1_9 _ hostOps1_9_writes (by decide)
    _ = W10 m c (Proc.devRef .tc main_v2_0) := StableHlo.after_of_writes_sub hostOps1_8 _ hostOps1_8_writes (by decide)
    _ = W9 m c (Proc.devRef .tc main_v2_0) := StableHlo.after_of_writes_sub hostOps1_7 _ hostOps1_7_writes (by decide)
    _ = W8 m c (Proc.devRef .tc main_v2_0) := StableHlo.after_of_writes_sub hostOps1_6 _ hostOps1_6_writes (by decide)
    _ = W7 m c (Proc.devRef .tc main_v2_0) := StableHlo.after_of_writes_sub hostOps1_5 _ hostOps1_5_writes (by decide)
    _ = W6 m c (Proc.devRef .tc main_v2_0) := StableHlo.after_of_writes_sub hostOps1_4 _ hostOps1_4_writes (by decide)
    _ = W5 m c (Proc.devRef .tc main_v2_0) := StableHlo.after_of_writes_sub hostOps1_3 _ hostOps1_3_writes (by decide)
    _ = W4 m c (Proc.devRef .tc main_v2_0) := StableHlo.after_of_writes_sub hostOps1_2 _ hostOps1_2_writes (by decide)
    _ = W3 m c (Proc.devRef .tc main_v2_0) := StableHlo.after_of_writes_sub hostOps1_1 _ hostOps1_1_writes (by decide)
    _ = W2 m c (Proc.devRef .tc main_v2_0) := StableHlo.after_of_writes_sub hostOps1 _ hostOps1_writes (by decide)
theorem W19_main_v2_1 (c : Dev nD) : W19 m c (Proc.devRef .tc main_v2_1) = W2 m c (Proc.devRef .tc main_v2_1) :=
  calc W19 m c (Proc.devRef .tc main_v2_1)
    _ = W18 m c (Proc.devRef .tc main_v2_1) := StableHlo.after_of_writes_sub hostOps1_16 _ hostOps1_16_writes (by decide)
    _ = W17 m c (Proc.devRef .tc main_v2_1) := StableHlo.after_of_writes_sub hostOps1_15 _ hostOps1_15_writes (by decide)
    _ = W16 m c (Proc.devRef .tc main_v2_1) := StableHlo.after_of_writes_sub hostOps1_14 _ hostOps1_14_writes (by decide)
    _ = W15 m c (Proc.devRef .tc main_v2_1) := StableHlo.after_of_writes_sub hostOps1_13 _ hostOps1_13_writes (by decide)
    _ = W14 m c (Proc.devRef .tc main_v2_1) := StableHlo.after_of_writes_sub hostOps1_12 _ hostOps1_12_writes (by decide)
    _ = W13 m c (Proc.devRef .tc main_v2_1) := StableHlo.after_of_writes_sub hostOps1_11 _ hostOps1_11_writes (by decide)
    _ = W12 m c (Proc.devRef .tc main_v2_1) := StableHlo.after_of_writes_sub hostOps1_10 _ hostOps1_10_writes (by decide)
    _ = W11 m c (Proc.devRef .tc main_v2_1) := StableHlo.after_of_writes_sub hostOps1_9 _ hostOps1_9_writes (by decide)
    _ = W10 m c (Proc.devRef .tc main_v2_1) := StableHlo.after_of_writes_sub hostOps1_8 _ hostOps1_8_writes (by decide)
    _ = W9 m c (Proc.devRef .tc main_v2_1) := StableHlo.after_of_writes_sub hostOps1_7 _ hostOps1_7_writes (by decide)
    _ = W8 m c (Proc.devRef .tc main_v2_1) := StableHlo.after_of_writes_sub hostOps1_6 _ hostOps1_6_writes (by decide)
    _ = W7 m c (Proc.devRef .tc main_v2_1) := StableHlo.after_of_writes_sub hostOps1_5 _ hostOps1_5_writes (by decide)
    _ = W6 m c (Proc.devRef .tc main_v2_1) := StableHlo.after_of_writes_sub hostOps1_4 _ hostOps1_4_writes (by decide)
    _ = W5 m c (Proc.devRef .tc main_v2_1) := StableHlo.after_of_writes_sub hostOps1_3 _ hostOps1_3_writes (by decide)
    _ = W4 m c (Proc.devRef .tc main_v2_1) := StableHlo.after_of_writes_sub hostOps1_2 _ hostOps1_2_writes (by decide)
    _ = W3 m c (Proc.devRef .tc main_v2_1) := StableHlo.after_of_writes_sub hostOps1_1 _ hostOps1_1_writes (by decide)
    _ = W2 m c (Proc.devRef .tc main_v2_1) := StableHlo.after_of_writes_sub hostOps1 _ hostOps1_writes (by decide)

/-- The first region's inputs: the two feature arguments with their two spatial axes flattened. -/
theorem W1_main_v0 (c : Dev nD) : W1 m c (Proc.devRef .tc main_v0)
    = fun i => shapeCast S32x256x4096 (m ((c : Thread nD τ).loc main_arg0)) shapeCasts_S32x256x64x64_S32x256x4096 i := by
  show StableHlo.after hostOps0 (W0 m c) (Proc.devRef .tc main_v0) = _
  after_results
  rfl
theorem W1_main_v1 (c : Dev nD) : W1 m c (Proc.devRef .tc main_v1)
    = fun i => shapeCast S32x256x4096 (m ((c : Thread nD τ).loc main_arg1)) shapeCasts_S32x256x64x64_S32x256x4096 i := by
  show StableHlo.after hostOps0 (W0 m c) (Proc.devRef .tc main_v1) = _
  after_results
  rfl

/-- The second region's two feature inputs: the flattened arguments, channel-normalised. -/
theorem U19_main_v2_0 (c : Dev nD) : U19 m c main_v2_0
    = normArr (fun i => shapeCast S32x256x4096 (m ((c : Thread nD τ).loc main_arg0)) shapeCasts_S32x256x64x64_S32x256x4096 i) :=
  (W19_main_v2_0 m c).trans ((W2_main_v2_0 m c).trans (congrArg normArr (W1_main_v0 m c)))
theorem U19_main_v2_1 (c : Dev nD) : U19 m c main_v2_1
    = normArr (fun i => shapeCast S32x256x4096 (m ((c : Thread nD τ).loc main_arg1)) shapeCasts_S32x256x64x64_S32x256x4096 i) :=
  (W19_main_v2_1 m c).trans ((W2_main_v2_1 m c).trans (congrArg normArr (W1_main_v1 m c)))

/-- No host stretch and not the second region writes the mask array read by the tail. -/
theorem W20_main_v103 (c : Dev nD) : W20 m c (Proc.devRef .tc main_v103) = W19 m c (Proc.devRef .tc main_v103) :=
  W20_of_ne m c main_v103 (by decide)

/-- The host tail as a function of the second region's output array and the mask array. -/
def tailOf (X : S32x8x128.Idx → EReal) (M : S32x128.Idx → EReal) : S_.Idx → EReal :=
  Host.divf (Host.reduceAdd (F := Ideal)
      (fun i => shapeCast S32 (extractStridedSlice S32x1x1 ![0, 0, 0] X slices_S32x8x128_S32x1x1_0_0_0) shapeCasts_S32x1x1_S32 i)
      (constant S_ .f32 0x00000000#32) reducesTo_S32_S_d0 h_S_)
    (maximumf (Host.reduceAdd (F := Ideal) M (constant S_ .f32 0x00000000#32) reducesTo_S32x128_S_d0_1 h_S_)
      (constant S_ .f32 0x3F800000#32))

set_option maxHeartbeats 4000000 in
/-- The program's result: the host tail over the second region's output array and the mask array. -/
theorem W21_result (c : Dev nD) : W21 m c (Proc.devRef .tc main_v135)
    = tailOf (W20 m c (Proc.devRef .tc main_v129)) (W20 m c (Proc.devRef .tc main_v103)) := by
  show StableHlo.after hostOps2 (W20 m c) (Proc.devRef .tc main_v135) = _
  after_results
  rfl

/-- Entry (b, 0, 0) of a 32 x 8 x 128 array, through the tail's slice and reshape to a vector of 32. -/
theorem tail_pick (X : S32x8x128.Idx → EReal) (b : Fin 32) :
    shapeCast S32 (extractStridedSlice S32x1x1 ![0, 0, 0] X slices_S32x8x128_S32x1x1_0_0_0) shapeCasts_S32x1x1_S32 (ix1 b)
      = X (ix3 b (0 : Fin 8) (0 : Fin 128)) := by
  refine (shapeCast_apply _ shapeCasts_S32x1x1_S32 (ix1 b) (ix3 b (0 : Fin 1) (0 : Fin 1)) (by
    rw [Shape.rowMajor_val_three, Shape.rowMajor_val_one]
    show (b.val * 1 + 0) * 1 + 0 = b.val
    omega)).trans ?_
  exact extractStridedSlice_apply _ _ _ _ _ (fun ax => by
    match ax with
    | ⟨0, _⟩ => exact (Nat.zero_add _).symm
    | ⟨1, _⟩ => rfl
    | ⟨2, _⟩ => rfl)

/-- The tail read: the sum over the batch of the entries (b, 0, 0), over the larger of the mask count and one. -/
theorem tailOf_apply (X : S32x8x128.Idx → EReal) (M : S32x128.Idx → EReal) :
    tailOf X M ix0 = Ideal.div (Ideal.ofBits .f32 0x00000000#32 + ∑ b : Fin 32, X (ix3 b (0 : Fin 8) (0 : Fin 128)))
      ((maximumf (Host.reduceAdd (F := Ideal) M (constant S_ .f32 0x00000000#32) reducesTo_S32x128_S_d0_1 h_S_)
        (constant S_ .f32 0x3F800000#32)) ix0) := by
  unfold tailOf
  show Ideal.div (Host.reduceAdd (F := Ideal) _ (constant S_ .f32 0x00000000#32) reducesTo_S32_S_d0 h_S_ ix0) _ = _
  refine congrArg (fun z => Ideal.div z _) ?_
  simp only [Host.reduceAdd, Ideal.hostReduceAdd_def]
  refine (Ideal.hostReduceAdd_total reducesTo_S32_S_d0 (fun b => b.elim0) _ _ ix0).trans ?_
  refine congrArg₂ (· + ·) rfl ?_
  exact (Cert.ColumnCasts.sum_vectorIdx _).trans (Finset.sum_congr rfl fun b _ => tail_pick _ b)

/-- THE KERNEL'S VALUE: the sum over the batch of the batch losses, over the larger of the mask count and one. -/
theorem kernel_value (c : Dev nD) : W21 m c (Proc.devRef .tc main_v135) ix0
    = Ideal.div (Ideal.ofBits .f32 0x00000000#32 + ∑ b : Fin 32,
          batchLoss (U19 m c main_v2_0) (U19 m c main_v2_1) (U19 m c main_v59) (U19 m c main_v64) (U19 m c main_v120) (U19 m c main_v128) b)
        ((maximumf (Host.reduceAdd (F := Ideal) (W19 m c (Proc.devRef .tc main_v103)) (constant S_ .f32 0x00000000#32) reducesTo_S32x128_S_d0_1 h_S_)
          (constant S_ .f32 0x3F800000#32)) ix0) := by
  refine (congrFun (W21_result m c) ix0).trans ?_
  refine (congrFun (congrArg₂ tailOf (W20_main_v129 m c) (W20_main_v103 m c)) ix0).trans ?_
  exact tailOf_apply _ _

end Cert.KernelIdeal.Hand

end
-- ==== Proof.LibIndexed3.lean ====
/-
  Four host operations read at an index given by coordinates.

  * A concatenation of unit-extent pieces along the last axis holds, at last coordinate `k`, piece `k` at last
    coordinate 0 (three or four `[a, b, 1]` pieces into `[a, b, 3]` / `[a, b, 4]`, three `[a, b, c, 1]` pieces into
    `[a, b, c, 3]`).
  * A gather with three index columns that picks whole rows of the last axis of a `[B, H, W, C]` operand holds, at
    `(r, n, c)`, the operand at the three start indices of `(r, n)`, each read signed and clamped into its axis, and `c`.
  * A maximum-reduction over the last axis of a `[B, N, P]` array at the ideal values is the fold of `max` over that axis.
  * A scatter-add of single entries addressed by three index columns into a `[B, N, P]` operand at the ideal values holds,
    at `(b, n, p)`, the operand's entry plus the sum of the updates whose three index words, read signed and not clamped,
    are `(b, n, p)`.
-/
import Idealize.ShloMosaic.Lib.Pipeline.Value
import Idealize.ShloMosaic.Lib.ValueIdx
import Idealize.ShloMosaic.PureOps.Ideal.Laws

namespace Cert.Indexed3

open Idealize.ShloMosaic Idealize.ShloMosaic.ValueIdx
open scoped BigOperators

/-! ## Concatenations of unit-extent pieces along the last axis -/

section Concat
variable {α : Type}

/-- Three `[a, b, 1]` pieces joined along axis 2: at `(i, j, 0)` the result holds the first piece at `(i, j, 0)` … -/
theorem concat3_ab1_apply0 {a b : ℕ} (x0 x1 x2 : (⟨3, ![a, b, 1]⟩ : Shape).Idx → α)
    (h : Shape.Concatenates [⟨3, ![a, b, 1]⟩, ⟨3, ![a, b, 1]⟩, ⟨3, ![a, b, 1]⟩] ⟨3, ![a, b, 3]⟩ 2)
    (i : Fin a) (j : Fin b) :
    concatenate ⟨3, ![a, b, 3]⟩ 2 [⟨⟨3, ![a, b, 1]⟩, x0⟩, ⟨⟨3, ![a, b, 1]⟩, x1⟩, ⟨⟨3, ![a, b, 1]⟩, x2⟩] h (ix3 i j 0)
      = x0 (ix3 i j 0) :=
  concatenate_apply_piece (t := ⟨3, ![a, b, 3]⟩) (2 : Fin 3) [⟨⟨3, ![a, b, 1]⟩, x0⟩, ⟨⟨3, ![a, b, 1]⟩, x1⟩, ⟨⟨3, ![a, b, 1]⟩, x2⟩] h (ix3 i j 0) 0 (by simp) ⟨3, ![a, b, 1]⟩ x0 rfl rfl 0 rfl (ix3 i j 0)
    (fun d hd => by
      match d with
      | ⟨0, _⟩ => rfl
      | ⟨1, _⟩ => rfl
      | ⟨2, _⟩ => exact absurd rfl hd) rfl

/-- … at `(i, j, 1)` the second piece at `(i, j, 0)` … -/
theorem concat3_ab1_apply1 {a b : ℕ} (x0 x1 x2 : (⟨3, ![a, b, 1]⟩ : Shape).Idx → α)
    (h : Shape.Concatenates [⟨3, ![a, b, 1]⟩, ⟨3, ![a, b, 1]⟩, ⟨3, ![a, b, 1]⟩] ⟨3, ![a, b, 3]⟩ 2)
    (i : Fin a) (j : Fin b) :
    concatenate ⟨3, ![a, b, 3]⟩ 2 [⟨⟨3, ![a, b, 1]⟩, x0⟩, ⟨⟨3, ![a, b, 1]⟩, x1⟩, ⟨⟨3, ![a, b, 1]⟩, x2⟩] h (ix3 i j 1)
      = x1 (ix3 i j 0) :=
  concatenate_apply_piece (t := ⟨3, ![a, b, 3]⟩) (2 : Fin 3) [⟨⟨3, ![a, b, 1]⟩, x0⟩, ⟨⟨3, ![a, b, 1]⟩, x1⟩, ⟨⟨3, ![a, b, 1]⟩, x2⟩] h (ix3 i j 1) 1 (by simp) ⟨3, ![a, b, 1]⟩ x1 rfl rfl 1 rfl (ix3 i j 0)
    (fun d hd => by
      match d with
      | ⟨0, _⟩ => rfl
      | ⟨1, _⟩ => rfl
      | ⟨2, _⟩ => exact absurd rfl hd) rfl

/-- … at `(i, j, 2)` the third piece at `(i, j, 0)`. -/
theorem concat3_ab1_apply2 {a b : ℕ} (x0 x1 x2 : (⟨3, ![a, b, 1]⟩ : Shape).Idx → α)
    (h : Shape.Concatenates [⟨3, ![a, b, 1]⟩, ⟨3, ![a, b, 1]⟩, ⟨3, ![a, b, 1]⟩] ⟨3, ![a, b, 3]⟩ 2)
    (i : Fin a) (j : Fin b) :
    concatenate ⟨3, ![a, b, 3]⟩ 2 [⟨⟨3, ![a, b, 1]⟩, x0⟩, ⟨⟨3, ![a, b, 1]⟩, x1⟩, ⟨⟨3, ![a, b, 1]⟩, x2⟩] h (ix3 i j 2)
      = x2 (ix3 i j 0) :=
  concatenate_apply_piece (t := ⟨3, ![a, b, 3]⟩) (2 : Fin 3) [⟨⟨3, ![a, b, 1]⟩, x0⟩, ⟨⟨3, ![a, b, 1]⟩, x1⟩, ⟨⟨3, ![a, b, 1]⟩, x2⟩] h (ix3 i j 2) 2 (by simp) ⟨3, ![a, b, 1]⟩ x2 rfl rfl 2 rfl (ix3 i j 0)
    (fun d hd => by
      match d with
      | ⟨0, _⟩ => rfl
      | ⟨1, _⟩ => rfl
      | ⟨2, _⟩ => exact absurd rfl hd) rfl

/-- The three cases at once: at `(i, j, k)` the result holds piece `k` at `(i, j, 0)`. -/
theorem concat3_ab1_apply {a b : ℕ} (x0 x1 x2 : (⟨3, ![a, b, 1]⟩ : Shape).Idx → α)
    (h : Shape.Concatenates [⟨3, ![a, b, 1]⟩, ⟨3, ![a, b, 1]⟩, ⟨3, ![a, b, 1]⟩] ⟨3, ![a, b, 3]⟩ 2)
    (i : Fin a) (j : Fin b) (k : Fin 3) :
    concatenate ⟨3, ![a, b, 3]⟩ 2 [⟨⟨3, ![a, b, 1]⟩, x0⟩, ⟨⟨3, ![a, b, 1]⟩, x1⟩, ⟨⟨3, ![a, b, 1]⟩, x2⟩] h (ix3 i j k)
      = (![x0, x1, x2] k) (ix3 i j 0) := by
  match k with
  | ⟨0, _⟩ => exact concat3_ab1_apply0 x0 x1 x2 h i j
  | ⟨1, _⟩ => exact concat3_ab1_apply1 x0 x1 x2 h i j
  | ⟨2, _⟩ => exact concat3_ab1_apply2 x0 x1 x2 h i j

/-- Four `[a, b, 1]` pieces joined along axis 2: at `(i, j, 0)` the result holds the first piece at `(i, j, 0)` … -/
theorem concat4_ab1_apply0 {a b : ℕ} (x0 x1 x2 x3 : (⟨3, ![a, b, 1]⟩ : Shape).Idx → α)
    (h : Shape.Concatenates [⟨3, ![a, b, 1]⟩, ⟨3, ![a, b, 1]⟩, ⟨3, ![a, b, 1]⟩, ⟨3, ![a, b, 1]⟩] ⟨3, ![a, b, 4]⟩ 2)
    (i : Fin a) (j : Fin b) :
    concatenate ⟨3, ![a, b, 4]⟩ 2 [⟨⟨3, ![a, b, 1]⟩, x0⟩, ⟨⟨3, ![a, b, 1]⟩, x1⟩, ⟨⟨3, ![a, b, 1]⟩, x2⟩, ⟨⟨3, ![a, b, 1]⟩, x3⟩] h (ix3 i j 0)
      = x0 (ix3 i j 0) :=
  concatenate_apply_piece (t := ⟨3, ![a, b, 4]⟩) (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 i j 0) 0 (by simp) ⟨3, ![a, b, 1]⟩ x0 rfl rfl 0 rfl (ix3 i j 0)
    (fun d hd => by
      match d with
      | ⟨0, _⟩ => rfl
      | ⟨1, _⟩ => rfl
      | ⟨2, _⟩ => exact absurd rfl hd) rfl

/-- … at `(i, j, 1)` the second piece at `(i, j, 0)` … -/
theorem concat4_ab1_apply1 {a b : ℕ} (x0 x1 x2 x3 : (⟨3, ![a, b, 1]⟩ : Shape).Idx → α)
    (h : Shape.Concatenates [⟨3, ![a, b, 1]⟩, ⟨3, ![a, b, 1]⟩, ⟨3, ![a, b, 1]⟩, ⟨3, ![a, b, 1]⟩] ⟨3, ![a, b, 4]⟩ 2)
    (i : Fin a) (j : Fin b) :
    concatenate ⟨3, ![a, b, 4]⟩ 2 [⟨⟨3, ![a, b, 1]⟩, x0⟩, ⟨⟨3, ![a, b, 1]⟩, x1⟩, ⟨⟨3, ![a, b, 1]⟩, x2⟩, ⟨⟨3, ![a, b, 1]⟩, x3⟩] h (ix3 i j 1)
      = x1 (ix3 i j 0) :=
  concatenate_apply_piece (t := ⟨3, ![a, b, 4]⟩) (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 i j 1) 1 (by simp) ⟨3, ![a, b, 1]⟩ x1 rfl rfl 1 rfl (ix3 i j 0)
    (fun d hd => by
      match d with
      | ⟨0, _⟩ => rfl
      | ⟨1, _⟩ => rfl
      | ⟨2, _⟩ => exact absurd rfl hd) rfl

/-- … at `(i, j, 2)` the third piece at `(i, j, 0)` … -/
theorem concat4_ab1_apply2 {a b : ℕ} (x0 x1 x2 x3 : (⟨3, ![a, b, 1]⟩ : Shape).Idx → α)
    (h : Shape.Concatenates [⟨3, ![a, b, 1]⟩, ⟨3, ![a, b, 1]⟩, ⟨3, ![a, b, 1]⟩, ⟨3, ![a, b, 1]⟩] ⟨3, ![a, b, 4]⟩ 2)
    (i : Fin a) (j : Fin b) :
    concatenate ⟨3, ![a, b, 4]⟩ 2 [⟨⟨3, ![a, b, 1]⟩, x0⟩, ⟨⟨3, ![a, b, 1]⟩, x1⟩, ⟨⟨3, ![a, b, 1]⟩, x2⟩, ⟨⟨3, ![a, b, 1]⟩, x3⟩] h (ix3 i j 2)
      = x2 (ix3 i j 0) :=
  concatenate_apply_piece (t := ⟨3, ![a, b, 4]⟩) (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 i j 2) 2 (by simp) ⟨3, ![a, b, 1]⟩ x2 rfl rfl 2 rfl (ix3 i j 0)
    (fun d hd => by
      match d with
      | ⟨0, _⟩ => rfl
      | ⟨1, _⟩ => rfl
      | ⟨2, _⟩ => exact absurd rfl hd) rfl

/-- … at `(i, j, 3)` the fourth piece at `(i, j, 0)`. -/
theorem concat4_ab1_apply3 {a b : ℕ} (x0 x1 x2 x3 : (⟨3, ![a, b, 1]⟩ : Shape).Idx → α)
    (h : Shape.Concatenates [⟨3, ![a, b, 1]⟩, ⟨3, ![a, b, 1]⟩, ⟨3, ![a, b, 1]⟩, ⟨3, ![a, b, 1]⟩] ⟨3, ![a, b, 4]⟩ 2)
    (i : Fin a) (j : Fin b) :
    concatenate ⟨3, ![a, b, 4]⟩ 2 [⟨⟨3, ![a, b, 1]⟩, x0⟩, ⟨⟨3, ![a, b, 1]⟩, x1⟩, ⟨⟨3, ![a, b, 1]⟩, x2⟩, ⟨⟨3, ![a, b, 1]⟩, x3⟩] h (ix3 i j 3)
      = x3 (ix3 i j 0) :=
  concatenate_apply_piece (t := ⟨3, ![a, b, 4]⟩) (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 i j 3) 3 (by simp) ⟨3, ![a, b, 1]⟩ x3 rfl rfl 3 rfl (ix3 i j 0)
    (fun d hd => by
      match d with
      | ⟨0, _⟩ => rfl
      | ⟨1, _⟩ => rfl
      | ⟨2, _⟩ => exact absurd rfl hd) rfl

/-- The four cases at once: at `(i, j, k)` the result holds piece `k` at `(i, j, 0)`. -/
theorem concat4_ab1_apply {a b : ℕ} (x0 x1 x2 x3 : (⟨3, ![a, b, 1]⟩ : Shape).Idx → α)
    (h : Shape.Concatenates [⟨3, ![a, b, 1]⟩, ⟨3, ![a, b, 1]⟩, ⟨3, ![a, b, 1]⟩, ⟨3, ![a, b, 1]⟩] ⟨3, ![a, b, 4]⟩ 2)
    (i : Fin a) (j : Fin b) (k : Fin 4) :
    concatenate ⟨3, ![a, b, 4]⟩ 2 [⟨⟨3, ![a, b, 1]⟩, x0⟩, ⟨⟨3, ![a, b, 1]⟩, x1⟩, ⟨⟨3, ![a, b, 1]⟩, x2⟩, ⟨⟨3, ![a, b, 1]⟩, x3⟩] h (ix3 i j k)
      = (![x0, x1, x2, x3] k) (ix3 i j 0) := by
  match k with
  | ⟨0, _⟩ => exact concat4_ab1_apply0 x0 x1 x2 x3 h i j
  | ⟨1, _⟩ => exact concat4_ab1_apply1 x0 x1 x2 x3 h i j
  | ⟨2, _⟩ => exact concat4_ab1_apply2 x0 x1 x2 x3 h i j
  | ⟨3, _⟩ => exact concat4_ab1_apply3 x0 x1 x2 x3 h i j

/-- Three `[a, b, c, 1]` pieces joined along axis 3: at `(i, j, l, 0)` the result holds the first piece at `(i, j, l, 0)` … -/
theorem concat3_abc1_apply0 {a b c : ℕ} (x0 x1 x2 : (⟨4, ![a, b, c, 1]⟩ : Shape).Idx → α)
    (h : Shape.Concatenates [⟨4, ![a, b, c, 1]⟩, ⟨4, ![a, b, c, 1]⟩, ⟨4, ![a, b, c, 1]⟩] ⟨4, ![a, b, c, 3]⟩ 3)
    (i : Fin a) (j : Fin b) (l : Fin c) :
    concatenate ⟨4, ![a, b, c, 3]⟩ 3 [⟨⟨4, ![a, b, c, 1]⟩, x0⟩, ⟨⟨4, ![a, b, c, 1]⟩, x1⟩, ⟨⟨4, ![a, b, c, 1]⟩, x2⟩] h (ix4 i j l 0)
      = x0 (ix4 i j l 0) :=
  concatenate_apply_piece (t := ⟨4, ![a, b, c, 3]⟩) (3 : Fin 4) [⟨⟨4, ![a, b, c, 1]⟩, x0⟩, ⟨⟨4, ![a, b, c, 1]⟩, x1⟩, ⟨⟨4, ![a, b, c, 1]⟩, x2⟩] h (ix4 i j l 0) 0 (by simp) ⟨4, ![a, b, c, 1]⟩ x0 rfl rfl 0 rfl (ix4 i j l 0)
    (fun d hd => by
      match d with
      | ⟨0, _⟩ => rfl
      | ⟨1, _⟩ => rfl
      | ⟨2, _⟩ => rfl
      | ⟨3, _⟩ => exact absurd rfl hd) rfl

/-- … at `(i, j, l, 1)` the second piece at `(i, j, l, 0)` … -/
theorem concat3_abc1_apply1 {a b c : ℕ} (x0 x1 x2 : (⟨4, ![a, b, c, 1]⟩ : Shape).Idx → α)
    (h : Shape.Concatenates [⟨4, ![a, b, c, 1]⟩, ⟨4, ![a, b, c, 1]⟩, ⟨4, ![a, b, c, 1]⟩] ⟨4, ![a, b, c, 3]⟩ 3)
    (i : Fin a) (j : Fin b) (l : Fin c) :
    concatenate ⟨4, ![a, b, c, 3]⟩ 3 [⟨⟨4, ![a, b, c, 1]⟩, x0⟩, ⟨⟨4, ![a, b, c, 1]⟩, x1⟩, ⟨⟨4, ![a, b, c, 1]⟩, x2⟩] h (ix4 i j l 1)
      = x1 (ix4 i j l 0) :=
  concatenate_apply_piece (t := ⟨4, ![a, b, c, 3]⟩) (3 : Fin 4) [⟨⟨4, ![a, b, c, 1]⟩, x0⟩, ⟨⟨4, ![a, b, c, 1]⟩, x1⟩, ⟨⟨4, ![a, b, c, 1]⟩, x2⟩] h (ix4 i j l 1) 1 (by simp) ⟨4, ![a, b, c, 1]⟩ x1 rfl rfl 1 rfl (ix4 i j l 0)
    (fun d hd => by
      match d with
      | ⟨0, _⟩ => rfl
      | ⟨1, _⟩ => rfl
      | ⟨2, _⟩ => rfl
      | ⟨3, _⟩ => exact absurd rfl hd) rfl

/-- … at `(i, j, l, 2)` the third piece at `(i, j, l, 0)`. -/
theorem concat3_abc1_apply2 {a b c : ℕ} (x0 x1 x2 : (⟨4, ![a, b, c, 1]⟩ : Shape).Idx → α)
    (h : Shape.Concatenates [⟨4, ![a, b, c, 1]⟩, ⟨4, ![a, b, c, 1]⟩, ⟨4, ![a, b, c, 1]⟩] ⟨4, ![a, b, c, 3]⟩ 3)
    (i : Fin a) (j : Fin b) (l : Fin c) :
    concatenate ⟨4, ![a, b, c, 3]⟩ 3 [⟨⟨4, ![a, b, c, 1]⟩, x0⟩, ⟨⟨4, ![a, b, c, 1]⟩, x1⟩, ⟨⟨4, ![a, b, c, 1]⟩, x2⟩] h (ix4 i j l 2)
      = x2 (ix4 i j l 0) :=
  concatenate_apply_piece (t := ⟨4, ![a, b, c, 3]⟩) (3 : Fin 4) [⟨⟨4, ![a, b, c, 1]⟩, x0⟩, ⟨⟨4, ![a, b, c, 1]⟩, x1⟩, ⟨⟨4, ![a, b, c, 1]⟩, x2⟩] h (ix4 i j l 2) 2 (by simp) ⟨4, ![a, b, c, 1]⟩ x2 rfl rfl 2 rfl (ix4 i j l 0)
    (fun d hd => by
      match d with
      | ⟨0, _⟩ => rfl
      | ⟨1, _⟩ => rfl
      | ⟨2, _⟩ => rfl
      | ⟨3, _⟩ => exact absurd rfl hd) rfl

/-- The three cases at once: at `(i, j, l, k)` the result holds piece `k` at `(i, j, l, 0)`. -/
theorem concat3_abc1_apply {a b c : ℕ} (x0 x1 x2 : (⟨4, ![a, b, c, 1]⟩ : Shape).Idx → α)
    (h : Shape.Concatenates [⟨4, ![a, b, c, 1]⟩, ⟨4, ![a, b, c, 1]⟩, ⟨4, ![a, b, c, 1]⟩] ⟨4, ![a, b, c, 3]⟩ 3)
    (i : Fin a) (j : Fin b) (l : Fin c) (k : Fin 3) :
    concatenate ⟨4, ![a, b, c, 3]⟩ 3 [⟨⟨4, ![a, b, c, 1]⟩, x0⟩, ⟨⟨4, ![a, b, c, 1]⟩, x1⟩, ⟨⟨4, ![a, b, c, 1]⟩, x2⟩] h (ix4 i j l k)
      = (![x0, x1, x2] k) (ix4 i j l 0) := by
  match k with
  | ⟨0, _⟩ => exact concat3_abc1_apply0 x0 x1 x2 h i j l
  | ⟨1, _⟩ => exact concat3_abc1_apply1 x0 x1 x2 h i j l
  | ⟨2, _⟩ => exact concat3_abc1_apply2 x0 x1 x2 h i j l

end Concat

/-! ## A gather of whole rows of the last axis at three index columns -/

section Gather3

/-- The dimension numbers of a gather that picks, for each `(r, n)`, the whole row `[C]` of an operand `[B, H, W, C]`
    at the three start indices `idx[r, n, 0..2]`: start indices `[R, N, 3]`, result `[R, N, C]`; the three leading
    operand axes collapsed, the last the one offset axis. -/
abbrev rows3Gather (B H W C R N : ℕ)
    (wf : GatherDims.WF ⟨4, ![B, H, W, C]⟩ ⟨3, ![R, N, 3]⟩ ⟨3, ![R, N, C]⟩ [2] [0, 1, 2] [] [0, 1, 2] [] 2 ![1, 1, 1, C]) :
    GatherDims ⟨4, ![B, H, W, C]⟩ ⟨3, ![R, N, 3]⟩ ⟨3, ![R, N, C]⟩ where
  offsetDims := [2]
  collapsedSliceDims := [0, 1, 2]
  operandBatchingDims := []
  startIndicesBatchingDims := []
  startIndexMap := [0, 1, 2]
  indexVectorDim := 2
  sliceSizes := ![1, 1, 1, C]
  wf := wf

/-- That gather read at `(r, n, c)`: the operand at `(i₀, i₁, i₂, c)`, where `i_k` is the start index
    `idx[r, n, k]` read signed and clamped into its axis (`[0, B − 1]`, `[0, H − 1]`, `[0, W − 1]`). -/
theorem gather_rows3_apply {α : Type} {B H W C R N w : ℕ} (hB : 0 < B) (hH : 0 < H) (hW : 0 < W)
    (wf : GatherDims.WF ⟨4, ![B, H, W, C]⟩ ⟨3, ![R, N, 3]⟩ ⟨3, ![R, N, C]⟩ [2] [0, 1, 2] [] [0, 1, 2] [] 2 ![1, 1, 1, C])
    (x : (⟨4, ![B, H, W, C]⟩ : Shape).Idx → α) (idx : IVec ⟨3, ![R, N, 3]⟩ w) (r : Fin R) (n : Fin N) (c : Fin C) :
    Host.gather (rows3Gather B H W C R N wf) x idx (ix3 r n c)
      = x (ix4 (⟨min (idx (ix3 r n (0 : Fin 3))).toInt.toNat (B - 1), by omega⟩ : Fin B)
            (⟨min (idx (ix3 r n (1 : Fin 3))).toInt.toNat (H - 1), by omega⟩ : Fin H)
            (⟨min (idx (ix3 r n (2 : Fin 3))).toInt.toNat (W - 1), by omega⟩ : Fin W) c) := by
  have h0 : (rows3Gather B H W C R N wf).start (ix3 r n c) idx 0 + (rows3Gather B H W C R N wf).batchCoord (ix3 r n c) 0 + (rows3Gather B H W C R N wf).offCoord (ix3 r n c) 0
      = min (idx (ix3 r n (0 : Fin 3))).toInt.toNat (B - 1) := by
    have hmem : (0 : Fin 4) ∈ (rows3Gather B H W C R N wf).startIndexMap := (by decide : (0 : Fin 4) ∈ ([0, 1, 2] : List (Fin 4)))
    rw [GatherDims.batchCoord_eq_zero _ _ _ List.not_mem_nil,
      GatherDims.offCoord_eq_zero _ _ _ (fun h => ((GatherDims.mem_sKept _ _).mp h).1 hmem)]
    simp only [Nat.add_zero]
    unfold GatherDims.start
    rw [dif_pos hmem]
    have hsi : (rows3Gather B H W C R N wf).siIdx (ix3 r n c) ⟨List.idxOf (0 : Fin 4) (rows3Gather B H W C R N wf).startIndexMap,
        List.idxOf_lt_length_iff.2 hmem⟩ = ix3 r n (0 : Fin 3) := by
      funext b; refine Fin.ext ?_
      match b with
      | ⟨0, _⟩ => rfl
      | ⟨1, _⟩ => rfl
      | ⟨2, _⟩ => rfl
    rw [hsi]
    rfl
  have h1 : (rows3Gather B H W C R N wf).start (ix3 r n c) idx 1 + (rows3Gather B H W C R N wf).batchCoord (ix3 r n c) 1 + (rows3Gather B H W C R N wf).offCoord (ix3 r n c) 1
      = min (idx (ix3 r n (1 : Fin 3))).toInt.toNat (H - 1) := by
    have hmem : (1 : Fin 4) ∈ (rows3Gather B H W C R N wf).startIndexMap := (by decide : (1 : Fin 4) ∈ ([0, 1, 2] : List (Fin 4)))
    rw [GatherDims.batchCoord_eq_zero _ _ _ List.not_mem_nil,
      GatherDims.offCoord_eq_zero _ _ _ (fun h => ((GatherDims.mem_sKept _ _).mp h).1 hmem)]
    simp only [Nat.add_zero]
    unfold GatherDims.start
    rw [dif_pos hmem]
    have hsi : (rows3Gather B H W C R N wf).siIdx (ix3 r n c) ⟨List.idxOf (1 : Fin 4) (rows3Gather B H W C R N wf).startIndexMap,
        List.idxOf_lt_length_iff.2 hmem⟩ = ix3 r n (1 : Fin 3) := by
      funext b; refine Fin.ext ?_
      match b with
      | ⟨0, _⟩ => rfl
      | ⟨1, _⟩ => rfl
      | ⟨2, _⟩ => rfl
    rw [hsi]
    rfl
  have h2 : (rows3Gather B H W C R N wf).start (ix3 r n c) idx 2 + (rows3Gather B H W C R N wf).batchCoord (ix3 r n c) 2 + (rows3Gather B H W C R N wf).offCoord (ix3 r n c) 2
      = min (idx (ix3 r n (2 : Fin 3))).toInt.toNat (W - 1) := by
    have hmem : (2 : Fin 4) ∈ (rows3Gather B H W C R N wf).startIndexMap := (by decide : (2 : Fin 4) ∈ ([0, 1, 2] : List (Fin 4)))
    rw [GatherDims.batchCoord_eq_zero _ _ _ List.not_mem_nil,
      GatherDims.offCoord_eq_zero _ _ _ (fun h => ((GatherDims.mem_sKept _ _).mp h).1 hmem)]
    simp only [Nat.add_zero]
    unfold GatherDims.start
    rw [dif_pos hmem]
    have hsi : (rows3Gather B H W C R N wf).siIdx (ix3 r n c) ⟨List.idxOf (2 : Fin 4) (rows3Gather B H W C R N wf).startIndexMap,
        List.idxOf_lt_length_iff.2 hmem⟩ = ix3 r n (2 : Fin 3) := by
      funext b; refine Fin.ext ?_
      match b with
      | ⟨0, _⟩ => rfl
      | ⟨1, _⟩ => rfl
      | ⟨2, _⟩ => rfl
    rw [hsi]
    rfl
  have h3 : (rows3Gather B H W C R N wf).start (ix3 r n c) idx 3 + (rows3Gather B H W C R N wf).batchCoord (ix3 r n c) 3 + (rows3Gather B H W C R N wf).offCoord (ix3 r n c) 3 = c.val := by
    rw [GatherDims.batchCoord_eq_zero _ _ _ List.not_mem_nil]
    have hs : (rows3Gather B H W C R N wf).start (ix3 r n c) idx 3 = 0 := by
      unfold GatherDims.start
      rw [dif_neg (show ¬ ((3 : Fin 4) ∈ ([0, 1, 2] : List (Fin 4))) from by decide)]
    rw [hs, Nat.add_zero, Nat.zero_add]
    rfl
  unfold Host.gather
  congr 1
  funext a
  refine Fin.ext ?_
  match a with
  | ⟨0, _⟩ => exact h0
  | ⟨1, _⟩ => exact h1
  | ⟨2, _⟩ => exact h2
  | ⟨3, _⟩ => exact h3

end Gather3

/-! ## The maximum over the last axis of a rank-3 array, at the ideal values -/

section ReduceMax

/-- The host's maximum-reduction of a `[B, N, P]` array over its last axis, read at `(b, n)` at the ideal values: the
    fold of `max`, from the initial value's one element, over the entries `(b, n, p)`, `p < P`. -/
theorem reduce_max_last_apply {B N P : ℕ} {φ : FTy} (x : FVec Ideal ⟨3, ![B, N, P]⟩ φ) (v : FVec Ideal ⟨0, ![]⟩ φ)
    (h : (⟨3, ![B, N, P]⟩ : Shape).ReducesTo [2] ⟨2, ![B, N]⟩) (h0 : 0 < (⟨0, ![]⟩ : Shape).numel) (b : Fin B) (n : Fin N) :
    Host.reduce FloatOps.maximumf x v h h0 (ix2 b n)
      = (Finset.univ : Finset (Fin P)).fold max (v ix0) (fun p => x (ix3 b n p)) := by
  have hR : (⟨3, ![B, N, P]⟩ : Shape).Reduces [2] ⟨2, ![B, N]⟩ := ⟨h.1, Nat.zero_lt_two, h.2⟩
  have hl : ∀ p : Fin P, hR.lift (ix2 b n) p = ix3 b n p := by
    intro p; funext c; refine Fin.ext ?_
    match c with
    | ⟨0, _⟩ => rfl
    | ⟨1, _⟩ => rfl
    | ⟨2, _⟩ => rfl
  refine (Host.reduce_eq_fold_single (FloatOps.maximumf (F := Ideal) (φ := φ)) x v h hR h0 (ix2 b n)).trans ?_
  have hx : (x ∘ hR.lift (ix2 b n)) = fun p : Fin P => x (ix3 b n p) := funext fun p => congrArg x (hl p)
  have hv : v (Shape.Idx.first h0) = v ix0 := congrArg v (eq_ix0 _)
  rw [hx, hv]
  rfl

end ReduceMax

/-! ## A scatter-add of single entries at three index columns, at the ideal values -/

section Scatter3

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- The dimension numbers of a scatter of single entries into an operand `[B, N, P]`: scatter indices `[B', N', K, 3]`
    (three index words per update entry), updates `[B', N', K]`; no window axis, all three operand axes inserted. -/
abbrev pts3Scatter (B N P B' N' K : ℕ) (wf : ScatterDims.WF ⟨3, ![B, N, P]⟩ ⟨4, ![B', N', K, 3]⟩ ⟨3, ![B', N', K]⟩ [] [0, 1, 2] [0, 1, 2] 3) :
    ScatterDims ⟨3, ![B, N, P]⟩ ⟨4, ![B', N', K, 3]⟩ ⟨3, ![B', N', K]⟩ where
  updateWindowDims := []
  insertedWindowDims := [0, 1, 2]
  scatterDimsToOperandDims := [0, 1, 2]
  indexVectorDim := 3
  wf := wf

section Coordinates
variable {B N P B' N' K w : ℕ} (wf : ScatterDims.WF ⟨3, ![B, N, P]⟩ ⟨4, ![B', N', K, 3]⟩ ⟨3, ![B', N', K]⟩ [] [0, 1, 2] [0, 1, 2] 3)
  (idx : IVec ⟨4, ![B', N', K, 3]⟩ w) (b' : Fin B') (n' : Fin N') (k : Fin K)

/-- On operand axis 0 the window of update entry `(b', n', k)` starts at its index word 0, read signed. -/
theorem pts3Scatter_start0 :
    (pts3Scatter B N P B' N' K wf).start (ix3 b' n' k) idx 0 = (idx (ix4 b' n' k (0 : Fin 3))).toInt := by
  have hmem : (0 : Fin 3) ∈ (pts3Scatter B N P B' N' K wf).scatterDimsToOperandDims := (by decide : (0 : Fin 3) ∈ ([0, 1, 2] : List (Fin 3)))
  unfold ScatterDims.start
  rw [dif_pos hmem]
  have hsi : (pts3Scatter B N P B' N' K wf).siIdx (ix3 b' n' k) ⟨List.idxOf (0 : Fin 3) (pts3Scatter B N P B' N' K wf).scatterDimsToOperandDims,
      List.idxOf_lt_length_iff.2 hmem⟩ = ix4 b' n' k (0 : Fin 3) := by
    funext d; refine Fin.ext ?_
    match d with
    | ⟨0, _⟩ => rfl
    | ⟨1, _⟩ => rfl
    | ⟨2, _⟩ => rfl
    | ⟨3, _⟩ => rfl
  rw [hsi]

/-- On operand axis 1 the window of update entry `(b', n', k)` starts at its index word 1, read signed. -/
theorem pts3Scatter_start1 :
    (pts3Scatter B N P B' N' K wf).start (ix3 b' n' k) idx 1 = (idx (ix4 b' n' k (1 : Fin 3))).toInt := by
  have hmem : (1 : Fin 3) ∈ (pts3Scatter B N P B' N' K wf).scatterDimsToOperandDims := (by decide : (1 : Fin 3) ∈ ([0, 1, 2] : List (Fin 3)))
  unfold ScatterDims.start
  rw [dif_pos hmem]
  have hsi : (pts3Scatter B N P B' N' K wf).siIdx (ix3 b' n' k) ⟨List.idxOf (1 : Fin 3) (pts3Scatter B N P B' N' K wf).scatterDimsToOperandDims,
      List.idxOf_lt_length_iff.2 hmem⟩ = ix4 b' n' k (1 : Fin 3) := by
    funext d; refine Fin.ext ?_
    match d with
    | ⟨0, _⟩ => rfl
    | ⟨1, _⟩ => rfl
    | ⟨2, _⟩ => rfl
    | ⟨3, _⟩ => rfl
  rw [hsi]

/-- On operand axis 2 the window of update entry `(b', n', k)` starts at its index word 2, read signed. -/
theorem pts3Scatter_start2 :
    (pts3Scatter B N P B' N' K wf).start (ix3 b' n' k) idx 2 = (idx (ix4 b' n' k (2 : Fin 3))).toInt := by
  have hmem : (2 : Fin 3) ∈ (pts3Scatter B N P B' N' K wf).scatterDimsToOperandDims := (by decide : (2 : Fin 3) ∈ ([0, 1, 2] : List (Fin 3)))
  unfold ScatterDims.start
  rw [dif_pos hmem]
  have hsi : (pts3Scatter B N P B' N' K wf).siIdx (ix3 b' n' k) ⟨List.idxOf (2 : Fin 3) (pts3Scatter B N P B' N' K wf).scatterDimsToOperandDims,
      List.idxOf_lt_length_iff.2 hmem⟩ = ix4 b' n' k (2 : Fin 3) := by
    funext d; refine Fin.ext ?_
    match d with
    | ⟨0, _⟩ => rfl
    | ⟨1, _⟩ => rfl
    | ⟨2, _⟩ => rfl
    | ⟨3, _⟩ => rfl
  rw [hsi]

/-- Every operand axis is an inserted one: the window coordinate on axis 0 is `0`. -/
theorem pts3Scatter_window0 : (pts3Scatter B N P B' N' K wf).window (ix3 b' n' k) 0 = 0 := by
  unfold ScatterDims.window
  rw [dif_neg (show ¬ ((0 : Fin 3) ∈ (pts3Scatter B N P B' N' K wf).sKept) from
    (show ¬ ((0 : Fin 3) ∈ (List.finRange 3).filter (fun a => a ∉ ([0, 1, 2] : List (Fin 3)))) from by decide))]

/-- Every operand axis is an inserted one: the window coordinate on axis 1 is `0`. -/
theorem pts3Scatter_window1 : (pts3Scatter B N P B' N' K wf).window (ix3 b' n' k) 1 = 0 := by
  unfold ScatterDims.window
  rw [dif_neg (show ¬ ((1 : Fin 3) ∈ (pts3Scatter B N P B' N' K wf).sKept) from
    (show ¬ ((1 : Fin 3) ∈ (List.finRange 3).filter (fun a => a ∉ ([0, 1, 2] : List (Fin 3)))) from by decide))]

/-- Every operand axis is an inserted one: the window coordinate on axis 2 is `0`. -/
theorem pts3Scatter_window2 : (pts3Scatter B N P B' N' K wf).window (ix3 b' n' k) 2 = 0 := by
  unfold ScatterDims.window
  rw [dif_neg (show ¬ ((2 : Fin 3) ∈ (pts3Scatter B N P B' N' K wf).sKept) from
    (show ¬ ((2 : Fin 3) ∈ (List.finRange 3).filter (fun a => a ∉ ([0, 1, 2] : List (Fin 3)))) from by decide))]

end Coordinates

/-- Update entry `(b', n', k)` lands at operand entry `(b, n, p)` exactly when its three index words, read signed and
    not clamped, are `b`, `n` and `p`. -/
theorem pts3Scatter_resultIdx_eq_some_iff {B N P B' N' K w : ℕ} (wf : ScatterDims.WF ⟨3, ![B, N, P]⟩ ⟨4, ![B', N', K, 3]⟩ ⟨3, ![B', N', K]⟩ [] [0, 1, 2] [0, 1, 2] 3)
    (idx : IVec ⟨4, ![B', N', K, 3]⟩ w) (b' : Fin B') (n' : Fin N') (k : Fin K) (b : Fin B) (n : Fin N) (p : Fin P) :
    (pts3Scatter B N P B' N' K wf).resultIdx? (ix3 b' n' k) idx = some (ix3 b n p) ↔
      (idx (ix4 b' n' k (0 : Fin 3))).toInt = (b.val : ℤ) ∧ (idx (ix4 b' n' k (1 : Fin 3))).toInt = (n.val : ℤ)
        ∧ (idx (ix4 b' n' k (2 : Fin 3))).toInt = (p.val : ℤ) := by
  have hs0 := pts3Scatter_start0 wf idx b' n' k
  have hs1 := pts3Scatter_start1 wf idx b' n' k
  have hs2 := pts3Scatter_start2 wf idx b' n' k
  have hw0 := pts3Scatter_window0 wf b' n' k
  have hw1 := pts3Scatter_window1 wf b' n' k
  have hw2 := pts3Scatter_window2 wf b' n' k
  have hb := b.isLt
  have hn := n.isLt
  have hp := p.isLt
  unfold ScatterDims.resultIdx?
  constructor
  · intro h
    split at h
    · rename_i hin
      have h' := Option.some.inj h
      have e0 : ((pts3Scatter B N P B' N' K wf).start (ix3 b' n' k) idx 0 + ((pts3Scatter B N P B' N' K wf).window (ix3 b' n' k) 0 : ℕ)).toNat = b.val := congrArg (fun f => (f 0).val) h'
      have e1 : ((pts3Scatter B N P B' N' K wf).start (ix3 b' n' k) idx 1 + ((pts3Scatter B N P B' N' K wf).window (ix3 b' n' k) 1 : ℕ)).toNat = n.val := congrArg (fun f => (f 1).val) h'
      have e2 : ((pts3Scatter B N P B' N' K wf).start (ix3 b' n' k) idx 2 + ((pts3Scatter B N P B' N' K wf).window (ix3 b' n' k) 2 : ℕ)).toNat = p.val := congrArg (fun f => (f 2).val) h'
      have p0 := (hin 0).1
      have p1 := (hin 1).1
      have p2 := (hin 2).1
      rw [hs0, hw0] at e0 p0
      rw [hs1, hw1] at e1 p1
      rw [hs2, hw2] at e2 p2
      refine ⟨by omega, by omega, by omega⟩
    · exact absurd h (by simp)
  · rintro ⟨h0, h1, h2⟩
    have hin : ∀ a, 0 ≤ (pts3Scatter B N P B' N' K wf).start (ix3 b' n' k) idx a + ((pts3Scatter B N P B' N' K wf).window (ix3 b' n' k) a : ℕ)
        ∧ (pts3Scatter B N P B' N' K wf).start (ix3 b' n' k) idx a + ((pts3Scatter B N P B' N' K wf).window (ix3 b' n' k) a : ℕ) < ((⟨3, ![B, N, P]⟩ : Shape).size a : ℕ) := by
      intro a
      match a with
      | ⟨0, _⟩ =>
        show 0 ≤ (pts3Scatter B N P B' N' K wf).start (ix3 b' n' k) idx 0 + ((pts3Scatter B N P B' N' K wf).window (ix3 b' n' k) 0 : ℕ) ∧ (pts3Scatter B N P B' N' K wf).start (ix3 b' n' k) idx 0 + ((pts3Scatter B N P B' N' K wf).window (ix3 b' n' k) 0 : ℕ) < (B : ℤ)
        rw [hs0, hw0, h0]; omega
      | ⟨1, _⟩ =>
        show 0 ≤ (pts3Scatter B N P B' N' K wf).start (ix3 b' n' k) idx 1 + ((pts3Scatter B N P B' N' K wf).window (ix3 b' n' k) 1 : ℕ) ∧ (pts3Scatter B N P B' N' K wf).start (ix3 b' n' k) idx 1 + ((pts3Scatter B N P B' N' K wf).window (ix3 b' n' k) 1 : ℕ) < (N : ℤ)
        rw [hs1, hw1, h1]; omega
      | ⟨2, _⟩ =>
        show 0 ≤ (pts3Scatter B N P B' N' K wf).start (ix3 b' n' k) idx 2 + ((pts3Scatter B N P B' N' K wf).window (ix3 b' n' k) 2 : ℕ) ∧ (pts3Scatter B N P B' N' K wf).start (ix3 b' n' k) idx 2 + ((pts3Scatter B N P B' N' K wf).window (ix3 b' n' k) 2 : ℕ) < (P : ℤ)
        rw [hs2, hw2, h2]; omega
    rw [dif_pos hin]
    congr 1
    funext a
    refine Fin.ext ?_
    match a with
    | ⟨0, _⟩ =>
      show ((pts3Scatter B N P B' N' K wf).start (ix3 b' n' k) idx 0 + ((pts3Scatter B N P B' N' K wf).window (ix3 b' n' k) 0 : ℕ)).toNat = b.val
      rw [hs0, hw0, h0]; omega
    | ⟨1, _⟩ =>
      show ((pts3Scatter B N P B' N' K wf).start (ix3 b' n' k) idx 1 + ((pts3Scatter B N P B' N' K wf).window (ix3 b' n' k) 1 : ℕ)).toNat = n.val
      rw [hs1, hw1, h1]; omega
    | ⟨2, _⟩ =>
      show ((pts3Scatter B N P B' N' K wf).start (ix3 b' n' k) idx 2 + ((pts3Scatter B N P B' N' K wf).window (ix3 b' n' k) 2 : ℕ)).toNat = p.val
      rw [hs2, hw2, h2]; omega

/-- At the ideal values that scatter-add read at `(b, n, p)` is the operand's entry plus the sum of the update entries
    `(b', n', k)` whose three index words `idx[b', n', k, 0..2]`, read signed and NOT clamped, are `b`, `n` and `p`: a
    `Finset.sum` over the triples `(b', n', k) : Fin B' × Fin N' × Fin K` filtered by that condition. An update entry
    with an index word outside its axis lands nowhere. -/
theorem scatterAdd_pts3_apply {B N P B' N' K w : ℕ} {φ : FTy} (wf : ScatterDims.WF ⟨3, ![B, N, P]⟩ ⟨4, ![B', N', K, 3]⟩ ⟨3, ![B', N', K]⟩ [] [0, 1, 2] [0, 1, 2] 3)
    (x : FVec Ideal ⟨3, ![B, N, P]⟩ φ) (idx : IVec ⟨4, ![B', N', K, 3]⟩ w) (upd : FVec Ideal ⟨3, ![B', N', K]⟩ φ)
    (b : Fin B) (n : Fin N) (p : Fin P) :
    Host.scatterAdd (F := Ideal) (pts3Scatter B N P B' N' K wf) x idx upd (ix3 b n p)
      = x (ix3 b n p) + ∑ q ∈ (Finset.univ : Finset (Fin B' × Fin N' × Fin K)).filter (fun q =>
          (idx (ix4 q.1 q.2.1 q.2.2 (0 : Fin 3))).toInt = (b.val : ℤ) ∧ (idx (ix4 q.1 q.2.1 q.2.2 (1 : Fin 3))).toInt = (n.val : ℤ)
        ∧ (idx (ix4 q.1 q.2.1 q.2.2 (2 : Fin 3))).toInt = (p.val : ℤ)),
        upd (ix3 q.1 q.2.1 q.2.2) := by
  change x (ix3 b n p) + _ = _
  congr 1
  rw [Finset.sum_filter, Finset.sum_filter, ← Equiv.sum_comp (idxEquiv3 (n0 := B') (n1 := N') (n2 := K)).symm]
  refine Finset.sum_congr rfl fun q _ => ?_
  have hiff := pts3Scatter_resultIdx_eq_some_iff wf idx q.1 q.2.1 q.2.2 b n p
  show (if (pts3Scatter B N P B' N' K wf).resultIdx? (ix3 q.1 q.2.1 q.2.2) idx = some (ix3 b n p) then upd (ix3 q.1 q.2.1 q.2.2) else 0) = _
  by_cases hc : (idx (ix4 q.1 q.2.1 q.2.2 (0 : Fin 3))).toInt = (b.val : ℤ) ∧ (idx (ix4 q.1 q.2.1 q.2.2 (1 : Fin 3))).toInt = (n.val : ℤ)
        ∧ (idx (ix4 q.1 q.2.1 q.2.2 (2 : Fin 3))).toInt = (p.val : ℤ)
  · rw [if_pos (hiff.2 hc), if_pos hc]
  · rw [if_neg (fun h => hc (hiff.1 h)), if_neg hc]

/-- The same reading as a triple sum: every update entry `(b', n', k)` contributes its value when its three index
    words, read signed and not clamped, are `(b, n, p)`, and `0` otherwise. -/
theorem scatterAdd_pts3_apply_sum {B N P B' N' K w : ℕ} {φ : FTy} (wf : ScatterDims.WF ⟨3, ![B, N, P]⟩ ⟨4, ![B', N', K, 3]⟩ ⟨3, ![B', N', K]⟩ [] [0, 1, 2] [0, 1, 2] 3)
    (x : FVec Ideal ⟨3, ![B, N, P]⟩ φ) (idx : IVec ⟨4, ![B', N', K, 3]⟩ w) (upd : FVec Ideal ⟨3, ![B', N', K]⟩ φ)
    (b : Fin B) (n : Fin N) (p : Fin P) :
    Host.scatterAdd (F := Ideal) (pts3Scatter B N P B' N' K wf) x idx upd (ix3 b n p)
      = x (ix3 b n p) + ∑ b' : Fin B', ∑ n' : Fin N', ∑ k : Fin K,
          if (idx (ix4 b' n' k (0 : Fin 3))).toInt = (b.val : ℤ) ∧ (idx (ix4 b' n' k (1 : Fin 3))).toInt = (n.val : ℤ)
        ∧ (idx (ix4 b' n' k (2 : Fin 3))).toInt = (p.val : ℤ)
          then upd (ix3 b' n' k) else 0 := by
  rw [scatterAdd_pts3_apply, Finset.sum_filter, Fintype.sum_prod_type]
  refine congrArg _ (Finset.sum_congr rfl fun b' _ => ?_)
  rw [Fintype.sum_prod_type]

end Scatter3

end Cert.Indexed3
-- ==== Proof.KernelArrays.lean ====
/-
  The second kernel region's four host-built input arrays, read at an index.

  Each array is a stack, along a last axis of length four, of four `[32, 128]` arrays: the flat positions
  `row · 64 + column` of a keypoint's four neighbouring cells, and the four bilinear weights (for the target keypoints
  times the keypoint mask).  Every buffer is written once, so what the region is entered with at such an array is what
  its line of host operations left there, and the operands of that line hold what earlier lines left in them.
-/
import proofs.«153362_j6846177869930_2_alg».proof.Proof.RunKernelIdealB
import proofs.«153362_j6846177869930_2_alg».proof.Proof.LibIndexed3
import Idealize.ShloMosaic.Lib.StableHlo.Run
import Idealize.ShloMosaic.Lib.ValueIdx
import Idealize.ShloMosaic.Lib.Pipeline.Value
import Idealize.ShloMosaic.Lib.Pipeline.Frame

set_option maxRecDepth 16384

namespace Cert.AfterRead

open Idealize.ShloMosaic Idealize.ShloMosaic.StableHlo

variable {τ : Topo} {sig : RefSig} {Val : EltTy → Type}

/-- Each operation of the line writes exactly the buffer listed at its place. -/
def WritesAt (ops : List (HloOp τ sig Val)) (W : List (Ref sig .tc)) : Prop :=
  List.Forall₂ (fun op y => op.writes = {Proc.devRef (τ := τ) .tc y}) ops W

theorem WritesAt.take {ops : List (HloOp τ sig Val)} {W : List (Ref sig .tc)} (h : WritesAt ops W) (j : ℕ) :
    WritesAt (ops.take j) (W.take j) := List.forall₂_take j h

/-- A buffer the line does not list keeps its contents. -/
theorem after_of_not_mem {ops : List (HloOp τ sig Val)} {W : List (Ref sig .tc)} (h : WritesAt ops W)
    (V : Valuation τ sig Val) {r : Ref sig .tc} (hr : r ∉ W) :
    after ops V (Proc.devRef .tc r) = V (Proc.devRef .tc r) := by
  induction h generalizing V with
  | nil => rfl
  | @cons op y ops' W' hop _ ih =>
    rw [after_cons, ih _ (fun hm => hr (List.mem_cons_of_mem _ hm))]
    refine HloOp.result_of_not_mem _ _ ?_
    rw [hop, Finset.mem_singleton]
    exact devRef_ne_of_ne (fun e => hr (e ▸ List.mem_cons_self))

/-- A buffer listed at place `k` and nowhere later holds what operation `k` computes from what the operations before it left. -/
theorem after_eq_result {ops : List (HloOp τ sig Val)} {W : List (Ref sig .tc)} (h : WritesAt ops W)
    (V : Valuation τ sig Val) (k : ℕ) {op : HloOp τ sig Val} {r : Ref sig .tc}
    (hop : ops[k]? = some op) (hr : W[k]? = some r) (hlater : r ∉ W.drop (k + 1)) :
    after ops V (Proc.devRef .tc r) = op.result (after (ops.take k) V) (Proc.devRef .tc r) := by
  induction h generalizing V k with
  | nil => simp at hop
  | @cons op0 y ops' W' hop0 htail ih =>
    cases k with
    | zero =>
      simp only [List.getElem?_cons_zero, Option.some.injEq] at hop hr
      subst hop; subst hr
      rw [after_cons, after_of_not_mem htail _ (by simpa using hlater)]
      rfl
    | succ k =>
      simp only [List.getElem?_cons_succ] at hop hr
      rw [after_cons, ih _ k hop hr (by simpa using hlater)]
      rfl

/-- The same for an initial piece of the line. -/
theorem after_take_eq_result {ops : List (HloOp τ sig Val)} {W : List (Ref sig .tc)} (h : WritesAt ops W)
    (V : Valuation τ sig Val) (j k : ℕ) {op : HloOp τ sig Val} {r : Ref sig .tc}
    (hop : ops[k]? = some op) (hr : W[k]? = some r) (hkj : k < j) (hlater : r ∉ (W.take j).drop (k + 1)) :
    after (ops.take j) V (Proc.devRef .tc r) = op.result (after (ops.take k) V) (Proc.devRef .tc r) := by
  have e := after_eq_result (h.take j) V k (op := op) (r := r)
    (by rw [List.getElem?_take_of_lt hkj]; exact hop) (by rw [List.getElem?_take_of_lt hkj]; exact hr) hlater
  rw [e, List.take_take, Nat.min_eq_left (Nat.le_of_lt hkj)]

/-- A buffer an initial piece of the line does not list keeps its contents through the piece. -/
theorem after_take_of_not_mem {ops : List (HloOp τ sig Val)} {W : List (Ref sig .tc)} (h : WritesAt ops W)
    (V : Valuation τ sig Val) (j : ℕ) {r : Ref sig .tc} (hr : r ∉ W.take j) :
    after (ops.take j) V (Proc.devRef .tc r) = V (Proc.devRef .tc r) :=
  after_of_not_mem (h.take j) V hr

end Cert.AfterRead

noncomputable section

namespace Cert.KernelIdeal.Hand

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ)

/-! ### Buffers keep their contents through the lines that do not write them -/

/-- A buffer none of the lines after the source keypoints' line writes enters the second region as that line left it. -/
theorem W19_eq_W11 (c : Dev nD) (r : Ref sig .tc) (h9 : r ∉ hostOps1_9_W) (h10 : r ∉ hostOps1_10_W)
    (h11 : r ∉ hostOps1_11_W) (h12 : r ∉ hostOps1_12_W) (h13 : r ∉ hostOps1_13_W) (h14 : r ∉ hostOps1_14_W)
    (h15 : r ∉ hostOps1_15_W) (h16 : r ∉ hostOps1_16_W) :
    W19 m c (Proc.devRef .tc r) = W11 m c (Proc.devRef .tc r) :=
  calc W19 m c (Proc.devRef .tc r)
    _ = W18 m c (Proc.devRef .tc r) := StableHlo.after_of_writes_sub hostOps1_16 _ hostOps1_16_writes h16
    _ = W17 m c (Proc.devRef .tc r) := StableHlo.after_of_writes_sub hostOps1_15 _ hostOps1_15_writes h15
    _ = W16 m c (Proc.devRef .tc r) := StableHlo.after_of_writes_sub hostOps1_14 _ hostOps1_14_writes h14
    _ = W15 m c (Proc.devRef .tc r) := StableHlo.after_of_writes_sub hostOps1_13 _ hostOps1_13_writes h13
    _ = W14 m c (Proc.devRef .tc r) := StableHlo.after_of_writes_sub hostOps1_12 _ hostOps1_12_writes h12
    _ = W13 m c (Proc.devRef .tc r) := StableHlo.after_of_writes_sub hostOps1_11 _ hostOps1_11_writes h11
    _ = W12 m c (Proc.devRef .tc r) := StableHlo.after_of_writes_sub hostOps1_10 _ hostOps1_10_writes h10
    _ = W11 m c (Proc.devRef .tc r) := StableHlo.after_of_writes_sub hostOps1_9 _ hostOps1_9_writes h9

/-- … and, not written by that line either, as the lines before it left it. -/
theorem W19_eq_W10 (c : Dev nD) (r : Ref sig .tc) (h8 : r ∉ hostOps1_8_W) (h9 : r ∉ hostOps1_9_W) (h10 : r ∉ hostOps1_10_W)
    (h11 : r ∉ hostOps1_11_W) (h12 : r ∉ hostOps1_12_W) (h13 : r ∉ hostOps1_13_W) (h14 : r ∉ hostOps1_14_W)
    (h15 : r ∉ hostOps1_15_W) (h16 : r ∉ hostOps1_16_W) :
    W19 m c (Proc.devRef .tc r) = W10 m c (Proc.devRef .tc r) :=
  (W19_eq_W11 m c r h9 h10 h11 h12 h13 h14 h15 h16).trans
    (StableHlo.after_of_writes_sub hostOps1_8 _ hostOps1_8_writes h8)

/-- A buffer the target keypoints' line does not write enters the second region as the lines before left it. -/
theorem W19_eq_W18 (c : Dev nD) (r : Ref sig .tc) (h16 : r ∉ hostOps1_16_W) :
    W19 m c (Proc.devRef .tc r) = W18 m c (Proc.devRef .tc r) :=
  StableHlo.after_of_writes_sub hostOps1_16 _ hostOps1_16_writes h16

/-! ### A `[32, 128]` array given a unit last axis -/

/-- The broadcast of a `[32, 128]` array to `[32, 128, 1]` reads, at `(b, n, 0)`, the array at `(b, n)`. -/
theorem bcast_col_apply {α : Type} (h : S32x128.BroadcastsInDim S32x128x1 ![0, 1]) (x : S32x128.Idx → α)
    (b : Fin 32) (n : Fin 128) : broadcastInDim S32x128x1 ![0, 1] h x (ix3 b n 0) = x (ix2 b n) :=
  broadcastInDim_apply _ h x (ix3 b n 0) (ix2 b n) (fun a => match a with
    | ⟨0, _⟩ => by show b.val = if (32 : Nat) = 1 then 0 else b.val; rw [if_neg (by decide)]
    | ⟨1, _⟩ => by show n.val = if (128 : Nat) = 1 then 0 else n.val; rw [if_neg (by decide)])

/-! ### The writes of the two lines, buffer by buffer -/

theorem wr8 : Cert.AfterRead.WritesAt (hostOps1_8 (F := Ideal)) hostOps1_8_W := by
  unfold Cert.AfterRead.WritesAt
  repeat (refine List.Forall₂.cons rfl ?_)
  exact List.Forall₂.nil

theorem wr16 : Cert.AfterRead.WritesAt (hostOps1_16 (F := Ideal)) hostOps1_16_W := by
  unfold Cert.AfterRead.WritesAt
  repeat (refine List.Forall₂.cons rfl ?_)
  exact List.Forall₂.nil

/-! ### The arrays and their inputs at the boundaries -/

theorem W19_v17 (c : Dev nD) : W19 m c (Proc.devRef .tc main_v17) = W10 m c (Proc.devRef .tc main_v17) :=
  W19_eq_W10 m c main_v17 (by decide) (by decide) (by decide) (by decide) (by decide) (by decide) (by decide) (by decide) (by decide)
theorem W19_v20 (c : Dev nD) : W19 m c (Proc.devRef .tc main_v20) = W10 m c (Proc.devRef .tc main_v20) :=
  W19_eq_W10 m c main_v20 (by decide) (by decide) (by decide) (by decide) (by decide) (by decide) (by decide) (by decide) (by decide)
theorem W19_v23 (c : Dev nD) : W19 m c (Proc.devRef .tc main_v23) = W10 m c (Proc.devRef .tc main_v23) :=
  W19_eq_W10 m c main_v23 (by decide) (by decide) (by decide) (by decide) (by decide) (by decide) (by decide) (by decide) (by decide)
theorem W19_v26 (c : Dev nD) : W19 m c (Proc.devRef .tc main_v26) = W10 m c (Proc.devRef .tc main_v26) :=
  W19_eq_W10 m c main_v26 (by decide) (by decide) (by decide) (by decide) (by decide) (by decide) (by decide) (by decide) (by decide)
theorem W19_v59 (c : Dev nD) : W19 m c (Proc.devRef .tc main_v59) = W11 m c (Proc.devRef .tc main_v59) :=
  W19_eq_W11 m c main_v59 (by decide) (by decide) (by decide) (by decide) (by decide) (by decide) (by decide) (by decide)

theorem W19_v64 (c : Dev nD) : W19 m c (Proc.devRef .tc main_v64) = W11 m c (Proc.devRef .tc main_v64) :=
  W19_eq_W11 m c main_v64 (by decide) (by decide) (by decide) (by decide) (by decide) (by decide) (by decide) (by decide)
theorem W19_v35 (c : Dev nD) : W19 m c (Proc.devRef .tc main_v35) = W11 m c (Proc.devRef .tc main_v35) :=
  W19_eq_W11 m c main_v35 (by decide) (by decide) (by decide) (by decide) (by decide) (by decide) (by decide) (by decide)
theorem W19_v38 (c : Dev nD) : W19 m c (Proc.devRef .tc main_v38) = W11 m c (Proc.devRef .tc main_v38) :=
  W19_eq_W11 m c main_v38 (by decide) (by decide) (by decide) (by decide) (by decide) (by decide) (by decide) (by decide)
theorem W19_v41 (c : Dev nD) : W19 m c (Proc.devRef .tc main_v41) = W11 m c (Proc.devRef .tc main_v41) :=
  W19_eq_W11 m c main_v41 (by decide) (by decide) (by decide) (by decide) (by decide) (by decide) (by decide) (by decide)
theorem W19_v42 (c : Dev nD) : W19 m c (Proc.devRef .tc main_v42) = W11 m c (Proc.devRef .tc main_v42) :=
  W19_eq_W11 m c main_v42 (by decide) (by decide) (by decide) (by decide) (by decide) (by decide) (by decide) (by decide)
theorem W19_v75 (c : Dev nD) : W19 m c (Proc.devRef .tc main_v75) = W18 m c (Proc.devRef .tc main_v75) := W19_eq_W18 m c main_v75 (by decide)
theorem W19_v78 (c : Dev nD) : W19 m c (Proc.devRef .tc main_v78) = W18 m c (Proc.devRef .tc main_v78) := W19_eq_W18 m c main_v78 (by decide)
theorem W19_v81 (c : Dev nD) : W19 m c (Proc.devRef .tc main_v81) = W18 m c (Proc.devRef .tc main_v81) := W19_eq_W18 m c main_v81 (by decide)
theorem W19_v84 (c : Dev nD) : W19 m c (Proc.devRef .tc main_v84) = W18 m c (Proc.devRef .tc main_v84) := W19_eq_W18 m c main_v84 (by decide)

/-- The broadcast of a `[32, 128, 1]` array along its last axis to `[32, 128, 4]` reads, at `(b, n, k)`, the array at `(b, n, 0)`. -/
theorem bcast_last_apply {α : Type} (h : S32x128x1.BroadcastsInDim S32x128x4 ![0, 1, 2]) (x : S32x128x1.Idx → α)
    (b : Fin 32) (n : Fin 128) (k : Fin 4) : broadcastInDim S32x128x4 ![0, 1, 2] h x (ix3 b n k) = x (ix3 b n 0) :=
  broadcastInDim_apply _ h x (ix3 b n k) (ix3 b n 0) (fun a => match a with
    | ⟨0, _⟩ => by show b.val = if (32 : Nat) = 1 then 0 else b.val; rw [if_neg (by decide)]
    | ⟨1, _⟩ => by show n.val = if (128 : Nat) = 1 then 0 else n.val; rw [if_neg (by decide)]
    | ⟨2, _⟩ => by show (0 : ℕ) = if (1 : Nat) = 1 then 0 else k.val; rw [if_pos rfl])

/-! ### The source keypoints' flat positions -/

set_option maxHeartbeats 1000000 in
theorem v59_apply0 (c : Dev nD) (b : Fin 32) (n : Fin 128) :
    U19 m c main_v59 (ix3 b n 0)
      = IntOp.addi (IntOp.muli (W19 m c (Proc.devRef .tc main_v20) (ix2 b n)) 64#32) (W19 m c (Proc.devRef .tc main_v17) (ix2 b n)) := by
  rw [W19_v20 m c, W19_v17 m c]
  show W19 m c (Proc.devRef .tc main_v59) (ix3 b n 0) = _
  rw [W19_v59 m c]
  show StableHlo.after hostOps1_8 (W10 m c) (Proc.devRef .tc main_v59) (ix3 b n 0) = _
  rw [Cert.AfterRead.after_eq_result wr8 (W10 m c) 40 (r := main_v59) rfl rfl (by decide)]
  rw [nary_result]
  refine (Cert.Indexed3.concat4_ab1_apply0 (α := BitVec 32) _ _ _ _ _ b n).trans ?_
  show StableHlo.after (List.take 40 hostOps1_8) (W10 m c) (Proc.devRef .tc main_v55) (ix3 b n (0 : Fin 1)) = _
  rw [Cert.AfterRead.after_take_eq_result wr8 (W10 m c) 40 36 (r := main_v55) rfl rfl (by decide) (by decide)]
  rw [unary_result]
  refine (bcast_col_apply _ _ b n).trans ?_
  rw [Cert.AfterRead.after_take_eq_result wr8 (W10 m c) 36 23 (r := main_v45) rfl rfl (by decide) (by decide)]
  rw [binary_result]
  rw [Cert.AfterRead.after_take_eq_result wr8 (W10 m c) 23 22 (r := main_v44) rfl rfl (by decide) (by decide)]
  rw [binary_result]
  rw [Cert.AfterRead.after_take_of_not_mem wr8 (W10 m c) 22 (r := main_v20) (by decide)]
  rw [Cert.AfterRead.after_take_eq_result wr8 (W10 m c) 22 21 (r := main_v43) rfl rfl (by decide) (by decide)]
  rw [unary_result]
  rw [Cert.AfterRead.after_take_eq_result wr8 (W10 m c) 21 20 (r := main_c_16) rfl rfl (by decide) (by decide)]
  rw [nullary_result]
  rw [Cert.AfterRead.after_take_of_not_mem wr8 (W10 m c) 23 (r := main_v17) (by decide)]
  rfl

set_option maxHeartbeats 1000000 in
theorem v59_apply1 (c : Dev nD) (b : Fin 32) (n : Fin 128) :
    U19 m c main_v59 (ix3 b n 1)
      = IntOp.addi (IntOp.muli (W19 m c (Proc.devRef .tc main_v26) (ix2 b n)) 64#32) (W19 m c (Proc.devRef .tc main_v17) (ix2 b n)) := by
  rw [W19_v26 m c, W19_v17 m c]
  show W19 m c (Proc.devRef .tc main_v59) (ix3 b n 1) = _
  rw [W19_v59 m c]
  show StableHlo.after hostOps1_8 (W10 m c) (Proc.devRef .tc main_v59) (ix3 b n 1) = _
  rw [Cert.AfterRead.after_eq_result wr8 (W10 m c) 40 (r := main_v59) rfl rfl (by decide)]
  rw [nary_result]
  refine (Cert.Indexed3.concat4_ab1_apply1 (α := BitVec 32) _ _ _ _ _ b n).trans ?_
  show StableHlo.after (List.take 40 hostOps1_8) (W10 m c) (Proc.devRef .tc main_v56) (ix3 b n (0 : Fin 1)) = _
  rw [Cert.AfterRead.after_take_eq_result wr8 (W10 m c) 40 37 (r := main_v56) rfl rfl (by decide) (by decide)]
  rw [unary_result]
  refine (bcast_col_apply _ _ b n).trans ?_
  rw [Cert.AfterRead.after_take_eq_result wr8 (W10 m c) 37 27 (r := main_v48) rfl rfl (by decide) (by decide)]
  rw [binary_result]
  rw [Cert.AfterRead.after_take_eq_result wr8 (W10 m c) 27 26 (r := main_v47) rfl rfl (by decide) (by decide)]
  rw [binary_result]
  rw [Cert.AfterRead.after_take_of_not_mem wr8 (W10 m c) 26 (r := main_v26) (by decide)]
  rw [Cert.AfterRead.after_take_eq_result wr8 (W10 m c) 26 25 (r := main_v46) rfl rfl (by decide) (by decide)]
  rw [unary_result]
  rw [Cert.AfterRead.after_take_eq_result wr8 (W10 m c) 25 24 (r := main_c_17) rfl rfl (by decide) (by decide)]
  rw [nullary_result]
  rw [Cert.AfterRead.after_take_of_not_mem wr8 (W10 m c) 27 (r := main_v17) (by decide)]
  rfl

set_option maxHeartbeats 1000000 in
theorem v59_apply2 (c : Dev nD) (b : Fin 32) (n : Fin 128) :
    U19 m c main_v59 (ix3 b n 2)
      = IntOp.addi (IntOp.muli (W19 m c (Proc.devRef .tc main_v20) (ix2 b n)) 64#32) (W19 m c (Proc.devRef .tc main_v23) (ix2 b n)) := by
  rw [W19_v20 m c, W19_v23 m c]
  show W19 m c (Proc.devRef .tc main_v59) (ix3 b n 2) = _
  rw [W19_v59 m c]
  show StableHlo.after hostOps1_8 (W10 m c) (Proc.devRef .tc main_v59) (ix3 b n 2) = _
  rw [Cert.AfterRead.after_eq_result wr8 (W10 m c) 40 (r := main_v59) rfl rfl (by decide)]
  rw [nary_result]
  refine (Cert.Indexed3.concat4_ab1_apply2 (α := BitVec 32) _ _ _ _ _ b n).trans ?_
  show StableHlo.after (List.take 40 hostOps1_8) (W10 m c) (Proc.devRef .tc main_v57) (ix3 b n (0 : Fin 1)) = _
  rw [Cert.AfterRead.after_take_eq_result wr8 (W10 m c) 40 38 (r := main_v57) rfl rfl (by decide) (by decide)]
  rw [unary_result]
  refine (bcast_col_apply _ _ b n).trans ?_
  rw [Cert.AfterRead.after_take_eq_result wr8 (W10 m c) 38 31 (r := main_v51) rfl rfl (by decide) (by decide)]
  rw [binary_result]
  rw [Cert.AfterRead.after_take_eq_result wr8 (W10 m c) 31 30 (r := main_v50) rfl rfl (by decide) (by decide)]
  rw [binary_result]
  rw [Cert.AfterRead.after_take_of_not_mem wr8 (W10 m c) 30 (r := main_v20) (by decide)]
  rw [Cert.AfterRead.after_take_eq_result wr8 (W10 m c) 30 29 (r := main_v49) rfl rfl (by decide) (by decide)]
  rw [unary_result]
  rw [Cert.AfterRead.after_take_eq_result wr8 (W10 m c) 29 28 (r := main_c_18) rfl rfl (by decide) (by decide)]
  rw [nullary_result]
  rw [Cert.AfterRead.after_take_of_not_mem wr8 (W10 m c) 31 (r := main_v23) (by decide)]
  rfl

set_option maxHeartbeats 1000000 in
theorem v59_apply3 (c : Dev nD) (b : Fin 32) (n : Fin 128) :
    U19 m c main_v59 (ix3 b n 3)
      = IntOp.addi (IntOp.muli (W19 m c (Proc.devRef .tc main_v26) (ix2 b n)) 64#32) (W19 m c (Proc.devRef .tc main_v23) (ix2 b n)) := by
  rw [W19_v26 m c, W19_v23 m c]
  show W19 m c (Proc.devRef .tc main_v59) (ix3 b n 3) = _
  rw [W19_v59 m c]
  show StableHlo.after hostOps1_8 (W10 m c) (Proc.devRef .tc main_v59) (ix3 b n 3) = _
  rw [Cert.AfterRead.after_eq_result wr8 (W10 m c) 40 (r := main_v59) rfl rfl (by decide)]
  rw [nary_result]
  refine (Cert.Indexed3.concat4_ab1_apply3 (α := BitVec 32) _ _ _ _ _ b n).trans ?_
  show StableHlo.after (List.take 40 hostOps1_8) (W10 m c) (Proc.devRef .tc main_v58) (ix3 b n (0 : Fin 1)) = _
  rw [Cert.AfterRead.after_take_eq_result wr8 (W10 m c) 40 39 (r := main_v58) rfl rfl (by decide) (by decide)]
  rw [unary_result]
  refine (bcast_col_apply _ _ b n).trans ?_
  rw [Cert.AfterRead.after_take_eq_result wr8 (W10 m c) 39 35 (r := main_v54) rfl rfl (by decide) (by decide)]
  rw [binary_result]
  rw [Cert.AfterRead.after_take_eq_result wr8 (W10 m c) 35 34 (r := main_v53) rfl rfl (by decide) (by decide)]
  rw [binary_result]
  rw [Cert.AfterRead.after_take_of_not_mem wr8 (W10 m c) 34 (r := main_v26) (by decide)]
  rw [Cert.AfterRead.after_take_eq_result wr8 (W10 m c) 34 33 (r := main_v52) rfl rfl (by decide) (by decide)]
  rw [unary_result]
  rw [Cert.AfterRead.after_take_eq_result wr8 (W10 m c) 33 32 (r := main_c_19) rfl rfl (by decide) (by decide)]
  rw [nullary_result]
  rw [Cert.AfterRead.after_take_of_not_mem wr8 (W10 m c) 35 (r := main_v23) (by decide)]
  rfl

/-! ### The target keypoints' flat positions -/

set_option maxHeartbeats 1000000 in
theorem v120_apply0 (c : Dev nD) (b : Fin 32) (n : Fin 128) :
    U19 m c main_v120 (ix3 b n 0)
      = IntOp.addi (IntOp.muli (W19 m c (Proc.devRef .tc main_v81) (ix2 b n)) 64#32) (W19 m c (Proc.devRef .tc main_v75) (ix2 b n)) := by
  rw [W19_v81 m c, W19_v75 m c]
  show StableHlo.after hostOps1_16 (W18 m c) (Proc.devRef .tc main_v120) (ix3 b n 0) = _
  rw [Cert.AfterRead.after_eq_result wr16 (W18 m c) 40 (r := main_v120) rfl rfl (by decide)]
  rw [nary_result]
  refine (Cert.Indexed3.concat4_ab1_apply0 (α := BitVec 32) _ _ _ _ _ b n).trans ?_
  show StableHlo.after (List.take 40 hostOps1_16) (W18 m c) (Proc.devRef .tc main_v116) (ix3 b n (0 : Fin 1)) = _
  rw [Cert.AfterRead.after_take_eq_result wr16 (W18 m c) 40 36 (r := main_v116) rfl rfl (by decide) (by decide)]
  rw [unary_result]
  refine (bcast_col_apply _ _ b n).trans ?_
  rw [Cert.AfterRead.after_take_eq_result wr16 (W18 m c) 36 23 (r := main_v106) rfl rfl (by decide) (by decide)]
  rw [binary_result]
  rw [Cert.AfterRead.after_take_eq_result wr16 (W18 m c) 23 22 (r := main_v105) rfl rfl (by decide) (by decide)]
  rw [binary_result]
  rw [Cert.AfterRead.after_take_of_not_mem wr16 (W18 m c) 22 (r := main_v81) (by decide)]
  rw [Cert.AfterRead.after_take_eq_result wr16 (W18 m c) 22 21 (r := main_v104) rfl rfl (by decide) (by decide)]
  rw [unary_result]
  rw [Cert.AfterRead.after_take_eq_result wr16 (W18 m c) 21 20 (r := main_c_33) rfl rfl (by decide) (by decide)]
  rw [nullary_result]
  rw [Cert.AfterRead.after_take_of_not_mem wr16 (W18 m c) 23 (r := main_v75) (by decide)]
  rfl

set_option maxHeartbeats 1000000 in
theorem v120_apply1 (c : Dev nD) (b : Fin 32) (n : Fin 128) :
    U19 m c main_v120 (ix3 b n 1)
      = IntOp.addi (IntOp.muli (W19 m c (Proc.devRef .tc main_v84) (ix2 b n)) 64#32) (W19 m c (Proc.devRef .tc main_v75) (ix2 b n)) := by
  rw [W19_v84 m c, W19_v75 m c]
  show StableHlo.after hostOps1_16 (W18 m c) (Proc.devRef .tc main_v120) (ix3 b n 1) = _
  rw [Cert.AfterRead.after_eq_result wr16 (W18 m c) 40 (r := main_v120) rfl rfl (by decide)]
  rw [nary_result]
  refine (Cert.Indexed3.concat4_ab1_apply1 (α := BitVec 32) _ _ _ _ _ b n).trans ?_
  show StableHlo.after (List.take 40 hostOps1_16) (W18 m c) (Proc.devRef .tc main_v117) (ix3 b n (0 : Fin 1)) = _
  rw [Cert.AfterRead.after_take_eq_result wr16 (W18 m c) 40 37 (r := main_v117) rfl rfl (by decide) (by decide)]
  rw [unary_result]
  refine (bcast_col_apply _ _ b n).trans ?_
  rw [Cert.AfterRead.after_take_eq_result wr16 (W18 m c) 37 27 (r := main_v109) rfl rfl (by decide) (by decide)]
  rw [binary_result]
  rw [Cert.AfterRead.after_take_eq_result wr16 (W18 m c) 27 26 (r := main_v108) rfl rfl (by decide) (by decide)]
  rw [binary_result]
  rw [Cert.AfterRead.after_take_of_not_mem wr16 (W18 m c) 26 (r := main_v84) (by decide)]
  rw [Cert.AfterRead.after_take_eq_result wr16 (W18 m c) 26 25 (r := main_v107) rfl rfl (by decide) (by decide)]
  rw [unary_result]
  rw [Cert.AfterRead.after_take_eq_result wr16 (W18 m c) 25 24 (r := main_c_34) rfl rfl (by decide) (by decide)]
  rw [nullary_result]
  rw [Cert.AfterRead.after_take_of_not_mem wr16 (W18 m c) 27 (r := main_v75) (by decide)]
  rfl

set_option maxHeartbeats 1000000 in
theorem v120_apply2 (c : Dev nD) (b : Fin 32) (n : Fin 128) :
    U19 m c main_v120 (ix3 b n 2)
      = IntOp.addi (IntOp.muli (W19 m c (Proc.devRef .tc main_v81) (ix2 b n)) 64#32) (W19 m c (Proc.devRef .tc main_v78) (ix2 b n)) := by
  rw [W19_v81 m c, W19_v78 m c]
  show StableHlo.after hostOps1_16 (W18 m c) (Proc.devRef .tc main_v120) (ix3 b n 2) = _
  rw [Cert.AfterRead.after_eq_result wr16 (W18 m c) 40 (r := main_v120) rfl rfl (by decide)]
  rw [nary_result]
  refine (Cert.Indexed3.concat4_ab1_apply2 (α := BitVec 32) _ _ _ _ _ b n).trans ?_
  show StableHlo.after (List.take 40 hostOps1_16) (W18 m c) (Proc.devRef .tc main_v118) (ix3 b n (0 : Fin 1)) = _
  rw [Cert.AfterRead.after_take_eq_result wr16 (W18 m c) 40 38 (r := main_v118) rfl rfl (by decide) (by decide)]
  rw [unary_result]
  refine (bcast_col_apply _ _ b n).trans ?_
  rw [Cert.AfterRead.after_take_eq_result wr16 (W18 m c) 38 31 (r := main_v112) rfl rfl (by decide) (by decide)]
  rw [binary_result]
  rw [Cert.AfterRead.after_take_eq_result wr16 (W18 m c) 31 30 (r := main_v111) rfl rfl (by decide) (by decide)]
  rw [binary_result]
  rw [Cert.AfterRead.after_take_of_not_mem wr16 (W18 m c) 30 (r := main_v81) (by decide)]
  rw [Cert.AfterRead.after_take_eq_result wr16 (W18 m c) 30 29 (r := main_v110) rfl rfl (by decide) (by decide)]
  rw [unary_result]
  rw [Cert.AfterRead.after_take_eq_result wr16 (W18 m c) 29 28 (r := main_c_35) rfl rfl (by decide) (by decide)]
  rw [nullary_result]
  rw [Cert.AfterRead.after_take_of_not_mem wr16 (W18 m c) 31 (r := main_v78) (by decide)]
  rfl

set_option maxHeartbeats 1000000 in
theorem v120_apply3 (c : Dev nD) (b : Fin 32) (n : Fin 128) :
    U19 m c main_v120 (ix3 b n 3)
      = IntOp.addi (IntOp.muli (W19 m c (Proc.devRef .tc main_v84) (ix2 b n)) 64#32) (W19 m c (Proc.devRef .tc main_v78) (ix2 b n)) := by
  rw [W19_v84 m c, W19_v78 m c]
  show StableHlo.after hostOps1_16 (W18 m c) (Proc.devRef .tc main_v120) (ix3 b n 3) = _
  rw [Cert.AfterRead.after_eq_result wr16 (W18 m c) 40 (r := main_v120) rfl rfl (by decide)]
  rw [nary_result]
  refine (Cert.Indexed3.concat4_ab1_apply3 (α := BitVec 32) _ _ _ _ _ b n).trans ?_
  show StableHlo.after (List.take 40 hostOps1_16) (W18 m c) (Proc.devRef .tc main_v119) (ix3 b n (0 : Fin 1)) = _
  rw [Cert.AfterRead.after_take_eq_result wr16 (W18 m c) 40 39 (r := main_v119) rfl rfl (by decide) (by decide)]
  rw [unary_result]
  refine (bcast_col_apply _ _ b n).trans ?_
  rw [Cert.AfterRead.after_take_eq_result wr16 (W18 m c) 39 35 (r := main_v115) rfl rfl (by decide) (by decide)]
  rw [binary_result]
  rw [Cert.AfterRead.after_take_eq_result wr16 (W18 m c) 35 34 (r := main_v114) rfl rfl (by decide) (by decide)]
  rw [binary_result]
  rw [Cert.AfterRead.after_take_of_not_mem wr16 (W18 m c) 34 (r := main_v84) (by decide)]
  rw [Cert.AfterRead.after_take_eq_result wr16 (W18 m c) 34 33 (r := main_v113) rfl rfl (by decide) (by decide)]
  rw [unary_result]
  rw [Cert.AfterRead.after_take_eq_result wr16 (W18 m c) 33 32 (r := main_c_36) rfl rfl (by decide) (by decide)]
  rw [nullary_result]
  rw [Cert.AfterRead.after_take_of_not_mem wr16 (W18 m c) 35 (r := main_v78) (by decide)]
  rfl

/-! ### The target keypoints' weights times the mask -/

set_option maxHeartbeats 1000000 in
theorem v128_apply0 (c : Dev nD) (b : Fin 32) (n : Fin 128) :
    U19 (F := Ideal) m c main_v128 (ix3 b n 0)
      = @HMul.hMul EReal EReal EReal instHMul (W19 (F := Ideal) m c (Proc.devRef .tc main_v91) (ix2 b n)) (W19 (F := Ideal) m c (Proc.devRef .tc main_v103) (ix2 b n)) := by
  show StableHlo.after (hostOps1_16 (F := Ideal)) (W18 m c) (Proc.devRef .tc main_v128) (ix3 b n 0)
    = @HMul.hMul EReal EReal EReal instHMul (StableHlo.after (hostOps1_16 (F := Ideal)) (W18 m c) (Proc.devRef .tc main_v91) (ix2 b n)) (StableHlo.after (hostOps1_16 (F := Ideal)) (W18 m c) (Proc.devRef .tc main_v103) (ix2 b n))
  rw [Cert.AfterRead.after_eq_result wr16 (W18 m c) 48 (r := main_v128) rfl rfl (by decide)]
  rw [binary_result]
  show @HMul.hMul EReal EReal EReal instHMul (StableHlo.after (List.take 48 (hostOps1_16 (F := Ideal))) (W18 m c) (Proc.devRef .tc main_v125) (ix3 b n 0)) (StableHlo.after (List.take 48 (hostOps1_16 (F := Ideal))) (W18 m c) (Proc.devRef .tc main_v127) (ix3 b n 0)) = _
  refine congrArg₂ (fun x y : EReal => x * y) ?_ ?_
  ·
    rw [Cert.AfterRead.after_take_eq_result wr16 (W18 m c) 48 45 (r := main_v125) rfl rfl (by decide) (by decide)]
    rw [nary_result]
    refine (Cert.Indexed3.concat4_ab1_apply0 (α := EReal) _ _ _ _ _ b n).trans ?_
    show StableHlo.after (List.take 45 hostOps1_16) (W18 m c) (Proc.devRef .tc main_v121) (ix3 b n (0 : Fin 1)) = _
    rw [Cert.AfterRead.after_take_eq_result wr16 (W18 m c) 45 41 (r := main_v121) rfl rfl (by decide) (by decide)]
    rw [unary_result]
    refine (bcast_col_apply _ _ b n).trans ?_
    rw [Cert.AfterRead.after_take_eq_result wr16 (W18 m c) 41 6 (r := main_v91) rfl rfl (by decide) (by decide),
      Cert.AfterRead.after_eq_result wr16 (W18 m c) 6 (r := main_v91) rfl rfl (by decide)]
  ·
    rw [Cert.AfterRead.after_take_eq_result wr16 (W18 m c) 48 47 (r := main_v127) rfl rfl (by decide) (by decide)]
    rw [unary_result]
    refine (bcast_last_apply _ _ b n _).trans ?_
    rw [Cert.AfterRead.after_take_eq_result wr16 (W18 m c) 47 46 (r := main_v126) rfl rfl (by decide) (by decide)]
    rw [unary_result]
    refine (bcast_col_apply _ _ b n).trans ?_
    rw [Cert.AfterRead.after_take_eq_result wr16 (W18 m c) 46 19 (r := main_v103) rfl rfl (by decide) (by decide),
      Cert.AfterRead.after_eq_result wr16 (W18 m c) 19 (r := main_v103) rfl rfl (by decide)]

set_option maxHeartbeats 1000000 in
theorem v128_apply1 (c : Dev nD) (b : Fin 32) (n : Fin 128) :
    U19 (F := Ideal) m c main_v128 (ix3 b n 1)
      = @HMul.hMul EReal EReal EReal instHMul (W19 (F := Ideal) m c (Proc.devRef .tc main_v94) (ix2 b n)) (W19 (F := Ideal) m c (Proc.devRef .tc main_v103) (ix2 b n)) := by
  show StableHlo.after (hostOps1_16 (F := Ideal)) (W18 m c) (Proc.devRef .tc main_v128) (ix3 b n 1)
    = @HMul.hMul EReal EReal EReal instHMul (StableHlo.after (hostOps1_16 (F := Ideal)) (W18 m c) (Proc.devRef .tc main_v94) (ix2 b n)) (StableHlo.after (hostOps1_16 (F := Ideal)) (W18 m c) (Proc.devRef .tc main_v103) (ix2 b n))
  rw [Cert.AfterRead.after_eq_result wr16 (W18 m c) 48 (r := main_v128) rfl rfl (by decide)]
  rw [binary_result]
  show @HMul.hMul EReal EReal EReal instHMul (StableHlo.after (List.take 48 (hostOps1_16 (F := Ideal))) (W18 m c) (Proc.devRef .tc main_v125) (ix3 b n 1)) (StableHlo.after (List.take 48 (hostOps1_16 (F := Ideal))) (W18 m c) (Proc.devRef .tc main_v127) (ix3 b n 1)) = _
  refine congrArg₂ (fun x y : EReal => x * y) ?_ ?_
  ·
    rw [Cert.AfterRead.after_take_eq_result wr16 (W18 m c) 48 45 (r := main_v125) rfl rfl (by decide) (by decide)]
    rw [nary_result]
    refine (Cert.Indexed3.concat4_ab1_apply1 (α := EReal) _ _ _ _ _ b n).trans ?_
    show StableHlo.after (List.take 45 hostOps1_16) (W18 m c) (Proc.devRef .tc main_v122) (ix3 b n (0 : Fin 1)) = _
    rw [Cert.AfterRead.after_take_eq_result wr16 (W18 m c) 45 42 (r := main_v122) rfl rfl (by decide) (by decide)]
    rw [unary_result]
    refine (bcast_col_apply _ _ b n).trans ?_
    rw [Cert.AfterRead.after_take_eq_result wr16 (W18 m c) 42 9 (r := main_v94) rfl rfl (by decide) (by decide),
      Cert.AfterRead.after_eq_result wr16 (W18 m c) 9 (r := main_v94) rfl rfl (by decide)]
  ·
    rw [Cert.AfterRead.after_take_eq_result wr16 (W18 m c) 48 47 (r := main_v127) rfl rfl (by decide) (by decide)]
    rw [unary_result]
    refine (bcast_last_apply _ _ b n _).trans ?_
    rw [Cert.AfterRead.after_take_eq_result wr16 (W18 m c) 47 46 (r := main_v126) rfl rfl (by decide) (by decide)]
    rw [unary_result]
    refine (bcast_col_apply _ _ b n).trans ?_
    rw [Cert.AfterRead.after_take_eq_result wr16 (W18 m c) 46 19 (r := main_v103) rfl rfl (by decide) (by decide),
      Cert.AfterRead.after_eq_result wr16 (W18 m c) 19 (r := main_v103) rfl rfl (by decide)]

set_option maxHeartbeats 1000000 in
theorem v128_apply2 (c : Dev nD) (b : Fin 32) (n : Fin 128) :
    U19 (F := Ideal) m c main_v128 (ix3 b n 2)
      = @HMul.hMul EReal EReal EReal instHMul (W19 (F := Ideal) m c (Proc.devRef .tc main_v97) (ix2 b n)) (W19 (F := Ideal) m c (Proc.devRef .tc main_v103) (ix2 b n)) := by
  show StableHlo.after (hostOps1_16 (F := Ideal)) (W18 m c) (Proc.devRef .tc main_v128) (ix3 b n 2)
    = @HMul.hMul EReal EReal EReal instHMul (StableHlo.after (hostOps1_16 (F := Ideal)) (W18 m c) (Proc.devRef .tc main_v97) (ix2 b n)) (StableHlo.after (hostOps1_16 (F := Ideal)) (W18 m c) (Proc.devRef .tc main_v103) (ix2 b n))
  rw [Cert.AfterRead.after_eq_result wr16 (W18 m c) 48 (r := main_v128) rfl rfl (by decide)]
  rw [binary_result]
  show @HMul.hMul EReal EReal EReal instHMul (StableHlo.after (List.take 48 (hostOps1_16 (F := Ideal))) (W18 m c) (Proc.devRef .tc main_v125) (ix3 b n 2)) (StableHlo.after (List.take 48 (hostOps1_16 (F := Ideal))) (W18 m c) (Proc.devRef .tc main_v127) (ix3 b n 2)) = _
  refine congrArg₂ (fun x y : EReal => x * y) ?_ ?_
  ·
    rw [Cert.AfterRead.after_take_eq_result wr16 (W18 m c) 48 45 (r := main_v125) rfl rfl (by decide) (by decide)]
    rw [nary_result]
    refine (Cert.Indexed3.concat4_ab1_apply2 (α := EReal) _ _ _ _ _ b n).trans ?_
    show StableHlo.after (List.take 45 hostOps1_16) (W18 m c) (Proc.devRef .tc main_v123) (ix3 b n (0 : Fin 1)) = _
    rw [Cert.AfterRead.after_take_eq_result wr16 (W18 m c) 45 43 (r := main_v123) rfl rfl (by decide) (by decide)]
    rw [unary_result]
    refine (bcast_col_apply _ _ b n).trans ?_
    rw [Cert.AfterRead.after_take_eq_result wr16 (W18 m c) 43 12 (r := main_v97) rfl rfl (by decide) (by decide),
      Cert.AfterRead.after_eq_result wr16 (W18 m c) 12 (r := main_v97) rfl rfl (by decide)]
  ·
    rw [Cert.AfterRead.after_take_eq_result wr16 (W18 m c) 48 47 (r := main_v127) rfl rfl (by decide) (by decide)]
    rw [unary_result]
    refine (bcast_last_apply _ _ b n _).trans ?_
    rw [Cert.AfterRead.after_take_eq_result wr16 (W18 m c) 47 46 (r := main_v126) rfl rfl (by decide) (by decide)]
    rw [unary_result]
    refine (bcast_col_apply _ _ b n).trans ?_
    rw [Cert.AfterRead.after_take_eq_result wr16 (W18 m c) 46 19 (r := main_v103) rfl rfl (by decide) (by decide),
      Cert.AfterRead.after_eq_result wr16 (W18 m c) 19 (r := main_v103) rfl rfl (by decide)]

set_option maxHeartbeats 1000000 in
theorem v128_apply3 (c : Dev nD) (b : Fin 32) (n : Fin 128) :
    U19 (F := Ideal) m c main_v128 (ix3 b n 3)
      = @HMul.hMul EReal EReal EReal instHMul (W19 (F := Ideal) m c (Proc.devRef .tc main_v100) (ix2 b n)) (W19 (F := Ideal) m c (Proc.devRef .tc main_v103) (ix2 b n)) := by
  show StableHlo.after (hostOps1_16 (F := Ideal)) (W18 m c) (Proc.devRef .tc main_v128) (ix3 b n 3)
    = @HMul.hMul EReal EReal EReal instHMul (StableHlo.after (hostOps1_16 (F := Ideal)) (W18 m c) (Proc.devRef .tc main_v100) (ix2 b n)) (StableHlo.after (hostOps1_16 (F := Ideal)) (W18 m c) (Proc.devRef .tc main_v103) (ix2 b n))
  rw [Cert.AfterRead.after_eq_result wr16 (W18 m c) 48 (r := main_v128) rfl rfl (by decide)]
  rw [binary_result]
  show @HMul.hMul EReal EReal EReal instHMul (StableHlo.after (List.take 48 (hostOps1_16 (F := Ideal))) (W18 m c) (Proc.devRef .tc main_v125) (ix3 b n 3)) (StableHlo.after (List.take 48 (hostOps1_16 (F := Ideal))) (W18 m c) (Proc.devRef .tc main_v127) (ix3 b n 3)) = _
  refine congrArg₂ (fun x y : EReal => x * y) ?_ ?_
  ·
    rw [Cert.AfterRead.after_take_eq_result wr16 (W18 m c) 48 45 (r := main_v125) rfl rfl (by decide) (by decide)]
    rw [nary_result]
    refine (Cert.Indexed3.concat4_ab1_apply3 (α := EReal) _ _ _ _ _ b n).trans ?_
    show StableHlo.after (List.take 45 hostOps1_16) (W18 m c) (Proc.devRef .tc main_v124) (ix3 b n (0 : Fin 1)) = _
    rw [Cert.AfterRead.after_take_eq_result wr16 (W18 m c) 45 44 (r := main_v124) rfl rfl (by decide) (by decide)]
    rw [unary_result]
    refine (bcast_col_apply _ _ b n).trans ?_
    rw [Cert.AfterRead.after_take_eq_result wr16 (W18 m c) 44 15 (r := main_v100) rfl rfl (by decide) (by decide),
      Cert.AfterRead.after_eq_result wr16 (W18 m c) 15 (r := main_v100) rfl rfl (by decide)]
  ·
    rw [Cert.AfterRead.after_take_eq_result wr16 (W18 m c) 48 47 (r := main_v127) rfl rfl (by decide) (by decide)]
    rw [unary_result]
    refine (bcast_last_apply _ _ b n _).trans ?_
    rw [Cert.AfterRead.after_take_eq_result wr16 (W18 m c) 47 46 (r := main_v126) rfl rfl (by decide) (by decide)]
    rw [unary_result]
    refine (bcast_col_apply _ _ b n).trans ?_
    rw [Cert.AfterRead.after_take_eq_result wr16 (W18 m c) 46 19 (r := main_v103) rfl rfl (by decide) (by decide),
      Cert.AfterRead.after_eq_result wr16 (W18 m c) 19 (r := main_v103) rfl rfl (by decide)]

/-! ### The source keypoints' weights -/

set_option maxHeartbeats 1000000 in
theorem v64_apply0 (c : Dev nD) (b : Fin 32) (n : Fin 128) :
    U19 m c main_v64 (ix3 b n 0) = W19 m c (Proc.devRef .tc main_v35) (ix2 b n) := by
  rw [W19_v35 m c]
  show W19 m c (Proc.devRef .tc main_v64) (ix3 b n 0) = StableHlo.after hostOps1_8 (W10 m c) (Proc.devRef .tc main_v35) (ix2 b n)
  rw [W19_v64 m c]
  show StableHlo.after hostOps1_8 (W10 m c) (Proc.devRef .tc main_v64) (ix3 b n 0) = _
  rw [Cert.AfterRead.after_eq_result wr8 (W10 m c) 45 (r := main_v64) rfl rfl (by decide)]
  rw [nary_result]
  refine (Cert.Indexed3.concat4_ab1_apply0 (α := EReal) _ _ _ _ _ b n).trans ?_
  show StableHlo.after (List.take 45 hostOps1_8) (W10 m c) (Proc.devRef .tc main_v60) (ix3 b n (0 : Fin 1)) = _
  rw [Cert.AfterRead.after_take_eq_result wr8 (W10 m c) 45 41 (r := main_v60) rfl rfl (by decide) (by decide)]
  rw [unary_result]
  refine (bcast_col_apply _ _ b n).trans ?_
  rw [Cert.AfterRead.after_take_eq_result wr8 (W10 m c) 41 10 (r := main_v35) rfl rfl (by decide) (by decide),
    Cert.AfterRead.after_eq_result wr8 (W10 m c) 10 (r := main_v35) rfl rfl (by decide)]

set_option maxHeartbeats 1000000 in
theorem v64_apply1 (c : Dev nD) (b : Fin 32) (n : Fin 128) :
    U19 m c main_v64 (ix3 b n 1) = W19 m c (Proc.devRef .tc main_v38) (ix2 b n) := by
  rw [W19_v38 m c]
  show W19 m c (Proc.devRef .tc main_v64) (ix3 b n 1) = StableHlo.after hostOps1_8 (W10 m c) (Proc.devRef .tc main_v38) (ix2 b n)
  rw [W19_v64 m c]
  show StableHlo.after hostOps1_8 (W10 m c) (Proc.devRef .tc main_v64) (ix3 b n 1) = _
  rw [Cert.AfterRead.after_eq_result wr8 (W10 m c) 45 (r := main_v64) rfl rfl (by decide)]
  rw [nary_result]
  refine (Cert.Indexed3.concat4_ab1_apply1 (α := EReal) _ _ _ _ _ b n).trans ?_
  show StableHlo.after (List.take 45 hostOps1_8) (W10 m c) (Proc.devRef .tc main_v61) (ix3 b n (0 : Fin 1)) = _
  rw [Cert.AfterRead.after_take_eq_result wr8 (W10 m c) 45 42 (r := main_v61) rfl rfl (by decide) (by decide)]
  rw [unary_result]
  refine (bcast_col_apply _ _ b n).trans ?_
  rw [Cert.AfterRead.after_take_eq_result wr8 (W10 m c) 42 14 (r := main_v38) rfl rfl (by decide) (by decide),
    Cert.AfterRead.after_eq_result wr8 (W10 m c) 14 (r := main_v38) rfl rfl (by decide)]

set_option maxHeartbeats 1000000 in
theorem v64_apply2 (c : Dev nD) (b : Fin 32) (n : Fin 128) :
    U19 m c main_v64 (ix3 b n 2) = W19 m c (Proc.devRef .tc main_v41) (ix2 b n) := by
  rw [W19_v41 m c]
  show W19 m c (Proc.devRef .tc main_v64) (ix3 b n 2) = StableHlo.after hostOps1_8 (W10 m c) (Proc.devRef .tc main_v41) (ix2 b n)
  rw [W19_v64 m c]
  show StableHlo.after hostOps1_8 (W10 m c) (Proc.devRef .tc main_v64) (ix3 b n 2) = _
  rw [Cert.AfterRead.after_eq_result wr8 (W10 m c) 45 (r := main_v64) rfl rfl (by decide)]
  rw [nary_result]
  refine (Cert.Indexed3.concat4_ab1_apply2 (α := EReal) _ _ _ _ _ b n).trans ?_
  show StableHlo.after (List.take 45 hostOps1_8) (W10 m c) (Proc.devRef .tc main_v62) (ix3 b n (0 : Fin 1)) = _
  rw [Cert.AfterRead.after_take_eq_result wr8 (W10 m c) 45 43 (r := main_v62) rfl rfl (by decide) (by decide)]
  rw [unary_result]
  refine (bcast_col_apply _ _ b n).trans ?_
  rw [Cert.AfterRead.after_take_eq_result wr8 (W10 m c) 43 18 (r := main_v41) rfl rfl (by decide) (by decide),
    Cert.AfterRead.after_eq_result wr8 (W10 m c) 18 (r := main_v41) rfl rfl (by decide)]

set_option maxHeartbeats 1000000 in
theorem v64_apply3 (c : Dev nD) (b : Fin 32) (n : Fin 128) :
    U19 m c main_v64 (ix3 b n 3) = W19 m c (Proc.devRef .tc main_v42) (ix2 b n) := by
  rw [W19_v42 m c]
  show W19 m c (Proc.devRef .tc main_v64) (ix3 b n 3) = StableHlo.after hostOps1_8 (W10 m c) (Proc.devRef .tc main_v42) (ix2 b n)
  rw [W19_v64 m c]
  show StableHlo.after hostOps1_8 (W10 m c) (Proc.devRef .tc main_v64) (ix3 b n 3) = _
  rw [Cert.AfterRead.after_eq_result wr8 (W10 m c) 45 (r := main_v64) rfl rfl (by decide)]
  rw [nary_result]
  refine (Cert.Indexed3.concat4_ab1_apply3 (α := EReal) _ _ _ _ _ b n).trans ?_
  show StableHlo.after (List.take 45 hostOps1_8) (W10 m c) (Proc.devRef .tc main_v63) (ix3 b n (0 : Fin 1)) = _
  rw [Cert.AfterRead.after_take_eq_result wr8 (W10 m c) 45 44 (r := main_v63) rfl rfl (by decide) (by decide)]
  rw [unary_result]
  refine (bcast_col_apply _ _ b n).trans ?_
  rw [Cert.AfterRead.after_take_eq_result wr8 (W10 m c) 44 19 (r := main_v42) rfl rfl (by decide) (by decide),
    Cert.AfterRead.after_eq_result wr8 (W10 m c) 19 (r := main_v42) rfl rfl (by decide)]

end Cert.KernelIdeal.Hand

end
-- ==== Proof.AtomsA.lean ====
/-
  The host side of the kernel against the reference's stages: a buffer of the kernel's host program, when the second
  region is entered, holds the value of the reference's stage that computes the same quantity from the same argument
  array — both programs apply the same operations in the same order, so the two composed terms are the same term.
-/
import proofs.«153362_j6846177869930_2_alg».proof.Proof.RunKernelIdealB
import proofs.«153362_j6846177869930_2_alg».proof.Proof.RefReadP
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ)

/-- An argument array is as launched when the first region has run. -/
theorem W2_main_arg2_AtomsA (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

set_option maxHeartbeats 40000000 in
theorem atom_main_v17 (c : Dev nD) : W19 m c (Proc.devRef .tc main_v17)
    = Cert.ReferenceIdeal.ReadP.val_main_v30 (F := Ideal) (m ((c : Thread nD τ).loc main_arg2)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg2_AtomsA]
  simp only [Cert.ReferenceIdeal.ReadP.val_main_v30, Cert.ReferenceIdeal.ReadP.val_main_v29, Cert.ReferenceIdeal.ReadP.val_main_call0_v2, Cert.ReferenceIdeal.ReadP.val_main_v28, Cert.ReferenceIdeal.ReadP.val_main_v21, Cert.ReferenceIdeal.ReadP.val_main_v20, Cert.ReferenceIdeal.ReadP.val_main_cst_4, Cert.ReferenceIdeal.ReadP.val_main_v19, Cert.ReferenceIdeal.ReadP.val_main_v18, Cert.ReferenceIdeal.ReadP.val_main_cst_3, Cert.ReferenceIdeal.ReadP.val_main_v17, Cert.ReferenceIdeal.ReadP.val_main_v16, Cert.ReferenceIdeal.ReadP.val_main_call0_v1, Cert.ReferenceIdeal.ReadP.val_main_call0_v0, Cert.ReferenceIdeal.ReadP.val_main_c, Cert.ReferenceIdeal.ReadP.val_main_call0_v4, Cert.ReferenceIdeal.ReadP.val_main_call0_v3, Cert.ReferenceIdeal.ReadP.val_main_c_7]
  try rfl

set_option maxHeartbeats 40000000 in
theorem atom_main_v20 (c : Dev nD) : W19 m c (Proc.devRef .tc main_v20)
    = Cert.ReferenceIdeal.ReadP.val_main_v33 (F := Ideal) (m ((c : Thread nD τ).loc main_arg2)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg2_AtomsA]
  simp only [Cert.ReferenceIdeal.ReadP.val_main_v33, Cert.ReferenceIdeal.ReadP.val_main_v32, Cert.ReferenceIdeal.ReadP.val_main_call1_v2, Cert.ReferenceIdeal.ReadP.val_main_v31, Cert.ReferenceIdeal.ReadP.val_main_v27, Cert.ReferenceIdeal.ReadP.val_main_v26, Cert.ReferenceIdeal.ReadP.val_main_cst_6, Cert.ReferenceIdeal.ReadP.val_main_v25, Cert.ReferenceIdeal.ReadP.val_main_v24, Cert.ReferenceIdeal.ReadP.val_main_cst_5, Cert.ReferenceIdeal.ReadP.val_main_v23, Cert.ReferenceIdeal.ReadP.val_main_v22, Cert.ReferenceIdeal.ReadP.val_main_call1_v1, Cert.ReferenceIdeal.ReadP.val_main_call1_v0, Cert.ReferenceIdeal.ReadP.val_main_c_8, Cert.ReferenceIdeal.ReadP.val_main_call1_v4, Cert.ReferenceIdeal.ReadP.val_main_call1_v3, Cert.ReferenceIdeal.ReadP.val_main_c_9]
  try rfl

set_option maxHeartbeats 40000000 in
theorem atom_main_v23 (c : Dev nD) : W19 m c (Proc.devRef .tc main_v23)
    = Cert.ReferenceIdeal.ReadP.val_main_v36 (F := Ideal) (m ((c : Thread nD τ).loc main_arg2)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg2_AtomsA]
  simp only [Cert.ReferenceIdeal.ReadP.val_main_v36, Cert.ReferenceIdeal.ReadP.val_main_call2_v2, Cert.ReferenceIdeal.ReadP.val_main_v35, Cert.ReferenceIdeal.ReadP.val_main_v34, Cert.ReferenceIdeal.ReadP.val_main_c_10, Cert.ReferenceIdeal.ReadP.val_main_v30, Cert.ReferenceIdeal.ReadP.val_main_v29, Cert.ReferenceIdeal.ReadP.val_main_call0_v2, Cert.ReferenceIdeal.ReadP.val_main_v28, Cert.ReferenceIdeal.ReadP.val_main_v21, Cert.ReferenceIdeal.ReadP.val_main_v20, Cert.ReferenceIdeal.ReadP.val_main_cst_4, Cert.ReferenceIdeal.ReadP.val_main_v19, Cert.ReferenceIdeal.ReadP.val_main_v18, Cert.ReferenceIdeal.ReadP.val_main_cst_3, Cert.ReferenceIdeal.ReadP.val_main_v17, Cert.ReferenceIdeal.ReadP.val_main_v16, Cert.ReferenceIdeal.ReadP.val_main_call0_v1, Cert.ReferenceIdeal.ReadP.val_main_call0_v0, Cert.ReferenceIdeal.ReadP.val_main_c, Cert.ReferenceIdeal.ReadP.val_main_call0_v4, Cert.ReferenceIdeal.ReadP.val_main_call0_v3, Cert.ReferenceIdeal.ReadP.val_main_c_7, Cert.ReferenceIdeal.ReadP.val_main_call2_v1, Cert.ReferenceIdeal.ReadP.val_main_call2_v0, Cert.ReferenceIdeal.ReadP.val_main_c_11, Cert.ReferenceIdeal.ReadP.val_main_call2_v4, Cert.ReferenceIdeal.ReadP.val_main_call2_v3, Cert.ReferenceIdeal.ReadP.val_main_c_12]
  try rfl

set_option maxHeartbeats 40000000 in
theorem atom_main_v26 (c : Dev nD) : W19 m c (Proc.devRef .tc main_v26)
    = Cert.ReferenceIdeal.ReadP.val_main_v39 (F := Ideal) (m ((c : Thread nD τ).loc main_arg2)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg2_AtomsA]
  simp only [Cert.ReferenceIdeal.ReadP.val_main_v39, Cert.ReferenceIdeal.ReadP.val_main_call3_v2, Cert.ReferenceIdeal.ReadP.val_main_v38, Cert.ReferenceIdeal.ReadP.val_main_v37, Cert.ReferenceIdeal.ReadP.val_main_c_13, Cert.ReferenceIdeal.ReadP.val_main_v33, Cert.ReferenceIdeal.ReadP.val_main_v32, Cert.ReferenceIdeal.ReadP.val_main_call1_v2, Cert.ReferenceIdeal.ReadP.val_main_v31, Cert.ReferenceIdeal.ReadP.val_main_v27, Cert.ReferenceIdeal.ReadP.val_main_v26, Cert.ReferenceIdeal.ReadP.val_main_cst_6, Cert.ReferenceIdeal.ReadP.val_main_v25, Cert.ReferenceIdeal.ReadP.val_main_v24, Cert.ReferenceIdeal.ReadP.val_main_cst_5, Cert.ReferenceIdeal.ReadP.val_main_v23, Cert.ReferenceIdeal.ReadP.val_main_v22, Cert.ReferenceIdeal.ReadP.val_main_call1_v1, Cert.ReferenceIdeal.ReadP.val_main_call1_v0, Cert.ReferenceIdeal.ReadP.val_main_c_8, Cert.ReferenceIdeal.ReadP.val_main_call1_v4, Cert.ReferenceIdeal.ReadP.val_main_call1_v3, Cert.ReferenceIdeal.ReadP.val_main_c_9, Cert.ReferenceIdeal.ReadP.val_main_call3_v1, Cert.ReferenceIdeal.ReadP.val_main_call3_v0, Cert.ReferenceIdeal.ReadP.val_main_c_14, Cert.ReferenceIdeal.ReadP.val_main_call3_v4, Cert.ReferenceIdeal.ReadP.val_main_call3_v3, Cert.ReferenceIdeal.ReadP.val_main_c_15]
  try rfl

end Cert.KernelIdeal.Hand

end
-- ==== Proof.AtomsB.lean ====
/-
  The host side of the kernel against the reference's stages: a buffer of the kernel's host program, when the second
  region is entered, holds the value of the reference's stage that computes the same quantity from the same argument
  array — both programs apply the same operations in the same order, so the two composed terms are the same term.
-/
import proofs.«153362_j6846177869930_2_alg».proof.Proof.RunKernelIdealB
import proofs.«153362_j6846177869930_2_alg».proof.Proof.RefReadP
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ)

/-- An argument array is as launched when the first region has run. -/
theorem W2_main_arg2_AtomsB (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

set_option maxHeartbeats 40000000 in
theorem atom_main_v35 (c : Dev nD) : W19 m c (Proc.devRef .tc main_v35)
    = Cert.ReferenceIdeal.ReadP.val_main_v51 (F := Ideal) (m ((c : Thread nD τ).loc main_arg2)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg2_AtomsB]
  simp only [Cert.ReferenceIdeal.ReadP.val_main_v51, Cert.ReferenceIdeal.ReadP.val_main_v50, Cert.ReferenceIdeal.ReadP.val_main_v43, Cert.ReferenceIdeal.ReadP.val_main_v42, Cert.ReferenceIdeal.ReadP.val_main_v33, Cert.ReferenceIdeal.ReadP.val_main_v32, Cert.ReferenceIdeal.ReadP.val_main_call1_v2, Cert.ReferenceIdeal.ReadP.val_main_v31, Cert.ReferenceIdeal.ReadP.val_main_v27, Cert.ReferenceIdeal.ReadP.val_main_v26, Cert.ReferenceIdeal.ReadP.val_main_cst_6, Cert.ReferenceIdeal.ReadP.val_main_v25, Cert.ReferenceIdeal.ReadP.val_main_v24, Cert.ReferenceIdeal.ReadP.val_main_cst_5, Cert.ReferenceIdeal.ReadP.val_main_v23, Cert.ReferenceIdeal.ReadP.val_main_v22, Cert.ReferenceIdeal.ReadP.val_main_call1_v1, Cert.ReferenceIdeal.ReadP.val_main_call1_v0, Cert.ReferenceIdeal.ReadP.val_main_c_8, Cert.ReferenceIdeal.ReadP.val_main_call1_v4, Cert.ReferenceIdeal.ReadP.val_main_call1_v3, Cert.ReferenceIdeal.ReadP.val_main_c_9, Cert.ReferenceIdeal.ReadP.val_main_v49, Cert.ReferenceIdeal.ReadP.val_main_cst_17, Cert.ReferenceIdeal.ReadP.val_main_v48, Cert.ReferenceIdeal.ReadP.val_main_v41, Cert.ReferenceIdeal.ReadP.val_main_v40, Cert.ReferenceIdeal.ReadP.val_main_v30, Cert.ReferenceIdeal.ReadP.val_main_v29, Cert.ReferenceIdeal.ReadP.val_main_call0_v2, Cert.ReferenceIdeal.ReadP.val_main_v28, Cert.ReferenceIdeal.ReadP.val_main_v21, Cert.ReferenceIdeal.ReadP.val_main_v20, Cert.ReferenceIdeal.ReadP.val_main_cst_4, Cert.ReferenceIdeal.ReadP.val_main_v19, Cert.ReferenceIdeal.ReadP.val_main_v18, Cert.ReferenceIdeal.ReadP.val_main_cst_3, Cert.ReferenceIdeal.ReadP.val_main_v17, Cert.ReferenceIdeal.ReadP.val_main_v16, Cert.ReferenceIdeal.ReadP.val_main_call0_v1, Cert.ReferenceIdeal.ReadP.val_main_call0_v0, Cert.ReferenceIdeal.ReadP.val_main_c, Cert.ReferenceIdeal.ReadP.val_main_call0_v4, Cert.ReferenceIdeal.ReadP.val_main_call0_v3, Cert.ReferenceIdeal.ReadP.val_main_c_7, Cert.ReferenceIdeal.ReadP.val_main_v47, Cert.ReferenceIdeal.ReadP.val_main_cst_16]
  try rfl

set_option maxHeartbeats 40000000 in
theorem atom_main_v38 (c : Dev nD) : W19 m c (Proc.devRef .tc main_v38)
    = Cert.ReferenceIdeal.ReadP.val_main_v55 (F := Ideal) (m ((c : Thread nD τ).loc main_arg2)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg2_AtomsB]
  simp only [Cert.ReferenceIdeal.ReadP.val_main_v55, Cert.ReferenceIdeal.ReadP.val_main_v43, Cert.ReferenceIdeal.ReadP.val_main_v42, Cert.ReferenceIdeal.ReadP.val_main_v33, Cert.ReferenceIdeal.ReadP.val_main_v32, Cert.ReferenceIdeal.ReadP.val_main_call1_v2, Cert.ReferenceIdeal.ReadP.val_main_v31, Cert.ReferenceIdeal.ReadP.val_main_v27, Cert.ReferenceIdeal.ReadP.val_main_v26, Cert.ReferenceIdeal.ReadP.val_main_cst_6, Cert.ReferenceIdeal.ReadP.val_main_v25, Cert.ReferenceIdeal.ReadP.val_main_v24, Cert.ReferenceIdeal.ReadP.val_main_cst_5, Cert.ReferenceIdeal.ReadP.val_main_v23, Cert.ReferenceIdeal.ReadP.val_main_v22, Cert.ReferenceIdeal.ReadP.val_main_call1_v1, Cert.ReferenceIdeal.ReadP.val_main_call1_v0, Cert.ReferenceIdeal.ReadP.val_main_c_8, Cert.ReferenceIdeal.ReadP.val_main_call1_v4, Cert.ReferenceIdeal.ReadP.val_main_call1_v3, Cert.ReferenceIdeal.ReadP.val_main_c_9, Cert.ReferenceIdeal.ReadP.val_main_v54, Cert.ReferenceIdeal.ReadP.val_main_v41, Cert.ReferenceIdeal.ReadP.val_main_v40, Cert.ReferenceIdeal.ReadP.val_main_v30, Cert.ReferenceIdeal.ReadP.val_main_v29, Cert.ReferenceIdeal.ReadP.val_main_call0_v2, Cert.ReferenceIdeal.ReadP.val_main_v28, Cert.ReferenceIdeal.ReadP.val_main_v21, Cert.ReferenceIdeal.ReadP.val_main_v20, Cert.ReferenceIdeal.ReadP.val_main_cst_4, Cert.ReferenceIdeal.ReadP.val_main_v19, Cert.ReferenceIdeal.ReadP.val_main_v18, Cert.ReferenceIdeal.ReadP.val_main_cst_3, Cert.ReferenceIdeal.ReadP.val_main_v17, Cert.ReferenceIdeal.ReadP.val_main_v16, Cert.ReferenceIdeal.ReadP.val_main_call0_v1, Cert.ReferenceIdeal.ReadP.val_main_call0_v0, Cert.ReferenceIdeal.ReadP.val_main_c, Cert.ReferenceIdeal.ReadP.val_main_call0_v4, Cert.ReferenceIdeal.ReadP.val_main_call0_v3, Cert.ReferenceIdeal.ReadP.val_main_c_7, Cert.ReferenceIdeal.ReadP.val_main_v53, Cert.ReferenceIdeal.ReadP.val_main_cst_18]
  try rfl

set_option maxHeartbeats 40000000 in
theorem atom_main_v41 (c : Dev nD) : W19 m c (Proc.devRef .tc main_v41)
    = Cert.ReferenceIdeal.ReadP.val_main_v59 (F := Ideal) (m ((c : Thread nD τ).loc main_arg2)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg2_AtomsB]
  simp only [Cert.ReferenceIdeal.ReadP.val_main_v59, Cert.ReferenceIdeal.ReadP.val_main_v58, Cert.ReferenceIdeal.ReadP.val_main_v43, Cert.ReferenceIdeal.ReadP.val_main_v42, Cert.ReferenceIdeal.ReadP.val_main_v33, Cert.ReferenceIdeal.ReadP.val_main_v32, Cert.ReferenceIdeal.ReadP.val_main_call1_v2, Cert.ReferenceIdeal.ReadP.val_main_v31, Cert.ReferenceIdeal.ReadP.val_main_v27, Cert.ReferenceIdeal.ReadP.val_main_v26, Cert.ReferenceIdeal.ReadP.val_main_cst_6, Cert.ReferenceIdeal.ReadP.val_main_v25, Cert.ReferenceIdeal.ReadP.val_main_v24, Cert.ReferenceIdeal.ReadP.val_main_cst_5, Cert.ReferenceIdeal.ReadP.val_main_v23, Cert.ReferenceIdeal.ReadP.val_main_v22, Cert.ReferenceIdeal.ReadP.val_main_call1_v1, Cert.ReferenceIdeal.ReadP.val_main_call1_v0, Cert.ReferenceIdeal.ReadP.val_main_c_8, Cert.ReferenceIdeal.ReadP.val_main_call1_v4, Cert.ReferenceIdeal.ReadP.val_main_call1_v3, Cert.ReferenceIdeal.ReadP.val_main_c_9, Cert.ReferenceIdeal.ReadP.val_main_v57, Cert.ReferenceIdeal.ReadP.val_main_cst_19, Cert.ReferenceIdeal.ReadP.val_main_v41, Cert.ReferenceIdeal.ReadP.val_main_v40, Cert.ReferenceIdeal.ReadP.val_main_v30, Cert.ReferenceIdeal.ReadP.val_main_v29, Cert.ReferenceIdeal.ReadP.val_main_call0_v2, Cert.ReferenceIdeal.ReadP.val_main_v28, Cert.ReferenceIdeal.ReadP.val_main_v21, Cert.ReferenceIdeal.ReadP.val_main_v20, Cert.ReferenceIdeal.ReadP.val_main_cst_4, Cert.ReferenceIdeal.ReadP.val_main_v19, Cert.ReferenceIdeal.ReadP.val_main_v18, Cert.ReferenceIdeal.ReadP.val_main_cst_3, Cert.ReferenceIdeal.ReadP.val_main_v17, Cert.ReferenceIdeal.ReadP.val_main_v16, Cert.ReferenceIdeal.ReadP.val_main_call0_v1, Cert.ReferenceIdeal.ReadP.val_main_call0_v0, Cert.ReferenceIdeal.ReadP.val_main_c, Cert.ReferenceIdeal.ReadP.val_main_call0_v4, Cert.ReferenceIdeal.ReadP.val_main_call0_v3, Cert.ReferenceIdeal.ReadP.val_main_c_7]
  try rfl

set_option maxHeartbeats 40000000 in
theorem atom_main_v42 (c : Dev nD) : W19 m c (Proc.devRef .tc main_v42)
    = Cert.ReferenceIdeal.ReadP.val_main_v61 (F := Ideal) (m ((c : Thread nD τ).loc main_arg2)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg2_AtomsB]
  simp only [Cert.ReferenceIdeal.ReadP.val_main_v61, Cert.ReferenceIdeal.ReadP.val_main_v43, Cert.ReferenceIdeal.ReadP.val_main_v42, Cert.ReferenceIdeal.ReadP.val_main_v33, Cert.ReferenceIdeal.ReadP.val_main_v32, Cert.ReferenceIdeal.ReadP.val_main_call1_v2, Cert.ReferenceIdeal.ReadP.val_main_v31, Cert.ReferenceIdeal.ReadP.val_main_v27, Cert.ReferenceIdeal.ReadP.val_main_v26, Cert.ReferenceIdeal.ReadP.val_main_cst_6, Cert.ReferenceIdeal.ReadP.val_main_v25, Cert.ReferenceIdeal.ReadP.val_main_v24, Cert.ReferenceIdeal.ReadP.val_main_cst_5, Cert.ReferenceIdeal.ReadP.val_main_v23, Cert.ReferenceIdeal.ReadP.val_main_v22, Cert.ReferenceIdeal.ReadP.val_main_call1_v1, Cert.ReferenceIdeal.ReadP.val_main_call1_v0, Cert.ReferenceIdeal.ReadP.val_main_c_8, Cert.ReferenceIdeal.ReadP.val_main_call1_v4, Cert.ReferenceIdeal.ReadP.val_main_call1_v3, Cert.ReferenceIdeal.ReadP.val_main_c_9, Cert.ReferenceIdeal.ReadP.val_main_v41, Cert.ReferenceIdeal.ReadP.val_main_v40, Cert.ReferenceIdeal.ReadP.val_main_v30, Cert.ReferenceIdeal.ReadP.val_main_v29, Cert.ReferenceIdeal.ReadP.val_main_call0_v2, Cert.ReferenceIdeal.ReadP.val_main_v28, Cert.ReferenceIdeal.ReadP.val_main_v21, Cert.ReferenceIdeal.ReadP.val_main_v20, Cert.ReferenceIdeal.ReadP.val_main_cst_4, Cert.ReferenceIdeal.ReadP.val_main_v19, Cert.ReferenceIdeal.ReadP.val_main_v18, Cert.ReferenceIdeal.ReadP.val_main_cst_3, Cert.ReferenceIdeal.ReadP.val_main_v17, Cert.ReferenceIdeal.ReadP.val_main_v16, Cert.ReferenceIdeal.ReadP.val_main_call0_v1, Cert.ReferenceIdeal.ReadP.val_main_call0_v0, Cert.ReferenceIdeal.ReadP.val_main_c, Cert.ReferenceIdeal.ReadP.val_main_call0_v4, Cert.ReferenceIdeal.ReadP.val_main_call0_v3, Cert.ReferenceIdeal.ReadP.val_main_c_7]
  try rfl

end Cert.KernelIdeal.Hand

end
-- ==== Proof.AtomsC.lean ====
/-
  The host side of the kernel against the reference's stages: a buffer of the kernel's host program, when the second
  region is entered, holds the value of the reference's stage that computes the same quantity from the same argument
  array — both programs apply the same operations in the same order, so the two composed terms are the same term.
-/
import proofs.«153362_j6846177869930_2_alg».proof.Proof.RunKernelIdealB
import proofs.«153362_j6846177869930_2_alg».proof.Proof.RefReadP
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ)

/-- An argument array is as launched when the first region has run. -/
theorem W2_main_arg3_AtomsC (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

set_option maxHeartbeats 40000000 in
theorem atom_main_v75 (c : Dev nD) : W19 m c (Proc.devRef .tc main_v75)
    = Cert.ReferenceIdeal.ReadP.val_main_v172 (F := Ideal) (m ((c : Thread nD τ).loc main_arg3)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg3_AtomsC]
  simp only [Cert.ReferenceIdeal.ReadP.val_main_v172, Cert.ReferenceIdeal.ReadP.val_main_v171, Cert.ReferenceIdeal.ReadP.val_main_call4_v2, Cert.ReferenceIdeal.ReadP.val_main_v170, Cert.ReferenceIdeal.ReadP.val_main_v165, Cert.ReferenceIdeal.ReadP.val_main_v164, Cert.ReferenceIdeal.ReadP.val_main_cst_45, Cert.ReferenceIdeal.ReadP.val_main_v163, Cert.ReferenceIdeal.ReadP.val_main_v162, Cert.ReferenceIdeal.ReadP.val_main_call4_v1, Cert.ReferenceIdeal.ReadP.val_main_call4_v0, Cert.ReferenceIdeal.ReadP.val_main_c_47, Cert.ReferenceIdeal.ReadP.val_main_call4_v4, Cert.ReferenceIdeal.ReadP.val_main_call4_v3, Cert.ReferenceIdeal.ReadP.val_main_c_48]
  try rfl

set_option maxHeartbeats 40000000 in
theorem atom_main_v78 (c : Dev nD) : W19 m c (Proc.devRef .tc main_v78)
    = Cert.ReferenceIdeal.ReadP.val_main_v175 (F := Ideal) (m ((c : Thread nD τ).loc main_arg3)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg3_AtomsC]
  simp only [Cert.ReferenceIdeal.ReadP.val_main_v175, Cert.ReferenceIdeal.ReadP.val_main_call5_v2, Cert.ReferenceIdeal.ReadP.val_main_v174, Cert.ReferenceIdeal.ReadP.val_main_v173, Cert.ReferenceIdeal.ReadP.val_main_c_49, Cert.ReferenceIdeal.ReadP.val_main_v172, Cert.ReferenceIdeal.ReadP.val_main_v171, Cert.ReferenceIdeal.ReadP.val_main_call4_v2, Cert.ReferenceIdeal.ReadP.val_main_v170, Cert.ReferenceIdeal.ReadP.val_main_v165, Cert.ReferenceIdeal.ReadP.val_main_v164, Cert.ReferenceIdeal.ReadP.val_main_cst_45, Cert.ReferenceIdeal.ReadP.val_main_v163, Cert.ReferenceIdeal.ReadP.val_main_v162, Cert.ReferenceIdeal.ReadP.val_main_call4_v1, Cert.ReferenceIdeal.ReadP.val_main_call4_v0, Cert.ReferenceIdeal.ReadP.val_main_c_47, Cert.ReferenceIdeal.ReadP.val_main_call4_v4, Cert.ReferenceIdeal.ReadP.val_main_call4_v3, Cert.ReferenceIdeal.ReadP.val_main_c_48, Cert.ReferenceIdeal.ReadP.val_main_call5_v1, Cert.ReferenceIdeal.ReadP.val_main_call5_v0, Cert.ReferenceIdeal.ReadP.val_main_c_50, Cert.ReferenceIdeal.ReadP.val_main_call5_v4, Cert.ReferenceIdeal.ReadP.val_main_call5_v3, Cert.ReferenceIdeal.ReadP.val_main_c_51]
  try rfl

set_option maxHeartbeats 40000000 in
theorem atom_main_v81 (c : Dev nD) : W19 m c (Proc.devRef .tc main_v81)
    = Cert.ReferenceIdeal.ReadP.val_main_v178 (F := Ideal) (m ((c : Thread nD τ).loc main_arg3)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg3_AtomsC]
  simp only [Cert.ReferenceIdeal.ReadP.val_main_v178, Cert.ReferenceIdeal.ReadP.val_main_v177, Cert.ReferenceIdeal.ReadP.val_main_call6_v2, Cert.ReferenceIdeal.ReadP.val_main_v176, Cert.ReferenceIdeal.ReadP.val_main_v169, Cert.ReferenceIdeal.ReadP.val_main_v168, Cert.ReferenceIdeal.ReadP.val_main_cst_46, Cert.ReferenceIdeal.ReadP.val_main_v167, Cert.ReferenceIdeal.ReadP.val_main_v166, Cert.ReferenceIdeal.ReadP.val_main_call6_v1, Cert.ReferenceIdeal.ReadP.val_main_call6_v0, Cert.ReferenceIdeal.ReadP.val_main_c_52, Cert.ReferenceIdeal.ReadP.val_main_call6_v4, Cert.ReferenceIdeal.ReadP.val_main_call6_v3, Cert.ReferenceIdeal.ReadP.val_main_c_53]
  try rfl

set_option maxHeartbeats 40000000 in
theorem atom_main_v84 (c : Dev nD) : W19 m c (Proc.devRef .tc main_v84)
    = Cert.ReferenceIdeal.ReadP.val_main_v181 (F := Ideal) (m ((c : Thread nD τ).loc main_arg3)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg3_AtomsC]
  simp only [Cert.ReferenceIdeal.ReadP.val_main_v181, Cert.ReferenceIdeal.ReadP.val_main_call7_v2, Cert.ReferenceIdeal.ReadP.val_main_v180, Cert.ReferenceIdeal.ReadP.val_main_v179, Cert.ReferenceIdeal.ReadP.val_main_c_54, Cert.ReferenceIdeal.ReadP.val_main_v178, Cert.ReferenceIdeal.ReadP.val_main_v177, Cert.ReferenceIdeal.ReadP.val_main_call6_v2, Cert.ReferenceIdeal.ReadP.val_main_v176, Cert.ReferenceIdeal.ReadP.val_main_v169, Cert.ReferenceIdeal.ReadP.val_main_v168, Cert.ReferenceIdeal.ReadP.val_main_cst_46, Cert.ReferenceIdeal.ReadP.val_main_v167, Cert.ReferenceIdeal.ReadP.val_main_v166, Cert.ReferenceIdeal.ReadP.val_main_call6_v1, Cert.ReferenceIdeal.ReadP.val_main_call6_v0, Cert.ReferenceIdeal.ReadP.val_main_c_52, Cert.ReferenceIdeal.ReadP.val_main_call6_v4, Cert.ReferenceIdeal.ReadP.val_main_call6_v3, Cert.ReferenceIdeal.ReadP.val_main_c_53, Cert.ReferenceIdeal.ReadP.val_main_call7_v1, Cert.ReferenceIdeal.ReadP.val_main_call7_v0, Cert.ReferenceIdeal.ReadP.val_main_c_55, Cert.ReferenceIdeal.ReadP.val_main_call7_v4, Cert.ReferenceIdeal.ReadP.val_main_call7_v3, Cert.ReferenceIdeal.ReadP.val_main_c_56]
  try rfl

end Cert.KernelIdeal.Hand

end
-- ==== Proof.AtomsD.lean ====
/-
  The host side of the kernel against the reference's stages: a buffer of the kernel's host program, when the second
  region is entered, holds the value of the reference's stage that computes the same quantity from the same argument
  array — both programs apply the same operations in the same order, so the two composed terms are the same term.
-/
import proofs.«153362_j6846177869930_2_alg».proof.Proof.RunKernelIdealB
import proofs.«153362_j6846177869930_2_alg».proof.Proof.RefReadP
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ)

/-- An argument array is as launched when the first region has run. -/
theorem W2_main_arg3_AtomsD (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

set_option maxHeartbeats 40000000 in
theorem atom_main_v91 (c : Dev nD) : W19 m c (Proc.devRef .tc main_v91)
    = Cert.ReferenceIdeal.ReadP.val_main_v188 (F := Ideal) (m ((c : Thread nD τ).loc main_arg3)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg3_AtomsD]
  simp only [Cert.ReferenceIdeal.ReadP.val_main_v188, Cert.ReferenceIdeal.ReadP.val_main_v187, Cert.ReferenceIdeal.ReadP.val_main_v169, Cert.ReferenceIdeal.ReadP.val_main_v168, Cert.ReferenceIdeal.ReadP.val_main_cst_46, Cert.ReferenceIdeal.ReadP.val_main_v167, Cert.ReferenceIdeal.ReadP.val_main_v166, Cert.ReferenceIdeal.ReadP.val_main_v185, Cert.ReferenceIdeal.ReadP.val_main_v181, Cert.ReferenceIdeal.ReadP.val_main_call7_v2, Cert.ReferenceIdeal.ReadP.val_main_v180, Cert.ReferenceIdeal.ReadP.val_main_v179, Cert.ReferenceIdeal.ReadP.val_main_c_54, Cert.ReferenceIdeal.ReadP.val_main_v178, Cert.ReferenceIdeal.ReadP.val_main_v177, Cert.ReferenceIdeal.ReadP.val_main_call6_v2, Cert.ReferenceIdeal.ReadP.val_main_v176, Cert.ReferenceIdeal.ReadP.val_main_call6_v1, Cert.ReferenceIdeal.ReadP.val_main_call6_v0, Cert.ReferenceIdeal.ReadP.val_main_c_52, Cert.ReferenceIdeal.ReadP.val_main_call6_v4, Cert.ReferenceIdeal.ReadP.val_main_call6_v3, Cert.ReferenceIdeal.ReadP.val_main_c_53, Cert.ReferenceIdeal.ReadP.val_main_call7_v1, Cert.ReferenceIdeal.ReadP.val_main_call7_v0, Cert.ReferenceIdeal.ReadP.val_main_c_55, Cert.ReferenceIdeal.ReadP.val_main_call7_v4, Cert.ReferenceIdeal.ReadP.val_main_call7_v3, Cert.ReferenceIdeal.ReadP.val_main_c_56, Cert.ReferenceIdeal.ReadP.val_main_v186, Cert.ReferenceIdeal.ReadP.val_main_v165, Cert.ReferenceIdeal.ReadP.val_main_v164, Cert.ReferenceIdeal.ReadP.val_main_cst_45, Cert.ReferenceIdeal.ReadP.val_main_v163, Cert.ReferenceIdeal.ReadP.val_main_v162, Cert.ReferenceIdeal.ReadP.val_main_v183, Cert.ReferenceIdeal.ReadP.val_main_v175, Cert.ReferenceIdeal.ReadP.val_main_call5_v2, Cert.ReferenceIdeal.ReadP.val_main_v174, Cert.ReferenceIdeal.ReadP.val_main_v173, Cert.ReferenceIdeal.ReadP.val_main_c_49, Cert.ReferenceIdeal.ReadP.val_main_v172, Cert.ReferenceIdeal.ReadP.val_main_v171, Cert.ReferenceIdeal.ReadP.val_main_call4_v2, Cert.ReferenceIdeal.ReadP.val_main_v170, Cert.ReferenceIdeal.ReadP.val_main_call4_v1, Cert.ReferenceIdeal.ReadP.val_main_call4_v0, Cert.ReferenceIdeal.ReadP.val_main_c_47, Cert.ReferenceIdeal.ReadP.val_main_call4_v4, Cert.ReferenceIdeal.ReadP.val_main_call4_v3, Cert.ReferenceIdeal.ReadP.val_main_c_48, Cert.ReferenceIdeal.ReadP.val_main_call5_v1, Cert.ReferenceIdeal.ReadP.val_main_call5_v0, Cert.ReferenceIdeal.ReadP.val_main_c_50, Cert.ReferenceIdeal.ReadP.val_main_call5_v4, Cert.ReferenceIdeal.ReadP.val_main_call5_v3, Cert.ReferenceIdeal.ReadP.val_main_c_51]
  try rfl

set_option maxHeartbeats 40000000 in
theorem atom_main_v94 (c : Dev nD) : W19 m c (Proc.devRef .tc main_v94)
    = Cert.ReferenceIdeal.ReadP.val_main_v191 (F := Ideal) (m ((c : Thread nD τ).loc main_arg3)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg3_AtomsD]
  simp only [Cert.ReferenceIdeal.ReadP.val_main_v191, Cert.ReferenceIdeal.ReadP.val_main_v190, Cert.ReferenceIdeal.ReadP.val_main_v184, Cert.ReferenceIdeal.ReadP.val_main_v178, Cert.ReferenceIdeal.ReadP.val_main_v177, Cert.ReferenceIdeal.ReadP.val_main_call6_v2, Cert.ReferenceIdeal.ReadP.val_main_v176, Cert.ReferenceIdeal.ReadP.val_main_v169, Cert.ReferenceIdeal.ReadP.val_main_v168, Cert.ReferenceIdeal.ReadP.val_main_cst_46, Cert.ReferenceIdeal.ReadP.val_main_v167, Cert.ReferenceIdeal.ReadP.val_main_v166, Cert.ReferenceIdeal.ReadP.val_main_call6_v1, Cert.ReferenceIdeal.ReadP.val_main_call6_v0, Cert.ReferenceIdeal.ReadP.val_main_c_52, Cert.ReferenceIdeal.ReadP.val_main_call6_v4, Cert.ReferenceIdeal.ReadP.val_main_call6_v3, Cert.ReferenceIdeal.ReadP.val_main_c_53, Cert.ReferenceIdeal.ReadP.val_main_v189, Cert.ReferenceIdeal.ReadP.val_main_v165, Cert.ReferenceIdeal.ReadP.val_main_v164, Cert.ReferenceIdeal.ReadP.val_main_cst_45, Cert.ReferenceIdeal.ReadP.val_main_v163, Cert.ReferenceIdeal.ReadP.val_main_v162, Cert.ReferenceIdeal.ReadP.val_main_v183, Cert.ReferenceIdeal.ReadP.val_main_v175, Cert.ReferenceIdeal.ReadP.val_main_call5_v2, Cert.ReferenceIdeal.ReadP.val_main_v174, Cert.ReferenceIdeal.ReadP.val_main_v173, Cert.ReferenceIdeal.ReadP.val_main_c_49, Cert.ReferenceIdeal.ReadP.val_main_v172, Cert.ReferenceIdeal.ReadP.val_main_v171, Cert.ReferenceIdeal.ReadP.val_main_call4_v2, Cert.ReferenceIdeal.ReadP.val_main_v170, Cert.ReferenceIdeal.ReadP.val_main_call4_v1, Cert.ReferenceIdeal.ReadP.val_main_call4_v0, Cert.ReferenceIdeal.ReadP.val_main_c_47, Cert.ReferenceIdeal.ReadP.val_main_call4_v4, Cert.ReferenceIdeal.ReadP.val_main_call4_v3, Cert.ReferenceIdeal.ReadP.val_main_c_48, Cert.ReferenceIdeal.ReadP.val_main_call5_v1, Cert.ReferenceIdeal.ReadP.val_main_call5_v0, Cert.ReferenceIdeal.ReadP.val_main_c_50, Cert.ReferenceIdeal.ReadP.val_main_call5_v4, Cert.ReferenceIdeal.ReadP.val_main_call5_v3, Cert.ReferenceIdeal.ReadP.val_main_c_51]
  try rfl

set_option maxHeartbeats 40000000 in
theorem atom_main_v97 (c : Dev nD) : W19 m c (Proc.devRef .tc main_v97)
    = Cert.ReferenceIdeal.ReadP.val_main_v194 (F := Ideal) (m ((c : Thread nD τ).loc main_arg3)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg3_AtomsD]
  simp only [Cert.ReferenceIdeal.ReadP.val_main_v194, Cert.ReferenceIdeal.ReadP.val_main_v193, Cert.ReferenceIdeal.ReadP.val_main_v169, Cert.ReferenceIdeal.ReadP.val_main_v168, Cert.ReferenceIdeal.ReadP.val_main_cst_46, Cert.ReferenceIdeal.ReadP.val_main_v167, Cert.ReferenceIdeal.ReadP.val_main_v166, Cert.ReferenceIdeal.ReadP.val_main_v185, Cert.ReferenceIdeal.ReadP.val_main_v181, Cert.ReferenceIdeal.ReadP.val_main_call7_v2, Cert.ReferenceIdeal.ReadP.val_main_v180, Cert.ReferenceIdeal.ReadP.val_main_v179, Cert.ReferenceIdeal.ReadP.val_main_c_54, Cert.ReferenceIdeal.ReadP.val_main_v178, Cert.ReferenceIdeal.ReadP.val_main_v177, Cert.ReferenceIdeal.ReadP.val_main_call6_v2, Cert.ReferenceIdeal.ReadP.val_main_v176, Cert.ReferenceIdeal.ReadP.val_main_call6_v1, Cert.ReferenceIdeal.ReadP.val_main_call6_v0, Cert.ReferenceIdeal.ReadP.val_main_c_52, Cert.ReferenceIdeal.ReadP.val_main_call6_v4, Cert.ReferenceIdeal.ReadP.val_main_call6_v3, Cert.ReferenceIdeal.ReadP.val_main_c_53, Cert.ReferenceIdeal.ReadP.val_main_call7_v1, Cert.ReferenceIdeal.ReadP.val_main_call7_v0, Cert.ReferenceIdeal.ReadP.val_main_c_55, Cert.ReferenceIdeal.ReadP.val_main_call7_v4, Cert.ReferenceIdeal.ReadP.val_main_call7_v3, Cert.ReferenceIdeal.ReadP.val_main_c_56, Cert.ReferenceIdeal.ReadP.val_main_v192, Cert.ReferenceIdeal.ReadP.val_main_v182, Cert.ReferenceIdeal.ReadP.val_main_v172, Cert.ReferenceIdeal.ReadP.val_main_v171, Cert.ReferenceIdeal.ReadP.val_main_call4_v2, Cert.ReferenceIdeal.ReadP.val_main_v170, Cert.ReferenceIdeal.ReadP.val_main_v165, Cert.ReferenceIdeal.ReadP.val_main_v164, Cert.ReferenceIdeal.ReadP.val_main_cst_45, Cert.ReferenceIdeal.ReadP.val_main_v163, Cert.ReferenceIdeal.ReadP.val_main_v162, Cert.ReferenceIdeal.ReadP.val_main_call4_v1, Cert.ReferenceIdeal.ReadP.val_main_call4_v0, Cert.ReferenceIdeal.ReadP.val_main_c_47, Cert.ReferenceIdeal.ReadP.val_main_call4_v4, Cert.ReferenceIdeal.ReadP.val_main_call4_v3, Cert.ReferenceIdeal.ReadP.val_main_c_48]
  try rfl

set_option maxHeartbeats 40000000 in
theorem atom_main_v100 (c : Dev nD) : W19 m c (Proc.devRef .tc main_v100)
    = Cert.ReferenceIdeal.ReadP.val_main_v197 (F := Ideal) (m ((c : Thread nD τ).loc main_arg3)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg3_AtomsD]
  simp only [Cert.ReferenceIdeal.ReadP.val_main_v197, Cert.ReferenceIdeal.ReadP.val_main_v196, Cert.ReferenceIdeal.ReadP.val_main_v184, Cert.ReferenceIdeal.ReadP.val_main_v178, Cert.ReferenceIdeal.ReadP.val_main_v177, Cert.ReferenceIdeal.ReadP.val_main_call6_v2, Cert.ReferenceIdeal.ReadP.val_main_v176, Cert.ReferenceIdeal.ReadP.val_main_v169, Cert.ReferenceIdeal.ReadP.val_main_v168, Cert.ReferenceIdeal.ReadP.val_main_cst_46, Cert.ReferenceIdeal.ReadP.val_main_v167, Cert.ReferenceIdeal.ReadP.val_main_v166, Cert.ReferenceIdeal.ReadP.val_main_call6_v1, Cert.ReferenceIdeal.ReadP.val_main_call6_v0, Cert.ReferenceIdeal.ReadP.val_main_c_52, Cert.ReferenceIdeal.ReadP.val_main_call6_v4, Cert.ReferenceIdeal.ReadP.val_main_call6_v3, Cert.ReferenceIdeal.ReadP.val_main_c_53, Cert.ReferenceIdeal.ReadP.val_main_v195, Cert.ReferenceIdeal.ReadP.val_main_v182, Cert.ReferenceIdeal.ReadP.val_main_v172, Cert.ReferenceIdeal.ReadP.val_main_v171, Cert.ReferenceIdeal.ReadP.val_main_call4_v2, Cert.ReferenceIdeal.ReadP.val_main_v170, Cert.ReferenceIdeal.ReadP.val_main_v165, Cert.ReferenceIdeal.ReadP.val_main_v164, Cert.ReferenceIdeal.ReadP.val_main_cst_45, Cert.ReferenceIdeal.ReadP.val_main_v163, Cert.ReferenceIdeal.ReadP.val_main_v162, Cert.ReferenceIdeal.ReadP.val_main_call4_v1, Cert.ReferenceIdeal.ReadP.val_main_call4_v0, Cert.ReferenceIdeal.ReadP.val_main_c_47, Cert.ReferenceIdeal.ReadP.val_main_call4_v4, Cert.ReferenceIdeal.ReadP.val_main_call4_v3, Cert.ReferenceIdeal.ReadP.val_main_c_48]
  try rfl

end Cert.KernelIdeal.Hand

end
-- ==== Proof.AtomsE.lean ====
/-
  The host side of the kernel against the reference's stages: a buffer of the kernel's host program, when the second
  region is entered, holds the value of the reference's stage that computes the same quantity from the same argument
  array — both programs apply the same operations in the same order, so the two composed terms are the same term.
-/
import proofs.«153362_j6846177869930_2_alg».proof.Proof.RunKernelIdealB
import proofs.«153362_j6846177869930_2_alg».proof.Proof.RefReadP
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ)

/-- An argument array is as launched when the first region has run. -/
theorem W2_main_arg4_AtomsE (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

set_option maxHeartbeats 40000000 in
theorem atom_main_v103 (c : Dev nD) : W19 m c (Proc.devRef .tc main_v103)
    = Cert.ReferenceIdeal.ReadP.val_main_v200 (F := Ideal) (m ((c : Thread nD τ).loc main_arg4)) := by
  dsimp only [W19, W18, W17, W16, W15, W14, W13, W12, W11, W10, W9, W8, W7, W6, W5, W4, W3]
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]
  after_results_simp
  rw [W2_main_arg4_AtomsE]
  simp only [Cert.ReferenceIdeal.ReadP.val_main_v200, Cert.ReferenceIdeal.ReadP.val_main_v199, Cert.ReferenceIdeal.ReadP.val_main_v198, Cert.ReferenceIdeal.ReadP.val_main_c_57]
  try rfl

end Cert.KernelIdeal.Hand

end
-- ==== Proof.RefValue.lean ====
/-
  The reference's value read down to named stages, at the ideal values.

  The reference samples L2-normalised source features bilinearly at the source keypoints, takes their inner products
  with the normalised target features at every grid position (divided by a temperature), scatters bilinear soft
  targets at the target keypoints, and averages the masked cross entropy against the log-softmax of the logits.
  Each theorem here reads one layer of that computation at coordinates: the final quotient over the masked sum of the
  per-keypoint losses, the log-softmax, the logits as a sum over channels, the sampled feature as four weighted
  gathered entries, and the soft targets as the four scattered weights.
-/
import proofs.«153362_j6846177869930_2_alg».proof.Proof.RefReadP
import proofs.«153362_j6846177869930_2_alg».proof.Proof.LibIndexed3

noncomputable section

namespace Cert.RefValue

open Cert.ReferenceIdeal Cert.ReferenceIdeal.Gen Cert.ReferenceIdeal.ReadP Idealize.ShloMosaic Idealize.ShloMosaic.ValueIdx Cert.Indexed3
open scoped BigOperators

/-- Equality of two indices given by coordinates, axis by axis. -/
local macro "ixeq1" : tactic => `(tactic| (funext a; match a with | ⟨0, _⟩ => rfl))
local macro "ixeq2" : tactic => `(tactic| (funext a; match a with | ⟨0, _⟩ => rfl | ⟨1, _⟩ => rfl))
local macro "ixeq3" : tactic => `(tactic| (funext a; match a with | ⟨0, _⟩ => rfl | ⟨1, _⟩ => rfl | ⟨2, _⟩ => rfl))
local macro "ixeq4" : tactic => `(tactic| (funext a; match a with | ⟨0, _⟩ => rfl | ⟨1, _⟩ => rfl | ⟨2, _⟩ => rfl | ⟨3, _⟩ => rfl))

/-- The argument arrays' types. -/
abbrev A4 := (⟨S32x256x64x64, .f32⟩ : BufTy).Contents (Elt Ideal)
abbrev K3 := (⟨S32x128x2, .f32⟩ : BufTy).Contents (Elt Ideal)
abbrev M2 := (⟨S32x128, .i32⟩ : BufTy).Contents (Elt Ideal)

/-- The zero and the `-∞` the reference's reductions start from. -/
abbrev Z : EReal := Ideal.ofBits .f32 0x00000000#32
abbrev NEG : EReal := Ideal.ofBits .f32 0xFF800000#32

/-! ## Index words: the wrap-around of a possibly negative index, and an iota's word -/

/-- The wrap-around an indexing by a possibly negative integer prints: `v + m` where `v` is negative, else `v`. -/
abbrev wrap (m v : BitVec 32) : BitVec 32 := Scalar.select (IntOp.cmpi .slt v 0#32) (IntOp.addi v m) v

/-- A non-negative index word is not wrapped. -/
theorem wrap_of_nonneg (m v : BitVec 32) (h : 0 ≤ v.toInt) : wrap m v = v := by
  have hs : v.slt 0#32 = false := by
    rw [BitVec.slt, decide_eq_false_iff_not, BitVec.toInt_zero]; omega
  show Scalar.select (BitVec.ofBool (v.slt 0#32)) _ _ = v
  rw [hs]; exact select_zero _ _

/-- The word of a position below 2³¹ reads, signed, as the position. -/
theorem toInt_ofNat_small (k : ℕ) (hk : k < 2147483648) : (BitVec.ofNat 32 k).toInt = (k : ℤ) := by
  rw [BitVec.toInt_eq_toNat_cond, BitVec.toNat_ofNat]
  have : k % 2 ^ 32 = k := Nat.mod_eq_of_lt (by omega)
  rw [this]
  split <;> omega

/-- An iota's word is never wrapped. -/
theorem wrap_ofNat (m : BitVec 32) (k : ℕ) (hk : k < 2147483648) : wrap m (BitVec.ofNat 32 k) = BitVec.ofNat 32 k :=
  wrap_of_nonneg m _ (by rw [toInt_ofNat_small k hk]; omega)

/-! ## The reference's gather and scatter over concatenated index columns -/

section Generic
open Cert.ReferenceIdeal Cert.Indexed3

/-- A start index clamped into `[0, 63]`. -/
abbrev cl63 (v : BitVec 32) : Fin 64 := ⟨min v.toInt.toNat 63, by omega⟩

/-- The reference's gather of a channel row at three concatenated index columns `u0`, `u1`, `u2`: at `(b, n, c)` the
    operand at the three columns' words at `(b, n)`, each read signed and clamped into its axis, and channel `c`. -/
theorem gather_branch {α : Type} (ft : S32x64x64x256.Idx → α) (u0 u1 u2 : S32x128x1.Idx → BitVec 32)
    (b : Fin 32) (n : Fin 128) (c : Fin 256) :
    Host.gather gather_S32x64x64x256_S32x128x3_S32x128x256_2_012_n_n_012_2_111256 ft
        (concatenate S32x128x3 2 [⟨S32x128x1, u0⟩, ⟨S32x128x1, u1⟩, ⟨S32x128x1, u2⟩]
          Facts₀.concatenates_S32x128x1_S32x128x1_S32x128x1_S32x128x3_d2) (ix3 b n c)
      = ft (ix4 (⟨min (u0 (ix3 b n 0)).toInt.toNat 31, by omega⟩ : Fin 32) (cl63 (u1 (ix3 b n 0))) (cl63 (u2 (ix3 b n 0))) c) := by
  refine (gather_rows3_apply (by decide) (by decide) (by decide) _ ft _ b n c).trans ?_
  congr 1
  funext d
  refine Fin.ext ?_
  match d with
  | ⟨0, _⟩ =>
    show min (BitVec.toInt (concatenate _ _ _ _ (ix3 b n (0 : Fin 3)))).toNat (32 - 1) = min (u0 (ix3 b n 0)).toInt.toNat 31
    rw [concat3_ab1_apply0]
  | ⟨1, _⟩ =>
    show min (BitVec.toInt (concatenate _ _ _ _ (ix3 b n (1 : Fin 3)))).toNat (64 - 1) = min (u1 (ix3 b n 0)).toInt.toNat 63
    rw [concat3_ab1_apply1]
  | ⟨2, _⟩ =>
    show min (BitVec.toInt (concatenate _ _ _ _ (ix3 b n (2 : Fin 3)))).toNat (64 - 1) = min (u2 (ix3 b n 0)).toInt.toNat 63
    rw [concat3_ab1_apply2]
  | ⟨3, _⟩ => rfl

/-- The reference's scatter-add at three concatenated index columns, at the ideal values: at `(b, n, p)` the operand's
    entry plus every update entry `(b', n', k)` whose three column words, read signed, are `(b, n, p)`. -/
theorem scatter_read (z : FVec Ideal S32x128x4096 .f32) (u0 u1 u2 : S32x128x4x1.Idx → BitVec 32)
    (upd : FVec Ideal S32x128x4 .f32) (b : Fin 32) (n : Fin 128) (p : Fin 4096) :
    Host.scatterAdd (F := Ideal) scatter_S32x128x4096_S32x128x4x3_S32x128x4_n_012_012_3 z
        (concatenate S32x128x4x3 3 [⟨S32x128x4x1, u0⟩, ⟨S32x128x4x1, u1⟩, ⟨S32x128x4x1, u2⟩]
          Facts₀.concatenates_S32x128x4x1_S32x128x4x1_S32x128x4x1_S32x128x4x3_d3) upd (ix3 b n p)
      = z (ix3 b n p) + ∑ b' : Fin 32, ∑ n' : Fin 128, ∑ k : Fin 4,
          if (u0 (ix4 b' n' k 0)).toInt = (b.val : ℤ) ∧ (u1 (ix4 b' n' k 0)).toInt = (n.val : ℤ)
            ∧ (u2 (ix4 b' n' k 0)).toInt = (p.val : ℤ)
          then upd (ix3 b' n' k) else 0 := by
  refine (scatterAdd_pts3_apply_sum _ z _ upd b n p).trans ?_
  refine congrArg (z (ix3 b n p) + ·) ?_
  refine Finset.sum_congr rfl fun b' _ => Finset.sum_congr rfl fun n' _ => Finset.sum_congr rfl fun k _ => ?_
  rw [concat3_abc1_apply0, concat3_abc1_apply1, concat3_abc1_apply2]

/-- When the first two columns are the iotas of `b'` and `n'`, only the update entries of `(b, n)` itself can land at
    `(b, n, p)`: the triple sum is the sum over the four entries `k` of `(b, n)`, the condition on the third column. -/
theorem scatter_read_collapsed (z : FVec Ideal S32x128x4096 .f32) (u0 u1 u2 : S32x128x4x1.Idx → BitVec 32)
    (h0 : ∀ (b' : Fin 32) (n' : Fin 128) (k : Fin 4), u0 (ix4 b' n' k 0) = BitVec.ofNat 32 b'.val)
    (h1 : ∀ (b' : Fin 32) (n' : Fin 128) (k : Fin 4), u1 (ix4 b' n' k 0) = BitVec.ofNat 32 n'.val)
    (upd : FVec Ideal S32x128x4 .f32) (b : Fin 32) (n : Fin 128) (p : Fin 4096) :
    Host.scatterAdd (F := Ideal) scatter_S32x128x4096_S32x128x4x3_S32x128x4_n_012_012_3 z
        (concatenate S32x128x4x3 3 [⟨S32x128x4x1, u0⟩, ⟨S32x128x4x1, u1⟩, ⟨S32x128x4x1, u2⟩]
          Facts₀.concatenates_S32x128x4x1_S32x128x4x1_S32x128x4x1_S32x128x4x3_d3) upd (ix3 b n p)
      = z (ix3 b n p) + ∑ k : Fin 4,
          if (u2 (ix4 b n k 0)).toInt = (p.val : ℤ) then upd (ix3 b n k) else 0 := by
  rw [scatter_read]
  refine congrArg (z (ix3 b n p) + ·) ?_
  have e0 : ∀ (b' : Fin 32) (n' : Fin 128) (k : Fin 4), (u0 (ix4 b' n' k 0)).toInt = (b'.val : ℤ) := fun b' n' k => by
    rw [h0, toInt_ofNat_small _ (by have := b'.isLt; omega)]
  have e1 : ∀ (b' : Fin 32) (n' : Fin 128) (k : Fin 4), (u1 (ix4 b' n' k 0)).toInt = (n'.val : ℤ) := fun b' n' k => by
    rw [h1, toInt_ofNat_small _ (by have := n'.isLt; omega)]
  have hb : ∀ b' ∈ (Finset.univ : Finset (Fin 32)), b' ≠ b →
      (∑ n' : Fin 128, ∑ k : Fin 4,
        if (u0 (ix4 b' n' k 0)).toInt = (b.val : ℤ) ∧ (u1 (ix4 b' n' k 0)).toInt = (n.val : ℤ)
          ∧ (u2 (ix4 b' n' k 0)).toInt = (p.val : ℤ) then upd (ix3 b' n' k) else 0) = 0 := by
    intro b' _ hne
    refine Finset.sum_eq_zero fun n' _ => Finset.sum_eq_zero fun k _ => if_neg fun hc => hne (Fin.ext ?_)
    have := hc.1; rw [e0] at this; omega
  rw [Finset.sum_eq_single b hb (fun h => absurd (Finset.mem_univ _) h)]
  have hn : ∀ n' ∈ (Finset.univ : Finset (Fin 128)), n' ≠ n →
      (∑ k : Fin 4,
        if (u0 (ix4 b n' k 0)).toInt = (b.val : ℤ) ∧ (u1 (ix4 b n' k 0)).toInt = (n.val : ℤ)
          ∧ (u2 (ix4 b n' k 0)).toInt = (p.val : ℤ) then upd (ix3 b n' k) else 0) = 0 := by
    intro n' _ hne
    refine Finset.sum_eq_zero fun k _ => if_neg fun hc => hne (Fin.ext ?_)
    have := hc.2.1; rw [e1] at this; omega
  rw [Finset.sum_eq_single n hn (fun h => absurd (Finset.mem_univ _) h)]
  refine Finset.sum_congr rfl fun k _ => ?_
  by_cases hc : (u2 (ix4 b n k 0)).toInt = (p.val : ℤ)
  · rw [if_pos ⟨e0 b n k, e1 b n k, hc⟩, if_pos hc]
  · rw [if_neg (fun h => hc h.2.2), if_neg hc]

end Generic

/-! ## The final quotient over the masked sum of the per-keypoint losses -/

/-- **(T)** The reference's value: the masked sum over the keypoints `(b, n)` of minus the sum over the grid positions
    `p` of soft target times log-probability, divided by the denominator stage. -/
theorem top (x0 x1 : A4) (x2 x3 : K3) (x4 : M2) :
    val_main_v261 (F := Ideal) x0 x1 x2 x3 x4 ix0
      = Ideal.div (Z + ∑ b : Fin 32, ∑ n : Fin 128,
          (-(Z + ∑ p : Fin 4096,
              val_main_v252 (F := Ideal) x3 x4 (ix3 b n p) * val_main_v253 (F := Ideal) x0 x1 x2 (ix3 b n p)))
            * val_main_v200 (F := Ideal) x4 (ix2 b n))
          (val_main_v258 (F := Ideal) x4 ix0) := by
  refine (val_main_v261_apply (F := Ideal) x0 x1 x2 x3 x4 ix0).trans ?_
  refine congrArg₂ Ideal.div ?_ rfl
  refine (val_main_v260_apply x0 x1 x2 x3 x4 ix0).trans ?_
  refine congrArg₂ (· + ·) rfl ?_
  refine (sum_idx2 _).trans ?_
  refine Finset.sum_congr rfl fun b _ => Finset.sum_congr rfl fun n _ => ?_
  refine (val_main_v259_apply (F := Ideal) x0 x1 x2 x3 x4 (ix2 b n)).trans ?_
  refine congrArg₂ (· * ·) ?_ rfl
  refine (val_main_v256_apply (F := Ideal) x0 x1 x2 x3 x4 (ix2 b n)).trans ?_
  refine congrArg Neg.neg ?_
  refine (val_main_v255_apply x0 x1 x2 x3 x4 (ix2 b n)).trans ?_
  refine congrArg₂ (· + ·) rfl (Finset.sum_congr rfl fun p _ => ?_)
  have e : idx_main_v255 (ix2 b n) p = ix3 b n p := by ixeq3
  rw [e]
  exact val_main_v254_apply (F := Ideal) x0 x1 x2 x3 x4 (ix3 b n p)

/-! ## The log-softmax of the logits -/

/-- The logits stage at `(b, n, p)`. -/
abbrev L (x0 x1 : A4) (x2 : K3) (b : Fin 32) (n : Fin 128) (p : Fin 4096) : EReal :=
  val_main_v161 (F := Ideal) x0 x1 x2 (ix3 b n p)

/-- The row maximum the log-softmax subtracts: the maximum of `-∞` and the fold of `max` over the row from `-∞`. -/
abbrev M (x0 x1 : A4) (x2 : K3) (b : Fin 32) (n : Fin 128) : EReal :=
  max NEG ((Finset.univ : Finset (Fin 4096)).fold max NEG (fun q => L x0 x1 x2 b n q))

/-- The row maximum stage at `(b, n)`. -/
theorem rowmax_read (x0 x1 : A4) (x2 : K3) (b : Fin 32) (n : Fin 128) :
    val_main_call8_v2 (F := Ideal) x0 x1 x2 (ix2 b n) = M x0 x1 x2 b n := by
  rw [val_main_call8_v2_apply, val_main_call8_v1_apply]
  show max _ _ = max _ _
  refine congrArg₂ max rfl ?_
  unfold val_main_call8_v0
  exact reduce_max_last_apply (φ := .f32) (val_main_v161 (F := Ideal) x0 x1 x2) (val_main_call8_cst (F := Ideal)) _ _ b n

/-- The shifted logits stage at `(b, n, p)`. -/
theorem shifted_read (x0 x1 : A4) (x2 : K3) (b : Fin 32) (n : Fin 128) (p : Fin 4096) :
    val_main_call8_v5 (F := Ideal) x0 x1 x2 (ix3 b n p) = L x0 x1 x2 b n p - M x0 x1 x2 b n := by
  rw [val_main_call8_v5_apply, val_main_call8_v4_apply, val_main_call8_v3_apply]
  have e : idx_main_call8_v3 (idx_main_call8_v4 (ix3 b n p)) = ix2 b n := by ixeq2
  rw [e, rowmax_read]
  rfl

/-- **(S)** The log-softmax stage at `(b, n, p)`: the shifted logit minus the logarithm of the sum of the exponentials
    of the row's shifted logits. -/
theorem logsoftmax_read (x0 x1 : A4) (x2 : K3) (b : Fin 32) (n : Fin 128) (p : Fin 4096) :
    val_main_v253 (F := Ideal) x0 x1 x2 (ix3 b n p)
      = (L x0 x1 x2 b n p - M x0 x1 x2 b n)
        - Ideal.log (Z + ∑ q : Fin 4096, Ideal.exp (L x0 x1 x2 b n q - M x0 x1 x2 b n)) := by
  rw [val_main_v253_apply, shifted_read, val_main_call8_v10_apply, val_main_call8_v9_apply, val_main_call8_v8_apply]
  have e : idx_main_call8_v8 (idx_main_call8_v10 (ix3 b n p)) = ix2 b n := by ixeq2
  rw [e, val_main_call8_v7_apply]
  show _ - Ideal.log (_ + ∑ k : Fin 4096, _) = _
  refine congrArg₂ (· - ·) rfl (congrArg Ideal.log (congrArg₂ (· + ·) rfl (Finset.sum_congr rfl fun q _ => ?_)))
  have e2 : idx_main_call8_v7 (ix2 b n) q = ix3 b n q := by ixeq3
  rw [e2, val_main_call8_v6_apply, shifted_read]
  rfl

/-! ## The logits: inner products over the channels, divided by the temperature -/

/-- The grid position `p = y · 64 + x` of the flattened target features, as `(y, x)`. -/
abbrev gy (p : Fin 4096) : Fin 64 := ⟨p.val / 64, by have := p.isLt; omega⟩
abbrev gx (p : Fin 4096) : Fin 64 := ⟨p.val % 64, by omega⟩

/-- **(L)** The logits stage at `(b, n, p)`: the sum over the 256 channels of the sampled source feature times the
    normalised target feature at grid position `p`, divided by the temperature's literal. -/
theorem logits_read (x0 x1 : A4) (x2 : K3) (b : Fin 32) (n : Fin 128) (p : Fin 4096) :
    val_main_v161 (F := Ideal) x0 x1 x2 (ix3 b n p)
      = Ideal.div (∑ c : Fin 256, val_main_v157 (F := Ideal) x0 x2 (ix3 b n c)
            * val_main_v15 (F := Ideal) x1 (ix4 b c (gy p) (gx p)))
          (Ideal.ofBits .f32 0x3DCCCCCD#32) := by
  rw [val_main_v161_apply, val_main_v160_apply, val_main_v159_apply]
  show Ideal.div _ _ = Ideal.div _ _
  refine congrArg₂ Ideal.div (Finset.sum_congr rfl fun c _ => ?_) rfl
  have el : lidx_main_v159 (ix3 b n p) c = ix3 b n c := by ixeq3
  rw [el, val_main_v158_apply]
  refine congrArg₂ (· * ·) rfl (congrArg (val_main_v15 (F := Ideal) x1) ?_)
  have hb := b.isLt
  have hc := c.isLt
  have hp := p.isLt
  funext a
  refine Fin.ext ?_
  match a with
  | ⟨0, _⟩ => show ((b.val * 256 + c.val) * 4096 + p.val) / 1048576 = b.val; omega
  | ⟨1, _⟩ => show ((b.val * 256 + c.val) * 4096 + p.val) / 4096 % 256 = c.val; omega
  | ⟨2, _⟩ => show ((b.val * 256 + c.val) * 4096 + p.val) / 64 % 64 = p.val / 64; omega
  | ⟨3, _⟩ => show ((b.val * 256 + c.val) * 4096 + p.val) % 64 = p.val % 64; omega

/-! ## The sampled source feature: four weighted gathered entries -/

/-- The batch column of gather 1 at `(b, n)`: the iota's word `b` (the wrap-around never fires). -/
theorem bcol1_read (b : Fin 32) (n : Fin 128) (u : Fin 1) :
    val_main_v79 (F := Ideal) (ix3 b n u) = BitVec.ofNat 32 b.val := by
  rw [val_main_v79_apply, val_main_v78_apply, val_main_v67_apply, val_main_v64_apply, val_main_v66_apply, val_main_v63_apply,
    val_main_v65_apply, val_main_v46_apply, val_main_v45_apply]
  exact wrap_ofNat 32#32 b.val (by have := b.isLt; omega)

/-- The row column of gather 1 at `(b, n)`: the wrapped row coordinate stage. -/
theorem ycol1_read (x2 : K3) (b : Fin 32) (n : Fin 128) (u : Fin 1) :
    val_main_v80 (F := Ideal) x2 (ix3 b n u) = wrap 64#32 (val_main_v33 (F := Ideal) x2 (ix2 b n)) := by
  rw [val_main_v80_apply, val_main_v72_apply, val_main_v69_apply, val_main_v71_apply, val_main_v68_apply, val_main_v70_apply]
  have e : idx_main_v80 (ix3 b n u) = ix2 b n := by ixeq2
  rw [e]
  rfl

/-- The column column of gather 1 at `(b, n)`: the wrapped column coordinate stage. -/
theorem xcol1_read (x2 : K3) (b : Fin 32) (n : Fin 128) (u : Fin 1) :
    val_main_v81 (F := Ideal) x2 (ix3 b n u) = wrap 64#32 (val_main_v30 (F := Ideal) x2 (ix2 b n)) := by
  rw [val_main_v81_apply, val_main_v77_apply, val_main_v74_apply, val_main_v76_apply, val_main_v73_apply, val_main_v75_apply]
  have e : idx_main_v81 (ix3 b n u) = ix2 b n := by ixeq2
  rw [e]
  rfl

/-- Gather 1 at `(b, n, c)`: the normalised source feature of batch `b`, channel `c`, at the wrapped and clamped row
    and column coordinates of keypoint `(b, n)`. -/
theorem gather1_read (x0 : A4) (x2 : K3) (b : Fin 32) (n : Fin 128) (c : Fin 256) :
    val_main_v83 (F := Ideal) x0 x2 (ix3 b n c)
      = val_main_v7 (F := Ideal) x0 (ix4 b c (cl63 (wrap 64#32 (val_main_v33 (F := Ideal) x2 (ix2 b n))))
          (cl63 (wrap 64#32 (val_main_v30 (F := Ideal) x2 (ix2 b n))))) := by
  unfold val_main_v83 val_main_v82
  rw [gather_branch, val_main_v44_apply]
  refine congrArg (val_main_v7 (F := Ideal) x0) ?_
  funext a
  refine Fin.ext ?_
  match a with
  | ⟨0, _⟩ =>
    show min (BitVec.toInt (val_main_v79 (F := Ideal) (ix3 b n 0))).toNat 31 = b.val
    rw [bcol1_read, toInt_ofNat_small _ (by have := b.isLt; omega)]
    have := b.isLt; omega
  | ⟨1, _⟩ => rfl
  | ⟨2, _⟩ =>
    show min (BitVec.toInt (val_main_v80 (F := Ideal) x2 (ix3 b n 0))).toNat 63 = _
    rw [ycol1_read]
  | ⟨3, _⟩ =>
    show min (BitVec.toInt (val_main_v81 (F := Ideal) x2 (ix3 b n 0))).toNat 63 = _
    rw [xcol1_read]

/-- Weight 1 broadcast over the channels, at `(b, n, c)`. -/
theorem weight1_read (x2 : K3) (b : Fin 32) (n : Fin 128) (c : Fin 256) :
    val_main_v84 (F := Ideal) x2 (ix3 b n c) = val_main_v51 (F := Ideal) x2 (ix2 b n) := by
  rw [val_main_v84_apply, val_main_v52_apply]
  exact congrArg (val_main_v51 (F := Ideal) x2) (by ixeq2)

/-- The batch column of gather 2 at `(b, n)`: the iota's word `b` (the wrap-around never fires). -/
theorem bcol2_read (b : Fin 32) (n : Fin 128) (u : Fin 1) :
    val_main_v102 (F := Ideal) (ix3 b n u) = BitVec.ofNat 32 b.val := by
  rw [val_main_v102_apply, val_main_v101_apply, val_main_v90_apply, val_main_v87_apply, val_main_v89_apply, val_main_v86_apply,
    val_main_v88_apply, val_main_v46_apply, val_main_v45_apply]
  exact wrap_ofNat 32#32 b.val (by have := b.isLt; omega)

/-- The row column of gather 2 at `(b, n)`: the wrapped row coordinate stage. -/
theorem ycol2_read (x2 : K3) (b : Fin 32) (n : Fin 128) (u : Fin 1) :
    val_main_v103 (F := Ideal) x2 (ix3 b n u) = wrap 64#32 (val_main_v39 (F := Ideal) x2 (ix2 b n)) := by
  rw [val_main_v103_apply, val_main_v95_apply, val_main_v92_apply, val_main_v94_apply, val_main_v91_apply, val_main_v93_apply]
  have e : idx_main_v103 (ix3 b n u) = ix2 b n := by ixeq2
  rw [e]
  rfl

/-- The column column of gather 2 at `(b, n)`: the wrapped column coordinate stage. -/
theorem xcol2_read (x2 : K3) (b : Fin 32) (n : Fin 128) (u : Fin 1) :
    val_main_v104 (F := Ideal) x2 (ix3 b n u) = wrap 64#32 (val_main_v30 (F := Ideal) x2 (ix2 b n)) := by
  rw [val_main_v104_apply, val_main_v100_apply, val_main_v97_apply, val_main_v99_apply, val_main_v96_apply, val_main_v98_apply]
  have e : idx_main_v104 (ix3 b n u) = ix2 b n := by ixeq2
  rw [e]
  rfl

/-- Gather 2 at `(b, n, c)`: the normalised source feature of batch `b`, channel `c`, at the wrapped and clamped row
    and column coordinates of keypoint `(b, n)`. -/
theorem gather2_read (x0 : A4) (x2 : K3) (b : Fin 32) (n : Fin 128) (c : Fin 256) :
    val_main_v106 (F := Ideal) x0 x2 (ix3 b n c)
      = val_main_v7 (F := Ideal) x0 (ix4 b c (cl63 (wrap 64#32 (val_main_v39 (F := Ideal) x2 (ix2 b n))))
          (cl63 (wrap 64#32 (val_main_v30 (F := Ideal) x2 (ix2 b n))))) := by
  unfold val_main_v106 val_main_v105
  rw [gather_branch, val_main_v44_apply]
  refine congrArg (val_main_v7 (F := Ideal) x0) ?_
  funext a
  refine Fin.ext ?_
  match a with
  | ⟨0, _⟩ =>
    show min (BitVec.toInt (val_main_v102 (F := Ideal) (ix3 b n 0))).toNat 31 = b.val
    rw [bcol2_read, toInt_ofNat_small _ (by have := b.isLt; omega)]
    have := b.isLt; omega
  | ⟨1, _⟩ => rfl
  | ⟨2, _⟩ =>
    show min (BitVec.toInt (val_main_v103 (F := Ideal) x2 (ix3 b n 0))).toNat 63 = _
    rw [ycol2_read]
  | ⟨3, _⟩ =>
    show min (BitVec.toInt (val_main_v104 (F := Ideal) x2 (ix3 b n 0))).toNat 63 = _
    rw [xcol2_read]

/-- Weight 2 broadcast over the channels, at `(b, n, c)`. -/
theorem weight2_read (x2 : K3) (b : Fin 32) (n : Fin 128) (c : Fin 256) :
    val_main_v107 (F := Ideal) x2 (ix3 b n c) = val_main_v55 (F := Ideal) x2 (ix2 b n) := by
  rw [val_main_v107_apply, val_main_v56_apply]
  exact congrArg (val_main_v55 (F := Ideal) x2) (by ixeq2)

/-- The batch column of gather 3 at `(b, n)`: the iota's word `b` (the wrap-around never fires). -/
theorem bcol3_read (b : Fin 32) (n : Fin 128) (u : Fin 1) :
    val_main_v126 (F := Ideal) (ix3 b n u) = BitVec.ofNat 32 b.val := by
  rw [val_main_v126_apply, val_main_v125_apply, val_main_v114_apply, val_main_v111_apply, val_main_v113_apply, val_main_v110_apply,
    val_main_v112_apply, val_main_v46_apply, val_main_v45_apply]
  exact wrap_ofNat 32#32 b.val (by have := b.isLt; omega)

/-- The row column of gather 3 at `(b, n)`: the wrapped row coordinate stage. -/
theorem ycol3_read (x2 : K3) (b : Fin 32) (n : Fin 128) (u : Fin 1) :
    val_main_v127 (F := Ideal) x2 (ix3 b n u) = wrap 64#32 (val_main_v33 (F := Ideal) x2 (ix2 b n)) := by
  rw [val_main_v127_apply, val_main_v119_apply, val_main_v116_apply, val_main_v118_apply, val_main_v115_apply, val_main_v117_apply]
  have e : idx_main_v127 (ix3 b n u) = ix2 b n := by ixeq2
  rw [e]
  rfl

/-- The column column of gather 3 at `(b, n)`: the wrapped column coordinate stage. -/
theorem xcol3_read (x2 : K3) (b : Fin 32) (n : Fin 128) (u : Fin 1) :
    val_main_v128 (F := Ideal) x2 (ix3 b n u) = wrap 64#32 (val_main_v36 (F := Ideal) x2 (ix2 b n)) := by
  rw [val_main_v128_apply, val_main_v124_apply, val_main_v121_apply, val_main_v123_apply, val_main_v120_apply, val_main_v122_apply]
  have e : idx_main_v128 (ix3 b n u) = ix2 b n := by ixeq2
  rw [e]
  rfl

/-- Gather 3 at `(b, n, c)`: the normalised source feature of batch `b`, channel `c`, at the wrapped and clamped row
    and column coordinates of keypoint `(b, n)`. -/
theorem gather3_read (x0 : A4) (x2 : K3) (b : Fin 32) (n : Fin 128) (c : Fin 256) :
    val_main_v130 (F := Ideal) x0 x2 (ix3 b n c)
      = val_main_v7 (F := Ideal) x0 (ix4 b c (cl63 (wrap 64#32 (val_main_v33 (F := Ideal) x2 (ix2 b n))))
          (cl63 (wrap 64#32 (val_main_v36 (F := Ideal) x2 (ix2 b n))))) := by
  unfold val_main_v130 val_main_v129
  rw [gather_branch, val_main_v44_apply]
  refine congrArg (val_main_v7 (F := Ideal) x0) ?_
  funext a
  refine Fin.ext ?_
  match a with
  | ⟨0, _⟩ =>
    show min (BitVec.toInt (val_main_v126 (F := Ideal) (ix3 b n 0))).toNat 31 = b.val
    rw [bcol3_read, toInt_ofNat_small _ (by have := b.isLt; omega)]
    have := b.isLt; omega
  | ⟨1, _⟩ => rfl
  | ⟨2, _⟩ =>
    show min (BitVec.toInt (val_main_v127 (F := Ideal) x2 (ix3 b n 0))).toNat 63 = _
    rw [ycol3_read]
  | ⟨3, _⟩ =>
    show min (BitVec.toInt (val_main_v128 (F := Ideal) x2 (ix3 b n 0))).toNat 63 = _
    rw [xcol3_read]

/-- Weight 3 broadcast over the channels, at `(b, n, c)`. -/
theorem weight3_read (x2 : K3) (b : Fin 32) (n : Fin 128) (c : Fin 256) :
    val_main_v131 (F := Ideal) x2 (ix3 b n c) = val_main_v59 (F := Ideal) x2 (ix2 b n) := by
  rw [val_main_v131_apply, val_main_v60_apply]
  exact congrArg (val_main_v59 (F := Ideal) x2) (by ixeq2)

/-- The batch column of gather 4 at `(b, n)`: the iota's word `b` (the wrap-around never fires). -/
theorem bcol4_read (b : Fin 32) (n : Fin 128) (u : Fin 1) :
    val_main_v150 (F := Ideal) (ix3 b n u) = BitVec.ofNat 32 b.val := by
  rw [val_main_v150_apply, val_main_v149_apply, val_main_v138_apply, val_main_v135_apply, val_main_v137_apply, val_main_v134_apply,
    val_main_v136_apply, val_main_v46_apply, val_main_v45_apply]
  exact wrap_ofNat 32#32 b.val (by have := b.isLt; omega)

/-- The row column of gather 4 at `(b, n)`: the wrapped row coordinate stage. -/
theorem ycol4_read (x2 : K3) (b : Fin 32) (n : Fin 128) (u : Fin 1) :
    val_main_v151 (F := Ideal) x2 (ix3 b n u) = wrap 64#32 (val_main_v39 (F := Ideal) x2 (ix2 b n)) := by
  rw [val_main_v151_apply, val_main_v143_apply, val_main_v140_apply, val_main_v142_apply, val_main_v139_apply, val_main_v141_apply]
  have e : idx_main_v151 (ix3 b n u) = ix2 b n := by ixeq2
  rw [e]
  rfl

/-- The column column of gather 4 at `(b, n)`: the wrapped column coordinate stage. -/
theorem xcol4_read (x2 : K3) (b : Fin 32) (n : Fin 128) (u : Fin 1) :
    val_main_v152 (F := Ideal) x2 (ix3 b n u) = wrap 64#32 (val_main_v36 (F := Ideal) x2 (ix2 b n)) := by
  rw [val_main_v152_apply, val_main_v148_apply, val_main_v145_apply, val_main_v147_apply, val_main_v144_apply, val_main_v146_apply]
  have e : idx_main_v152 (ix3 b n u) = ix2 b n := by ixeq2
  rw [e]
  rfl

/-- Gather 4 at `(b, n, c)`: the normalised source feature of batch `b`, channel `c`, at the wrapped and clamped row
    and column coordinates of keypoint `(b, n)`. -/
theorem gather4_read (x0 : A4) (x2 : K3) (b : Fin 32) (n : Fin 128) (c : Fin 256) :
    val_main_v154 (F := Ideal) x0 x2 (ix3 b n c)
      = val_main_v7 (F := Ideal) x0 (ix4 b c (cl63 (wrap 64#32 (val_main_v39 (F := Ideal) x2 (ix2 b n))))
          (cl63 (wrap 64#32 (val_main_v36 (F := Ideal) x2 (ix2 b n))))) := by
  unfold val_main_v154 val_main_v153
  rw [gather_branch, val_main_v44_apply]
  refine congrArg (val_main_v7 (F := Ideal) x0) ?_
  funext a
  refine Fin.ext ?_
  match a with
  | ⟨0, _⟩ =>
    show min (BitVec.toInt (val_main_v150 (F := Ideal) (ix3 b n 0))).toNat 31 = b.val
    rw [bcol4_read, toInt_ofNat_small _ (by have := b.isLt; omega)]
    have := b.isLt; omega
  | ⟨1, _⟩ => rfl
  | ⟨2, _⟩ =>
    show min (BitVec.toInt (val_main_v151 (F := Ideal) x2 (ix3 b n 0))).toNat 63 = _
    rw [ycol4_read]
  | ⟨3, _⟩ =>
    show min (BitVec.toInt (val_main_v152 (F := Ideal) x2 (ix3 b n 0))).toNat 63 = _
    rw [xcol4_read]

/-- Weight 4 broadcast over the channels, at `(b, n, c)`. -/
theorem weight4_read (x2 : K3) (b : Fin 32) (n : Fin 128) (c : Fin 256) :
    val_main_v155 (F := Ideal) x2 (ix3 b n c) = val_main_v61 (F := Ideal) x2 (ix2 b n) := by
  rw [val_main_v155_apply, val_main_v62_apply]
  exact congrArg (val_main_v61 (F := Ideal) x2) (by ixeq2)

/-- **(Q)** The sampled source feature at `(b, n, c)`: the four bilinear weights of keypoint `(b, n)` times the normalised
    source feature of channel `c` at the four neighbouring grid points (rows `y0`/`y1`, columns `x0`/`x1`, each index
    wrapped and clamped as the reference's indexing does). -/
theorem sampled_read (x0 : A4) (x2 : K3) (b : Fin 32) (n : Fin 128) (c : Fin 256) :
    val_main_v157 (F := Ideal) x0 x2 (ix3 b n c)
      = ((val_main_v51 (F := Ideal) x2 (ix2 b n) * val_main_v7 (F := Ideal) x0 (ix4 b c (cl63 (wrap 64#32 (val_main_v33 (F := Ideal) x2 (ix2 b n))))
            (cl63 (wrap 64#32 (val_main_v30 (F := Ideal) x2 (ix2 b n)))))
          + val_main_v55 (F := Ideal) x2 (ix2 b n) * val_main_v7 (F := Ideal) x0 (ix4 b c (cl63 (wrap 64#32 (val_main_v39 (F := Ideal) x2 (ix2 b n))))
            (cl63 (wrap 64#32 (val_main_v30 (F := Ideal) x2 (ix2 b n))))))
          + val_main_v59 (F := Ideal) x2 (ix2 b n) * val_main_v7 (F := Ideal) x0 (ix4 b c (cl63 (wrap 64#32 (val_main_v33 (F := Ideal) x2 (ix2 b n))))
            (cl63 (wrap 64#32 (val_main_v36 (F := Ideal) x2 (ix2 b n))))))
          + val_main_v61 (F := Ideal) x2 (ix2 b n) * val_main_v7 (F := Ideal) x0 (ix4 b c (cl63 (wrap 64#32 (val_main_v39 (F := Ideal) x2 (ix2 b n))))
            (cl63 (wrap 64#32 (val_main_v36 (F := Ideal) x2 (ix2 b n))))) := by
  rw [val_main_v157_apply, val_main_v133_apply, val_main_v109_apply, val_main_v85_apply, val_main_v108_apply,
    val_main_v132_apply, val_main_v156_apply, gather1_read, gather2_read, gather3_read, gather4_read,
    weight1_read, weight2_read, weight3_read, weight4_read]
  rfl

/-! ## The soft targets: the four scattered weights of each keypoint -/

/-- The first index column of the scatter at `(b', n', k)`: the iota's word `b'`. -/
theorem scol0_read (b' : Fin 32) (n' : Fin 128) (k : Fin 4) (u : Fin 1) :
    val_main_v248 (F := Ideal) (ix4 b' n' k u) = BitVec.ofNat 32 b'.val := by
  rw [val_main_v248_apply, val_main_v246_apply, val_main_v235_apply, val_main_v232_apply, val_main_v234_apply,
    val_main_v231_apply, val_main_v233_apply, val_main_v227_apply, val_main_v226_apply]
  exact wrap_ofNat 32#32 b'.val (by have := b'.isLt; omega)

/-- The second index column of the scatter at `(b', n', k)`: the iota's word `n'`. -/
theorem scol1_read (b' : Fin 32) (n' : Fin 128) (k : Fin 4) (u : Fin 1) :
    val_main_v249 (F := Ideal) (ix4 b' n' k u) = BitVec.ofNat 32 n'.val := by
  rw [val_main_v249_apply, val_main_v247_apply, val_main_v240_apply, val_main_v237_apply, val_main_v239_apply,
    val_main_v236_apply, val_main_v238_apply, val_main_v229_apply, val_main_v228_apply]
  exact wrap_ofNat 128#32 n'.val (by have := n'.isLt; omega)

/-- The flat grid positions `y · 64 + x` of the four corners of target keypoint `(b, n)`, as the stages that hold them. -/
abbrev pos (x3 : K3) (b : Fin 32) (n : Fin 128) (k : Fin 4) : BitVec 32 :=
  (![val_main_v211 (F := Ideal) x3, val_main_v214 (F := Ideal) x3, val_main_v217 (F := Ideal) x3,
    val_main_v220 (F := Ideal) x3] k) (ix2 b n)

/-- The four flat positions over the target keypoint's integer coordinates: `y0·64 + x0`, `y1·64 + x0`, `y0·64 + x1`,
    `y1·64 + x1` (rows `y0 = v178`, `y1 = v181`; columns `x0 = v172`, `x1 = v175`). -/
theorem pos_read (x3 : K3) (b : Fin 32) (n : Fin 128) (k : Fin 4) :
    pos x3 b n k
      = (![IntOp.addi (IntOp.muli (val_main_v178 (F := Ideal) x3 (ix2 b n)) 64#32) (val_main_v172 (F := Ideal) x3 (ix2 b n)),
          IntOp.addi (IntOp.muli (val_main_v181 (F := Ideal) x3 (ix2 b n)) 64#32) (val_main_v172 (F := Ideal) x3 (ix2 b n)),
          IntOp.addi (IntOp.muli (val_main_v178 (F := Ideal) x3 (ix2 b n)) 64#32) (val_main_v175 (F := Ideal) x3 (ix2 b n)),
          IntOp.addi (IntOp.muli (val_main_v181 (F := Ideal) x3 (ix2 b n)) 64#32) (val_main_v175 (F := Ideal) x3 (ix2 b n))] : Fin 4 → BitVec 32) k := by
  match k with
  | ⟨0, _⟩ =>
    show val_main_v211 (F := Ideal) x3 (ix2 b n) = _
    rw [val_main_v211_apply, val_main_v210_apply, val_main_v209_apply]; rfl
  | ⟨1, _⟩ =>
    show val_main_v214 (F := Ideal) x3 (ix2 b n) = _
    rw [val_main_v214_apply, val_main_v213_apply, val_main_v212_apply]; rfl
  | ⟨2, _⟩ =>
    show val_main_v217 (F := Ideal) x3 (ix2 b n) = _
    rw [val_main_v217_apply, val_main_v216_apply, val_main_v215_apply]; rfl
  | ⟨3, _⟩ =>
    show val_main_v220 (F := Ideal) x3 (ix2 b n) = _
    rw [val_main_v220_apply, val_main_v219_apply, val_main_v218_apply]; rfl

/-- The concatenated flat positions at `(b, n, k)`. -/
theorem v225_read (x3 : K3) (b : Fin 32) (n : Fin 128) (k : Fin 4) :
    val_main_v225 (F := Ideal) x3 (ix3 b n k) = pos x3 b n k := by
  unfold val_main_v225
  rw [concat4_ab1_apply]
  match k with
  | ⟨0, _⟩ =>
    show val_main_v221 (F := Ideal) x3 (ix3 b n 0) = val_main_v211 (F := Ideal) x3 (ix2 b n)
    rw [val_main_v221_apply]; exact congrArg (val_main_v211 (F := Ideal) x3) (by ixeq2)
  | ⟨1, _⟩ =>
    show val_main_v222 (F := Ideal) x3 (ix3 b n 0) = val_main_v214 (F := Ideal) x3 (ix2 b n)
    rw [val_main_v222_apply]; exact congrArg (val_main_v214 (F := Ideal) x3) (by ixeq2)
  | ⟨2, _⟩ =>
    show val_main_v223 (F := Ideal) x3 (ix3 b n 0) = val_main_v217 (F := Ideal) x3 (ix2 b n)
    rw [val_main_v223_apply]; exact congrArg (val_main_v217 (F := Ideal) x3) (by ixeq2)
  | ⟨3, _⟩ =>
    show val_main_v224 (F := Ideal) x3 (ix3 b n 0) = val_main_v220 (F := Ideal) x3 (ix2 b n)
    rw [val_main_v224_apply]; exact congrArg (val_main_v220 (F := Ideal) x3) (by ixeq2)

/-- The third index column of the scatter at `(b, n, k)`: the wrapped flat position of corner `k`. -/
theorem scol2_read (x3 : K3) (b : Fin 32) (n : Fin 128) (k : Fin 4) (u : Fin 1) :
    val_main_v250 (F := Ideal) x3 (ix4 b n k u) = wrap 4096#32 (pos x3 b n k) := by
  rw [val_main_v250_apply, val_main_v245_apply, val_main_v242_apply, val_main_v244_apply, val_main_v241_apply,
    val_main_v243_apply]
  have e : idx_main_v250 (ix4 b n k u) = ix3 b n k := by ixeq3
  rw [e, v225_read]
  rfl

/-- The four bilinear target weights of keypoint `(b, n)`, as the stages that hold them. -/
abbrev tw (x3 : K3) (b : Fin 32) (n : Fin 128) (k : Fin 4) : EReal :=
  (![val_main_v188 (F := Ideal) x3, val_main_v191 (F := Ideal) x3, val_main_v194 (F := Ideal) x3,
    val_main_v197 (F := Ideal) x3] k) (ix2 b n)

/-- The scatter's updates at `(b, n, k)`: target weight `k` of keypoint `(b, n)` times its mask. -/
theorem updates_read (x3 : K3) (x4 : M2) (b : Fin 32) (n : Fin 128) (k : Fin 4) :
    val_main_v208 (F := Ideal) x3 x4 (ix3 b n k) = tw x3 b n k * val_main_v200 (F := Ideal) x4 (ix2 b n) := by
  rw [val_main_v208_apply, val_main_v207_apply, val_main_v206_apply]
  have e : idx_main_v206 (idx_main_v207 (ix3 b n k)) = ix2 b n := by ixeq2
  rw [e]
  show _ * _ = _ * _
  refine congrArg₂ (· * ·) ?_ rfl
  unfold val_main_v205
  rw [concat4_ab1_apply]
  match k with
  | ⟨0, _⟩ =>
    show val_main_v201 (F := Ideal) x3 (ix3 b n 0) = val_main_v188 (F := Ideal) x3 (ix2 b n)
    rw [val_main_v201_apply]; exact congrArg (val_main_v188 (F := Ideal) x3) (by ixeq2)
  | ⟨1, _⟩ =>
    show val_main_v202 (F := Ideal) x3 (ix3 b n 0) = val_main_v191 (F := Ideal) x3 (ix2 b n)
    rw [val_main_v202_apply]; exact congrArg (val_main_v191 (F := Ideal) x3) (by ixeq2)
  | ⟨2, _⟩ =>
    show val_main_v203 (F := Ideal) x3 (ix3 b n 0) = val_main_v194 (F := Ideal) x3 (ix2 b n)
    rw [val_main_v203_apply]; exact congrArg (val_main_v194 (F := Ideal) x3) (by ixeq2)
  | ⟨3, _⟩ =>
    show val_main_v204 (F := Ideal) x3 (ix3 b n 0) = val_main_v197 (F := Ideal) x3 (ix2 b n)
    rw [val_main_v204_apply]; exact congrArg (val_main_v197 (F := Ideal) x3) (by ixeq2)

/-- The scatter's operand is zero everywhere. -/
theorem zeros_read (i : S32x128x4096.Idx) : val_main_v230 (F := Ideal) i = Z := by
  rw [val_main_v230_apply]; rfl

/-- The soft targets before collapsing, as the scatter gives them: at `(b, n, p)` zero plus every update entry
    `(b', n', k)` whose three index words (the iotas `b'`, `n'` and the wrapped flat position of corner `k`) read
    `(b, n, p)`. -/
theorem targets_read_triple (x3 : K3) (x4 : M2) (b : Fin 32) (n : Fin 128) (p : Fin 4096) :
    val_main_v252 (F := Ideal) x3 x4 (ix3 b n p)
      = Z + ∑ b' : Fin 32, ∑ n' : Fin 128, ∑ k : Fin 4,
          if (BitVec.ofNat 32 b'.val).toInt = (b.val : ℤ) ∧ (BitVec.ofNat 32 n'.val).toInt = (n.val : ℤ)
            ∧ (wrap 4096#32 (pos x3 b' n' k)).toInt = (p.val : ℤ)
          then tw x3 b' n' k * val_main_v200 (F := Ideal) x4 (ix2 b' n') else 0 := by
  unfold val_main_v252 val_main_v251
  rw [scatter_read, zeros_read]
  refine congrArg (Z + ·) ?_
  refine Finset.sum_congr rfl fun b' _ => Finset.sum_congr rfl fun n' _ => Finset.sum_congr rfl fun k _ => ?_
  rw [scol0_read, scol1_read, scol2_read, updates_read]

/-- **(C)** The soft targets at `(b, n, p)`: zero plus, for each of the four corners `k` of target keypoint `(b, n)` whose
    wrapped flat position reads `p`, the corner's bilinear weight times the keypoint's mask. -/
theorem targets_read (x3 : K3) (x4 : M2) (b : Fin 32) (n : Fin 128) (p : Fin 4096) :
    val_main_v252 (F := Ideal) x3 x4 (ix3 b n p)
      = Z + ∑ k : Fin 4,
          if (wrap 4096#32 (pos x3 b n k)).toInt = (p.val : ℤ)
          then tw x3 b n k * val_main_v200 (F := Ideal) x4 (ix2 b n) else 0 := by
  unfold val_main_v252 val_main_v251
  rw [scatter_read_collapsed _ _ _ _ (fun b' n' k => scol0_read b' n' k 0) (fun b' n' k => scol1_read b' n' k 0), zeros_read]
  refine congrArg (Z + ·) (Finset.sum_congr rfl fun k _ => ?_)
  rw [scol2_read, updates_read]

/-! ## The mask -/

/-- The mask stage at `(b, n)`: the one-bit word "the mask argument's entry is not 0", read unsigned — `1` where the
    entry is non-zero and `0` where it is zero. -/
theorem mask_read (x4 : M2) (b : Fin 32) (n : Fin 128) :
    val_main_v200 (F := Ideal) x4 (ix2 b n)
      = (((IntOp.cmpi .ne (x4 (ix2 b n)) 0#32).toNat : ℝ) : EReal) := by
  rw [val_main_v200_apply, val_main_v199_apply, val_main_v198_apply]
  rfl

/-- Where the mask argument's entry is zero the mask stage is `0`. -/
theorem mask_zero (x4 : M2) (b : Fin 32) (n : Fin 128) (h : x4 (ix2 b n) = 0#32) :
    val_main_v200 (F := Ideal) x4 (ix2 b n) = 0 := by
  rw [mask_read, h]
  simp [IntOp.cmpi]

/-- Where the mask argument's entry is not zero the mask stage is `1`. -/
theorem mask_one (x4 : M2) (b : Fin 32) (n : Fin 128) (h : x4 (ix2 b n) ≠ 0#32) :
    val_main_v200 (F := Ideal) x4 (ix2 b n) = 1 := by
  rw [mask_read]
  have : IntOp.cmpi .ne (x4 (ix2 b n)) 0#32 = 1#1 := by
    show BitVec.ofBool (x4 (ix2 b n) != 0#32) = 1#1
    have hb : (x4 (ix2 b n) != 0#32) = true := by simpa [bne_iff_ne] using h
    rw [hb]; rfl
  rw [this]
  simp

/-! ## The whole value over the atoms -/

/-- The sampled source feature of keypoint `(b, n)`, channel `c`, over the atoms: the four source weights and the
    normalised source features at the four neighbouring grid points. -/
def Qf (x0 : A4) (x2 : K3) (b : Fin 32) (n : Fin 128) (c : Fin 256) : EReal :=
  ((val_main_v51 (F := Ideal) x2 (ix2 b n) * val_main_v7 (F := Ideal) x0 (ix4 b c (cl63 (wrap 64#32 (val_main_v33 (F := Ideal) x2 (ix2 b n))))
            (cl63 (wrap 64#32 (val_main_v30 (F := Ideal) x2 (ix2 b n)))))
      + val_main_v55 (F := Ideal) x2 (ix2 b n) * val_main_v7 (F := Ideal) x0 (ix4 b c (cl63 (wrap 64#32 (val_main_v39 (F := Ideal) x2 (ix2 b n))))
            (cl63 (wrap 64#32 (val_main_v30 (F := Ideal) x2 (ix2 b n))))))
      + val_main_v59 (F := Ideal) x2 (ix2 b n) * val_main_v7 (F := Ideal) x0 (ix4 b c (cl63 (wrap 64#32 (val_main_v33 (F := Ideal) x2 (ix2 b n))))
            (cl63 (wrap 64#32 (val_main_v36 (F := Ideal) x2 (ix2 b n))))))
      + val_main_v61 (F := Ideal) x2 (ix2 b n) * val_main_v7 (F := Ideal) x0 (ix4 b c (cl63 (wrap 64#32 (val_main_v39 (F := Ideal) x2 (ix2 b n))))
            (cl63 (wrap 64#32 (val_main_v36 (F := Ideal) x2 (ix2 b n)))))

/-- The logit of keypoint `(b, n)` against grid position `p`, over the atoms. -/
def Lg (x0 x1 : A4) (x2 : K3) (b : Fin 32) (n : Fin 128) (p : Fin 4096) : EReal :=
  Ideal.div (∑ c : Fin 256, Qf x0 x2 b n c * val_main_v15 (F := Ideal) x1 (ix4 b c (gy p) (gx p)))
    (Ideal.ofBits .f32 0x3DCCCCCD#32)

/-- The row maximum of the logits of keypoint `(b, n)`, as the reference takes it. -/
def Mx (x0 x1 : A4) (x2 : K3) (b : Fin 32) (n : Fin 128) : EReal :=
  max NEG ((Finset.univ : Finset (Fin 4096)).fold max NEG (fun q => Lg x0 x1 x2 b n q))

/-- The log-probability of grid position `p` for keypoint `(b, n)`. -/
def Lsm (x0 x1 : A4) (x2 : K3) (b : Fin 32) (n : Fin 128) (p : Fin 4096) : EReal :=
  (Lg x0 x1 x2 b n p - Mx x0 x1 x2 b n)
    - Ideal.log (Z + ∑ q : Fin 4096, Ideal.exp (Lg x0 x1 x2 b n q - Mx x0 x1 x2 b n))

/-- The soft target of keypoint `(b, n)` at grid position `p`. -/
def Tg (x3 : K3) (x4 : M2) (b : Fin 32) (n : Fin 128) (p : Fin 4096) : EReal :=
  Z + ∑ k : Fin 4,
    if (wrap 4096#32 (pos x3 b n k)).toInt = (p.val : ℤ)
    then tw x3 b n k * val_main_v200 (F := Ideal) x4 (ix2 b n) else 0

theorem L_eq_Lg (x0 x1 : A4) (x2 : K3) (b : Fin 32) (n : Fin 128) (p : Fin 4096) :
    L x0 x1 x2 b n p = Lg x0 x1 x2 b n p := by
  show val_main_v161 (F := Ideal) x0 x1 x2 (ix3 b n p) = _
  rw [logits_read]
  unfold Lg
  refine congrArg₂ Ideal.div (Finset.sum_congr rfl fun c _ => ?_) rfl
  rw [sampled_read]
  rfl

theorem M_eq_Mx (x0 x1 : A4) (x2 : K3) (b : Fin 32) (n : Fin 128) :
    M x0 x1 x2 b n = Mx x0 x1 x2 b n := by
  have h : (fun q => L x0 x1 x2 b n q) = fun q => Lg x0 x1 x2 b n q := funext fun q => L_eq_Lg x0 x1 x2 b n q
  show max NEG ((Finset.univ : Finset (Fin 4096)).fold max NEG (fun q => L x0 x1 x2 b n q)) = _
  rw [h]
  rfl

theorem logsoftmax_eq_Lsm (x0 x1 : A4) (x2 : K3) (b : Fin 32) (n : Fin 128) (p : Fin 4096) :
    val_main_v253 (F := Ideal) x0 x1 x2 (ix3 b n p) = Lsm x0 x1 x2 b n p := by
  rw [logsoftmax_read, M_eq_Mx, L_eq_Lg]
  unfold Lsm
  refine congrArg₂ (· - ·) rfl (congrArg Ideal.log (congrArg₂ (· + ·) rfl (Finset.sum_congr rfl fun q _ => ?_)))
  rw [L_eq_Lg]

/-- **The reference's value over the atoms**: the sum over the keypoints `(b, n)` of minus the cross entropy of the soft
    targets `Tg` against the log-probabilities `Lsm`, times the keypoint's mask, from zero, divided by the denominator
    stage (`Qf`, `Lg`, `Mx`, `Lsm`, `Tg` above unfold to the atoms). -/
theorem main (x0 x1 : A4) (x2 x3 : K3) (x4 : M2) :
    val_main_v261 (F := Ideal) x0 x1 x2 x3 x4 ix0
      = Ideal.div (Z + ∑ b : Fin 32, ∑ n : Fin 128,
          (-(Z + ∑ p : Fin 4096, Tg x3 x4 b n p * Lsm x0 x1 x2 b n p)) * val_main_v200 (F := Ideal) x4 (ix2 b n))
          (val_main_v258 (F := Ideal) x4 ix0) := by
  rw [top]
  refine congrArg₂ Ideal.div (congrArg (Z + ·) ?_) rfl
  refine Finset.sum_congr rfl fun b _ => Finset.sum_congr rfl fun n _ => ?_
  refine congrArg₂ (· * ·) (congrArg Neg.neg (congrArg (Z + ·) (Finset.sum_congr rfl fun p _ => ?_))) rfl
  rw [targets_read, logsoftmax_eq_Lsm]
  rfl

/-! ## Index words in range: the wrap-around and the clamp are the identity -/

/-- A coordinate word in `[0, 63]` is neither wrapped nor clamped. -/
theorem cl63_wrap_val (v : BitVec 32) (h0 : 0 ≤ v.toInt) (h1 : v.toInt ≤ 63) :
    (cl63 (wrap 64#32 v)).val = v.toInt.toNat := by
  rw [wrap_of_nonneg 64#32 v h0]
  show min v.toInt.toNat 63 = v.toInt.toNat
  omega

/-! ## The denominator -/

/-- The denominator stage: the larger of the sum of the mask stages over the keypoints (from zero) and one. -/
theorem denom_read (x4 : M2) :
    val_main_v258 (F := Ideal) x4 ix0
      = max (Z + ∑ b : Fin 32, ∑ n : Fin 128, val_main_v200 (F := Ideal) x4 (ix2 b n))
          (Ideal.ofBits .f32 0x3F800000#32) := by
  refine (val_main_v258_apply (F := Ideal) x4 ix0).trans ?_
  show max _ _ = max _ _
  refine congrArg₂ max ?_ rfl
  refine (val_main_v257_apply x4 ix0).trans ?_
  exact congrArg₂ (· + ·) rfl (sum_idx2 _)

end Cert.RefValue

end
-- ==== Proof.LossAlgebra.lean ====
/-
  The algebra of the loss: one-hot rows, position words, the temperature scale.

  A row built by four selections `if position = word k then weight k else 0`, added from zero, is at each position the sum
  of the weights whose word is that position.  Its product with a vector, summed over the positions, is therefore the sum of
  the four weights each times the vector's entry at its word — whether or not the words are distinct.  That identity uses
  distributivity, which the extended reals have only away from the infinities: weights and entries are real there.
  Division by the pattern of one tenth is multiplication by the real `134217728 / 13421773`.
-/
import Idealize.ShloMosaic.PureOps.Ideal
import Idealize.ShloMosaic.PureOps.Ideal.Laws

open scoped BigOperators

noncomputable section

namespace Cert.LossAlgebra

open Idealize.ShloMosaic

local notation "z" => Ideal.ofBits FTy.f32 0x00000000#32

/-! ### Patterns -/

theorem ofBits_zero : Ideal.ofBits .f32 0x00000000#32 = 0 := Ideal.ofBits_zero_f32

theorem ofBits_one : Ideal.ofBits .f32 0x3F800000#32 = ((1 : ℝ) : EReal) := by
  simp [Ideal.ofBits, Ideal.ieee, -EReal.coe_mul]
  norm_num

theorem ofBits_neg_inf : Ideal.ofBits .f32 0xFF800000#32 = (⊥ : EReal) := by simp [Ideal.ofBits, Ideal.ieee]

/-- The pattern `0x3DCCCCCD` denotes `13421773 · 2⁻²⁷`. -/
theorem ofBits_tenth : Ideal.ofBits .f32 0x3DCCCCCD#32 = ((13421773 / 134217728 : ℝ) : EReal) := by
  simp [Ideal.ofBits, Ideal.ieee, -EReal.coe_mul]
  norm_num

/-- Multiplying by `134217728 / 13421773` is dividing by the pattern of one tenth, on every extended real. -/
theorem scale_eq (x : EReal) :
    x * ((134217728 / 13421773 : ℝ) : EReal) = Ideal.div x (Ideal.ofBits .f32 0x3DCCCCCD#32) := by
  rw [ofBits_tenth, Ideal.div_coe (by norm_num)]
  congr 2
  norm_num

/-! ### The selection and the position words -/

/-- A selection on an equality test of two words is an `if` on their equality. -/
theorem select_eq_ite (x y : BitVec 32) (a b : EReal) :
    Scalar.select (IntOp.cmpi .eq x y) a b = if x = y then a else b := by
  unfold Scalar.select IntOp.cmpi
  by_cases h : x = y
  · simp [h]
  · have hb : (x == y) = false := beq_eq_false_iff_ne.mpr h
    simp [hb, h]

/-- A number below `2 ^ 32` written as a word is a given word exactly when that word reads as the number. -/
theorem ofNat_eq_iff_toNat {n : ℕ} (hn : n < 2 ^ 32) (j : BitVec 32) : BitVec.ofNat 32 n = j ↔ j.toNat = n := by
  constructor
  · intro h; rw [← h, BitVec.toNat_ofNat]; exact Nat.mod_eq_of_lt hn
  · intro h; rw [← h]; simp

/-- A position written as a word is a given word exactly when it is the position the word reads as. -/
theorem ofNat_eq_iff {P : ℕ} (hP : P ≤ 2 ^ 32) (p : Fin P) (j : BitVec 32) (hj : j.toNat < P) :
    BitVec.ofNat 32 p.val = j ↔ p = ⟨j.toNat, hj⟩ := by
  rw [ofNat_eq_iff_toNat (lt_of_lt_of_le p.isLt hP), Fin.ext_iff]
  exact eq_comm

/-! ### Reals inside the extended reals -/

/-- A family of real values is the image of a family of real numbers. -/
theorem exists_real_fun {ι : Sort*} {x : ι → EReal} (h : ∀ i, ∃ r : ℝ, x i = (r : EReal)) :
    ∃ f : ι → ℝ, x = fun i => (f i : EReal) := by
  choose f hf using h
  exact ⟨f, funext hf⟩

/-- The image of a finite sum of reals is the sum of the images. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A choice between a real and zero is the image of the choice made among the reals. -/
theorem ite_coe_zero (c : Prop) [Decidable c] (a : ℝ) :
    (if c then (a : EReal) else 0) = ((if c then a else 0 : ℝ) : EReal) := by
  split <;> rfl

/-! ### The one-hot row -/

/-- The row at one position: the four selections added from zero are the sum of the values whose word reads as the
    position.  No value need be real. -/
theorem row_eq_filter_sum {P : ℕ} (hP : P ≤ 2 ^ 32) (j : Fin 4 → BitVec 32) (t : Fin 4 → EReal) (p : Fin P) :
    (((z + Scalar.select (IntOp.cmpi .eq (BitVec.ofNat 32 p.val) (j 0)) (t 0) z)
        + Scalar.select (IntOp.cmpi .eq (BitVec.ofNat 32 p.val) (j 1)) (t 1) z)
        + Scalar.select (IntOp.cmpi .eq (BitVec.ofNat 32 p.val) (j 2)) (t 2) z)
        + Scalar.select (IntOp.cmpi .eq (BitVec.ofNat 32 p.val) (j 3)) (t 3) z
      = z + ∑ k ∈ Finset.univ.filter (fun k : Fin 4 => (j k).toNat = p.val), t k := by
  have hp : p.val < 2 ^ 32 := lt_of_lt_of_le p.isLt hP
  simp only [select_eq_ite, ofNat_eq_iff_toNat hp, ofBits_zero, Finset.sum_filter, Fin.sum_univ_four, zero_add, add_assoc]

/-- The row against a vector: the sum over the positions of the row's entry times the vector's is the four weights each
    times the vector's entry at its word.  Weights and entries are real; the words need not be distinct. -/
theorem onehot_row_dot {P : ℕ} (hP : P ≤ 2 ^ 32) (j : Fin 4 → BitVec 32) (hj : ∀ k, (j k).toNat < P)
    (w : Fin 4 → EReal) (v : Fin P → EReal) (hw : ∀ k, ∃ r : ℝ, w k = (r : EReal))
    (hv : ∀ p, ∃ r : ℝ, v p = (r : EReal)) :
    ∑ p : Fin P, ((((z + Scalar.select (IntOp.cmpi .eq (BitVec.ofNat 32 p.val) (j 0)) (w 0) z)
        + Scalar.select (IntOp.cmpi .eq (BitVec.ofNat 32 p.val) (j 1)) (w 1) z)
        + Scalar.select (IntOp.cmpi .eq (BitVec.ofNat 32 p.val) (j 2)) (w 2) z)
        + Scalar.select (IntOp.cmpi .eq (BitVec.ofNat 32 p.val) (j 3)) (w 3) z) * v p
      = ((w 0 * v ⟨(j 0).toNat, hj 0⟩ + w 1 * v ⟨(j 1).toNat, hj 1⟩) + w 2 * v ⟨(j 2).toNat, hj 2⟩)
          + w 3 * v ⟨(j 3).toNat, hj 3⟩ := by
  obtain ⟨wr, rfl⟩ := exists_real_fun hw
  obtain ⟨vr, rfl⟩ := exists_real_fun hv
  simp only [select_eq_ite, ofNat_eq_iff hP _ _ (hj _), ofBits_zero, zero_add, ite_coe_zero, ← EReal.coe_add,
    ← EReal.coe_mul, ← coe_sum]
  congr 1
  simp only [add_mul, Finset.sum_add_distrib, ite_mul, zero_mul, Finset.sum_ite_eq', Finset.mem_univ, if_true]

/-! ### Small identities -/

theorem max_bot_fold {ι : Type*} (s : Finset ι) (g : ι → EReal) :
    max (Ideal.ofBits .f32 0xFF800000#32) (s.fold max (Ideal.ofBits .f32 0xFF800000#32) g)
      = s.fold max (Ideal.ofBits .f32 0xFF800000#32) g := by
  rw [ofBits_neg_inf]; exact max_bot_left _

theorem neg_zero_add_mul_one (S : EReal) : (-(z + S)) * ((1 : ℝ) : EReal) = z - S := by
  rw [ofBits_zero, zero_add, EReal.coe_one, mul_one, sub_eq_add_neg, zero_add]

theorem zero_sub_zero : z - 0 = 0 := by rw [ofBits_zero]; simp

theorem neg_zero_add_zero_mul_zero : (-(z + 0)) * ((0 : ℝ) : EReal) = 0 := by
  rw [ofBits_zero]; simp

end Cert.LossAlgebra

end
-- ==== Proof.LibFlatIndex.lean ====
/-
  Flat positions of clipped coordinates.

  A 32-bit word read as a signed integer that is not negative reads the same as an unsigned one.  Two such words `Y`, `X`
  at most 63 give the word `Y · 64 + X` without wrapping, so it reads as `Y · 64 + X`, a position below 4096.  The
  wrap-around of an index, "add the extent if negative", leaves a nonnegative word as it is.
-/
import Idealize.ShloMosaic.PureOps.Ideal

namespace Cert.FlatIndex

open Idealize.ShloMosaic

/-- A word whose signed reading is not negative reads the same signed and unsigned. -/
theorem toInt_eq_toNat_of_nonneg {v : BitVec 32} (h0 : 0 ≤ v.toInt) : v.toInt = (v.toNat : ℤ) := by
  have hlt := v.isLt
  have e := BitVec.toInt_eq_toNat_cond v
  by_cases hc : 2 * v.toNat < 2 ^ 32
  · rw [e, if_pos hc]
  · rw [e, if_neg hc] at h0; omega

theorem toInt_toNat_of_nonneg {v : BitVec 32} (h0 : 0 ≤ v.toInt) : v.toInt.toNat = v.toNat := by
  rw [toInt_eq_toNat_of_nonneg h0]; exact Int.toNat_natCast _

/-- A bound on the signed reading of a nonnegative word bounds its unsigned reading. -/
theorem toNat_le_of_toInt_le {v : BitVec 32} {n : ℕ} (h0 : 0 ≤ v.toInt) (h1 : v.toInt ≤ (n : ℤ)) : v.toNat ≤ n := by
  rw [toInt_eq_toNat_of_nonneg h0] at h1; exact_mod_cast h1

theorem toNat_le_63 {v : BitVec 32} (h0 : 0 ≤ v.toInt) (h1 : v.toInt ≤ 63) : v.toNat ≤ 63 :=
  toNat_le_of_toInt_le (n := 63) h0 h1

/-- Clipping from above at 63 a word already in `[0, 63]` changes nothing. -/
theorem min_toInt_toNat {v : BitVec 32} (h0 : 0 ≤ v.toInt) (h1 : v.toInt ≤ 63) : min v.toInt.toNat (64 - 1) = v.toNat := by
  rw [toInt_toNat_of_nonneg h0]; exact min_eq_left (toNat_le_63 h0 h1)

/-- The flat position `Y · 64 + X` of two coordinates in `[0, 63]`, computed on words, does not wrap. -/
theorem flat_toNat {Y X : BitVec 32} (hY0 : 0 ≤ Y.toInt) (hY1 : Y.toInt ≤ 63) (hX0 : 0 ≤ X.toInt) (hX1 : X.toInt ≤ 63) :
    (IntOp.addi (IntOp.muli Y 64#32) X).toNat = Y.toNat * 64 + X.toNat := by
  have hy := toNat_le_63 hY0 hY1
  have hx := toNat_le_63 hX0 hX1
  simp only [IntOp.addi, IntOp.muli, BitVec.toNat_add, BitVec.toNat_mul, BitVec.toNat_ofNat]
  omega

/-- So the flat position is below `64 · 64`. -/
theorem flat_lt {Y X : BitVec 32} (hY0 : 0 ≤ Y.toInt) (hY1 : Y.toInt ≤ 63) (hX0 : 0 ≤ X.toInt) (hX1 : X.toInt ≤ 63) :
    (IntOp.addi (IntOp.muli Y 64#32) X).toNat < 4096 := by
  have hy := toNat_le_63 hY0 hY1
  have hx := toNat_le_63 hX0 hX1
  rw [flat_toNat hY0 hY1 hX0 hX1]; omega

/-- The wrap-around of a nonnegative index is the identity. -/
theorem select_wrap {v : BitVec 32} (h0 : 0 ≤ v.toInt) :
    Scalar.select (IntOp.cmpi .slt v 0#32) (IntOp.addi v 64#32) v = v := by
  have hs : v.slt 0#32 = false := by
    simp only [BitVec.slt, BitVec.toInt_zero]
    exact decide_eq_false (not_lt.mpr h0)
  unfold Scalar.select IntOp.cmpi
  simp [hs]

end Cert.FlatIndex
-- ==== Proof.RealClosure.lean ====
/-
  Extended reals that are real numbers, and the operations that keep them so.

  Away from the infinities the arithmetic of the extended reals is the arithmetic of the reals: sums, products,
  differences, maxima and minima of real values are real values, and so is a finite sum of them.  A quotient of real
  values is real when the divisor is not zero; the square root of a nonnegative real is a nonnegative real; the
  exponential of a real is a positive real and the logarithm of a positive real is real.  The pattern `0x2B8CBCCC`
  denotes a positive real (`9223372 · 2⁻⁶³`, about `10⁻¹²`), so a maximum with it is a positive real.
-/
import Idealize.ShloMosaic.PureOps.Ideal
import Idealize.ShloMosaic.PureOps.Ideal.Laws

open scoped BigOperators

noncomputable section

namespace Cert.RealClosure

open Idealize.ShloMosaic

/-- An extended real that is the image of a real number. -/
abbrev IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_of_ne {x : EReal} (hb : x ≠ ⊥) (ht : x ≠ ⊤) : IsReal x := by
  induction x using EReal.rec with
  | bot => exact absurd rfl hb
  | top => exact absurd rfl ht
  | coe r => exact ⟨r, rfl⟩

/-- A real value is the image of its own real part. -/
theorem IsReal.coe_toReal {x : EReal} (h : IsReal x) : ((x.toReal : ℝ) : EReal) = x := by
  obtain ⟨r, rfl⟩ := h; rfl

/-- A family of real values is the image of a family of real numbers. -/
theorem exists_real_fun {ι : Sort*} {x : ι → EReal} (h : ∀ i, IsReal (x i)) :
    ∃ f : ι → ℝ, x = fun i => (f i : EReal) := by
  choose f hf using h
  exact ⟨f, funext hf⟩

/-! ### The maximum and the minimum of two reals -/

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem coe_min (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-! ### Closure under the arithmetic operations -/

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy; exact ⟨_, coe_max a b⟩

theorem IsReal.min {x y : EReal} (hx : IsReal x) (hy : IsReal y) : IsReal (min x y) := by
  obtain ⟨a, rfl⟩ := hx; obtain ⟨b, rfl⟩ := hy; exact ⟨_, coe_min a b⟩

theorem IsReal.ite {p : Prop} [Decidable p] {x y : EReal} (hx : IsReal x) (hy : IsReal y) :
    IsReal (if p then x else y) := by
  split
  · exact hx
  · exact hy

/-! ### Finite sums -/

/-- The image of a finite sum of reals is the sum of the images. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) : ((∑ k, f k : ℝ) : EReal) = ∑ k, (f k : EReal) :=
  coe_sum Finset.univ f

/-- A finite sum of real values is a real value. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-! ### Division -/

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (fun hb => h0 (by rw [hb]; rfl))⟩

/-! ### Square root, exponential, logarithm -/

theorem sqrt_coe_of_nonneg {a : ℝ} (ha : 0 ≤ a) : Ideal.sqrt (a : EReal) = ((Real.sqrt a : ℝ) : EReal) := by
  rw [Ideal.sqrt_coe, if_neg (not_lt.mpr ha)]

/-- The square root of a nonnegative real is a nonnegative real. -/
theorem sqrt_nonneg_real {a : ℝ} (ha : 0 ≤ a) : ∃ r : ℝ, 0 ≤ r ∧ Ideal.sqrt (a : EReal) = (r : EReal) :=
  ⟨Real.sqrt a, Real.sqrt_nonneg a, sqrt_coe_of_nonneg ha⟩

/-- The exponential of a real is a positive real. -/
theorem exp_pos_real (a : ℝ) : ∃ r : ℝ, 0 < r ∧ Ideal.exp (a : EReal) = (r : EReal) :=
  ⟨Real.exp a, Real.exp_pos a, rfl⟩

theorem IsReal.exp {x : EReal} (hx : IsReal x) : IsReal (Ideal.exp x) := by
  obtain ⟨a, rfl⟩ := hx; exact ⟨Real.exp a, rfl⟩

theorem log_coe_of_pos {a : ℝ} (ha : 0 < a) : Ideal.log (a : EReal) = ((Real.log a : ℝ) : EReal) := by
  rw [Ideal.log_coe, if_neg (not_le.mpr ha)]

/-- The logarithm of a positive real is a real. -/
theorem log_real_of_pos {a : ℝ} (ha : 0 < a) : IsReal (Ideal.log (a : EReal)) := ⟨Real.log a, log_coe_of_pos ha⟩

/-! ### The small positive constant -/

/-- The real number the pattern `0x2B8CBCCC` denotes: `9223372 · 2⁻⁶³`. -/
def eps : ℝ := 9223372 * (2 : ℝ) ^ (-63 : ℤ)

theorem eps_pos : 0 < eps := by unfold eps; positivity

theorem ofBits_eps : Ideal.ofBits .f32 0x2B8CBCCC#32 = (eps : EReal) := by
  unfold eps; simp [Ideal.ofBits, Ideal.ieee]

/-- The same constant as a program spells it, through the float operations' `ofBits`. -/
theorem floatOps_ofBits_eps : FloatOps.ofBits (F := Ideal) .f32 0x2B8CBCCC#32 = (eps : EReal) := ofBits_eps

/-- The pattern `0x2B8CBCCC` denotes a positive real. -/
theorem eps_pos_real : ∃ e : ℝ, 0 < e ∧ Ideal.ofBits .f32 0x2B8CBCCC#32 = (e : EReal) := ⟨eps, eps_pos, ofBits_eps⟩

theorem max_coe_eps (a : ℝ) : max (a : EReal) (Ideal.ofBits .f32 0x2B8CBCCC#32) = ((max a eps : ℝ) : EReal) := by
  rw [ofBits_eps, coe_max]

theorem max_eps_coe (a : ℝ) : max (Ideal.ofBits .f32 0x2B8CBCCC#32) (a : EReal) = ((max eps a : ℝ) : EReal) := by
  rw [ofBits_eps, coe_max]

/-- The maximum of a real with the small constant is a positive real. -/
theorem max_eps_pos_real (a : ℝ) :
    ∃ r : ℝ, 0 < r ∧ max (a : EReal) (Ideal.ofBits .f32 0x2B8CBCCC#32) = (r : EReal) :=
  ⟨max a eps, lt_max_of_lt_right eps_pos, max_coe_eps a⟩

theorem isReal_max_eps_pos {x : EReal} (hx : IsReal x) :
    ∃ r : ℝ, 0 < r ∧ max x (Ideal.ofBits .f32 0x2B8CBCCC#32) = (r : EReal) := by
  obtain ⟨a, rfl⟩ := hx; exact max_eps_pos_real a

/-- A real divided by the maximum of a real with the small constant is a real: the divisor is positive. -/
theorem div_max_eps (a b : ℝ) :
    Ideal.div (a : EReal) (max (b : EReal) (Ideal.ofBits .f32 0x2B8CBCCC#32)) = ((a / max b eps : ℝ) : EReal) := by
  rw [max_coe_eps, div_coe_coe a (lt_max_of_lt_right eps_pos).ne']

/-! ### Sums of products, the Euclidean norm -/

/-- A finite sum of products of reals. -/
theorem sum_mul_coe {ι : Type*} (s : Finset ι) (f g : ι → ℝ) :
    ∑ k ∈ s, (f k : EReal) * (g k : EReal) = ((∑ k ∈ s, f k * g k : ℝ) : EReal) := by
  rw [coe_sum]; exact Finset.sum_congr rfl fun k _ => (EReal.coe_mul _ _).symm

/-- The square root of a finite sum of squares of reals is the real square root: the sum is not negative. -/
theorem sqrt_sum_mul_self {ι : Type*} (s : Finset ι) (f : ι → ℝ) :
    Ideal.sqrt (∑ k ∈ s, (f k : EReal) * (f k : EReal)) = ((Real.sqrt (∑ k ∈ s, f k * f k) : ℝ) : EReal) := by
  rw [sum_mul_coe, sqrt_coe_of_nonneg (Finset.sum_nonneg fun k _ => mul_self_nonneg _)]

/-! ### The maximum of a nonempty finite family, folded from the bottom element -/

/-- The fold of `max` from `⊥` over a nonempty finite family is attained at a member. -/
theorem fold_max_mem {ι : Type*} (s : Finset ι) (g : ι → EReal) (hs : s.Nonempty) :
    ∃ i ∈ s, s.fold max ⊥ g = g i := by
  have e : s.fold max ⊥ g = s.sup g := rfl
  rw [e]
  exact Finset.exists_mem_eq_sup s hs g

/-- So the maximum of real values over a nonempty finite family is a real value. -/
theorem isReal_fold_max {ι : Type*} (s : Finset ι) (g : ι → EReal) (hs : s.Nonempty) (h : ∀ i ∈ s, IsReal (g i)) :
    IsReal (s.fold max ⊥ g) := by
  obtain ⟨i, hi, e⟩ := fold_max_mem s g hs
  rw [e]; exact h i hi

/-- Every member is at most the fold of `max`. -/
theorem le_fold_max {ι : Type*} (s : Finset ι) (g : ι → EReal) {i : ι} (hi : i ∈ s) : g i ≤ s.fold max ⊥ g := by
  have e : s.fold max ⊥ g = s.sup g := rfl
  rw [e]; exact Finset.le_sup hi

/-- The pattern `0xFF800000` denotes `-∞`, the value a maximum is folded from. -/
theorem ofBits_neg_inf : Ideal.ofBits .f32 0xFF800000#32 = (⊥ : EReal) := by simp [Ideal.ofBits, Ideal.ieee]

/-! ### Selections, positive values, sums of positive values -/

/-- A selection between two real values is a real value, whatever the condition word. -/
theorem isReal_select (c : BitVec 1) {x y : EReal} (hx : IsReal x) (hy : IsReal y) : IsReal (Scalar.select c x y) := by
  unfold Scalar.select; exact IsReal.ite hx hy

/-- The zero pattern denotes a real value. -/
theorem isReal_ofBits_zero : IsReal (Ideal.ofBits .f32 0x00000000#32) := ⟨0, Ideal.ofBits_zero_f32⟩

/-- The exponential of a real value is a positive real. -/
theorem exp_pos_real_of_isReal {x : EReal} (hx : IsReal x) : ∃ r : ℝ, 0 < r ∧ Ideal.exp x = (r : EReal) := by
  obtain ⟨a, rfl⟩ := hx; exact exp_pos_real a

/-- The logarithm of a positive real value is a real value. -/
theorem isReal_log_of_pos {x : EReal} (hx : ∃ r : ℝ, 0 < r ∧ x = (r : EReal)) : IsReal (Ideal.log x) := by
  obtain ⟨a, ha, rfl⟩ := hx; exact log_real_of_pos ha

/-- A real value divided by a positive real value is a real value. -/
theorem isReal_div_of_pos {x y : EReal} (hx : IsReal x) (hy : ∃ r : ℝ, 0 < r ∧ y = (r : EReal)) :
    IsReal (Ideal.div x y) := by
  obtain ⟨a, rfl⟩ := hx; obtain ⟨b, hb, rfl⟩ := hy; exact ⟨a / b, div_coe_coe a hb.ne'⟩

/-- A sum of positive reals over a nonempty finite family is a positive real. -/
theorem sum_pos_real {ι : Type*} (s : Finset ι) (hs : s.Nonempty) (f : ι → EReal)
    (h : ∀ i ∈ s, ∃ r : ℝ, 0 < r ∧ f i = (r : EReal)) : ∃ r : ℝ, 0 < r ∧ ∑ i ∈ s, f i = (r : EReal) := by
  refine ⟨∑ i ∈ s, (f i).toReal, Finset.sum_pos (fun i hi => ?_) hs, ?_⟩
  · obtain ⟨r, hr, e⟩ := h i hi; rw [e]; exact hr
  · rw [coe_sum]; exact Finset.sum_congr rfl fun i hi => by obtain ⟨r, _, e⟩ := h i hi; rw [e]; rfl

end Cert.RealClosure

end
-- ==== Proof.NormEq.lean ====
/-
  The reference's normalisation of a feature array is the kernel side's normalised array.

  The reference squares the array, sums over the channel axis from zero, takes the square root, the maximum with the
  guard constant, and divides: at `(b, c, h, w)` the entry over the larger of the channel norm at `(b, h, w)` and the guard.
  The kernel side does the same on the array with its two spatial axes flattened, `(h, w) ↦ h · 64 + w`; a flattening
  keeps the row-major position, so the two agree entry by entry.  Where the array is real so is the normalised one: the
  divisor is the maximum of a real square root and a positive constant.
-/
import proofs.«153362_j6846177869930_2_alg».proof.Proof.Final0
import proofs.«153362_j6846177869930_2_alg».proof.Proof.RefReadP
import proofs.«153362_j6846177869930_2_alg».proof.Proof.RealClosure
import Idealize.ShloMosaic.Lib.Pipeline.Value
import Idealize.ShloMosaic.Lib.ValueIdx
import Idealize.ShloMosaic.PureOps.Ideal.Laws

noncomputable section

namespace Cert.NormEq

open Idealize.ShloMosaic Idealize.ShloMosaic.ValueIdx
open Cert.KernelIdeal.Hand (normArr)
open Cert.RealClosure
open scoped BigOperators

/-- The array with its two spatial axes flattened, at `(b, c, h · 64 + w)`, is the array at `(b, c, h, w)`. -/
theorem flat_apply {α : Type} (x : Cert.KernelIdeal.S32x256x64x64.Idx → α)
    (hc : Cert.KernelIdeal.S32x256x64x64.ShapeCasts Cert.KernelIdeal.S32x256x4096)
    (b : Fin 32) (c : Fin 256) (h w : Fin 64) :
    shapeCast Cert.KernelIdeal.S32x256x4096 x hc (ix3 b c ⟨h.val * 64 + w.val, by omega⟩) = x (ix4 b c h w) :=
  shapeCast_apply x hc _ _ (by
    rw [Shape.rowMajor_val_four, Shape.rowMajor_val_three]
    show ((b.val * 256 + c.val) * 64 + h.val) * 64 + w.val = (b.val * 256 + c.val) * 4096 + (h.val * 64 + w.val)
    omega)

/-- The normalised array of a real array is real. -/
theorem normArr_real (a : Cert.KernelIdeal.S32x256x4096.Idx → EReal) (ha : ∀ i, Cert.RealClosure.IsReal (a i)) :
    ∀ i, Cert.RealClosure.IsReal (Cert.KernelIdeal.Hand.normArr a i) := by
  intro i
  have hs : IsReal (Ideal.sqrt (∑ k : Fin 256, a (ix3 (i 0) k (i 2)) * a (ix3 (i 0) k (i 2)))) := by
    obtain ⟨f, rfl⟩ := exists_real_fun ha
    exact ⟨_, sqrt_sum_mul_self Finset.univ (fun k => f (ix3 (i 0) k (i 2)))⟩
  exact isReal_div_of_pos (ha i) (isReal_max_eps_pos hs)

open Cert.ReferenceIdeal.ReadP in
/-- The reference's normalised first feature array is the kernel side's normalised array of the flattened one. -/
theorem ref_norm_src (x0 : (⟨Cert.ReferenceIdeal.S32x256x64x64, .f32⟩ : BufTy).Contents (Elt Ideal))
    (b : Fin 32) (c : Fin 256) (h w : Fin 64) :
    Cert.ReferenceIdeal.ReadP.val_main_v7 (F := Ideal) x0 (ix4 b c h w)
      = Cert.KernelIdeal.Hand.normArr
          (fun i => shapeCast Cert.KernelIdeal.S32x256x4096 x0
            Cert.KernelIdeal.Facts₀.shapeCasts_S32x256x64x64_S32x256x4096 i)
          (ix3 b c ⟨h.val * 64 + w.val, by omega⟩) := by
  have hidx : ∀ k : Fin 256, idx_main_v1 (idx_main_v2 (idx_main_v6 (ix4 b c h w))) k = ix4 b k h w := fun k =>
    funext fun a => match a with | ⟨0, _⟩ => rfl | ⟨1, _⟩ => rfl | ⟨2, _⟩ => rfl | ⟨3, _⟩ => rfl
  rw [val_main_v7_apply, val_main_v6_apply, val_main_v5_apply, val_main_v3_apply, val_main_v2_apply,
    val_main_v1_apply, val_main_v4_apply, val_main_cst_0_apply, val_main_cst_apply]
  simp only [val_main_v0_apply, hidx, Ideal.hostDivf_def, Ideal.hostUnary_sqrt_def, Ideal.maximumf_def, Ideal.mulf_def,
    Ideal.ofBits_def, Ideal.ofBits_zero_f32, zero_add]
  show _ = Ideal.div
      (shapeCast Cert.KernelIdeal.S32x256x4096 x0 Cert.KernelIdeal.Facts₀.shapeCasts_S32x256x64x64_S32x256x4096
        (ix3 b c ⟨h.val * 64 + w.val, by omega⟩))
      (max (Ideal.sqrt (∑ k : Fin 256,
          shapeCast Cert.KernelIdeal.S32x256x4096 x0 Cert.KernelIdeal.Facts₀.shapeCasts_S32x256x64x64_S32x256x4096
            (ix3 b k ⟨h.val * 64 + w.val, by omega⟩)
          * shapeCast Cert.KernelIdeal.S32x256x4096 x0 Cert.KernelIdeal.Facts₀.shapeCasts_S32x256x64x64_S32x256x4096
            (ix3 b k ⟨h.val * 64 + w.val, by omega⟩)))
        (Ideal.ofBits .f32 0x2B8CBCCC#32))
  simp only [flat_apply]

open Cert.ReferenceIdeal.ReadP in
/-- The same for the second feature array. -/
theorem ref_norm_trg (x1 : (⟨Cert.ReferenceIdeal.S32x256x64x64, .f32⟩ : BufTy).Contents (Elt Ideal))
    (b : Fin 32) (c : Fin 256) (h w : Fin 64) :
    Cert.ReferenceIdeal.ReadP.val_main_v15 (F := Ideal) x1 (ix4 b c h w)
      = Cert.KernelIdeal.Hand.normArr
          (fun i => shapeCast Cert.KernelIdeal.S32x256x4096 x1
            Cert.KernelIdeal.Facts₀.shapeCasts_S32x256x64x64_S32x256x4096 i)
          (ix3 b c ⟨h.val * 64 + w.val, by omega⟩) := by
  have hidx : ∀ k : Fin 256, idx_main_v9 (idx_main_v10 (idx_main_v14 (ix4 b c h w))) k = ix4 b k h w := fun k =>
    funext fun a => match a with | ⟨0, _⟩ => rfl | ⟨1, _⟩ => rfl | ⟨2, _⟩ => rfl | ⟨3, _⟩ => rfl
  rw [val_main_v15_apply, val_main_v14_apply, val_main_v13_apply, val_main_v11_apply, val_main_v10_apply,
    val_main_v9_apply, val_main_v12_apply, val_main_cst_2_apply, val_main_cst_1_apply]
  simp only [val_main_v8_apply, hidx, Ideal.hostDivf_def, Ideal.hostUnary_sqrt_def, Ideal.maximumf_def, Ideal.mulf_def,
    Ideal.ofBits_def, Ideal.ofBits_zero_f32, zero_add]
  show _ = Ideal.div
      (shapeCast Cert.KernelIdeal.S32x256x4096 x1 Cert.KernelIdeal.Facts₀.shapeCasts_S32x256x64x64_S32x256x4096
        (ix3 b c ⟨h.val * 64 + w.val, by omega⟩))
      (max (Ideal.sqrt (∑ k : Fin 256,
          shapeCast Cert.KernelIdeal.S32x256x4096 x1 Cert.KernelIdeal.Facts₀.shapeCasts_S32x256x64x64_S32x256x4096
            (ix3 b k ⟨h.val * 64 + w.val, by omega⟩)
          * shapeCast Cert.KernelIdeal.S32x256x4096 x1 Cert.KernelIdeal.Facts₀.shapeCasts_S32x256x64x64_S32x256x4096
            (ix3 b k ⟨h.val * 64 + w.val, by omega⟩)))
        (Ideal.ofBits .f32 0x2B8CBCCC#32))
  simp only [flat_apply]

end Cert.NormEq

end
-- ==== Proof.LibIndexRange.lean ====
/-
  Indices made from clipped coordinates. A coordinate is floored, clipped into [0, 63] and converted to a 32-bit signed
  integer: whatever the coordinate (finite or not), the result is an integer of [0, 63]. Its successor clipped again
  into [0, 63] stays there, and a row-major pair y * 64 + x of two such integers is a position of [0, 4095] that
  determines y and x.
-/
import Idealize.ShloMosaic.PureOps.Ideal

noncomputable section

namespace Cert.IndexRange

open Idealize.ShloMosaic

/-- A small nonnegative integer, as an extended real, converts back to itself. -/
theorem fptosi_intCast (k : ℤ) (hk0 : 0 ≤ k) (hk : k ≤ 63) : (Ideal.fptosi 32 (((k : ℝ)) : EReal)).toInt = k := by
  have hfl : (if (0 : ℝ) ≤ (k : ℝ) then ⌊(k : ℝ)⌋ else ⌈(k : ℝ)⌉) = k := by
    rw [if_pos (by exact_mod_cast hk0)]; exact Int.floor_intCast k
  rw [Ideal.fptosi, Ideal.toIntClamped_coe, hfl, BitVec.toInt_ofInt]
  have h1 : max (-((2 ^ (32 - 1) : ℕ) : ℤ)) (min (((2 ^ (32 - 1) : ℕ) : ℤ) - 1) k) = k := by
    norm_num; omega
  rw [h1]
  interval_cases k <;> decide

/-- Flooring and clipping into [0, 63] gives an integer of [0, 63], for every extended real. -/
theorem clip_floor_int (x : EReal) : ∃ k : ℤ, 0 ≤ k ∧ k ≤ 63 ∧
    min (((63 : ℝ)) : EReal) (max (((0 : ℝ)) : EReal) (Ideal.liftRound Int.floor x)) = (((k : ℝ)) : EReal) := by
  induction x using EReal.rec with
  | bot => exact ⟨0, le_refl _, by norm_num, by simp⟩
  | top => exact ⟨63, by norm_num, le_refl _, by simp⟩
  | coe r =>
    refine ⟨min 63 (max 0 ⌊r⌋), by omega, by omega, ?_⟩
    rw [Ideal.liftRound_coe]
    push_cast
    rfl

/-- THE CLIPPED INDEX: in [0, 63]. -/
theorem clipIdx_range (x : EReal) :
    0 ≤ (Ideal.fptosi 32 (min (((63 : ℝ)) : EReal) (max (((0 : ℝ)) : EReal) (Ideal.liftRound Int.floor x)))).toInt
    ∧ (Ideal.fptosi 32 (min (((63 : ℝ)) : EReal) (max (((0 : ℝ)) : EReal) (Ideal.liftRound Int.floor x)))).toInt ≤ 63 := by
  obtain ⟨k, h0, h1, hk⟩ := clip_floor_int x
  rw [hk, fptosi_intCast k h0 h1]
  exact ⟨h0, h1⟩

/-- The successor of an index of [0, 63], clipped into [0, 63] by signed maximum and minimum, is an index of [0, 63]. -/
theorem succ_clip_range (v : BitVec 32) (h0 : 0 ≤ v.toInt) (h1 : v.toInt ≤ 63) :
    0 ≤ (IntOp.minsi 63#32 (IntOp.maxsi 0#32 (IntOp.addi v 1#32))).toInt
    ∧ (IntOp.minsi 63#32 (IntOp.maxsi 0#32 (IntOp.addi v 1#32))).toInt ≤ 63 := by
  have hv : v.toNat ≤ 63 := by
    have := BitVec.toInt_eq_toNat_cond v
    split at this <;> omega
  have : v = BitVec.ofNat 32 v.toNat := by simp
  rw [this]
  generalize v.toNat = n at hv
  interval_cases n <;> decide

end Cert.IndexRange

end
-- ==== Proof.RefRanges.lean ====
/-
  The reference's integer coordinates of the source and target keypoints are cell coordinates of the 64 x 64 grid:
  each is a floored coordinate clipped into [0, 63] and converted, or such a coordinate plus one clipped again.
-/
import proofs.«153362_j6846177869930_2_alg».proof.Proof.RefReadP
import proofs.«153362_j6846177869930_2_alg».proof.Proof.LibIndexRange
import Idealize.ShloMosaic.Lib.ValueIdx

noncomputable section

namespace Cert.RefRanges

open Idealize.ShloMosaic Idealize.ShloMosaic.ValueIdx Cert.ReferenceIdeal.ReadP

theorem c63 : ((((63#32 : BitVec 32).toInt : ℝ)) : EReal) = (((63 : ℝ)) : EReal) := by
  rw [show (63#32 : BitVec 32).toInt = 63 from by decide]; norm_num
theorem c0 : ((((0#32 : BitVec 32).toInt : ℝ)) : EReal) = (((0 : ℝ)) : EReal) := by
  rw [show (0#32 : BitVec 32).toInt = 0 from by decide]; norm_num

/-- A floored, clipped and converted coordinate lies in [0, 63]. -/
theorem v30_range (x2 : (⟨Cert.ReferenceIdeal.S32x128x2, .f32⟩ : BufTy).Contents (Elt Ideal)) (i : Cert.ReferenceIdeal.S32x128.Idx) :
    0 ≤ (val_main_v30 (F := Ideal) x2 i).toInt ∧ (val_main_v30 (F := Ideal) x2 i).toInt ≤ 63 := by
  have e : val_main_v30 (F := Ideal) x2 i = Ideal.fptosi 32 (min (((63 : ℝ)) : EReal) (max (((0 : ℝ)) : EReal) (Ideal.liftRound Int.floor (val_main_v21 (F := Ideal) x2 i)))) := by
    show Ideal.fptosi 32 (min ((((63#32 : BitVec 32).toInt : ℝ)) : EReal) (max ((((0#32 : BitVec 32).toInt : ℝ)) : EReal) (Ideal.liftRound Int.floor (val_main_v21 (F := Ideal) x2 i)))) = _
    rw [c63, c0]
  rw [e]
  exact Cert.IndexRange.clipIdx_range _

/-- A floored, clipped and converted coordinate lies in [0, 63]. -/
theorem v33_range (x2 : (⟨Cert.ReferenceIdeal.S32x128x2, .f32⟩ : BufTy).Contents (Elt Ideal)) (i : Cert.ReferenceIdeal.S32x128.Idx) :
    0 ≤ (val_main_v33 (F := Ideal) x2 i).toInt ∧ (val_main_v33 (F := Ideal) x2 i).toInt ≤ 63 := by
  have e : val_main_v33 (F := Ideal) x2 i = Ideal.fptosi 32 (min (((63 : ℝ)) : EReal) (max (((0 : ℝ)) : EReal) (Ideal.liftRound Int.floor (val_main_v27 (F := Ideal) x2 i)))) := by
    show Ideal.fptosi 32 (min ((((63#32 : BitVec 32).toInt : ℝ)) : EReal) (max ((((0#32 : BitVec 32).toInt : ℝ)) : EReal) (Ideal.liftRound Int.floor (val_main_v27 (F := Ideal) x2 i)))) = _
    rw [c63, c0]
  rw [e]
  exact Cert.IndexRange.clipIdx_range _

/-- A floored, clipped and converted coordinate lies in [0, 63]. -/
theorem v172_range (x3 : (⟨Cert.ReferenceIdeal.S32x128x2, .f32⟩ : BufTy).Contents (Elt Ideal)) (i : Cert.ReferenceIdeal.S32x128.Idx) :
    0 ≤ (val_main_v172 (F := Ideal) x3 i).toInt ∧ (val_main_v172 (F := Ideal) x3 i).toInt ≤ 63 := by
  have e : val_main_v172 (F := Ideal) x3 i = Ideal.fptosi 32 (min (((63 : ℝ)) : EReal) (max (((0 : ℝ)) : EReal) (Ideal.liftRound Int.floor (val_main_v165 (F := Ideal) x3 i)))) := by
    show Ideal.fptosi 32 (min ((((63#32 : BitVec 32).toInt : ℝ)) : EReal) (max ((((0#32 : BitVec 32).toInt : ℝ)) : EReal) (Ideal.liftRound Int.floor (val_main_v165 (F := Ideal) x3 i)))) = _
    rw [c63, c0]
  rw [e]
  exact Cert.IndexRange.clipIdx_range _

/-- A floored, clipped and converted coordinate lies in [0, 63]. -/
theorem v178_range (x3 : (⟨Cert.ReferenceIdeal.S32x128x2, .f32⟩ : BufTy).Contents (Elt Ideal)) (i : Cert.ReferenceIdeal.S32x128.Idx) :
    0 ≤ (val_main_v178 (F := Ideal) x3 i).toInt ∧ (val_main_v178 (F := Ideal) x3 i).toInt ≤ 63 := by
  have e : val_main_v178 (F := Ideal) x3 i = Ideal.fptosi 32 (min (((63 : ℝ)) : EReal) (max (((0 : ℝ)) : EReal) (Ideal.liftRound Int.floor (val_main_v169 (F := Ideal) x3 i)))) := by
    show Ideal.fptosi 32 (min ((((63#32 : BitVec 32).toInt : ℝ)) : EReal) (max ((((0#32 : BitVec 32).toInt : ℝ)) : EReal) (Ideal.liftRound Int.floor (val_main_v169 (F := Ideal) x3 i)))) = _
    rw [c63, c0]
  rw [e]
  exact Cert.IndexRange.clipIdx_range _

/-- The next cell's coordinate, clipped again, lies in [0, 63]. -/
theorem v36_range (x2 : (⟨Cert.ReferenceIdeal.S32x128x2, .f32⟩ : BufTy).Contents (Elt Ideal)) (i : Cert.ReferenceIdeal.S32x128.Idx) :
    0 ≤ (val_main_v36 (F := Ideal) x2 i).toInt ∧ (val_main_v36 (F := Ideal) x2 i).toInt ≤ 63 := by
  show 0 ≤ (IntOp.minsi 63#32 (IntOp.maxsi 0#32 (IntOp.addi (val_main_v30 (F := Ideal) x2 i) 1#32))).toInt
    ∧ (IntOp.minsi 63#32 (IntOp.maxsi 0#32 (IntOp.addi (val_main_v30 (F := Ideal) x2 i) 1#32))).toInt ≤ 63
  exact Cert.IndexRange.succ_clip_range _ (v30_range x2 i).1 (v30_range x2 i).2

/-- The next cell's coordinate, clipped again, lies in [0, 63]. -/
theorem v39_range (x2 : (⟨Cert.ReferenceIdeal.S32x128x2, .f32⟩ : BufTy).Contents (Elt Ideal)) (i : Cert.ReferenceIdeal.S32x128.Idx) :
    0 ≤ (val_main_v39 (F := Ideal) x2 i).toInt ∧ (val_main_v39 (F := Ideal) x2 i).toInt ≤ 63 := by
  show 0 ≤ (IntOp.minsi 63#32 (IntOp.maxsi 0#32 (IntOp.addi (val_main_v33 (F := Ideal) x2 i) 1#32))).toInt
    ∧ (IntOp.minsi 63#32 (IntOp.maxsi 0#32 (IntOp.addi (val_main_v33 (F := Ideal) x2 i) 1#32))).toInt ≤ 63
  exact Cert.IndexRange.succ_clip_range _ (v33_range x2 i).1 (v33_range x2 i).2

/-- The next cell's coordinate, clipped again, lies in [0, 63]. -/
theorem v175_range (x3 : (⟨Cert.ReferenceIdeal.S32x128x2, .f32⟩ : BufTy).Contents (Elt Ideal)) (i : Cert.ReferenceIdeal.S32x128.Idx) :
    0 ≤ (val_main_v175 (F := Ideal) x3 i).toInt ∧ (val_main_v175 (F := Ideal) x3 i).toInt ≤ 63 := by
  show 0 ≤ (IntOp.minsi 63#32 (IntOp.maxsi 0#32 (IntOp.addi (val_main_v172 (F := Ideal) x3 i) 1#32))).toInt
    ∧ (IntOp.minsi 63#32 (IntOp.maxsi 0#32 (IntOp.addi (val_main_v172 (F := Ideal) x3 i) 1#32))).toInt ≤ 63
  exact Cert.IndexRange.succ_clip_range _ (v172_range x3 i).1 (v172_range x3 i).2

/-- The next cell's coordinate, clipped again, lies in [0, 63]. -/
theorem v181_range (x3 : (⟨Cert.ReferenceIdeal.S32x128x2, .f32⟩ : BufTy).Contents (Elt Ideal)) (i : Cert.ReferenceIdeal.S32x128.Idx) :
    0 ≤ (val_main_v181 (F := Ideal) x3 i).toInt ∧ (val_main_v181 (F := Ideal) x3 i).toInt ≤ 63 := by
  show 0 ≤ (IntOp.minsi 63#32 (IntOp.maxsi 0#32 (IntOp.addi (val_main_v178 (F := Ideal) x3 i) 1#32))).toInt
    ∧ (IntOp.minsi 63#32 (IntOp.maxsi 0#32 (IntOp.addi (val_main_v178 (F := Ideal) x3 i) 1#32))).toInt ≤ 63
  exact Cert.IndexRange.succ_clip_range _ (v178_range x3 i).1 (v178_range x3 i).2

end Cert.RefRanges

end
-- ==== Proof.RefReal.lean ====
/-
  Real-valuedness of the bilinear weights, and the algebra of a masked row.

  The source and target bilinear weights are products of differences of a real coordinate and an integer, so they are
  real whenever the keypoint arrays are.  A row's cross entropy against soft targets that all carry the row's 0/1 mask
  as a factor is unchanged by multiplying it by the mask once more.
-/
import proofs.«153362_j6846177869930_2_alg».proof.Proof.RefReadP
import proofs.«153362_j6846177869930_2_alg».proof.Proof.RealClosure
import proofs.«153362_j6846177869930_2_alg».proof.Proof.LossAlgebra

noncomputable section

namespace Cert.RefReal

open Cert.ReferenceIdeal Cert.ReferenceIdeal.Gen Cert.ReferenceIdeal.ReadP Idealize.ShloMosaic Idealize.ShloMosaic.ValueIdx
open Cert.RealClosure
open scoped BigOperators

/-- The keypoint arrays' type. -/
abbrev K3 := (⟨S32x128x2, .f32⟩ : BufTy).Contents (Elt Ideal)

/-! ## The literals -/

/-- The pattern `0x447FC000` denotes 1023. -/
theorem ofBits_1023 : Ideal.ofBits .f32 0x447FC000#32 = ((1023 : ℝ) : EReal) := by
  simp [Ideal.ofBits, Ideal.ieee, -EReal.coe_mul]
  norm_num

/-- The pattern `0x427C0000` denotes 63. -/
theorem ofBits_63 : Ideal.ofBits .f32 0x427C0000#32 = ((63 : ℝ) : EReal) := by
  simp [Ideal.ofBits, Ideal.ieee, -EReal.coe_mul]
  norm_num

/-- The pattern `0x41800000` denotes 16. -/
theorem ofBits_16 : Ideal.ofBits .f32 0x41800000#32 = ((16 : ℝ) : EReal) := by
  simp [Ideal.ofBits, Ideal.ieee, -EReal.coe_mul]
  norm_num

/-- An integer converted to a float is a real. -/
theorem isReal_sitofp (w : BitVec 32) : IsReal (FloatOps.sitofp (F := Ideal) .f32 w) := ⟨(w.toInt : ℝ), rfl⟩

/-! ## The source keypoints' pixel coordinates and bilinear weights -/

section Source
variable (x2 : K3) (hx2 : ∀ i, IsReal (x2 i))
include hx2

theorem real_v17 (i : S32x128.Idx) : IsReal (val_main_v17 (F := Ideal) x2 i) := by
  rw [val_main_v17_apply, val_main_v16_apply]; exact hx2 _

theorem real_v19 (i : S32x128.Idx) : IsReal (val_main_v19 (F := Ideal) x2 i) := by
  rw [val_main_v19_apply, val_main_v18_apply]
  exact isReal_div_of_pos (real_v17 x2 hx2 i) ⟨1023, by norm_num, ofBits_1023⟩

/-- The column pixel coordinate on the feature grid is real. -/
theorem real_v21 (i : S32x128.Idx) : IsReal (val_main_v21 (F := Ideal) x2 i) := by
  rw [val_main_v21_apply, val_main_v20_apply]
  exact IsReal.mul (real_v19 x2 hx2 i) ⟨63, ofBits_63⟩

theorem real_v23 (i : S32x128.Idx) : IsReal (val_main_v23 (F := Ideal) x2 i) := by
  rw [val_main_v23_apply, val_main_v22_apply]; exact hx2 _

theorem real_v25 (i : S32x128.Idx) : IsReal (val_main_v25 (F := Ideal) x2 i) := by
  rw [val_main_v25_apply, val_main_v24_apply]
  exact isReal_div_of_pos (real_v23 x2 hx2 i) ⟨1023, by norm_num, ofBits_1023⟩

/-- The row pixel coordinate on the feature grid is real. -/
theorem real_v27 (i : S32x128.Idx) : IsReal (val_main_v27 (F := Ideal) x2 i) := by
  rw [val_main_v27_apply, val_main_v26_apply]
  exact IsReal.mul (real_v25 x2 hx2 i) ⟨63, ofBits_63⟩

/-- The column fraction `fx` is real. -/
theorem real_v41 (i : S32x128.Idx) : IsReal (val_main_v41 (F := Ideal) x2 i) := by
  rw [val_main_v41_apply, val_main_v40_apply]
  exact IsReal.sub (real_v21 x2 hx2 i) (isReal_sitofp _)

/-- The row fraction `fy` is real. -/
theorem real_v43 (i : S32x128.Idx) : IsReal (val_main_v43 (F := Ideal) x2 i) := by
  rw [val_main_v43_apply, val_main_v42_apply]
  exact IsReal.sub (real_v27 x2 hx2 i) (isReal_sitofp _)

theorem real_v48 (i : S32x128.Idx) : IsReal (val_main_v48 (F := Ideal) x2 i) := by
  rw [val_main_v48_apply, val_main_v47_apply]
  exact IsReal.sub ⟨1, Cert.LossAlgebra.ofBits_one⟩ (real_v41 x2 hx2 i)

theorem real_v50 (i : S32x128.Idx) : IsReal (val_main_v50 (F := Ideal) x2 i) := by
  rw [val_main_v50_apply, val_main_v49_apply]
  exact IsReal.sub ⟨1, Cert.LossAlgebra.ofBits_one⟩ (real_v43 x2 hx2 i)

theorem real_v54 (i : S32x128.Idx) : IsReal (val_main_v54 (F := Ideal) x2 i) := by
  rw [val_main_v54_apply, val_main_v53_apply]
  exact IsReal.sub ⟨1, Cert.LossAlgebra.ofBits_one⟩ (real_v41 x2 hx2 i)

theorem real_v58 (i : S32x128.Idx) : IsReal (val_main_v58 (F := Ideal) x2 i) := by
  rw [val_main_v58_apply, val_main_v57_apply]
  exact IsReal.sub ⟨1, Cert.LossAlgebra.ofBits_one⟩ (real_v43 x2 hx2 i)

/-- The source weight `(1 − fx)(1 − fy)` is real. -/
theorem real_v51 (i : S32x128.Idx) : IsReal (val_main_v51 (F := Ideal) x2 i) := by
  rw [val_main_v51_apply]
  exact IsReal.mul (real_v48 x2 hx2 i) (real_v50 x2 hx2 i)

/-- The source weight `(1 − fx) fy` is real. -/
theorem real_v55 (i : S32x128.Idx) : IsReal (val_main_v55 (F := Ideal) x2 i) := by
  rw [val_main_v55_apply]
  exact IsReal.mul (real_v54 x2 hx2 i) (real_v43 x2 hx2 i)

/-- The source weight `fx (1 − fy)` is real. -/
theorem real_v59 (i : S32x128.Idx) : IsReal (val_main_v59 (F := Ideal) x2 i) := by
  rw [val_main_v59_apply]
  exact IsReal.mul (real_v41 x2 hx2 i) (real_v58 x2 hx2 i)

/-- The source weight `fx fy` is real. -/
theorem real_v61 (i : S32x128.Idx) : IsReal (val_main_v61 (F := Ideal) x2 i) := by
  rw [val_main_v61_apply]
  exact IsReal.mul (real_v41 x2 hx2 i) (real_v43 x2 hx2 i)

/-- **(P1)** The four source weights of every keypoint are real. -/
theorem source_weights_real (b : Fin 32) (n : Fin 128) :
    IsReal (val_main_v51 (F := Ideal) x2 (ix2 b n)) ∧ IsReal (val_main_v55 (F := Ideal) x2 (ix2 b n))
      ∧ IsReal (val_main_v59 (F := Ideal) x2 (ix2 b n)) ∧ IsReal (val_main_v61 (F := Ideal) x2 (ix2 b n)) :=
  ⟨real_v51 x2 hx2 _, real_v55 x2 hx2 _, real_v59 x2 hx2 _, real_v61 x2 hx2 _⟩

end Source

/-! ## The target keypoints' grid coordinates and bilinear weights -/

section Target
variable (x3 : K3) (hx3 : ∀ i, IsReal (x3 i))
include hx3

theorem real_v163 (i : S32x128.Idx) : IsReal (val_main_v163 (F := Ideal) x3 i) := by
  rw [val_main_v163_apply, val_main_v162_apply]; exact hx3 _

/-- The target keypoint's column coordinate on the feature grid is real. -/
theorem real_v165 (i : S32x128.Idx) : IsReal (val_main_v165 (F := Ideal) x3 i) := by
  rw [val_main_v165_apply, val_main_v164_apply]
  exact isReal_div_of_pos (real_v163 x3 hx3 i) ⟨16, by norm_num, ofBits_16⟩

theorem real_v167 (i : S32x128.Idx) : IsReal (val_main_v167 (F := Ideal) x3 i) := by
  rw [val_main_v167_apply, val_main_v166_apply]; exact hx3 _

/-- The target keypoint's row coordinate on the feature grid is real. -/
theorem real_v169 (i : S32x128.Idx) : IsReal (val_main_v169 (F := Ideal) x3 i) := by
  rw [val_main_v169_apply, val_main_v168_apply]
  exact isReal_div_of_pos (real_v167 x3 hx3 i) ⟨16, by norm_num, ofBits_16⟩

theorem real_v186 (i : S32x128.Idx) : IsReal (val_main_v186 (F := Ideal) x3 i) := by
  rw [val_main_v186_apply, val_main_v183_apply]
  exact IsReal.sub (isReal_sitofp _) (real_v165 x3 hx3 i)

theorem real_v187 (i : S32x128.Idx) : IsReal (val_main_v187 (F := Ideal) x3 i) := by
  rw [val_main_v187_apply, val_main_v185_apply]
  exact IsReal.sub (isReal_sitofp _) (real_v169 x3 hx3 i)

theorem real_v189 (i : S32x128.Idx) : IsReal (val_main_v189 (F := Ideal) x3 i) := by
  rw [val_main_v189_apply, val_main_v183_apply]
  exact IsReal.sub (isReal_sitofp _) (real_v165 x3 hx3 i)

theorem real_v190 (i : S32x128.Idx) : IsReal (val_main_v190 (F := Ideal) x3 i) := by
  rw [val_main_v190_apply, val_main_v184_apply]
  exact IsReal.sub (real_v169 x3 hx3 i) (isReal_sitofp _)

theorem real_v192 (i : S32x128.Idx) : IsReal (val_main_v192 (F := Ideal) x3 i) := by
  rw [val_main_v192_apply, val_main_v182_apply]
  exact IsReal.sub (real_v165 x3 hx3 i) (isReal_sitofp _)

theorem real_v193 (i : S32x128.Idx) : IsReal (val_main_v193 (F := Ideal) x3 i) := by
  rw [val_main_v193_apply, val_main_v185_apply]
  exact IsReal.sub (isReal_sitofp _) (real_v169 x3 hx3 i)

theorem real_v195 (i : S32x128.Idx) : IsReal (val_main_v195 (F := Ideal) x3 i) := by
  rw [val_main_v195_apply, val_main_v182_apply]
  exact IsReal.sub (real_v165 x3 hx3 i) (isReal_sitofp _)

theorem real_v196 (i : S32x128.Idx) : IsReal (val_main_v196 (F := Ideal) x3 i) := by
  rw [val_main_v196_apply, val_main_v184_apply]
  exact IsReal.sub (real_v169 x3 hx3 i) (isReal_sitofp _)

/-- The target weight `(x1 − gx)(y1 − gy)` is real. -/
theorem real_v188 (i : S32x128.Idx) : IsReal (val_main_v188 (F := Ideal) x3 i) := by
  rw [val_main_v188_apply]
  exact IsReal.mul (real_v186 x3 hx3 i) (real_v187 x3 hx3 i)

/-- The target weight `(x1 − gx)(gy − y0)` is real. -/
theorem real_v191 (i : S32x128.Idx) : IsReal (val_main_v191 (F := Ideal) x3 i) := by
  rw [val_main_v191_apply]
  exact IsReal.mul (real_v189 x3 hx3 i) (real_v190 x3 hx3 i)

/-- The target weight `(gx − x0)(y1 − gy)` is real. -/
theorem real_v194 (i : S32x128.Idx) : IsReal (val_main_v194 (F := Ideal) x3 i) := by
  rw [val_main_v194_apply]
  exact IsReal.mul (real_v192 x3 hx3 i) (real_v193 x3 hx3 i)

/-- The target weight `(gx − x0)(gy − y0)` is real. -/
theorem real_v197 (i : S32x128.Idx) : IsReal (val_main_v197 (F := Ideal) x3 i) := by
  rw [val_main_v197_apply]
  exact IsReal.mul (real_v195 x3 hx3 i) (real_v196 x3 hx3 i)

/-- **(P3)** The four target weights of every keypoint are real. -/
theorem target_weights_real (b : Fin 32) (n : Fin 128) :
    IsReal (val_main_v188 (F := Ideal) x3 (ix2 b n)) ∧ IsReal (val_main_v191 (F := Ideal) x3 (ix2 b n))
      ∧ IsReal (val_main_v194 (F := Ideal) x3 (ix2 b n)) ∧ IsReal (val_main_v197 (F := Ideal) x3 (ix2 b n)) :=
  ⟨real_v188 x3 hx3 _, real_v191 x3 hx3 _, real_v194 x3 hx3 _, real_v197 x3 hx3 _⟩

end Target

/-! ## A masked row's cross entropy -/

section MaskedRow

/-- **(P2)** When every soft target of a row carries the row's mask `m ∈ {0, 1}` as a factor, the row's cross entropy
    (from zero) is unchanged by multiplying it by the mask: where `m = 0` every target and hence the whole row is `0`,
    where `m = 1` the factor is `1`. -/
theorem masked_row {ι κ : Type*} [Fintype ι] [Fintype κ] (m : EReal) (hm : m = 0 ∨ m = 1) (t : κ → EReal)
    (cond : ι → κ → Prop) [∀ p k, Decidable (cond p k)] (lp : ι → EReal) :
    Ideal.ofBits .f32 0x00000000#32
        - ∑ p : ι, (Ideal.ofBits .f32 0x00000000#32 + ∑ k : κ, if cond p k then t k * m else 0) * lp p
      = (-(Ideal.ofBits .f32 0x00000000#32
          + ∑ p : ι, (Ideal.ofBits .f32 0x00000000#32 + ∑ k : κ, if cond p k then t k * m else 0) * lp p)) * m := by
  rw [Cert.LossAlgebra.ofBits_zero]
  rcases hm with rfl | rfl
  · simp
  · simp only [mul_one, zero_add, sub_eq_add_neg]

end MaskedRow

end Cert.RefReal

end
-- ==== Proof.BridgeRow.lean ====
/-
  One batch entry's loss on the two sides. The kernel multiplies a one-hot weight matrix into the normalised source
  features where the reference gathers the four neighbouring grid points and adds them with their weights; with real
  weights and real features the two are the same sum. The kernel's logits carry the named reciprocal of the
  temperature where the reference divides by it; the row maximum, the log-sum-exp and the soft targets (a sum of four
  one-hot rows on one side, four scattered weights on the other) are then the same functions of the same numbers, and
  the mask, already a factor of the target weights, may multiply the row's loss once more without changing it.
-/
import proofs.«153362_j6846177869930_2_alg».proof.Proof.Final1
import proofs.«153362_j6846177869930_2_alg».proof.Proof.RefValue
import proofs.«153362_j6846177869930_2_alg».proof.Proof.LossAlgebra
import proofs.«153362_j6846177869930_2_alg».proof.Proof.LibFlatIndex
import proofs.«153362_j6846177869930_2_alg».proof.Proof.NormEq
import proofs.«153362_j6846177869930_2_alg».proof.Proof.RealClosure
import proofs.«153362_j6846177869930_2_alg».proof.Proof.RefRanges
import proofs.«153362_j6846177869930_2_alg».proof.Proof.RefReal
import Idealize.ShloMosaic.PureOps.IdealRules

noncomputable section

namespace Cert.BridgeRow

open Idealize.ShloMosaic Idealize.ShloMosaic.ValueIdx
open Cert.KernelIdeal.Hand (batchLoss slab4 normArr)
open Cert.KernelIdeal.MainBlk (lossF logitF rowMaxF logProbF mix hot)
open Cert.RefValue (A4 K3 M2 Z NEG wrap cl63 gy gx pos tw Qf Lg Mx Lsm Tg)
open Cert.ReferenceIdeal.ReadP
open Cert.RealClosure (IsReal)
open scoped BigOperators

/-- The kernel's scale: the named reciprocal of the temperature. -/
abbrev kap : EReal := Named.named (F := Ideal) Cert.KernelIdeal.κ "inv_temp" (φ := .f32) 0x41200000#32

theorem kap_eq : kap = (((134217728 / 13421773 : ℝ)) : EReal) :=
  IdealRules.named_const.ideal_named_scalar _ _ _ _ rfl

/-- A feature argument with its two spatial axes flattened. -/
abbrev flat (x : A4) : Cert.KernelIdeal.S32x256x4096.Idx → EReal :=
  fun i => shapeCast Cert.KernelIdeal.S32x256x4096 x Cert.KernelIdeal.Facts₀.shapeCasts_S32x256x64x64_S32x256x4096 i

/-- The normalised flattened features at the flat position of a grid cell are the reference's normalised features at the cell. -/
theorem cell_eq (x0 : A4) (b : Fin 32) (c : Fin 256) (Y X jk : BitVec 32)
    (hY0 : 0 ≤ Y.toInt) (hY1 : Y.toInt ≤ 63) (hX0 : 0 ≤ X.toInt) (hX1 : X.toInt ≤ 63)
    (hjk : jk = IntOp.addi (IntOp.muli Y 64#32) X) (hlt : jk.toNat < 4096) :
    normArr (flat x0) (ix3 b c ⟨jk.toNat, hlt⟩)
      = val_main_v7 (F := Ideal) x0 (ix4 b c (cl63 (wrap 64#32 Y)) (cl63 (wrap 64#32 X))) := by
  refine (congrArg (normArr (flat x0)) (congrArg (ix3 b c) (Fin.ext ?_))).trans
    (Cert.NormEq.ref_norm_src x0 b c (cl63 (wrap 64#32 Y)) (cl63 (wrap 64#32 X))).symm
  show jk.toNat = (cl63 (wrap 64#32 Y)).val * 64 + (cl63 (wrap 64#32 X)).val
  rw [Cert.RefValue.cl63_wrap_val Y hY0 hY1, Cert.RefValue.cl63_wrap_val X hX0 hX1,
    Cert.FlatIndex.toInt_toNat_of_nonneg hY0, Cert.FlatIndex.toInt_toNat_of_nonneg hX0, hjk]
  exact Cert.FlatIndex.flat_toNat hY0 hY1 hX0 hX1

section Batch

variable (x0 x1 : A4) (x2 x3 : K3) (x4 : M2) (b : Fin 32)
  (I2 : Cert.KernelIdeal.S32x128x4.Idx → BitVec 32) (A3 : Cert.KernelIdeal.S32x128x4.Idx → EReal)
  (I4 : Cert.KernelIdeal.S32x128x4.Idx → BitVec 32) (A5 : Cert.KernelIdeal.S32x128x4.Idx → EReal)

/-- The four rows and columns of the source keypoint's cells, and its weights, as the reference's stages. -/
abbrev ys (x2 : K3) : Fin 4 → Cert.ReferenceIdeal.S32x128.Idx → BitVec 32 :=
  ![val_main_v33 (F := Ideal) x2, val_main_v39 (F := Ideal) x2, val_main_v33 (F := Ideal) x2, val_main_v39 (F := Ideal) x2]
abbrev xs (x2 : K3) : Fin 4 → Cert.ReferenceIdeal.S32x128.Idx → BitVec 32 :=
  ![val_main_v30 (F := Ideal) x2, val_main_v30 (F := Ideal) x2, val_main_v36 (F := Ideal) x2, val_main_v36 (F := Ideal) x2]
abbrev ws (x2 : K3) : Fin 4 → Cert.ReferenceIdeal.S32x128.Idx → EReal :=
  ![val_main_v51 (F := Ideal) x2, val_main_v55 (F := Ideal) x2, val_main_v59 (F := Ideal) x2, val_main_v61 (F := Ideal) x2]

theorem ys_range (k : Fin 4) (i : Cert.ReferenceIdeal.S32x128.Idx) : 0 ≤ (ys x2 k i).toInt ∧ (ys x2 k i).toInt ≤ 63 := by
  fin_cases k
  · exact Cert.RefRanges.v33_range x2 i
  · exact Cert.RefRanges.v39_range x2 i
  · exact Cert.RefRanges.v33_range x2 i
  · exact Cert.RefRanges.v39_range x2 i
theorem xs_range (k : Fin 4) (i : Cert.ReferenceIdeal.S32x128.Idx) : 0 ≤ (xs x2 k i).toInt ∧ (xs x2 k i).toInt ≤ 63 := by
  fin_cases k
  · exact Cert.RefRanges.v30_range x2 i
  · exact Cert.RefRanges.v30_range x2 i
  · exact Cert.RefRanges.v36_range x2 i
  · exact Cert.RefRanges.v36_range x2 i

variable (hI2 : ∀ (n : Fin 128) (k : Fin 4), I2 (ix3 b n k) = IntOp.addi (IntOp.muli (ys x2 k (ix2 b n)) 64#32) (xs x2 k (ix2 b n)))
  (hA3 : ∀ (n : Fin 128) (k : Fin 4), A3 (ix3 b n k) = ws x2 k (ix2 b n))
  (hI4 : ∀ (n : Fin 128) (k : Fin 4), I4 (ix3 b n k) = pos x3 b n k)
  (hA5 : ∀ (n : Fin 128) (k : Fin 4), A5 (ix3 b n k) = tw x3 b n k * val_main_v200 (F := Ideal) x4 (ix2 b n))
  (hx0 : ∀ i, IsReal (x0 i))
  (hw : ∀ (n : Fin 128) (k : Fin 4), IsReal (ws x2 k (ix2 b n)))

include hI2 in
theorem I2_lt (n : Fin 128) (k : Fin 4) : (I2 (ix3 b n k)).toNat < 4096 := by
  rw [hI2 n k]
  exact Cert.FlatIndex.flat_lt (ys_range x2 k _).1 (ys_range x2 k _).2 (xs_range x2 k _).1 (xs_range x2 k _).2

include hI2 hA3 hx0 hw in
/-- THE SAMPLED FEATURE: the one-hot row against the normalised source features is the reference's weighted gather. -/
theorem q_eq (n : Fin 128) (c : Fin 256) :
    ∑ p : Fin 4096, mix (slab4 I2 b) (slab4 A3 b) n p * normArr (flat x0) (ix3 b c p) = Qf x0 x2 b n c := by
  have hv : ∀ p : Fin 4096, ∃ r : ℝ, normArr (flat x0) (ix3 b c p) = (r : EReal) := fun p =>
    Cert.NormEq.normArr_real (flat x0) (fun i => by
      obtain ⟨b', c', p', rfl⟩ : ∃ (b' : Fin 32) (c' : Fin 256) (p' : Fin 4096), i = ix3 b' c' p' := ⟨i 0, i 1, i 2, eq_ix3 i⟩
      have hp : p'.val = (p'.val / 64) * 64 + p'.val % 64 := by omega
      have e := Cert.NormEq.flat_apply (α := EReal) x0 Cert.KernelIdeal.Facts₀.shapeCasts_S32x256x64x64_S32x256x4096 b' c' ⟨p'.val / 64, by have := p'.isLt; omega⟩ ⟨p'.val % 64, by omega⟩
      have e' : flat x0 (ix3 b' c' p') = x0 (ix4 b' c' ⟨p'.val / 64, by have := p'.isLt; omega⟩ ⟨p'.val % 64, by omega⟩) := by
        refine (congrArg (flat x0) (congrArg (ix3 b' c') (Fin.ext hp))).trans e
      rw [e']; exact hx0 _) _
  have hw' : ∀ k : Fin 4, ∃ r : ℝ, A3 (ix3 b n k) = (r : EReal) := fun k => by rw [hA3 n k]; exact hw n k
  have hj := I2_lt x2 b I2 hI2 n
  refine (Cert.LossAlgebra.onehot_row_dot (P := 4096) (by norm_num) (fun k => I2 (ix3 b n k)) hj (fun k => A3 (ix3 b n k))
    (fun p => normArr (flat x0) (ix3 b c p)) hw' hv).trans ?_
  unfold Qf
  have hc := fun k : Fin 4 => cell_eq x0 b c (ys x2 k (ix2 b n)) (xs x2 k (ix2 b n)) (I2 (ix3 b n k))
    (ys_range x2 k _).1 (ys_range x2 k _).2 (xs_range x2 k _).1 (xs_range x2 k _).2 (hI2 n k) (hj k)
  refine congrArg₂ (· + ·) (congrArg₂ (· + ·) (congrArg₂ (· + ·) ?_ ?_) ?_) ?_
  · exact congrArg₂ (· * ·) (hA3 n 0) (hc 0)
  · exact congrArg₂ (· * ·) (hA3 n 1) (hc 1)
  · exact congrArg₂ (· * ·) (hA3 n 2) (hc 2)
  · exact congrArg₂ (· * ·) (hA3 n 3) (hc 3)

/-- The kernel's query and target matrices of batch entry b. -/
abbrev qK : Fin 128 → Fin 256 → EReal := fun n c => ∑ p : Fin 4096, mix (slab4 I2 b) (slab4 A3 b) n p * normArr (flat x0) (ix3 b c p)
abbrev tgK : Fin 256 → Fin 4096 → EReal := fun c p => normArr (flat x1) (ix3 b c p)

/-- The normalised flattened target features at a flat position are the reference's at its grid cell. -/
theorem trg_eq (c : Fin 256) (p : Fin 4096) :
    normArr (flat x1) (ix3 b c p) = val_main_v15 (F := Ideal) x1 (ix4 b c (gy p) (gx p)) := by
  refine (congrArg (normArr (flat x1)) (congrArg (ix3 b c) (Fin.ext ?_))).trans (Cert.NormEq.ref_norm_trg x1 b c (gy p) (gx p)).symm
  show p.val = p.val / 64 * 64 + p.val % 64
  omega

include hI2 hA3 hx0 hw in
/-- THE LOGITS agree: multiplying by the named reciprocal is dividing by the temperature. -/
theorem logit_eq (n : Fin 128) (p : Fin 4096) :
    logitF (qK x0 b I2 A3) (tgK x1 b) kap n p = Lg x0 x1 x2 b n p := by
  unfold logitF Lg
  rw [kap_eq, Cert.LossAlgebra.scale_eq]
  refine congrArg₂ Ideal.div (Finset.sum_congr rfl fun c _ => ?_) rfl
  exact congrArg₂ (· * ·) (q_eq x0 x2 b I2 A3 hI2 hA3 hx0 hw n c) (trg_eq x1 b c p)

include hI2 hA3 hx0 hw in
/-- THE LOG-PROBABILITIES agree. -/
theorem lp_eq (n : Fin 128) (p : Fin 4096) :
    logProbF (qK x0 b I2 A3) (tgK x1 b) kap n p = Lsm x0 x1 x2 b n p := by
  have hL : (fun q => logitF (qK x0 b I2 A3) (tgK x1 b) kap n q) = fun q => Lg x0 x1 x2 b n q :=
    funext fun q => logit_eq x0 x1 x2 b I2 A3 hI2 hA3 hx0 hw n q
  have hM : rowMaxF (qK x0 b I2 A3) (tgK x1 b) kap n = Mx x0 x1 x2 b n := by
    unfold rowMaxF Mx
    rw [hL]
    exact (Cert.LossAlgebra.max_bot_fold _ _).symm
  unfold logProbF Lsm
  rw [hM, logit_eq x0 x1 x2 b I2 A3 hI2 hA3 hx0 hw n p]
  refine congrArg₂ (· - ·) rfl (congrArg Ideal.log ?_)
  rw [show (Z : EReal) = 0 from Cert.LossAlgebra.ofBits_zero, zero_add]
  exact Finset.sum_congr rfl fun q _ => by rw [logit_eq x0 x1 x2 b I2 A3 hI2 hA3 hx0 hw n q]

/-- The target's flat positions are positions of the grid. -/
theorem pos_lt (n : Fin 128) (k : Fin 4) : (pos x3 b n k).toNat < 4096 := by
  rw [Cert.RefValue.pos_read]
  fin_cases k
  · exact Cert.FlatIndex.flat_lt (Cert.RefRanges.v178_range x3 _).1 (Cert.RefRanges.v178_range x3 _).2 (Cert.RefRanges.v172_range x3 _).1 (Cert.RefRanges.v172_range x3 _).2
  · exact Cert.FlatIndex.flat_lt (Cert.RefRanges.v181_range x3 _).1 (Cert.RefRanges.v181_range x3 _).2 (Cert.RefRanges.v172_range x3 _).1 (Cert.RefRanges.v172_range x3 _).2
  · exact Cert.FlatIndex.flat_lt (Cert.RefRanges.v178_range x3 _).1 (Cert.RefRanges.v178_range x3 _).2 (Cert.RefRanges.v175_range x3 _).1 (Cert.RefRanges.v175_range x3 _).2
  · exact Cert.FlatIndex.flat_lt (Cert.RefRanges.v181_range x3 _).1 (Cert.RefRanges.v181_range x3 _).2 (Cert.RefRanges.v175_range x3 _).1 (Cert.RefRanges.v175_range x3 _).2

/-- A position word of the grid, wrapped around and read signed, is a given position iff it is that position. -/
theorem pos_cond (n : Fin 128) (k : Fin 4) (p : Fin 4096) :
    (wrap 4096#32 (pos x3 b n k)).toInt = (p.val : ℤ) ↔ (pos x3 b n k).toNat = p.val := by
  have hlt := pos_lt x3 b n k
  have h0 : 0 ≤ (pos x3 b n k).toInt := by
    have := BitVec.toInt_eq_toNat_cond (pos x3 b n k)
    split at this <;> omega
  rw [Cert.RefValue.wrap_of_nonneg 4096#32 _ h0, Cert.FlatIndex.toInt_eq_toNat_of_nonneg h0]
  exact Int.natCast_inj

include hI4 hA5 in
/-- THE SOFT TARGETS agree: four one-hot rows added up are the four scattered weights. -/
theorem soft_eq (n : Fin 128) (p : Fin 4096) :
    mix (slab4 I4 b) (slab4 A5 b) n p = Tg x3 x4 b n p := by
  refine (Cert.LossAlgebra.row_eq_filter_sum (P := 4096) (by norm_num) (fun k => I4 (ix3 b n k)) (fun k => A5 (ix3 b n k)) p).trans ?_
  unfold Tg
  refine congrArg₂ (· + ·) rfl ?_
  rw [Finset.sum_filter]
  refine Finset.sum_congr rfl fun k _ => ?_
  rw [hI4 n k, hA5 n k]
  exact if_congr (pos_cond x3 b n k p).symm rfl rfl

include hI2 hA3 hI4 hA5 hx0 hw in
/-- ONE KEYPOINT'S LOSS on the two sides. -/
theorem row_eq (n : Fin 128) :
    Z - ∑ p : Fin 4096, mix (slab4 I4 b) (slab4 A5 b) n p * logProbF (qK x0 b I2 A3) (tgK x1 b) kap n p
      = (-(Z + ∑ p : Fin 4096, Tg x3 x4 b n p * Lsm x0 x1 x2 b n p)) * val_main_v200 (F := Ideal) x4 (ix2 b n) := by
  have hs : (fun p : Fin 4096 => mix (slab4 I4 b) (slab4 A5 b) n p * logProbF (qK x0 b I2 A3) (tgK x1 b) kap n p)
      = fun p => Tg x3 x4 b n p * Lsm x0 x1 x2 b n p := funext fun p =>
    congrArg₂ (· * ·) (soft_eq x3 x4 b I4 A5 hI4 hA5 n p) (lp_eq x0 x1 x2 b I2 A3 hI2 hA3 hx0 hw n p)
  rw [hs]
  have hm : val_main_v200 (F := Ideal) x4 (ix2 b n) = 0 ∨ val_main_v200 (F := Ideal) x4 (ix2 b n) = 1 := by
    by_cases h : x4 (ix2 b n) = 0#32
    · exact Or.inl (Cert.RefValue.mask_zero x4 b n h)
    · exact Or.inr (Cert.RefValue.mask_one x4 b n h)
  have := Cert.RefReal.masked_row (ι := Fin 4096) (κ := Fin 4) (val_main_v200 (F := Ideal) x4 (ix2 b n)) hm (tw x3 b n)
    (fun p k => (wrap 4096#32 (pos x3 b n k)).toInt = (p.val : ℤ)) (Lsm x0 x1 x2 b n)
  unfold Tg
  exact this

include hI2 hA3 hI4 hA5 hx0 hw in
/-- ONE BATCH ENTRY'S LOSS on the two sides. -/
theorem batch_eq :
    batchLoss (normArr (flat x0)) (normArr (flat x1)) I2 A3 I4 A5 b
      = ∑ n : Fin 128, (-(Z + ∑ p : Fin 4096, Tg x3 x4 b n p * Lsm x0 x1 x2 b n p)) * val_main_v200 (F := Ideal) x4 (ix2 b n) := by
  unfold batchLoss lossF
  exact Finset.sum_congr rfl fun n _ => row_eq x0 x1 x2 x3 x4 b I2 A3 I4 A5 hI2 hA3 hI4 hA5 hx0 hw n

end Batch

end Cert.BridgeRow

end
-- ==== Proof.FiniteArgs.lean ====
/-
  From the certificate's precondition to "every entry of each float argument is a real number".

  The precondition is the conjunction of four tests `all (|x| < +∞)`, one per float argument.  An extended real whose
  absolute value `max x (-x)` lies strictly below `+∞` is neither `⊥` (its absolute value is `⊤`) nor `⊤`: it is
  the image of a real number.  A reduction by `and` over all axes that came out 1 met a 1 at every index.
-/
import proofs.«153362_j6846177869930_2_alg».proof.Defs
import proofs.«153362_j6846177869930_2_alg».proof.Proof.Gen.Pre_finite_inputs
import Idealize.ShloMosaic.Lib.ReduceAll
import Idealize.ShloMosaic.Lib.ValueIdx
import Idealize.ShloMosaic.PureOps.Ideal.Laws

noncomputable section

namespace Cert.FiniteArgs

open Idealize.ShloMosaic Idealize.SL.Sem

/-- The pattern `0x7F800000` denotes `+∞`. -/
theorem ofBits_inf : Ideal.ofBits .f32 0x7F800000#32 = (⊤ : EReal) := by
  simp [Ideal.ofBits, Ideal.ieee]

/-- An extended real whose absolute value is strictly below `+∞` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- The element test of the precondition, read back. -/
theorem real_of_cmp (x : EReal)
    (h : Ideal.cmp .olt (max x (-x)) (Ideal.ofBits .f32 0x7F800000#32) = 1#1) : ∃ r : ℝ, x = (r : EReal) := by
  rw [ofBits_inf] at h
  apply real_of_abs_lt_top
  by_contra hn
  simp [Ideal.cmp, hn] at h

instance : Subsingleton Cert.Pre_finite_inputs.S_.Idx := ⟨fun a b => funext fun d => d.elim0⟩

/-- One test `all (|x| < +∞)` that came out 1: every entry of the array is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant Cert.Pre_finite_inputs.S_ .f32 0x7F800000#32)))
          (constantI Cert.Pre_finite_inputs.S_ 1 1#1) hr hu j = 1#1) (i : s.Idx) :
    ∃ r : ℝ, x i = (r : EReal) :=
  real_of_cmp (x i) (Host.reduce_andi_all _ _ hr hu j e i)

/-- Under the precondition every entry of each of the four float arguments is a real number. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
      (∀ i, ∃ r : ℝ, m ((c.tc : Thread Cert.KernelIdeal.nD Cert.KernelIdeal.τ).loc Cert.KernelIdeal.main_arg0) i = (r : EReal))
    ∧ (∀ i, ∃ r : ℝ, m ((c.tc : Thread _ _).loc Cert.KernelIdeal.main_arg1) i = (r : EReal))
    ∧ (∀ i, ∃ r : ℝ, m ((c.tc : Thread _ _).loc Cert.KernelIdeal.main_arg2) i = (r : EReal))
    ∧ (∀ i, ∃ r : ℝ, m ((c.tc : Thread _ _).loc Cert.KernelIdeal.main_arg3) i = (r : EReal)) := by
  have h := congrFun (hpre c) ValueIdx.ix0
  dsimp only [Cert.Pre_finite_inputs.fn, Cert.Pre_finite_inputs.fn_part1] at h
  obtain ⟨h012, h3⟩ := IntOp.andi_eq_one.1 h
  obtain ⟨h01, h2⟩ := IntOp.andi_eq_one.1 h012
  obtain ⟨h0, h1⟩ := IntOp.andi_eq_one.1 h01
  exact ⟨real_of_all _ _ _ _ _ h0, real_of_all _ _ _ _ _ h1, real_of_all _ _ _ _ _ h2, real_of_all _ _ _ _ _ h3⟩

end Cert.FiniteArgs

end
-- ==== Proof.BridgeCore.lean ====
/-
  The value equation between the two programs over the extended reals: the reference's result, as the last stage of
  its operation-by-operation reading, against the kernel's last buffer contents at its result — the two batch sums of
  keypoint losses over the same denominator.
-/
import proofs.«153362_j6846177869930_2_alg».proof.Defs
import proofs.«153362_j6846177869930_2_alg».proof.Proof.Gen.Pre_finite_inputs
import proofs.«153362_j6846177869930_2_alg».proof.Proof.KernelHost
import proofs.«153362_j6846177869930_2_alg».proof.Proof.KernelArrays
import proofs.«153362_j6846177869930_2_alg».proof.Proof.AtomsA
import proofs.«153362_j6846177869930_2_alg».proof.Proof.AtomsB
import proofs.«153362_j6846177869930_2_alg».proof.Proof.AtomsC
import proofs.«153362_j6846177869930_2_alg».proof.Proof.AtomsD
import proofs.«153362_j6846177869930_2_alg».proof.Proof.AtomsE
import proofs.«153362_j6846177869930_2_alg».proof.Proof.BridgeRow
import proofs.«153362_j6846177869930_2_alg».proof.Proof.FiniteArgs
import proofs.«153362_j6846177869930_2_alg».proof.Proof.RefReal

set_option maxRecDepth 16384

noncomputable section

namespace Cert.Proof.Bridge

open Idealize.ShloMosaic Idealize.ShloMosaic.TcCoe Idealize.ShloMosaic.ValueIdx Idealize.SL.Sem
open Cert.KernelIdeal.Hand
open Cert.RefValue (Z Tg Lsm pos tw)
open Cert.BridgeRow (flat ys xs ws)
open Cert.ReferenceIdeal.ReadP
open scoped BigOperators

section

variable (m : (ℓ : Loc Cert.KernelIdeal.nD Cert.KernelIdeal.τ Cert.KernelIdeal.sig) → Buf (Elt Ideal) ℓ) (c : Dev Cert.KernelIdeal.nD)

/-- The kernel's argument arrays, as the reference's stages take them. -/
abbrev a0 : Cert.RefValue.A4 := m ((c.tc : Thread Cert.KernelIdeal.nD Cert.KernelIdeal.τ).loc Cert.KernelIdeal.main_arg0)
abbrev a1 : Cert.RefValue.A4 := m ((c.tc : Thread Cert.KernelIdeal.nD Cert.KernelIdeal.τ).loc Cert.KernelIdeal.main_arg1)
abbrev a2 : Cert.RefValue.K3 := m ((c.tc : Thread Cert.KernelIdeal.nD Cert.KernelIdeal.τ).loc Cert.KernelIdeal.main_arg2)
abbrev a3 : Cert.RefValue.K3 := m ((c.tc : Thread Cert.KernelIdeal.nD Cert.KernelIdeal.τ).loc Cert.KernelIdeal.main_arg3)
abbrev a4 : Cert.RefValue.M2 := m ((c.tc : Thread Cert.KernelIdeal.nD Cert.KernelIdeal.τ).loc Cert.KernelIdeal.main_arg4)

/-- The source index array of the second region: flat positions of the four cells, over the reference's coordinate stages. -/
theorem hI2 (b : Fin 32) (n : Fin 128) (k : Fin 4) :
    U19 m c Cert.KernelIdeal.main_v59 (ix3 b n k)
      = IntOp.addi (IntOp.muli (ys (a2 m c) k (ix2 b n)) 64#32) (xs (a2 m c) k (ix2 b n)) := by
  fin_cases k
  · exact (v59_apply0 m c b n).trans (by rw [atom_main_v20, atom_main_v17]; rfl)
  · exact (v59_apply1 m c b n).trans (by rw [atom_main_v26, atom_main_v17]; rfl)
  · exact (v59_apply2 m c b n).trans (by rw [atom_main_v20, atom_main_v23]; rfl)
  · exact (v59_apply3 m c b n).trans (by rw [atom_main_v26, atom_main_v23]; rfl)

theorem hA3 (b : Fin 32) (n : Fin 128) (k : Fin 4) :
    U19 m c Cert.KernelIdeal.main_v64 (ix3 b n k) = ws (a2 m c) k (ix2 b n) := by
  fin_cases k
  · exact (v64_apply0 m c b n).trans (by rw [atom_main_v35]; rfl)
  · exact (v64_apply1 m c b n).trans (by rw [atom_main_v38]; rfl)
  · exact (v64_apply2 m c b n).trans (by rw [atom_main_v41]; rfl)
  · exact (v64_apply3 m c b n).trans (by rw [atom_main_v42]; rfl)

theorem hI4 (b : Fin 32) (n : Fin 128) (k : Fin 4) :
    U19 m c Cert.KernelIdeal.main_v120 (ix3 b n k) = pos (a3 m c) b n k := by
  rw [Cert.RefValue.pos_read]
  fin_cases k
  · exact (v120_apply0 m c b n).trans (by rw [atom_main_v81, atom_main_v75]; rfl)
  · exact (v120_apply1 m c b n).trans (by rw [atom_main_v84, atom_main_v75]; rfl)
  · exact (v120_apply2 m c b n).trans (by rw [atom_main_v81, atom_main_v78]; rfl)
  · exact (v120_apply3 m c b n).trans (by rw [atom_main_v84, atom_main_v78]; rfl)

theorem hA5 (b : Fin 32) (n : Fin 128) (k : Fin 4) :
    U19 m c Cert.KernelIdeal.main_v128 (ix3 b n k) = tw (a3 m c) b n k * val_main_v200 (F := Ideal) (a4 m c) (ix2 b n) := by
  fin_cases k
  · exact (v128_apply0 m c b n).trans (by rw [atom_main_v91, atom_main_v103]; rfl)
  · exact (v128_apply1 m c b n).trans (by rw [atom_main_v94, atom_main_v103]; rfl)
  · exact (v128_apply2 m c b n).trans (by rw [atom_main_v97, atom_main_v103]; rfl)
  · exact (v128_apply3 m c b n).trans (by rw [atom_main_v100, atom_main_v103]; rfl)

/-- THE TWO PROGRAMS' VALUES AGREE (kernel's own memory on both sides). -/
theorem value_eq_same (hpre : Cert.Pre_KernelIdeal m) :
    val_main_v261 (F := Ideal) (a0 m c) (a1 m c) (a2 m c) (a3 m c) (a4 m c) ix0
      = W21 m c (Proc.devRef .tc Cert.KernelIdeal.main_v135) ix0 := by
  obtain ⟨h0, h1, h2, h3⟩ := Cert.FiniteArgs.real_of_pre m hpre c
  rw [Cert.RefValue.main, kernel_value]
  refine congrArg₂ Ideal.div (congrArg (Z + ·) (Finset.sum_congr rfl fun b _ => ?_)) ?_
  · have hw : ∀ (n : Fin 128) (k : Fin 4), Cert.RealClosure.IsReal (ws (a2 m c) k (ix2 b n)) := fun n k => by
      obtain ⟨w0, w1, w2, w3⟩ := Cert.RefReal.source_weights_real (a2 m c) h2 b n
      fin_cases k
      · exact w0
      · exact w1
      · exact w2
      · exact w3
    rw [U19_main_v2_0, U19_main_v2_1]
    exact (Cert.BridgeRow.batch_eq (a0 m c) (a1 m c) (a2 m c) (a3 m c) (a4 m c) b _ _ _ _
      (hI2 m c b) (hA3 m c b) (hI4 m c b) (hA5 m c b) h0 hw).symm
  · rw [atom_main_v103]
    rfl

end

end Cert.Proof.Bridge

end
-- ==== Proof.lean ====
/-
  The certificate of a keypoint-matching loss: the kernel L2-normalises the channels of two feature maps in a first
  grid of blocks, and in a second grid, per batch entry, samples the source features at the source keypoints by a
  matrix product with a matrix of bilinear weights (a sum of four one-hot rows per keypoint), multiplies by the target
  features, scales by the reciprocal of the temperature, takes a row-wise log-softmax and sums it against the bilinear
  soft targets; the host divides the sum over the batch by the number of unmasked keypoints. The reference gathers
  the four neighbours, forms the same logits by an einsum divided by the temperature, scatters the soft targets and
  takes the same masked mean.

  The kernel's scale is the constant 10 where the reference divides by the single-precision 0.1; read exactly, the
  reference's divisor is 13421773 / 2^27, so the kernel's constant is named 2^27 / 13421773, its exact reciprocal.

  The three frames: each kernel program is the chain of its twenty-one segments (two kernel regions among nineteen
  stretches of host operations); the reference is a line of host operations. The values: the first region leaves
  the channel-normalised feature arrays, the second the batch entries' losses, and the host tail their sum over the
  mask count; the reference's last stage is read down to the same atoms, and one batch entry's loss is the same
  number on both sides because the weights and the normalised features are real under the finite-input precondition.
-/
import proofs.«153362_j6846177869930_2_alg».proof.Defs
import proofs.«153362_j6846177869930_2_alg».proof.Proof.Gen.Kernel
import proofs.«153362_j6846177869930_2_alg».proof.Proof.Gen.KernelIdeal
import proofs.«153362_j6846177869930_2_alg».proof.Proof.Gen.ReferenceIdeal
import proofs.«153362_j6846177869930_2_alg».proof.Proof.Gen.Pre_finite_inputs
import proofs.«153362_j6846177869930_2_alg».proof.Proof.RunKernelB
import proofs.«153362_j6846177869930_2_alg».proof.Proof.RunKernelIdealB
import proofs.«153362_j6846177869930_2_alg».proof.Proof.RefRunLight
import proofs.«153362_j6846177869930_2_alg».proof.Proof.RefStagesD
import proofs.«153362_j6846177869930_2_alg».proof.Proof.BridgeCore
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs to the end and leaves its arguments as launched. -/
theorem frame_k : Cert.frame_Kernel := fun m ρ _ => Cert.Kernel.Hand.frame_all m ρ

/-- So does the kernel over the extended reals. -/
theorem frame_ki : Cert.frame_KernelIdeal := fun m ρ _ => Cert.KernelIdeal.Hand.frame_all m ρ

/-- The reference's frame is its run with the result dropped. -/
theorem frame_ri : Cert.frame_ReferenceIdeal := fun m ρ _ =>
  (θ_run Cert.ReferenceIdeal.defs _ _).mono (fun _ h c => (h c).2) (Cert.ReferenceIdeal.ValueL.run_light (F := Ideal) m ρ)

/-- The kernel's scale 10 is read as 2^27 / 13421773, the exact reciprocal of the reference's divisor. -/
theorem preserves : Cert.preserves_Kernel_KernelIdeal :=
  IdealRules.named_const.statement Cert.KernelIdeal.κ "inv_temp" .f32 0x41200000#32 ((134217728 / 13421773 : ℝ) : EReal) rfl

/-- Both programs, from memories that agree on the arguments, end with the same loss. -/
theorem algebraic : Cert.algebraic_KernelIdeal_ReferenceIdeal := by
  intro m ρ m' ρ' hpre hagree
  refine ⟨fun c => Cert.KernelIdeal.Hand.W21 (F := Ideal) m c (Proc.devRef .tc Cert.KernelIdeal.main_v135), ?_, ?_⟩
  · exact (θ_run Cert.KernelIdeal.defs _ _).mono (fun r h c =>
      ⟨h c _ (Cert.KernelIdeal.Hand.mem_uc Cert.KernelIdeal.main_v135 (by decide)),
       (h c _ (Cert.KernelIdeal.Hand.mem_uc Cert.KernelIdeal.main_arg0 (by decide))).trans (Cert.KernelIdeal.Hand.W21_main_arg0 m c),
       (h c _ (Cert.KernelIdeal.Hand.mem_uc Cert.KernelIdeal.main_arg1 (by decide))).trans (Cert.KernelIdeal.Hand.W21_main_arg1 m c),
       (h c _ (Cert.KernelIdeal.Hand.mem_uc Cert.KernelIdeal.main_arg2 (by decide))).trans (Cert.KernelIdeal.Hand.W21_main_arg2 m c),
       (h c _ (Cert.KernelIdeal.Hand.mem_uc Cert.KernelIdeal.main_arg3 (by decide))).trans (Cert.KernelIdeal.Hand.W21_main_arg3 m c),
       (h c _ (Cert.KernelIdeal.Hand.mem_uc Cert.KernelIdeal.main_arg4 (by decide))).trans (Cert.KernelIdeal.Hand.W21_main_arg4 m c)⟩)
      (Cert.KernelIdeal.Hand.run_all (F := Ideal) m ρ)
  · refine (θ_run Cert.ReferenceIdeal.defs _ _).mono (fun r h c => ⟨(h c).1.trans ?_, (h c).2⟩)
      (Cert.ReferenceIdeal.ValueL.run_light (F := Ideal) m' ρ')
    rw [Cert.ReferenceIdeal.ValueL.after_eq_val]
    show Cert.ReferenceIdeal.ReadP.val_main_v261 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) = _
    rw [(hagree c).1, (hagree c).2.1, (hagree c).2.2.1, (hagree c).2.2.2.1, (hagree c).2.2.2.2]
    funext i
    obtain rfl : i = ix0 := eq_ix0 i
    exact Cert.Proof.Bridge.value_eq_same m c hpre

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
